-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg12 : FVec F S512x256 .f32) (main_arg13 : FVec F S512x256 .f32) (main_arg14 : FVec F S256 .f32) (main_arg15 : FVec F S256 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg12
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S512x256 .f32 := Host.absf main_arg13
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_v63 main_v67

def fn_part2 {F : FTy → Type} [FloatOps F] (main_arg8 : FVec F S512x512 .f32) (main_arg9 : FVec F S512 .f32) (main_arg10 : FVec F S512 .f32) (main_arg11 : FVec F S512 .f32) (main_arg12 : FVec F S512x256 .f32) (main_arg13 : FVec F S512x256 .f32) (main_arg14 : FVec F S256 .f32) (main_arg15 : FVec F S256 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_v48 main_v49 main_v50

def fn_part1 {F : FTy → Type} [FloatOps F] (main_arg5 : FVec F S512 .f32) (main_arg6 : FVec F S512 .f32) (main_arg7 : FVec F S512x512 .f32) (main_arg8 : FVec F S512x512 .f32) (main_arg9 : FVec F S512 .f32) (main_arg10 : FVec F S512 .f32) (main_arg11 : FVec F S512 .f32) (main_arg12 : FVec F S512x256 .f32) (main_arg13 : FVec F S512x256 .f32) (main_arg14 : FVec F S256 .f32) (main_arg15 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x512 .f32) (main_arg1 : IVec S2x150000 32) (main_arg2 : FVec F S512x512 .f32) (main_arg3 : FVec F S512x512 .f32) (main_arg4 : FVec F S512 .f32) (main_arg5 : FVec F S512 .f32) (main_arg6 : FVec F S512 .f32) (main_arg7 : FVec F S512x512 .f32) (main_arg8 : FVec F S512x512 .f32) (main_arg9 : FVec F S512 .f32) (main_arg10 : FVec F S512 .f32) (main_arg11 : FVec F S512 .f32) (main_arg12 : FVec F S512x256 .f32) (main_arg13 : FVec F S512x256 .f32) (main_arg14 : FVec F S256 .f32) (main_arg15 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x150000 : Shape := ⟨2, ![1, 150000]⟩
abbrev S150000 : Shape := ⟨1, ![150000]⟩
abbrev S_ : Shape := ⟨0, ![]⟩
abbrev S50000 : Shape := ⟨1, ![50000]⟩
abbrev S150000x1 : Shape := ⟨2, ![150000, 1]⟩
abbrev S150000x512 : Shape := ⟨2, ![150000, 512]⟩
abbrev S1x512 : Shape := ⟨2, ![1, 512]⟩
abbrev S2x512 : Shape := ⟨2, ![2, 512]⟩
abbrev S2000x512 : Shape := ⟨2, ![2000, 512]⟩
abbrev S1x256 : Shape := ⟨2, ![1, 256]⟩
abbrev S50000x256 : Shape := ⟨2, ![50000, 256]⟩
abbrev S2x256 : Shape := ⟨2, ![2, 256]⟩
abbrev S2000x256 : Shape := ⟨2, ![2000, 256]⟩

abbrev nBuf : Space → Nat
  | .hbm => 185
  | .vmem => 48
  | .smem => 0
  | _ => 0

abbrev hbmTy0_0 (i : Nat) : BufTy := match i % 128 with
  | 0 => ⟨S50000x512, .f32⟩
  | 1 => ⟨S2x150000, .i32⟩
  | 2 => ⟨S512x512, .f32⟩
  | 3 => ⟨S512x512, .f32⟩
  | 4 => ⟨S512, .f32⟩
  | 5 => ⟨S512, .f32⟩
  | 6 => ⟨S512, .f32⟩
  | 7 => ⟨S512x512, .f32⟩
  | 8 => ⟨S512x512, .f32⟩
  | 9 => ⟨S512, .f32⟩
  | 10 => ⟨S512, .f32⟩
  | 11 => ⟨S512, .f32⟩
  | 12 => ⟨S512x256, .f32⟩
  | 13 => ⟨S512x256, .f32⟩
  | 14 => ⟨S256, .f32⟩
  | 15 => ⟨S256, .f32⟩
  | 16 => ⟨S1x150000, .i32⟩
  | 17 => ⟨S150000, .i32⟩
  | 18 => ⟨S1x150000, .i32⟩
  | 19 => ⟨S150000, .i32⟩
  | 20 => ⟨S1x150000, .i32⟩
  | 21 => ⟨S150000, .i32⟩
  | 22 => ⟨S1x150000, .i32⟩
  | 23 => ⟨S150000, .i32⟩
  | 24 => ⟨S_, .f32⟩
  | 25 => ⟨S150000, .f32⟩
  | 26 => ⟨S_, .f32⟩
  | 27 => ⟨S50000, .f32⟩
  | 28 => ⟨S150000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S150000, .i32⟩
  | 43 => ⟨S150000, .i1⟩
  | 44 => ⟨S_, .i32⟩
  | 45 => ⟨S150000, .i32⟩
  | 46 => ⟨S150000, .i32⟩
  | 47 => ⟨S150000, .i32⟩
  | 48 => ⟨S150000x1, .i32⟩
  | 49 => ⟨S150000, .f32⟩
  | 50 => ⟨S_, .i32⟩
  | 51 => ⟨S150000, .i32⟩
  | 52 => ⟨S150000, .i1⟩
  | 53 => ⟨S_, .i32⟩
  | 54 => ⟨S150000, .i32⟩
  | 55 => ⟨S150000, .i32⟩
  | 56 => ⟨S150000, .i32⟩
  | 57 => ⟨S150000x1, .i32⟩
  | 58 => ⟨S150000, .f32⟩
  | 59 => ⟨S150000, .f32⟩
  | 60 => ⟨S_, .i32⟩
  | 61 => ⟨S150000, .i32⟩
  | 62 => ⟨S150000, .i1⟩
  | 63 => ⟨S_, .i32⟩
  | 64 => ⟨S150000, .i32⟩
  | 65 => ⟨S150000, .i32⟩
  | 66 => ⟨S150000, .i32⟩
  | 67 => ⟨S150000x1, .i32⟩
  | 68 => ⟨S150000x512, .f32⟩
  | 69 => ⟨S150000x1, .f32⟩
  | 70 => ⟨S150000x512, .f32⟩
  | 71 => ⟨S150000x512, .f32⟩
  | 72 => ⟨S_, .f32⟩
  | 73 => ⟨S50000x512, .f32⟩
  | 74 => ⟨S150000x1, .i32⟩
  | 75 => ⟨S50000x512, .f32⟩
  | 76 => ⟨S1x512, .f32⟩
  | 77 => ⟨S50000x512, .f32⟩
  | 78 => ⟨S2x512, .f32⟩
  | 79 => ⟨S1x512, .f32⟩
  | 80 => ⟨S512, .f32⟩
  | 81 => ⟨S1x512, .f32⟩
  | 82 => ⟨S512, .f32⟩
  | 83 => ⟨S_, .f32⟩
  | 84 => ⟨S512, .f32⟩
  | 85 => ⟨S512, .f32⟩
  | 86 => ⟨S_, .f32⟩
  | 87 => ⟨S512, .f32⟩
  | 88 => ⟨S512, .f32⟩
  | 89 => ⟨S512, .f32⟩
  | 90 => ⟨S512, .f32⟩
  | 91 => ⟨S_, .f32⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S1x512, .f32⟩
  | 99 => ⟨S1x512, .f32⟩
  | 100 => ⟨S50000x512, .f32⟩
  | 101 => ⟨S_, .i32⟩
  | 102 => ⟨S150000, .i32⟩
  | 103 => ⟨S150000, .i1⟩
  | 104 => ⟨S_, .i32⟩
  | 105 => ⟨S150000, .i32⟩
  | 106 => ⟨S150000, .i32⟩
  | 107 => ⟨S150000, .i32⟩
  | 108 => ⟨S150000x1, .i32⟩
  | 109 => ⟨S150000x512, .f32⟩
  | 110 => ⟨S150000x1, .f32⟩
  | 111 => ⟨S150000x512, .f32⟩
  | 112 => ⟨S150000x512, .f32⟩
  | 113 => ⟨S_, .f32⟩
  | 114 => ⟨S50000x512, .f32⟩
  | 115 => ⟨S150000x1, .i32⟩
  | 116 => ⟨S50000x512, .f32⟩
  | 117 => ⟨S1x512, .f32⟩
  | 118 => ⟨S50000x512, .f32⟩
  | 119 => ⟨S2x512, .f32⟩
  | 120 => ⟨S1x512, .f32⟩
  | 121 => ⟨S512, .f32⟩
  | 122 => ⟨S1x512, .f32⟩
  | 123 => ⟨S512, .f32⟩
  | 124 => ⟨S_, .f32⟩
  | 125 => ⟨S512, .f32⟩
  | 126 => ⟨S512, .f32⟩
  | 127 => ⟨S_, .f32⟩
  | _ => ⟨S50000x512, .f32⟩

abbrev hbmTy0_1 (i : Nat) : BufTy := match i % 128 with
  | 0 => ⟨S512, .f32⟩
  | 1 => ⟨S512, .f32⟩
  | 2 => ⟨S512, .f32⟩
  | 3 => ⟨S512, .f32⟩
  | 4 => ⟨S_, .f32⟩
  | 5 => ⟨S512, .f32⟩
  | 6 => ⟨S512, .f32⟩
  | 7 => ⟨S512, .f32⟩
  | 8 => ⟨S512, .f32⟩
  | 9 => ⟨S512, .f32⟩
  | 10 => ⟨S512, .f32⟩
  | 11 => ⟨S1x512, .f32⟩
  | 12 => ⟨S1x512, .f32⟩
  | 13 => ⟨S50000x512, .f32⟩
  | 14 => ⟨S_, .f32⟩
  | 15 => ⟨S256, .f32⟩
  | 16 => ⟨S_, .i32⟩
  | 17 => ⟨S150000, .i32⟩
  | 18 => ⟨S150000, .i1⟩
  | 19 => ⟨S_, .i32⟩
  | 20 => ⟨S150000, .i32⟩
  | 21 => ⟨S150000, .i32⟩
  | 22 => ⟨S150000, .i32⟩
  | 23 => ⟨S150000x1, .i32⟩
  | 24 => ⟨S150000x512, .f32⟩
  | 25 => ⟨S150000x1, .f32⟩
  | 26 => ⟨S150000x512, .f32⟩
  | 27 => ⟨S150000x512, .f32⟩
  | 28 => ⟨S_, .f32⟩
  | 29 => ⟨S50000x512, .f32⟩
  | 30 => ⟨S150000x1, .i32⟩
  | 31 => ⟨S50000x512, .f32⟩
  | 32 => ⟨S1x256, .f32⟩
  | 33 => ⟨S50000x256, .f32⟩
  | 34 => ⟨S2x256, .f32⟩
  | 35 => ⟨S1x256, .f32⟩
  | 36 => ⟨S256, .f32⟩
  | 37 => ⟨S1x256, .f32⟩
  | 38 => ⟨S256, .f32⟩
  | 39 => ⟨S_, .f32⟩
  | 40 => ⟨S256, .f32⟩
  | 41 => ⟨S256, .f32⟩
  | 42 => ⟨S_, .f32⟩
  | 43 => ⟨S256, .f32⟩
  | 44 => ⟨S256, .f32⟩
  | 45 => ⟨S256, .f32⟩
  | 46 => ⟨S256, .f32⟩
  | 47 => ⟨S_, .f32⟩
  | 48 => ⟨S256, .f32⟩
  | 49 => ⟨S256, .f32⟩
  | 50 => ⟨S256, .f32⟩
  | 51 => ⟨S256, .f32⟩
  | 52 => ⟨S256, .f32⟩
  | 53 => ⟨S256, .f32⟩
  | 54 => ⟨S1x256, .f32⟩
  | 55 => ⟨S1x256, .f32⟩
  | 56 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S2000x512, .f32⟩
  | .local _ .vmem, ⟨8, _⟩ => ⟨S2000x512, .f32⟩
  | .local _ .vmem, ⟨9, _⟩ => ⟨S2x512, .f32⟩
  | .local _ .vmem, ⟨10, _⟩ => ⟨S2000x512, .f32⟩
  | .local _ .vmem, ⟨11, _⟩ => ⟨S2000x512, .f32⟩
  | .local _ .vmem, ⟨12, _⟩ => ⟨S1x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S512x512, .f32⟩
  | .local _ .vmem, ⟨21, _⟩ => ⟨S512x512, .f32⟩
  | .local _ .vmem, ⟨22, _⟩ => ⟨S1x512, .f32⟩
  | .local _ .vmem, ⟨23, _⟩ => ⟨S2000x512, .f32⟩
  | .local _ .vmem, ⟨24, _⟩ => ⟨S2000x512, .f32⟩
  | .local _ .vmem, ⟨25, _⟩ => ⟨S2x512, .f32⟩
  | .local _ .vmem, ⟨26, _⟩ => ⟨S2000x512, .f32⟩
  | .local _ .vmem, ⟨27, _⟩ => ⟨S2000x512, .f32⟩
  | .local _ .vmem, ⟨28, _⟩ => ⟨S1x512, .f32⟩
  | .local _ .vmem, ⟨29, _⟩ => ⟨S1x512, .f32⟩
  | .local _ .vmem, ⟨30, _⟩ => ⟨S2000x512, .f32⟩
  | .local _ .vmem, ⟨31, _⟩ => ⟨S2000x512, .f32⟩
  | .local _ .vmem, ⟨32, _⟩ => ⟨S2000x512, .f32⟩
  | .local _ .vmem, ⟨33, _⟩ => ⟨S2000x512, .f32⟩
  | .local _ .vmem, ⟨34, _⟩ => ⟨S2000x512, .f32⟩
  | .local _ .vmem, ⟨35, _⟩ => ⟨S2000x512, .f32⟩
  | .local _ .vmem, ⟨36, _⟩ => ⟨S512x256, .f32⟩
  | .local _ .vmem, ⟨37, _⟩ => ⟨S512x256, .f32⟩
  | .local _ .vmem, ⟨38, _⟩ => ⟨S1x256, .f32⟩
  | .local _ .vmem, ⟨39, _⟩ => ⟨S2000x256, .f32⟩
  | .local _ .vmem, ⟨40, _⟩ => ⟨S2000x256, .f32⟩
  | .local _ .vmem, ⟨41, _⟩ => ⟨S2x256, .f32⟩
  | .local _ .vmem, ⟨42, _⟩ => ⟨S2000x256, .f32⟩
  | .local _ .vmem, ⟨43, _⟩ => ⟨S2000x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47_0 : Ref sig .tc := ⟨.hbm, 77, rfl⟩
abbrev main_v47_1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_c_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81_0 : Ref sig .tc := ⟨.hbm, 118, rfl⟩
abbrev main_v81_1 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_19 : Ref sig .tc := ⟨.hbm, 142, rfl⟩
abbrev main_v101 : Ref sig .tc := ⟨.hbm, 143, rfl⟩
abbrev main_c_20 : Ref sig .tc := ⟨.hbm, 144, rfl⟩
abbrev main_v102 : Ref sig .tc := ⟨.hbm, 145, rfl⟩
abbrev main_v103 : Ref sig .tc := ⟨.hbm, 146, rfl⟩
abbrev main_c_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_22 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116_0 : Ref sig .tc := ⟨.hbm, 161, rfl⟩
abbrev main_v116_1 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_23 : Ref sig .tc := ⟨.hbm, 167, rfl⟩
abbrev main_v121 : Ref sig .tc := ⟨.hbm, 168, rfl⟩
abbrev main_v122 : Ref sig .tc := ⟨.hbm, 169, rfl⟩
abbrev main_cst_24 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_25 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc4_stg6_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40
abbrev cc4_sem6_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S2x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S_S50000 : S_.BroadcastsInDim S50000 (![] : Fin 0 → Fin S50000.rank)
  bcast_S150000_S150000x1_0 : S150000.BroadcastsInDim S150000x1 (![0] : Fin 1 → Fin S150000x1.rank)
  bcast_S150000x1_S150000x512_0_1 : S150000x1.BroadcastsInDim S150000x512 (![0, 1] : Fin 2 → Fin S150000x512.rank)
  bcast_S_S50000x512 : S_.BroadcastsInDim S50000x512 (![] : Fin 0 → Fin S50000x512.rank)
  shapeCasts_S512_S1x512 : S512.ShapeCasts S1x512
  inb_S2x512_S2x512_0_0 : ∀ a, (![0, 0] : Fin 2 → Nat) a + S2x512.size a ≤ S2x512.size a
  h_S2x512 : 0 < S2x512.numel
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2x512_S1x512_0_0 : ∀ a, (![0, 0] : Fin 2 → Nat) a + S1x512.size a ≤ S2x512.size a
  reduces_S2000x512_S512 : S2000x512.Reduces [0] S512
  inb_S2x512_S1x512_1_0 : ∀ a, (![1, 0] : Fin 2 → Nat) a + S1x512.size a ≤ S2x512.size a
  slices_S2x512_S1x512_0_0 : S2x512.Slices ![0, 0] S1x512
  shapeCasts_S1x512_S512 : S1x512.ShapeCasts S512
  slices_S2x512_S1x512_1_0 : S2x512.Slices ![1, 0] S1x512
  bcast_S_S512 : S_.BroadcastsInDim S512 (![] : Fin 0 → Fin S512.rank)
  bcast_S_S256 : S_.BroadcastsInDim S256 (![] : Fin 0 → Fin S256.rank)
  shapeCasts_S256_S1x256 : S256.ShapeCasts S1x256
  inb_S2x256_S2x256_0_0 : ∀ a, (![0, 0] : Fin 2 → Nat) a + S2x256.size a ≤ S2x256.size a
  h_S2x256 : 0 < S2x256.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S2x256_S1x256_0_0 : ∀ a, (![0, 0] : Fin 2 → Nat) a + S1x256.size a ≤ S2x256.size a
  reduces_S2000x256_S256 : S2000x256.Reduces [0] S256
  inb_S2x256_S1x256_1_0 : ∀ a, (![1, 0] : Fin 2 → Nat) a + S1x256.size a ≤ S2x256.size a
  slices_S2x256_S1x256_0_0 : S2x256.Slices ![0, 0] S1x256
  shapeCasts_S1x256_S256 : S1x256.ShapeCasts S256
  slices_S2x256_S1x256_1_0 : S2x256.Slices ![1, 0] S1x256
  shapeCasts_S2000x256_S2000x256 : S2000x256.ShapeCasts S2000x256
  scatter_S50000_S150000x1_S150000_n_0_0_1_wf : ScatterDims.WF S50000 S150000x1 S150000 [] [0] [0] 1
  gather_S50000_S150000x1_S150000_n_0_n_n_0_1_1_wf : GatherDims.WF S50000 S150000x1 S150000 [] [0] [] [0] [] 1 ![1]
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S50000x512.size a
  hwx0_1 : ∀ i : grid0.Coords, EltTy.bits .f32 = 32 ∨ (Rect.block (s := S50000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x512.size a ≤ S2x512.size a
  hwx0_6 : ∀ i : grid0.Coords, EltTy.bits .f32 = 32 ∨ (Rect.block (s := S2x512) S2x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .f32 = 32 ∨ (Rect.block (s := S50000x512) S2000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S50000x512.size a
  hwx2_1 : ∀ i : grid2.Coords, EltTy.bits .f32 = 32 ∨ (Rect.block (s := S50000x512) S2000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x512.size a ≤ S50000x512.size a
  hwx2_5 : ∀ i : grid2.Coords, EltTy.bits .f32 = 32 ∨ (Rect.block (s := S50000x512) S2000x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x512.size a ≤ S2x512.size a
  hwx2_6 : ∀ i : grid2.Coords, EltTy.bits .f32 = 32 ∨ (Rect.block (s := S2x512) S2x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x512.size a ≤ S50000x512.size a
  hwx3_3 : ∀ i : grid3.Coords, EltTy.bits .f32 = 32 ∨ (Rect.block (s := S50000x512) S2000x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x512.size a ≤ S50000x512.size a
  hwx4_1 : ∀ i : grid4.Coords, EltTy.bits .f32 = 32 ∨ (Rect.block (s := S50000x512) S2000x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x256.size a ≤ S512x256.size a
  hwx4_2 : ∀ i : grid4.Coords, EltTy.bits .f32 = 32 ∨ (Rect.block (s := S512x256) S512x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S512x256.size a
  hwx4_3 : ∀ i : grid4.Coords, EltTy.bits .f32 = 32 ∨ (Rect.block (s := S512x256) S512x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2x256.size a ≤ S2x256.size a
  hwx4_6 : ∀ i : grid4.Coords, EltTy.bits .f32 = 32 ∨ (Rect.block (s := S2x256) S2x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)

variable [Facts₀]

def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def gather_S50000_S150000x1_S150000_n_0_n_n_0_1_1 : GatherDims S50000 S150000x1 S150000 where
  offsetDims := []
  collapsedSliceDims := [0]
  operandBatchingDims := []
  startIndicesBatchingDims := []
  startIndexMap := [0]
  indexVectorDim := 1
  sliceSizes := ![1]
  wf := gather_S50000_S150000x1_S150000_n_0_n_n_0_1_1_wf
def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47_0) S2000x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v47_1) S2x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v47_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81_0) S2000x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v81_1) S2x512.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v81_0) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v99) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100) S2000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v100) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v114) S2000x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S512x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S512x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v115) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v116_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v116_1) S2x256.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v116_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v133) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v134) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v135) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x150000 : Shape := ⟨2, ![1, 150000]⟩
abbrev S150000 : Shape := ⟨1, ![150000]⟩
abbrev S_ : Shape := ⟨0, ![]⟩
abbrev S50000 : Shape := ⟨1, ![50000]⟩
abbrev S150000x1 : Shape := ⟨2, ![150000, 1]⟩
abbrev S150000x512 : Shape := ⟨2, ![150000, 512]⟩
abbrev S1x512 : Shape := ⟨2, ![1, 512]⟩
abbrev S50000x256 : Shape := ⟨2, ![50000, 256]⟩
abbrev S1x256 : Shape := ⟨2, ![1, 256]⟩

abbrev nBuf : Space → Nat
  | .hbm => 276
  | .vmem => 0
  | .smem => 0
  | _ => 0

abbrev hbmTy0_0 (i : Nat) : BufTy := match i % 128 with
  | 0 => ⟨S50000x512, .f32⟩
  | 1 => ⟨S2x150000, .i32⟩
  | 2 => ⟨S512x512, .f32⟩
  | 3 => ⟨S512x512, .f32⟩
  | 4 => ⟨S512, .f32⟩
  | 5 => ⟨S512, .f32⟩
  | 6 => ⟨S512, .f32⟩
  | 7 => ⟨S512x512, .f32⟩
  | 8 => ⟨S512x512, .f32⟩
  | 9 => ⟨S512, .f32⟩
  | 10 => ⟨S512, .f32⟩
  | 11 => ⟨S512, .f32⟩
  | 12 => ⟨S512x256, .f32⟩
  | 13 => ⟨S512x256, .f32⟩
  | 14 => ⟨S256, .f32⟩
  | 15 => ⟨S256, .f32⟩
  | 16 => ⟨S1x150000, .i32⟩
  | 17 => ⟨S150000, .i32⟩
  | 18 => ⟨S1x150000, .i32⟩
  | 19 => ⟨S150000, .i32⟩
  | 20 => ⟨S1x150000, .i32⟩
  | 21 => ⟨S150000, .i32⟩
  | 22 => ⟨S1x150000, .i32⟩
  | 23 => ⟨S150000, .i32⟩
  | 24 => ⟨S_, .f32⟩
  | 25 => ⟨S150000, .f32⟩
  | 26 => ⟨S_, .f32⟩
  | 27 => ⟨S50000, .f32⟩
  | 28 => ⟨S150000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S150000, .i32⟩
  | 43 => ⟨S150000, .i1⟩
  | 44 => ⟨S_, .i32⟩
  | 45 => ⟨S150000, .i32⟩
  | 46 => ⟨S150000, .i32⟩
  | 47 => ⟨S150000, .i32⟩
  | 48 => ⟨S150000x1, .i32⟩
  | 49 => ⟨S150000, .f32⟩
  | 50 => ⟨S_, .i32⟩
  | 51 => ⟨S150000, .i32⟩
  | 52 => ⟨S150000, .i1⟩
  | 53 => ⟨S_, .i32⟩
  | 54 => ⟨S150000, .i32⟩
  | 55 => ⟨S150000, .i32⟩
  | 56 => ⟨S150000, .i32⟩
  | 57 => ⟨S150000x1, .i32⟩
  | 58 => ⟨S150000, .f32⟩
  | 59 => ⟨S150000, .f32⟩
  | 60 => ⟨S_, .i32⟩
  | 61 => ⟨S150000, .i32⟩
  | 62 => ⟨S150000, .i1⟩
  | 63 => ⟨S_, .i32⟩
  | 64 => ⟨S150000, .i32⟩
  | 65 => ⟨S150000, .i32⟩
  | 66 => ⟨S150000, .i32⟩
  | 67 => ⟨S150000x1, .i32⟩
  | 68 => ⟨S150000x512, .f32⟩
  | 69 => ⟨S150000x1, .f32⟩
  | 70 => ⟨S150000x512, .f32⟩
  | 71 => ⟨S150000x512, .f32⟩
  | 72 => ⟨S_, .f32⟩
  | 73 => ⟨S50000x512, .f32⟩
  | 74 => ⟨S150000x1, .i32⟩
  | 75 => ⟨S50000x512, .f32⟩
  | 76 => ⟨S50000x512, .f32⟩
  | 77 => ⟨S50000x512, .f32⟩
  | 78 => ⟨S50000x512, .f32⟩
  | 79 => ⟨S1x512, .f32⟩
  | 80 => ⟨S50000x512, .f32⟩
  | 81 => ⟨S50000x512, .f32⟩
  | 82 => ⟨S_, .f32⟩
  | 83 => ⟨S512, .f32⟩
  | 84 => ⟨S_, .f32⟩
  | 85 => ⟨S512, .f32⟩
  | 86 => ⟨S512, .f32⟩
  | 87 => ⟨S_, .i32⟩
  | 88 => ⟨S_, .f32⟩
  | 89 => ⟨S512, .f32⟩
  | 90 => ⟨S1x512, .f32⟩
  | 91 => ⟨S_, .f32⟩
  | 92 => ⟨S1x512, .f32⟩
  | 93 => ⟨S1x512, .f32⟩
  | 94 => ⟨S50000x512, .f32⟩
  | 95 => ⟨S50000x512, .f32⟩
  | 96 => ⟨S50000x512, .f32⟩
  | 97 => ⟨S_, .f32⟩
  | 98 => ⟨S_, .f32⟩
  | 99 => ⟨S_, .f32⟩
  | 100 => ⟨S_, .f32⟩
  | 101 => ⟨S512, .f32⟩
  | 102 => ⟨S512, .f32⟩
  | 103 => ⟨S512, .f32⟩
  | 104 => ⟨S_, .f32⟩
  | 105 => ⟨S_, .i1⟩
  | 106 => ⟨S_, .f32⟩
  | 107 => ⟨S_, .f32⟩
  | 108 => ⟨S512, .f32⟩
  | 109 => ⟨S512, .f32⟩
  | 110 => ⟨S1x512, .f32⟩
  | 111 => ⟨S50000x512, .f32⟩
  | 112 => ⟨S50000x512, .f32⟩
  | 113 => ⟨S_, .f32⟩
  | 114 => ⟨S512, .f32⟩
  | 115 => ⟨S512, .f32⟩
  | 116 => ⟨S512, .f32⟩
  | 117 => ⟨S1x512, .f32⟩
  | 118 => ⟨S50000x512, .f32⟩
  | 119 => ⟨S50000x512, .f32⟩
  | 120 => ⟨S1x512, .f32⟩
  | 121 => ⟨S50000x512, .f32⟩
  | 122 => ⟨S50000x512, .f32⟩
  | 123 => ⟨S1x512, .f32⟩
  | 124 => ⟨S50000x512, .f32⟩
  | 125 => ⟨S50000x512, .f32⟩
  | 126 => ⟨S_, .f32⟩
  | 127 => ⟨S50000x512, .f32⟩
  | _ => ⟨S50000x512, .f32⟩

abbrev hbmTy0_1 (i : Nat) : BufTy := match i % 128 with
  | 0 => ⟨S50000x512, .i1⟩
  | 1 => ⟨S_, .f32⟩
  | 2 => ⟨S50000x512, .f32⟩
  | 3 => ⟨S50000x512, .f32⟩
  | 4 => ⟨S50000x512, .f32⟩
  | 5 => ⟨S_, .i32⟩
  | 6 => ⟨S150000, .i32⟩
  | 7 => ⟨S150000, .i1⟩
  | 8 => ⟨S_, .i32⟩
  | 9 => ⟨S150000, .i32⟩
  | 10 => ⟨S150000, .i32⟩
  | 11 => ⟨S150000, .i32⟩
  | 12 => ⟨S150000x1, .i32⟩
  | 13 => ⟨S150000x512, .f32⟩
  | 14 => ⟨S150000x1, .f32⟩
  | 15 => ⟨S150000x512, .f32⟩
  | 16 => ⟨S150000x512, .f32⟩
  | 17 => ⟨S_, .f32⟩
  | 18 => ⟨S50000x512, .f32⟩
  | 19 => ⟨S150000x1, .i32⟩
  | 20 => ⟨S50000x512, .f32⟩
  | 21 => ⟨S50000x512, .f32⟩
  | 22 => ⟨S50000x512, .f32⟩
  | 23 => ⟨S50000x512, .f32⟩
  | 24 => ⟨S1x512, .f32⟩
  | 25 => ⟨S50000x512, .f32⟩
  | 26 => ⟨S50000x512, .f32⟩
  | 27 => ⟨S_, .f32⟩
  | 28 => ⟨S512, .f32⟩
  | 29 => ⟨S_, .f32⟩
  | 30 => ⟨S512, .f32⟩
  | 31 => ⟨S512, .f32⟩
  | 32 => ⟨S_, .i32⟩
  | 33 => ⟨S_, .f32⟩
  | 34 => ⟨S512, .f32⟩
  | 35 => ⟨S1x512, .f32⟩
  | 36 => ⟨S_, .f32⟩
  | 37 => ⟨S1x512, .f32⟩
  | 38 => ⟨S1x512, .f32⟩
  | 39 => ⟨S50000x512, .f32⟩
  | 40 => ⟨S50000x512, .f32⟩
  | 41 => ⟨S50000x512, .f32⟩
  | 42 => ⟨S_, .f32⟩
  | 43 => ⟨S_, .f32⟩
  | 44 => ⟨S_, .f32⟩
  | 45 => ⟨S_, .f32⟩
  | 46 => ⟨S512, .f32⟩
  | 47 => ⟨S512, .f32⟩
  | 48 => ⟨S512, .f32⟩
  | 49 => ⟨S_, .f32⟩
  | 50 => ⟨S_, .i1⟩
  | 51 => ⟨S_, .f32⟩
  | 52 => ⟨S_, .f32⟩
  | 53 => ⟨S512, .f32⟩
  | 54 => ⟨S512, .f32⟩
  | 55 => ⟨S1x512, .f32⟩
  | 56 => ⟨S50000x512, .f32⟩
  | 57 => ⟨S50000x512, .f32⟩
  | 58 => ⟨S_, .f32⟩
  | 59 => ⟨S512, .f32⟩
  | 60 => ⟨S512, .f32⟩
  | 61 => ⟨S512, .f32⟩
  | 62 => ⟨S1x512, .f32⟩
  | 63 => ⟨S50000x512, .f32⟩
  | 64 => ⟨S50000x512, .f32⟩
  | 65 => ⟨S1x512, .f32⟩
  | 66 => ⟨S50000x512, .f32⟩
  | 67 => ⟨S50000x512, .f32⟩
  | 68 => ⟨S1x512, .f32⟩
  | 69 => ⟨S50000x512, .f32⟩
  | 70 => ⟨S50000x512, .f32⟩
  | 71 => ⟨S_, .f32⟩
  | 72 => ⟨S50000x512, .f32⟩
  | 73 => ⟨S50000x512, .i1⟩
  | 74 => ⟨S_, .f32⟩
  | 75 => ⟨S50000x512, .f32⟩
  | 76 => ⟨S50000x512, .f32⟩
  | 77 => ⟨S50000x512, .f32⟩
  | 78 => ⟨S_, .i32⟩
  | 79 => ⟨S150000, .i32⟩
  | 80 => ⟨S150000, .i1⟩
  | 81 => ⟨S_, .i32⟩
  | 82 => ⟨S150000, .i32⟩
  | 83 => ⟨S150000, .i32⟩
  | 84 => ⟨S150000, .i32⟩
  | 85 => ⟨S150000x1, .i32⟩
  | 86 => ⟨S150000x512, .f32⟩
  | 87 => ⟨S150000x1, .f32⟩
  | 88 => ⟨S150000x512, .f32⟩
  | 89 => ⟨S150000x512, .f32⟩
  | 90 => ⟨S_, .f32⟩
  | 91 => ⟨S50000x512, .f32⟩
  | 92 => ⟨S150000x1, .i32⟩
  | 93 => ⟨S50000x512, .f32⟩
  | 94 => ⟨S50000x256, .f32⟩
  | 95 => ⟨S50000x256, .f32⟩
  | 96 => ⟨S50000x256, .f32⟩
  | 97 => ⟨S_, .f32⟩
  | 98 => ⟨S256, .f32⟩
  | 99 => ⟨S_, .f32⟩
  | 100 => ⟨S256, .f32⟩
  | 101 => ⟨S256, .f32⟩
  | 102 => ⟨S_, .i32⟩
  | 103 => ⟨S_, .f32⟩
  | 104 => ⟨S256, .f32⟩
  | 105 => ⟨S1x256, .f32⟩
  | 106 => ⟨S_, .f32⟩
  | 107 => ⟨S1x256, .f32⟩
  | 108 => ⟨S1x256, .f32⟩
  | 109 => ⟨S50000x256, .f32⟩
  | 110 => ⟨S50000x256, .f32⟩
  | 111 => ⟨S50000x256, .f32⟩
  | 112 => ⟨S_, .f32⟩
  | 113 => ⟨S_, .f32⟩
  | 114 => ⟨S_, .f32⟩
  | 115 => ⟨S_, .f32⟩
  | 116 => ⟨S256, .f32⟩
  | 117 => ⟨S256, .f32⟩
  | 118 => ⟨S256, .f32⟩
  | 119 => ⟨S_, .f32⟩
  | 120 => ⟨S_, .i1⟩
  | 121 => ⟨S_, .f32⟩
  | 122 => ⟨S_, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x512, .f32⟩

abbrev hbmTy0_2 (i : Nat) : BufTy := match i % 128 with
  | 0 => ⟨S_, .f32⟩
  | 1 => ⟨S256, .f32⟩
  | 2 => ⟨S256, .f32⟩
  | 3 => ⟨S256, .f32⟩
  | 4 => ⟨S1x256, .f32⟩
  | 5 => ⟨S50000x256, .f32⟩
  | 6 => ⟨S50000x256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .i1⟩
  | 16 => ⟨S_, .f32⟩
  | 17 => ⟨S50000x256, .f32⟩
  | 18 => ⟨S50000x256, .f32⟩
  | 19 => ⟨S50000x256, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_c_12 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_cst_3 : Ref sig .tc := ⟨.hbm, 104, rfl⟩
abbrev main_call1_v12 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_13 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_14 : Ref sig .tc := ⟨.hbm, 126, rfl⟩
abbrev main_v71 : Ref sig .tc := ⟨.hbm, 127, rfl⟩
abbrev main_v72 : Ref sig .tc := ⟨.hbm, 128, rfl⟩
abbrev main_cst_15 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_16 : Ref sig .tc := ⟨.hbm, 133, rfl⟩
abbrev main_v76 : Ref sig .tc := ⟨.hbm, 134, rfl⟩
abbrev main_v77 : Ref sig .tc := ⟨.hbm, 135, rfl⟩
abbrev main_c_17 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_18 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_cst_19 : Ref sig .tc := ⟨.hbm, 155, rfl⟩
abbrev main_v95 : Ref sig .tc := ⟨.hbm, 156, rfl⟩
abbrev main_cst_20 : Ref sig .tc := ⟨.hbm, 157, rfl⟩
abbrev main_v96 : Ref sig .tc := ⟨.hbm, 158, rfl⟩
abbrev main_v97 : Ref sig .tc := ⟨.hbm, 159, rfl⟩
abbrev main_c_21 : Ref sig .tc := ⟨.hbm, 160, rfl⟩
abbrev main_call3_cst : Ref sig .tc := ⟨.hbm, 161, rfl⟩
abbrev main_call3_v0 : Ref sig .tc := ⟨.hbm, 162, rfl⟩
abbrev main_call3_v1 : Ref sig .tc := ⟨.hbm, 163, rfl⟩
abbrev main_call3_cst_0 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_v7 : Ref sig .tc := ⟨.hbm, 170, rfl⟩
abbrev main_call3_cst_1 : Ref sig .tc := ⟨.hbm, 171, rfl⟩
abbrev main_call3_v8 : Ref sig .tc := ⟨.hbm, 172, rfl⟩
abbrev main_call3_cst_2 : Ref sig .tc := ⟨.hbm, 173, rfl⟩
abbrev main_call3_v9 : Ref sig .tc := ⟨.hbm, 174, rfl⟩
abbrev main_call3_v10 : Ref sig .tc := ⟨.hbm, 175, rfl⟩
abbrev main_call3_v11 : Ref sig .tc := ⟨.hbm, 176, rfl⟩
abbrev main_call3_cst_3 : Ref sig .tc := ⟨.hbm, 177, rfl⟩
abbrev main_call3_v12 : Ref sig .tc := ⟨.hbm, 178, rfl⟩
abbrev main_call3_cst_4 : Ref sig .tc := ⟨.hbm, 179, rfl⟩
abbrev main_call3_call0_v0 : Ref sig .tc := ⟨.hbm, 180, rfl⟩
abbrev main_call3_call0_v1 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_cst_22 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_cst_23 : Ref sig .tc := ⟨.hbm, 199, rfl⟩
abbrev main_v114 : Ref sig .tc := ⟨.hbm, 200, rfl⟩
abbrev main_v115 : Ref sig .tc := ⟨.hbm, 201, rfl⟩
abbrev main_cst_24 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_c_25 : Ref sig .tc := ⟨.hbm, 206, rfl⟩
abbrev main_v119 : Ref sig .tc := ⟨.hbm, 207, rfl⟩
abbrev main_v120 : Ref sig .tc := ⟨.hbm, 208, rfl⟩
abbrev main_c_26 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_cst_27 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_cst_28 : Ref sig .tc := ⟨.hbm, 225, rfl⟩
abbrev main_v135 : Ref sig .tc := ⟨.hbm, 226, rfl⟩
abbrev main_cst_29 : Ref sig .tc := ⟨.hbm, 227, rfl⟩
abbrev main_v136 : Ref sig .tc := ⟨.hbm, 228, rfl⟩
abbrev main_v137 : Ref sig .tc := ⟨.hbm, 229, rfl⟩
abbrev main_c_30 : Ref sig .tc := ⟨.hbm, 230, rfl⟩
abbrev main_call5_cst : Ref sig .tc := ⟨.hbm, 231, rfl⟩
abbrev main_call5_v0 : Ref sig .tc := ⟨.hbm, 232, rfl⟩
abbrev main_call5_v1 : Ref sig .tc := ⟨.hbm, 233, rfl⟩
abbrev main_call5_cst_0 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_call5_v5 : Ref sig .tc := ⟨.hbm, 238, rfl⟩
abbrev main_call5_v6 : Ref sig .tc := ⟨.hbm, 239, rfl⟩
abbrev main_call5_v7 : Ref sig .tc := ⟨.hbm, 240, rfl⟩
abbrev main_call5_cst_1 : Ref sig .tc := ⟨.hbm, 241, rfl⟩
abbrev main_call5_v8 : Ref sig .tc := ⟨.hbm, 242, rfl⟩
abbrev main_call5_cst_2 : Ref sig .tc := ⟨.hbm, 243, rfl⟩
abbrev main_call5_v9 : Ref sig .tc := ⟨.hbm, 244, rfl⟩
abbrev main_call5_v10 : Ref sig .tc := ⟨.hbm, 245, rfl⟩
abbrev main_call5_v11 : Ref sig .tc := ⟨.hbm, 246, rfl⟩
abbrev main_call5_cst_3 : Ref sig .tc := ⟨.hbm, 247, rfl⟩
abbrev main_call5_v12 : Ref sig .tc := ⟨.hbm, 248, rfl⟩
abbrev main_call5_cst_4 : Ref sig .tc := ⟨.hbm, 249, rfl⟩
abbrev main_call5_call0_v0 : Ref sig .tc := ⟨.hbm, 250, rfl⟩
abbrev main_call5_call0_v1 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_cst_31 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_cst_32 : Ref sig .tc := ⟨.hbm, 269, rfl⟩
abbrev main_v154 : Ref sig .tc := ⟨.hbm, 270, rfl⟩
abbrev main_v155 : Ref sig .tc := ⟨.hbm, 271, rfl⟩
abbrev main_cst_33 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S_S50000 : S_.BroadcastsInDim S50000 (![] : Fin 0 → Fin S50000.rank)
  bcast_S150000_S150000x1_0 : S150000.BroadcastsInDim S150000x1 (![0] : Fin 1 → Fin S150000x1.rank)
  bcast_S150000x1_S150000x512_0_1 : S150000x1.BroadcastsInDim S150000x512 (![0, 1] : Fin 2 → Fin S150000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  scatter_S50000_S150000x1_S150000_n_0_0_1_wf : ScatterDims.WF S50000 S150000x1 S150000 [] [0] [0] 1
  gather_S50000_S150000x1_S150000_n_0_n_n_0_1_1_wf : GatherDims.WF S50000 S150000x1 S150000 [] [0] [] [0] [] 1 ![1]
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S50000x512_S512x512_S50000x512_1_0_0_1_n_n_wf : DotDims.WF S50000x512 S512x512 S50000x512 [1] [0] [0] [1] [] []
  dot_S50000x512_S512x256_S50000x256_1_0_0_1_n_n_wf : DotDims.WF S50000x512 S512x256 S50000x256 [1] [0] [0] [1] [] []

variable [Facts₀]

def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def gather_S50000_S150000x1_S150000_n_0_n_n_0_1_1 : GatherDims S50000 S150000x1 S150000 where
  offsetDims := []
  collapsedSliceDims := [0]
  operandBatchingDims := []
  startIndicesBatchingDims := []
  startIndexMap := [0]
  indexVectorDim := 1
  sliceSizes := ![1]
  wf := gather_S50000_S150000x1_S150000_n_0_n_n_0_1_1_wf
def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.KRun.lean ====
/-
  The idealized kernel program's run with its result named.

  @main is fourteen segments: host stretches and six kernel launches (three layers, each a linear-and-statistics
  launch followed by a normalise-and-activate launch). The buffer contents at each segment boundary are a fold from
  the launch memory (`Gen.W0` … `Gen.W14`): a host stretch applies its operations, a launch replaces its arrays by
  what its write-backs leave. Every weakly fair execution terminates, nothing faulting, with every unscoped buffer at
  the last boundary's contents; so the result buffer ends at `Gen.W14` read at it, and each argument as launched.
-/
import proofs.«142385_j6322191859752_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v135) = W14 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v135 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c)⟩)

end Cert.KernelIdeal.KRun

end
-- ==== Proof.LibTailOps.lean ====
import Idealize.ShloMosaic.Lib.Pipeline.FrameSuffix

/-!
# Straight lines of host operations that each write one buffer of their own

A stretch of host operations in which every operation allocates nothing and writes exactly one buffer, and that
buffer lies in a class `P` of references (for instance "declared at position eleven or later"), leaves every
reference outside `P` as it found it. The per-operation fact is stated so that it is closed by `rfl` and
`decide` on a literal operation, and a whole literal list by walking its cons cells once; what follows from it is
proved once, for any list and any length.
-/

namespace Cert.LibTailOps

open Idealize.ShloMosaic Idealize.ShloMosaic.StableHlo Idealize.ShloMosaic.TcCoe

variable {τ : Topo} {sig : RefSig} {Val : EltTy → Type}

/-- The operation allocates nothing and writes exactly one buffer, a TensorCore reference of class `P`. -/
def WritesOne (P : Ref sig .tc → Prop) (op : HloOp τ sig Val) : Prop :=
  op.fresh = ∅ ∧ ∃ y : Ref sig .tc, P y ∧ op.writes = {Proc.devRef .tc y}

/-- Such an operation writes no reference outside the class. -/
theorem WritesOne.not_mem {P : Ref sig .tc → Prop} {op : HloOp τ sig Val} (h : WritesOne P op)
    {r : Ref sig .tc} (hr : ¬ P r) : Proc.devRef (τ := τ) .tc r ∉ op.writes := by
  obtain ⟨-, y, hy, hw⟩ := h
  rw [hw, Finset.mem_singleton]
  intro e
  exact hr (Proc.devRef_injective _ e ▸ hy)

/-- A reference outside the class keeps its contents through a line of such operations. -/
theorem after_keeps {P : Ref sig .tc → Prop} (ops : List (HloOp τ sig Val)) (V : Valuation τ sig Val)
    (h : ops.Forall (WritesOne P)) {r : Ref sig .tc} (hr : ¬ P r) :
    after ops V (Proc.devRef .tc r) = V (Proc.devRef .tc r) :=
  after_of_forall_not_mem ops V fun op hop => ((List.forall_iff_forall_mem.mp h) op hop).not_mem hr

/-- Several lines, one after the other: every operation of every line has the property. -/
theorem forall_flatten {P : Ref sig .tc → Prop} :
    ∀ (opss : List (List (HloOp τ sig Val))), (opss.Forall fun ops => ops.Forall (WritesOne P)) →
      opss.flatten.Forall (WritesOne P) := by
  intro opss h
  rw [List.forall_iff_forall_mem] at h ⊢
  intro op hop
  obtain ⟨ops, hops, hop'⟩ := List.mem_flatten.mp hop
  exact (List.forall_iff_forall_mem.mp (h ops hops)) op hop'

/-- None of them allocates. -/
theorem fresh_of {P : Ref sig .tc → Prop} (opss : List (List (HloOp τ sig Val)))
    (h : opss.Forall fun ops => ops.Forall (WritesOne P)) :
    ∀ ops ∈ opss, ∀ op ∈ ops, op.fresh = ∅ := fun ops hops op hop =>
  ((List.forall_iff_forall_mem.mp ((List.forall_iff_forall_mem.mp h) ops hops)) op hop).1

/-- None of them writes a reference outside the class. -/
theorem keeps_of {P : Ref sig .tc → Prop} (opss : List (List (HloOp τ sig Val)))
    (h : opss.Forall fun ops => ops.Forall (WritesOne P)) {r : Ref sig .tc} (hr : ¬ P r) :
    ∀ ops ∈ opss, ∀ op ∈ ops, Proc.devRef (τ := τ) .tc r ∉ op.writes := fun ops hops op hop =>
  ((List.forall_iff_forall_mem.mp ((List.forall_iff_forall_mem.mp h) ops hops)) op hop).not_mem hr

/-- Walks a literal list of operations once, closing each operation's `WritesOne` by `rfl` (what it writes, what it
    allocates) and `decide` (the written reference's class). -/
macro "writes_one_each" : tactic =>
  `(tactic| repeat (first
      | exact ⟨rfl, _, by decide, rfl⟩
      | refine And.intro ⟨rfl, _, by decide, rfl⟩ ?_
      | exact True.intro))

end Cert.LibTailOps
-- ==== Proof.RefOps.lean ====
/-
  The reference program's host operations as lists: @main flattened, each outlined function's body written
  at its call over that call's buffers, in program order; and what every stretch of them writes and touches.
-/
import proofs.«142385_j6322191859752_1_alg».proof.Proof.Gen.ReferenceIdeal
import Idealize.ShloMosaic.Lib.StableHlo.Run
import proofs.«142385_j6322191859752_1_alg».proof.Proof.LibTailOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.LibTailOps

variable {F : FTy → Type} [FloatOps F]

/-! ## The operations, in seven consecutive stretches

@main is four definitions run in order. The stretches are cut where a graph layer begins and where one of those four
ends, so that each layer, and each of the four, is an append of whole stretches. Every tensor value has a buffer of its own, declared in program order: the
sixteen arguments at positions 0 … 15, then one buffer per operation, so the operation at place `i` of the
flattened program writes the buffer at position `16 + i`. -/

/-- The edge endpoints read off the index array (twice: once for the layers, once for the degree count) and the symmetric normalisation: the in-degree by a scatter-add of ones, its inverse square root where positive, gathered at both endpoints and multiplied. -/
abbrev s0 : List (HloOp τ sig (Elt F)) :=
  [ StableHlo.unary main_arg1 main_v0 ((extractStridedSlice S1x150000 ![0, 0] · slices_S2x150000_S1x150000_0_0) : (⟨S2x150000, .i32⟩ : BufTy).Contents (Elt F) → (⟨S1x150000, .i32⟩ : BufTy).Contents (Elt F)),
    StableHlo.reshape main_v0 main_v1 rfl shapeCasts_S1x150000_S150000,
    StableHlo.unary main_arg1 main_v2 ((extractStridedSlice S1x150000 ![1, 0] · slices_S2x150000_S1x150000_1_0) : (⟨S2x150000, .i32⟩ : BufTy).Contents (Elt F) → (⟨S1x150000, .i32⟩ : BufTy).Contents (Elt F)),
    StableHlo.reshape main_v2 main_v3 rfl shapeCasts_S1x150000_S150000,
    StableHlo.unary main_arg1 main_v4 ((extractStridedSlice S1x150000 ![0, 0] · slices_S2x150000_S1x150000_0_0) : (⟨S2x150000, .i32⟩ : BufTy).Contents (Elt F) → (⟨S1x150000, .i32⟩ : BufTy).Contents (Elt F)),
    StableHlo.reshape main_v4 main_v5 rfl shapeCasts_S1x150000_S150000,
    StableHlo.unary main_arg1 main_v6 ((extractStridedSlice S1x150000 ![1, 0] · slices_S2x150000_S1x150000_1_0) : (⟨S2x150000, .i32⟩ : BufTy).Contents (Elt F) → (⟨S1x150000, .i32⟩ : BufTy).Contents (Elt F)),
    StableHlo.reshape main_v6 main_v7 rfl shapeCasts_S1x150000_S150000,
    StableHlo.nullary main_cst (constant S_ .f32 0x3F800000#32),
    StableHlo.unary main_cst main_v8 (broadcastInDim S150000 ![] bcast_S_S150000 : (⟨S_, .f32⟩ : BufTy).Contents (Elt F) → (⟨S150000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S150000x1 ![0] bcast_S150000_S150000x1_0 : (⟨S150000, .i32⟩ : BufTy).Contents (Elt F) → (⟨S150000x1, .i32⟩ : BufTy).Contents (Elt F)),
    StableHlo.ternary main_v9 main_v10 main_v8 main_v11 ((fun x i u => Host.scatterAdd scatter_S50000_S150000x1_S150000_n_0_0_1 x i u) : (⟨S50000, .f32⟩ : BufTy).Contents (Elt F) → (⟨S150000x1, .i32⟩ : BufTy).Contents (Elt F) → (⟨S150000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v11 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v13 : StableHlo.TRef sig ⟨S50000, .i1⟩) (.of main_v16 : StableHlo.TRef sig ⟨S50000, .f32⟩) main_call0.v1 main_call0.v2 select,
    StableHlo.nullary main_c (constantI S_ 32 0#32),
    StableHlo.unary main_c main_v18 (broadcastInDim S150000 ![] bcast_S_S150000 : (⟨S_, .i32⟩ : BufTy).Contents (Elt F) → (⟨S150000, .i32⟩ : BufTy).Contents (Elt F)),
    StableHlo.binary main_v5 main_v18 main_v19 (cmpi .slt : (⟨S150000, .i32⟩ : BufTy).Contents (Elt F) → (⟨S150000, .i32⟩ : BufTy).Contents (Elt F) → (⟨S150000, .i1⟩ : BufTy).Contents (Elt F)),
    StableHlo.nullary main_c_4 (constantI S_ 32 50000#32),
    StableHlo.unary main_c_4 main_v20 (broadcastInDim S150000 ![] bcast_S_S150000 : (⟨S_, .i32⟩ : BufTy).Contents (Elt F) → (⟨S150000, .i32⟩ : BufTy).Contents (Elt F)),
    StableHlo.binary main_v5 main_v20 main_v21 (addi : (⟨S150000, .i32⟩ : BufTy).Contents (Elt F) → (⟨S150000, .i32⟩ : BufTy).Contents (Elt F) → (⟨S150000, .i32⟩ : BufTy).Contents (Elt F)),
    StableHlo.ternary main_v19 main_v21 main_v5 main_v22 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v22 main_v23 (broadcastInDim S150000x1 ![0] bcast_S150000_S150000x1_0 : (⟨S150000, .i32⟩ : BufTy).Contents (Elt F) → (⟨S150000x1, .i32⟩ : BufTy).Contents (Elt F)),
    StableHlo.binary main_v17 main_v23 main_v24 ((fun x i => Host.gather gather_S50000_S150000x1_S150000_n_0_n_n_0_1_1 x i) : (⟨S50000, .f32⟩ : BufTy).Contents (Elt F) → (⟨S150000x1, .i32⟩ : BufTy).Contents (Elt F) → (⟨S150000, .f32⟩ : BufTy).Contents (Elt F)),
    StableHlo.nullary main_c_5 (constantI S_ 32 0#32),
    StableHlo.unary main_c_5 main_v25 (broadcastInDim S150000 ![] bcast_S_S150000 : (⟨S_, .i32⟩ : BufTy).Contents (Elt F) → (⟨S150000, .i32⟩ : BufTy).Contents (Elt F)),
    StableHlo.binary main_v7 main_v25 main_v26 (cmpi .slt : (⟨S150000, .i32⟩ : BufTy).Contents (Elt F) → (⟨S150000, .i32⟩ : BufTy).Contents (Elt F) → (⟨S150000, .i1⟩ : BufTy).Contents (Elt F)),
    StableHlo.nullary main_c_6 (constantI S_ 32 50000#32),
    StableHlo.unary main_c_6 main_v27 (broadcastInDim S150000 ![] bcast_S_S150000 : (⟨S_, .i32⟩ : BufTy).Contents (Elt F) → (⟨S150000, .i32⟩ : BufTy).Contents (Elt F)),
    StableHlo.binary main_v7 main_v27 main_v28 (addi : (⟨S150000, .i32⟩ : BufTy).Contents (Elt F) → (⟨S150000, .i32⟩ : BufTy).Contents (Elt F) → (⟨S150000, .i32⟩ : BufTy).Contents (Elt F)),
    StableHlo.ternary main_v26 main_v28 main_v7 main_v29 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v29 main_v30 (broadcastInDim S150000x1 ![0] bcast_S150000_S150000x1_0 : (⟨S150000, .i32⟩ : BufTy).Contents (Elt F) → (⟨S150000x1, .i32⟩ : BufTy).Contents (Elt F)),
    StableHlo.binary main_v17 main_v30 main_v31 ((fun x i => Host.gather gather_S50000_S150000x1_S150000_n_0_n_n_0_1_1 x i) : (⟨S50000, .f32⟩ : BufTy).Contents (Elt F) → (⟨S150000x1, .i32⟩ : BufTy).Contents (Elt F) → (⟨S150000, .f32⟩ : BufTy).Contents (Elt F)),
    StableHlo.binary main_v24 main_v31 main_v32 (mulf : (⟨S150000, .f32⟩ : BufTy).Contents (Elt F) → (⟨S150000, .f32⟩ : BufTy).Contents (Elt F) → (⟨S150000, .f32⟩ : BufTy).Contents (Elt F)) ]

/-- Layer 0, first stretch: the source rows gathered, scaled by the normalisation, scatter-added at the targets, and the two matrix products. -/
abbrev s1 : List (HloOp τ sig (Elt F)) :=
  [ StableHlo.nullary main_c_7 (constantI S_ 32 0#32),
    StableHlo.unary main_c_7 main_v33 (broadcastInDim S150000 ![] bcast_S_S150000 : (⟨S_, .i32⟩ : BufTy).Contents (Elt F) → (⟨S150000, .i32⟩ : BufTy).Contents (Elt F)),
    StableHlo.binary main_v1 main_v33 main_v34 (cmpi .slt : (⟨S150000, .i32⟩ : BufTy).Contents (Elt F) → (⟨S150000, .i32⟩ : BufTy).Contents (Elt F) → (⟨S150000, .i1⟩ : BufTy).Contents (Elt F)),
    StableHlo.nullary main_c_8 (constantI S_ 32 50000#32),
    StableHlo.unary main_c_8 main_v35 (broadcastInDim S150000 ![] bcast_S_S150000 : (⟨S_, .i32⟩ : BufTy).Contents (Elt F) → (⟨S150000, .i32⟩ : BufTy).Contents (Elt F)),
    StableHlo.binary main_v1 main_v35 main_v36 (addi : (⟨S150000, .i32⟩ : BufTy).Contents (Elt F) → (⟨S150000, .i32⟩ : BufTy).Contents (Elt F) → (⟨S150000, .i32⟩ : BufTy).Contents (Elt F)),
    StableHlo.ternary main_v34 main_v36 main_v1 main_v37 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v37 main_v38 (broadcastInDim S150000x1 ![0] bcast_S150000_S150000x1_0 : (⟨S150000, .i32⟩ : BufTy).Contents (Elt F) → (⟨S150000x1, .i32⟩ : BufTy).Contents (Elt F)),
    StableHlo.binary main_arg0 main_v38 main_v39 ((fun x i => Host.gather gather_S50000x512_S150000x1_S150000x512_1_0_n_n_0_1_1512 x i) : (⟨S50000x512, .f32⟩ : BufTy).Contents (Elt F) → (⟨S150000x1, .i32⟩ : BufTy).Contents (Elt F) → (⟨S150000x512, .f32⟩ : BufTy).Contents (Elt F)),
    StableHlo.unary main_v32 main_v40 (broadcastInDim S150000x1 ![0] bcast_S150000_S150000x1_0 : (⟨S150000, .f32⟩ : BufTy).Contents (Elt F) → (⟨S150000x1, .f32⟩ : BufTy).Contents (Elt F)),
    StableHlo.unary main_v40 main_v41 (broadcastInDim S150000x512 ![0, 1] bcast_S150000x1_S150000x512_0_1 : (⟨S150000x1, .f32⟩ : BufTy).Contents (Elt F) → (⟨S150000x512, .f32⟩ : BufTy).Contents (Elt F)),
    StableHlo.binary main_v39 main_v41 main_v42 (mulf : (⟨S150000x512, .f32⟩ : BufTy).Contents (Elt F) → (⟨S150000x512, .f32⟩ : BufTy).Contents (Elt F) → (⟨S150000x512, .f32⟩ : BufTy).Contents (Elt F)),
    StableHlo.nullary main_cst_9 (constant S_ .f32 0x00000000#32),
    StableHlo.unary main_cst_9 main_v43 (broadcastInDim S50000x512 ![] bcast_S_S50000x512 : (⟨S_, .f32⟩ : BufTy).Contents (Elt F) → (⟨S50000x512, .f32⟩ : BufTy).Contents (Elt F)),
    StableHlo.unary main_v3 main_v44 (broadcastInDim S150000x1 ![0] bcast_S150000_S150000x1_0 : (⟨S150000, .i32⟩ : BufTy).Contents (Elt F) → (⟨S150000x1, .i32⟩ : BufTy).Contents (Elt F)),
    StableHlo.ternary main_v43 main_v44 main_v42 main_v45 ((fun x i u => Host.scatterAdd scatter_S50000x512_S150000x1_S150000x512_1_0_0_1 x i u) : (⟨S50000x512, .f32⟩ : BufTy).Contents (Elt F) → (⟨S150000x1, .i32⟩ : BufTy).Contents (Elt F) → (⟨S150000x512, .f32⟩ : BufTy).Contents (Elt F) → (⟨S50000x512, .f32⟩ : BufTy).Contents (Elt F)),
    StableHlo.binary main_arg0 main_arg2 main_v46 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.binary main_v45 main_arg3 main_v47 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)) ]

/-- Layer 0, second stretch: the sum with the bias, the column mean and variance, the normalisation with scale and shift, the leaky rectifier. -/
abbrev s2 : List (HloOp τ sig (Elt F)) :=
  [ StableHlo.binary main_v46 main_v47 main_v48 (addf : (⟨S50000x512, .f32⟩ : BufTy).Contents (Elt F) → (⟨S50000x512, .f32⟩ : BufTy).Contents (Elt F) → (⟨S50000x512, .f32⟩ : BufTy).Contents (Elt F)),
    StableHlo.unary main_arg4 main_v49 (broadcastInDim S1x512 ![1] bcast_S512_S1x512_1 : (⟨S512, .f32⟩ : BufTy).Contents (Elt F) → (⟨S1x512, .f32⟩ : BufTy).Contents (Elt F)),
    StableHlo.unary main_v49 main_v50 (broadcastInDim S50000x512 ![0, 1] bcast_S1x512_S50000x512_0_1 : (⟨S1x512, .f32⟩ : BufTy).Contents (Elt F) → (⟨S50000x512, .f32⟩ : BufTy).Contents (Elt F)),
    StableHlo.binary main_v48 main_v50 main_v51 (addf : (⟨S50000x512, .f32⟩ : BufTy).Contents (Elt F) → (⟨S50000x512, .f32⟩ : BufTy).Contents (Elt F) → (⟨S50000x512, .f32⟩ : BufTy).Contents (Elt F)),
    StableHlo.nullary main_cst_10 (constant S_ .f32 0x00000000#32),
    StableHlo.binary main_v51 main_cst_10 main_v52 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_11 (constant S_ .f32 0x47435000#32),
    StableHlo.unary main_cst_11 main_v53 (broadcastInDim S512 ![] bcast_S_S512 : (⟨S_, .f32⟩ : BufTy).Contents (Elt F) → (⟨S512, .f32⟩ : BufTy).Contents (Elt F)),
    StableHlo.binary main_v52 main_v53 main_v54 (Host.divf : (⟨S512, .f32⟩ : BufTy).Contents (Elt F) → (⟨S512, .f32⟩ : BufTy).Contents (Elt F) → (⟨S512, .f32⟩ : BufTy).Contents (Elt F)),
    StableHlo.nullary main_c_12 (constantI S_ 32 0#32),
    StableHlo.TRef.nullary main_call1.cst (constant S_ .f32 0x00000000#32),
    StableHlo.TRef.binary (.of main_v51 : StableHlo.TRef sig ⟨S50000x512, .f32⟩) main_call1.cst main_call1.v0 (fun x v => Host.reduceAdd x v reducesTo_S50000x512_S512_d0 h_S_),
    StableHlo.TRef.unary main_call1.v0 main_call1.v1 (broadcastInDim S1x512 ![1] bcast_S512_S1x512_1),
    StableHlo.TRef.nullary main_call1.cst_0 (constant S_ .f32 0x47435000#32),
    StableHlo.TRef.unary main_call1.cst_0 main_call1.v2 (broadcastInDim S1x512 ![] bcast_S_S1x512),
    StableHlo.TRef.binary main_call1.v1 main_call1.v2 main_call1.v3 Host.divf,
    StableHlo.TRef.unary main_call1.v3 main_call1.v4 (broadcastInDim S50000x512 ![0, 1] bcast_S1x512_S50000x512_0_1),
    StableHlo.TRef.binary (.of main_v51 : StableHlo.TRef sig ⟨S50000x512, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x512_S512_d0 h_S_),
    StableHlo.TRef.unary main_call1.v8 main_call1.v10 (broadcastInDim S512 ![] bcast_S_S512),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S512 ![] bcast_S_S512),
    StableHlo.TRef.ternary main_call1.v12 main_call1.v11 main_call1.call0.v1 main_call1.call0.v2 (fun p a b => select (broadcastInDim S512 ![] bcast_S_S512 p) a b),
    StableHlo.unary main_v54 main_v56 (broadcastInDim S1x512 ![1] bcast_S512_S1x512_1 : (⟨S512, .f32⟩ : BufTy).Contents (Elt F) → (⟨S1x512, .f32⟩ : BufTy).Contents (Elt F)),
    StableHlo.unary main_v56 main_v57 (broadcastInDim S50000x512 ![0, 1] bcast_S1x512_S50000x512_0_1 : (⟨S1x512, .f32⟩ : BufTy).Contents (Elt F) → (⟨S50000x512, .f32⟩ : BufTy).Contents (Elt F)),
    StableHlo.binary main_v51 main_v57 main_v58 (subf : (⟨S50000x512, .f32⟩ : BufTy).Contents (Elt F) → (⟨S50000x512, .f32⟩ : BufTy).Contents (Elt F) → (⟨S50000x512, .f32⟩ : BufTy).Contents (Elt F)),
    StableHlo.nullary main_cst_13 (constant S_ .f32 0x3727C5AC#32),
    StableHlo.unary main_cst_13 main_v59 (broadcastInDim S512 ![] bcast_S_S512 : (⟨S_, .f32⟩ : BufTy).Contents (Elt F) → (⟨S512, .f32⟩ : BufTy).Contents (Elt F)),
    StableHlo.binary main_v55 main_v59 main_v60 (addf : (⟨S512, .f32⟩ : BufTy).Contents (Elt F) → (⟨S512, .f32⟩ : BufTy).Contents (Elt F) → (⟨S512, .f32⟩ : BufTy).Contents (Elt F)),
    StableHlo.unary main_v60 main_v61 (Host.rsqrt : (⟨S512, .f32⟩ : BufTy).Contents (Elt F) → (⟨S512, .f32⟩ : BufTy).Contents (Elt F)),
    StableHlo.unary main_v61 main_v62 (broadcastInDim S1x512 ![1] bcast_S512_S1x512_1 : (⟨S512, .f32⟩ : BufTy).Contents (Elt F) → (⟨S1x512, .f32⟩ : BufTy).Contents (Elt F)),
    StableHlo.unary main_v62 main_v63 (broadcastInDim S50000x512 ![0, 1] bcast_S1x512_S50000x512_0_1 : (⟨S1x512, .f32⟩ : BufTy).Contents (Elt F) → (⟨S50000x512, .f32⟩ : BufTy).Contents (Elt F)),
    StableHlo.binary main_v58 main_v63 main_v64 (mulf : (⟨S50000x512, .f32⟩ : BufTy).Contents (Elt F) → (⟨S50000x512, .f32⟩ : BufTy).Contents (Elt F) → (⟨S50000x512, .f32⟩ : BufTy).Contents (Elt F)),
    StableHlo.unary main_arg5 main_v65 (broadcastInDim S1x512 ![1] bcast_S512_S1x512_1 : (⟨S512, .f32⟩ : BufTy).Contents (Elt F) → (⟨S1x512, .f32⟩ : BufTy).Contents (Elt F)),
    StableHlo.unary main_v65 main_v66 (broadcastInDim S50000x512 ![0, 1] bcast_S1x512_S50000x512_0_1 : (⟨S1x512, .f32⟩ : BufTy).Contents (Elt F) → (⟨S50000x512, .f32⟩ : BufTy).Contents (Elt F)),
    StableHlo.binary main_v64 main_v66 main_v67 (mulf : (⟨S50000x512, .f32⟩ : BufTy).Contents (Elt F) → (⟨S50000x512, .f32⟩ : BufTy).Contents (Elt F) → (⟨S50000x512, .f32⟩ : BufTy).Contents (Elt F)),
    StableHlo.unary main_arg6 main_v68 (broadcastInDim S1x512 ![1] bcast_S512_S1x512_1 : (⟨S512, .f32⟩ : BufTy).Contents (Elt F) → (⟨S1x512, .f32⟩ : BufTy).Contents (Elt F)),
    StableHlo.unary main_v68 main_v69 (broadcastInDim S50000x512 ![0, 1] bcast_S1x512_S50000x512_0_1 : (⟨S1x512, .f32⟩ : BufTy).Contents (Elt F) → (⟨S50000x512, .f32⟩ : BufTy).Contents (Elt F)),
    StableHlo.binary main_v67 main_v69 main_v70 (addf : (⟨S50000x512, .f32⟩ : BufTy).Contents (Elt F) → (⟨S50000x512, .f32⟩ : BufTy).Contents (Elt F) → (⟨S50000x512, .f32⟩ : BufTy).Contents (Elt F)),
    StableHlo.nullary main_cst_14 (constant S_ .f32 0x00000000#32),
    StableHlo.unary main_cst_14 main_v71 (broadcastInDim S50000x512 ![] bcast_S_S50000x512 : (⟨S_, .f32⟩ : BufTy).Contents (Elt F) → (⟨S50000x512, .f32⟩ : BufTy).Contents (Elt F)),
    StableHlo.binary main_v70 main_v71 main_v72 (cmpf .ogt : (⟨S50000x512, .f32⟩ : BufTy).Contents (Elt F) → (⟨S50000x512, .f32⟩ : BufTy).Contents (Elt F) → (⟨S50000x512, .i1⟩ : BufTy).Contents (Elt F)),
    StableHlo.nullary main_cst_15 (constant S_ .f32 0x3C23D70A#32),
    StableHlo.unary main_cst_15 main_v73 (broadcastInDim S50000x512 ![] bcast_S_S50000x512 : (⟨S_, .f32⟩ : BufTy).Contents (Elt F) → (⟨S50000x512, .f32⟩ : BufTy).Contents (Elt F)),
    StableHlo.binary main_v73 main_v70 main_v74 (mulf : (⟨S50000x512, .f32⟩ : BufTy).Contents (Elt F) → (⟨S50000x512, .f32⟩ : BufTy).Contents (Elt F) → (⟨S50000x512, .f32⟩ : BufTy).Contents (Elt F)),
    StableHlo.TRef.ternary (.of main_v72 : StableHlo.TRef sig ⟨S50000x512, .i1⟩) (.of main_v70 : StableHlo.TRef sig ⟨S50000x512, .f32⟩) (.of main_v74 : StableHlo.TRef sig ⟨S50000x512, .f32⟩) main_call2.v0 select ]

/-- Layer 1, first stretch: gather, scale, scatter-add, the two matrix products, the bias, the column sums for the mean. -/
abbrev s3 : List (HloOp τ sig (Elt F)) :=
  [ StableHlo.nullary main_c_16 (constantI S_ 32 0#32),
    StableHlo.unary main_c_16 main_v76 (broadcastInDim S150000 ![] bcast_S_S150000 : (⟨S_, .i32⟩ : BufTy).Contents (Elt F) → (⟨S150000, .i32⟩ : BufTy).Contents (Elt F)),
    StableHlo.binary main_v1 main_v76 main_v77 (cmpi .slt : (⟨S150000, .i32⟩ : BufTy).Contents (Elt F) → (⟨S150000, .i32⟩ : BufTy).Contents (Elt F) → (⟨S150000, .i1⟩ : BufTy).Contents (Elt F)),
    StableHlo.nullary main_c_17 (constantI S_ 32 50000#32),
    StableHlo.unary main_c_17 main_v78 (broadcastInDim S150000 ![] bcast_S_S150000 : (⟨S_, .i32⟩ : BufTy).Contents (Elt F) → (⟨S150000, .i32⟩ : BufTy).Contents (Elt F)),
    StableHlo.binary main_v1 main_v78 main_v79 (addi : (⟨S150000, .i32⟩ : BufTy).Contents (Elt F) → (⟨S150000, .i32⟩ : BufTy).Contents (Elt F) → (⟨S150000, .i32⟩ : BufTy).Contents (Elt F)),
    StableHlo.ternary main_v77 main_v79 main_v1 main_v80 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v80 main_v81 (broadcastInDim S150000x1 ![0] bcast_S150000_S150000x1_0 : (⟨S150000, .i32⟩ : BufTy).Contents (Elt F) → (⟨S150000x1, .i32⟩ : BufTy).Contents (Elt F)),
    StableHlo.binary main_v75 main_v81 main_v82 ((fun x i => Host.gather gather_S50000x512_S150000x1_S150000x512_1_0_n_n_0_1_1512 x i) : (⟨S50000x512, .f32⟩ : BufTy).Contents (Elt F) → (⟨S150000x1, .i32⟩ : BufTy).Contents (Elt F) → (⟨S150000x512, .f32⟩ : BufTy).Contents (Elt F)),
    StableHlo.unary main_v32 main_v83 (broadcastInDim S150000x1 ![0] bcast_S150000_S150000x1_0 : (⟨S150000, .f32⟩ : BufTy).Contents (Elt F) → (⟨S150000x1, .f32⟩ : BufTy).Contents (Elt F)),
    StableHlo.unary main_v83 main_v84 (broadcastInDim S150000x512 ![0, 1] bcast_S150000x1_S150000x512_0_1 : (⟨S150000x1, .f32⟩ : BufTy).Contents (Elt F) → (⟨S150000x512, .f32⟩ : BufTy).Contents (Elt F)),
    StableHlo.binary main_v82 main_v84 main_v85 (mulf : (⟨S150000x512, .f32⟩ : BufTy).Contents (Elt F) → (⟨S150000x512, .f32⟩ : BufTy).Contents (Elt F) → (⟨S150000x512, .f32⟩ : BufTy).Contents (Elt F)),
    StableHlo.nullary main_cst_18 (constant S_ .f32 0x00000000#32),
    StableHlo.unary main_cst_18 main_v86 (broadcastInDim S50000x512 ![] bcast_S_S50000x512 : (⟨S_, .f32⟩ : BufTy).Contents (Elt F) → (⟨S50000x512, .f32⟩ : BufTy).Contents (Elt F)),
    StableHlo.unary main_v3 main_v87 (broadcastInDim S150000x1 ![0] bcast_S150000_S150000x1_0 : (⟨S150000, .i32⟩ : BufTy).Contents (Elt F) → (⟨S150000x1, .i32⟩ : BufTy).Contents (Elt F)),
    StableHlo.ternary main_v86 main_v87 main_v85 main_v88 ((fun x i u => Host.scatterAdd scatter_S50000x512_S150000x1_S150000x512_1_0_0_1 x i u) : (⟨S50000x512, .f32⟩ : BufTy).Contents (Elt F) → (⟨S150000x1, .i32⟩ : BufTy).Contents (Elt F) → (⟨S150000x512, .f32⟩ : BufTy).Contents (Elt F) → (⟨S50000x512, .f32⟩ : BufTy).Contents (Elt F)),
    StableHlo.binary main_v75 main_arg7 main_v89 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.binary main_v88 main_arg8 main_v90 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.binary main_v89 main_v90 main_v91 (addf : (⟨S50000x512, .f32⟩ : BufTy).Contents (Elt F) → (⟨S50000x512, .f32⟩ : BufTy).Contents (Elt F) → (⟨S50000x512, .f32⟩ : BufTy).Contents (Elt F)),
    StableHlo.unary main_arg9 main_v92 (broadcastInDim S1x512 ![1] bcast_S512_S1x512_1 : (⟨S512, .f32⟩ : BufTy).Contents (Elt F) → (⟨S1x512, .f32⟩ : BufTy).Contents (Elt F)),
    StableHlo.unary main_v92 main_v93 (broadcastInDim S50000x512 ![0, 1] bcast_S1x512_S50000x512_0_1 : (⟨S1x512, .f32⟩ : BufTy).Contents (Elt F) → (⟨S50000x512, .f32⟩ : BufTy).Contents (Elt F)),
    StableHlo.binary main_v91 main_v93 main_v94 (addf : (⟨S50000x512, .f32⟩ : BufTy).Contents (Elt F) → (⟨S50000x512, .f32⟩ : BufTy).Contents (Elt F) → (⟨S50000x512, .f32⟩ : BufTy).Contents (Elt F)),
    StableHlo.nullary main_cst_19 (constant S_ .f32 0x00000000#32),
    StableHlo.binary main_v94 main_cst_19 main_v95 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_20 (constant S_ .f32 0x47435000#32),
    StableHlo.unary main_cst_20 main_v96 (broadcastInDim S512 ![] bcast_S_S512 : (⟨S_, .f32⟩ : BufTy).Contents (Elt F) → (⟨S512, .f32⟩ : BufTy).Contents (Elt F)) ]

/-- Layer 1, second stretch: the column mean and variance, the normalisation with scale and shift, the leaky rectifier. -/
abbrev s4 : List (HloOp τ sig (Elt F)) :=
  [ StableHlo.binary main_v95 main_v96 main_v97 (Host.divf : (⟨S512, .f32⟩ : BufTy).Contents (Elt F) → (⟨S512, .f32⟩ : BufTy).Contents (Elt F) → (⟨S512, .f32⟩ : BufTy).Contents (Elt F)),
    StableHlo.nullary main_c_21 (constantI S_ 32 0#32),
    StableHlo.TRef.nullary main_call3.cst (constant S_ .f32 0x00000000#32),
    StableHlo.TRef.binary (.of main_v94 : StableHlo.TRef sig ⟨S50000x512, .f32⟩) main_call3.cst main_call3.v0 (fun x v => Host.reduceAdd x v reducesTo_S50000x512_S512_d0 h_S_),
    StableHlo.TRef.unary main_call3.v0 main_call3.v1 (broadcastInDim S1x512 ![1] bcast_S512_S1x512_1),
    StableHlo.TRef.nullary main_call3.cst_0 (constant S_ .f32 0x47435000#32),
    StableHlo.TRef.unary main_call3.cst_0 main_call3.v2 (broadcastInDim S1x512 ![] bcast_S_S1x512),
    StableHlo.TRef.binary main_call3.v1 main_call3.v2 main_call3.v3 Host.divf,
    StableHlo.TRef.unary main_call3.v3 main_call3.v4 (broadcastInDim S50000x512 ![0, 1] bcast_S1x512_S50000x512_0_1),
    StableHlo.TRef.binary (.of main_v94 : StableHlo.TRef sig ⟨S50000x512, .f32⟩) main_call3.v4 main_call3.v5 subf,
    StableHlo.TRef.binary main_call3.v5 main_call3.v5 main_call3.v6 mulf,
    StableHlo.TRef.unary (.of main_c_21 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x512_S512_d0 h_S_),
    StableHlo.TRef.unary main_call3.v8 main_call3.v10 (broadcastInDim S512 ![] bcast_S_S512),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S512 ![] bcast_S_S512),
    StableHlo.TRef.ternary main_call3.v12 main_call3.v11 main_call3.call0.v1 main_call3.call0.v2 (fun p a b => select (broadcastInDim S512 ![] bcast_S_S512 p) a b),
    StableHlo.unary main_v97 main_v99 (broadcastInDim S1x512 ![1] bcast_S512_S1x512_1 : (⟨S512, .f32⟩ : BufTy).Contents (Elt F) → (⟨S1x512, .f32⟩ : BufTy).Contents (Elt F)),
    StableHlo.unary main_v99 main_v100 (broadcastInDim S50000x512 ![0, 1] bcast_S1x512_S50000x512_0_1 : (⟨S1x512, .f32⟩ : BufTy).Contents (Elt F) → (⟨S50000x512, .f32⟩ : BufTy).Contents (Elt F)),
    StableHlo.binary main_v94 main_v100 main_v101 (subf : (⟨S50000x512, .f32⟩ : BufTy).Contents (Elt F) → (⟨S50000x512, .f32⟩ : BufTy).Contents (Elt F) → (⟨S50000x512, .f32⟩ : BufTy).Contents (Elt F)),
    StableHlo.nullary main_cst_22 (constant S_ .f32 0x3727C5AC#32),
    StableHlo.unary main_cst_22 main_v102 (broadcastInDim S512 ![] bcast_S_S512 : (⟨S_, .f32⟩ : BufTy).Contents (Elt F) → (⟨S512, .f32⟩ : BufTy).Contents (Elt F)),
    StableHlo.binary main_v98 main_v102 main_v103 (addf : (⟨S512, .f32⟩ : BufTy).Contents (Elt F) → (⟨S512, .f32⟩ : BufTy).Contents (Elt F) → (⟨S512, .f32⟩ : BufTy).Contents (Elt F)),
    StableHlo.unary main_v103 main_v104 (Host.rsqrt : (⟨S512, .f32⟩ : BufTy).Contents (Elt F) → (⟨S512, .f32⟩ : BufTy).Contents (Elt F)),
    StableHlo.unary main_v104 main_v105 (broadcastInDim S1x512 ![1] bcast_S512_S1x512_1 : (⟨S512, .f32⟩ : BufTy).Contents (Elt F) → (⟨S1x512, .f32⟩ : BufTy).Contents (Elt F)),
    StableHlo.unary main_v105 main_v106 (broadcastInDim S50000x512 ![0, 1] bcast_S1x512_S50000x512_0_1 : (⟨S1x512, .f32⟩ : BufTy).Contents (Elt F) → (⟨S50000x512, .f32⟩ : BufTy).Contents (Elt F)),
    StableHlo.binary main_v101 main_v106 main_v107 (mulf : (⟨S50000x512, .f32⟩ : BufTy).Contents (Elt F) → (⟨S50000x512, .f32⟩ : BufTy).Contents (Elt F) → (⟨S50000x512, .f32⟩ : BufTy).Contents (Elt F)),
    StableHlo.unary main_arg10 main_v108 (broadcastInDim S1x512 ![1] bcast_S512_S1x512_1 : (⟨S512, .f32⟩ : BufTy).Contents (Elt F) → (⟨S1x512, .f32⟩ : BufTy).Contents (Elt F)),
    StableHlo.unary main_v108 main_v109 (broadcastInDim S50000x512 ![0, 1] bcast_S1x512_S50000x512_0_1 : (⟨S1x512, .f32⟩ : BufTy).Contents (Elt F) → (⟨S50000x512, .f32⟩ : BufTy).Contents (Elt F)),
    StableHlo.binary main_v107 main_v109 main_v110 (mulf : (⟨S50000x512, .f32⟩ : BufTy).Contents (Elt F) → (⟨S50000x512, .f32⟩ : BufTy).Contents (Elt F) → (⟨S50000x512, .f32⟩ : BufTy).Contents (Elt F)),
    StableHlo.unary main_arg11 main_v111 (broadcastInDim S1x512 ![1] bcast_S512_S1x512_1 : (⟨S512, .f32⟩ : BufTy).Contents (Elt F) → (⟨S1x512, .f32⟩ : BufTy).Contents (Elt F)),
    StableHlo.unary main_v111 main_v112 (broadcastInDim S50000x512 ![0, 1] bcast_S1x512_S50000x512_0_1 : (⟨S1x512, .f32⟩ : BufTy).Contents (Elt F) → (⟨S50000x512, .f32⟩ : BufTy).Contents (Elt F)),
    StableHlo.binary main_v110 main_v112 main_v113 (addf : (⟨S50000x512, .f32⟩ : BufTy).Contents (Elt F) → (⟨S50000x512, .f32⟩ : BufTy).Contents (Elt F) → (⟨S50000x512, .f32⟩ : BufTy).Contents (Elt F)),
    StableHlo.nullary main_cst_23 (constant S_ .f32 0x00000000#32),
    StableHlo.unary main_cst_23 main_v114 (broadcastInDim S50000x512 ![] bcast_S_S50000x512 : (⟨S_, .f32⟩ : BufTy).Contents (Elt F) → (⟨S50000x512, .f32⟩ : BufTy).Contents (Elt F)),
    StableHlo.binary main_v113 main_v114 main_v115 (cmpf .ogt : (⟨S50000x512, .f32⟩ : BufTy).Contents (Elt F) → (⟨S50000x512, .f32⟩ : BufTy).Contents (Elt F) → (⟨S50000x512, .i1⟩ : BufTy).Contents (Elt F)),
    StableHlo.nullary main_cst_24 (constant S_ .f32 0x3C23D70A#32),
    StableHlo.unary main_cst_24 main_v116 (broadcastInDim S50000x512 ![] bcast_S_S50000x512 : (⟨S_, .f32⟩ : BufTy).Contents (Elt F) → (⟨S50000x512, .f32⟩ : BufTy).Contents (Elt F)),
    StableHlo.binary main_v116 main_v113 main_v117 (mulf : (⟨S50000x512, .f32⟩ : BufTy).Contents (Elt F) → (⟨S50000x512, .f32⟩ : BufTy).Contents (Elt F) → (⟨S50000x512, .f32⟩ : BufTy).Contents (Elt F)),
    StableHlo.TRef.ternary (.of main_v115 : StableHlo.TRef sig ⟨S50000x512, .i1⟩) (.of main_v113 : StableHlo.TRef sig ⟨S50000x512, .f32⟩) (.of main_v117 : StableHlo.TRef sig ⟨S50000x512, .f32⟩) main_call4.v0 select ]

/-- Layer 2, first stretch: gather, scale, scatter-add, the two matrix products (no bias), the column mean and variance, the start of the normalisation. -/
abbrev s5 : List (HloOp τ sig (Elt F)) :=
  [ StableHlo.nullary main_c_25 (constantI S_ 32 0#32),
    StableHlo.unary main_c_25 main_v119 (broadcastInDim S150000 ![] bcast_S_S150000 : (⟨S_, .i32⟩ : BufTy).Contents (Elt F) → (⟨S150000, .i32⟩ : BufTy).Contents (Elt F)),
    StableHlo.binary main_v1 main_v119 main_v120 (cmpi .slt : (⟨S150000, .i32⟩ : BufTy).Contents (Elt F) → (⟨S150000, .i32⟩ : BufTy).Contents (Elt F) → (⟨S150000, .i1⟩ : BufTy).Contents (Elt F)),
    StableHlo.nullary main_c_26 (constantI S_ 32 50000#32),
    StableHlo.unary main_c_26 main_v121 (broadcastInDim S150000 ![] bcast_S_S150000 : (⟨S_, .i32⟩ : BufTy).Contents (Elt F) → (⟨S150000, .i32⟩ : BufTy).Contents (Elt F)),
    StableHlo.binary main_v1 main_v121 main_v122 (addi : (⟨S150000, .i32⟩ : BufTy).Contents (Elt F) → (⟨S150000, .i32⟩ : BufTy).Contents (Elt F) → (⟨S150000, .i32⟩ : BufTy).Contents (Elt F)),
    StableHlo.ternary main_v120 main_v122 main_v1 main_v123 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v123 main_v124 (broadcastInDim S150000x1 ![0] bcast_S150000_S150000x1_0 : (⟨S150000, .i32⟩ : BufTy).Contents (Elt F) → (⟨S150000x1, .i32⟩ : BufTy).Contents (Elt F)),
    StableHlo.binary main_v118 main_v124 main_v125 ((fun x i => Host.gather gather_S50000x512_S150000x1_S150000x512_1_0_n_n_0_1_1512 x i) : (⟨S50000x512, .f32⟩ : BufTy).Contents (Elt F) → (⟨S150000x1, .i32⟩ : BufTy).Contents (Elt F) → (⟨S150000x512, .f32⟩ : BufTy).Contents (Elt F)),
    StableHlo.unary main_v32 main_v126 (broadcastInDim S150000x1 ![0] bcast_S150000_S150000x1_0 : (⟨S150000, .f32⟩ : BufTy).Contents (Elt F) → (⟨S150000x1, .f32⟩ : BufTy).Contents (Elt F)),
    StableHlo.unary main_v126 main_v127 (broadcastInDim S150000x512 ![0, 1] bcast_S150000x1_S150000x512_0_1 : (⟨S150000x1, .f32⟩ : BufTy).Contents (Elt F) → (⟨S150000x512, .f32⟩ : BufTy).Contents (Elt F)),
    StableHlo.binary main_v125 main_v127 main_v128 (mulf : (⟨S150000x512, .f32⟩ : BufTy).Contents (Elt F) → (⟨S150000x512, .f32⟩ : BufTy).Contents (Elt F) → (⟨S150000x512, .f32⟩ : BufTy).Contents (Elt F)),
    StableHlo.nullary main_cst_27 (constant S_ .f32 0x00000000#32),
    StableHlo.unary main_cst_27 main_v129 (broadcastInDim S50000x512 ![] bcast_S_S50000x512 : (⟨S_, .f32⟩ : BufTy).Contents (Elt F) → (⟨S50000x512, .f32⟩ : BufTy).Contents (Elt F)),
    StableHlo.unary main_v3 main_v130 (broadcastInDim S150000x1 ![0] bcast_S150000_S150000x1_0 : (⟨S150000, .i32⟩ : BufTy).Contents (Elt F) → (⟨S150000x1, .i32⟩ : BufTy).Contents (Elt F)),
    StableHlo.ternary main_v129 main_v130 main_v128 main_v131 ((fun x i u => Host.scatterAdd scatter_S50000x512_S150000x1_S150000x512_1_0_0_1 x i u) : (⟨S50000x512, .f32⟩ : BufTy).Contents (Elt F) → (⟨S150000x1, .i32⟩ : BufTy).Contents (Elt F) → (⟨S150000x512, .f32⟩ : BufTy).Contents (Elt F) → (⟨S50000x512, .f32⟩ : BufTy).Contents (Elt F)),
    StableHlo.binary main_v118 main_arg12 main_v132 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.binary main_v131 main_arg13 main_v133 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.binary main_v132 main_v133 main_v134 (addf : (⟨S50000x256, .f32⟩ : BufTy).Contents (Elt F) → (⟨S50000x256, .f32⟩ : BufTy).Contents (Elt F) → (⟨S50000x256, .f32⟩ : BufTy).Contents (Elt F)),
    StableHlo.nullary main_cst_28 (constant S_ .f32 0x00000000#32),
    StableHlo.binary main_v134 main_cst_28 main_v135 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_29 (constant S_ .f32 0x47435000#32),
    StableHlo.unary main_cst_29 main_v136 (broadcastInDim S256 ![] bcast_S_S256 : (⟨S_, .f32⟩ : BufTy).Contents (Elt F) → (⟨S256, .f32⟩ : BufTy).Contents (Elt F)),
    StableHlo.binary main_v135 main_v136 main_v137 (Host.divf : (⟨S256, .f32⟩ : BufTy).Contents (Elt F) → (⟨S256, .f32⟩ : BufTy).Contents (Elt F) → (⟨S256, .f32⟩ : BufTy).Contents (Elt F)),
    StableHlo.nullary main_c_30 (constantI S_ 32 0#32),
    StableHlo.TRef.nullary main_call5.cst (constant S_ .f32 0x00000000#32),
    StableHlo.TRef.binary (.of main_v134 : StableHlo.TRef sig ⟨S50000x256, .f32⟩) main_call5.cst main_call5.v0 (fun x v => Host.reduceAdd x v reducesTo_S50000x256_S256_d0 h_S_),
    StableHlo.TRef.unary main_call5.v0 main_call5.v1 (broadcastInDim S1x256 ![1] bcast_S256_S1x256_1),
    StableHlo.TRef.nullary main_call5.cst_0 (constant S_ .f32 0x47435000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S50000x256 ![0, 1] bcast_S1x256_S50000x256_0_1),
    StableHlo.TRef.binary (.of main_v134 : StableHlo.TRef sig ⟨S50000x256, .f32⟩) main_call5.v4 main_call5.v5 subf,
    StableHlo.TRef.binary main_call5.v5 main_call5.v5 main_call5.v6 mulf,
    StableHlo.TRef.unary (.of main_c_30 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b),
    StableHlo.unary main_v137 main_v139 (broadcastInDim S1x256 ![1] bcast_S256_S1x256_1 : (⟨S256, .f32⟩ : BufTy).Contents (Elt F) → (⟨S1x256, .f32⟩ : BufTy).Contents (Elt F)),
    StableHlo.unary main_v139 main_v140 (broadcastInDim S50000x256 ![0, 1] bcast_S1x256_S50000x256_0_1 : (⟨S1x256, .f32⟩ : BufTy).Contents (Elt F) → (⟨S50000x256, .f32⟩ : BufTy).Contents (Elt F)),
    StableHlo.binary main_v134 main_v140 main_v141 (subf : (⟨S50000x256, .f32⟩ : BufTy).Contents (Elt F) → (⟨S50000x256, .f32⟩ : BufTy).Contents (Elt F) → (⟨S50000x256, .f32⟩ : BufTy).Contents (Elt F)),
    StableHlo.nullary main_cst_31 (constant S_ .f32 0x3727C5AC#32),
    StableHlo.unary main_cst_31 main_v142 (broadcastInDim S256 ![] bcast_S_S256 : (⟨S_, .f32⟩ : BufTy).Contents (Elt F) → (⟨S256, .f32⟩ : BufTy).Contents (Elt F)),
    StableHlo.binary main_v138 main_v142 main_v143 (addf : (⟨S256, .f32⟩ : BufTy).Contents (Elt F) → (⟨S256, .f32⟩ : BufTy).Contents (Elt F) → (⟨S256, .f32⟩ : BufTy).Contents (Elt F)),
    StableHlo.unary main_v143 main_v144 (Host.rsqrt : (⟨S256, .f32⟩ : BufTy).Contents (Elt F) → (⟨S256, .f32⟩ : BufTy).Contents (Elt F)),
    StableHlo.unary main_v144 main_v145 (broadcastInDim S1x256 ![1] bcast_S256_S1x256_1 : (⟨S256, .f32⟩ : BufTy).Contents (Elt F) → (⟨S1x256, .f32⟩ : BufTy).Contents (Elt F)) ]

/-- Layer 2, second stretch: the normalisation with scale and shift, the leaky rectifier. -/
abbrev s6 : List (HloOp τ sig (Elt F)) :=
  [ StableHlo.unary main_v145 main_v146 (broadcastInDim S50000x256 ![0, 1] bcast_S1x256_S50000x256_0_1 : (⟨S1x256, .f32⟩ : BufTy).Contents (Elt F) → (⟨S50000x256, .f32⟩ : BufTy).Contents (Elt F)),
    StableHlo.binary main_v141 main_v146 main_v147 (mulf : (⟨S50000x256, .f32⟩ : BufTy).Contents (Elt F) → (⟨S50000x256, .f32⟩ : BufTy).Contents (Elt F) → (⟨S50000x256, .f32⟩ : BufTy).Contents (Elt F)),
    StableHlo.unary main_arg14 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S50000x256 ![0, 1] bcast_S1x256_S50000x256_0_1 : (⟨S1x256, .f32⟩ : BufTy).Contents (Elt F) → (⟨S50000x256, .f32⟩ : BufTy).Contents (Elt F)),
    StableHlo.binary main_v147 main_v149 main_v150 (mulf : (⟨S50000x256, .f32⟩ : BufTy).Contents (Elt F) → (⟨S50000x256, .f32⟩ : BufTy).Contents (Elt F) → (⟨S50000x256, .f32⟩ : BufTy).Contents (Elt F)),
    StableHlo.unary main_arg15 main_v151 (broadcastInDim S1x256 ![1] bcast_S256_S1x256_1 : (⟨S256, .f32⟩ : BufTy).Contents (Elt F) → (⟨S1x256, .f32⟩ : BufTy).Contents (Elt F)),
    StableHlo.unary main_v151 main_v152 (broadcastInDim S50000x256 ![0, 1] bcast_S1x256_S50000x256_0_1 : (⟨S1x256, .f32⟩ : BufTy).Contents (Elt F) → (⟨S50000x256, .f32⟩ : BufTy).Contents (Elt F)),
    StableHlo.binary main_v150 main_v152 main_v153 (addf : (⟨S50000x256, .f32⟩ : BufTy).Contents (Elt F) → (⟨S50000x256, .f32⟩ : BufTy).Contents (Elt F) → (⟨S50000x256, .f32⟩ : BufTy).Contents (Elt F)),
    StableHlo.nullary main_cst_32 (constant S_ .f32 0x00000000#32),
    StableHlo.unary main_cst_32 main_v154 (broadcastInDim S50000x256 ![] bcast_S_S50000x256 : (⟨S_, .f32⟩ : BufTy).Contents (Elt F) → (⟨S50000x256, .f32⟩ : BufTy).Contents (Elt F)),
    StableHlo.binary main_v153 main_v154 main_v155 (cmpf .ogt : (⟨S50000x256, .f32⟩ : BufTy).Contents (Elt F) → (⟨S50000x256, .f32⟩ : BufTy).Contents (Elt F) → (⟨S50000x256, .i1⟩ : BufTy).Contents (Elt F)),
    StableHlo.nullary main_cst_33 (constant S_ .f32 0x3C23D70A#32),
    StableHlo.unary main_cst_33 main_v156 (broadcastInDim S50000x256 ![] bcast_S_S50000x256 : (⟨S_, .f32⟩ : BufTy).Contents (Elt F) → (⟨S50000x256, .f32⟩ : BufTy).Contents (Elt F)),
    StableHlo.binary main_v156 main_v153 main_v157 (mulf : (⟨S50000x256, .f32⟩ : BufTy).Contents (Elt F) → (⟨S50000x256, .f32⟩ : BufTy).Contents (Elt F) → (⟨S50000x256, .f32⟩ : BufTy).Contents (Elt F)),
    StableHlo.TRef.ternary (.of main_v155 : StableHlo.TRef sig ⟨S50000x256, .i1⟩) (.of main_v153 : StableHlo.TRef sig ⟨S50000x256, .f32⟩) (.of main_v157 : StableHlo.TRef sig ⟨S50000x256, .f32⟩) main_call6.v0 select ]

/-- The edge endpoints and the edge normalisation. -/
abbrev opsIds : List (HloOp τ sig (Elt F)) := s0
/-- The first graph layer: from the arguments' features to the first hidden features. -/
abbrev opsLayer0 : List (HloOp τ sig (Elt F)) := s1 ++ s2
/-- The second graph layer. -/
abbrev opsLayer1 : List (HloOp τ sig (Elt F)) := s3 ++ s4
/-- The third graph layer, whose output is the program's result. -/
abbrev opsLayer2 : List (HloOp τ sig (Elt F)) := s5 ++ s6
/-- @main's 260 operations, in order. -/
abbrev ops : List (HloOp τ sig (Elt F)) := opsIds ++ opsLayer0 ++ opsLayer1 ++ opsLayer2

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each stretch writes

Each operation allocates nothing and writes exactly one buffer; a stretch that starts at place `i` writes only
buffers declared at position `16 + i` or later. -/

/-- The references declared at position `n` or later. -/
abbrev From (n : Nat) : Ref sig .tc → Prop := fun r => n ≤ r.idx.val

/-- A line that writes only at position `n` or later writes only at position `m` or later, for `m ≤ n`. -/
theorem writes_mono {m n : Nat} (h : m ≤ n) {l : List (HloOp τ sig (Elt F))}
    (hl : l.Forall (WritesOne (τ := τ) (From n))) : l.Forall (WritesOne (τ := τ) (From m)) := by
  rw [List.forall_iff_forall_mem] at hl ⊢
  intro op hop
  obtain ⟨hf, y, hy, hw⟩ := hl op hop
  exact ⟨hf, y, Nat.le_trans h hy, hw⟩

set_option maxRecDepth 4096 in
theorem s0_writes : (s0 (F := F)).Forall (WritesOne (τ := τ) (From 16)) := by
  writes_one_each

set_option maxRecDepth 4096 in
theorem s1_writes : (s1 (F := F)).Forall (WritesOne (τ := τ) (From 60)) := by
  writes_one_each

set_option maxRecDepth 4096 in
theorem s2_writes : (s2 (F := F)).Forall (WritesOne (τ := τ) (From 78)) := by
  writes_one_each

set_option maxRecDepth 4096 in
theorem s3_writes : (s3 (F := F)).Forall (WritesOne (τ := τ) (From 133)) := by
  writes_one_each

set_option maxRecDepth 4096 in
theorem s4_writes : (s4 (F := F)).Forall (WritesOne (τ := τ) (From 159)) := by
  writes_one_each

set_option maxRecDepth 4096 in
theorem s5_writes : (s5 (F := F)).Forall (WritesOne (τ := τ) (From 206)) := by
  writes_one_each

set_option maxRecDepth 4096 in
theorem s6_writes : (s6 (F := F)).Forall (WritesOne (τ := τ) (From 261)) := by
  writes_one_each

theorem opsIds_writes : (opsIds (F := F)).Forall (WritesOne (τ := τ) (From 16)) := s0_writes
theorem opsLayer0_writes : (opsLayer0 (F := F)).Forall (WritesOne (τ := τ) (From 60)) :=
  List.forall_append.mpr ⟨s1_writes, writes_mono (by decide) s2_writes⟩
theorem opsLayer1_writes : (opsLayer1 (F := F)).Forall (WritesOne (τ := τ) (From 133)) :=
  List.forall_append.mpr ⟨s3_writes, writes_mono (by decide) s4_writes⟩
theorem opsLayer2_writes : (opsLayer2 (F := F)).Forall (WritesOne (τ := τ) (From 206)) :=
  List.forall_append.mpr ⟨s5_writes, writes_mono (by decide) s6_writes⟩
/-- No operation of @main writes an argument's buffer. -/
theorem ops_writes : (ops (F := F)).Forall (WritesOne (τ := τ) (From 16)) :=
  List.forall_append.mpr ⟨List.forall_append.mpr ⟨List.forall_append.mpr ⟨opsIds_writes, writes_mono (by decide) opsLayer0_writes⟩,
    writes_mono (by decide) opsLayer1_writes⟩, writes_mono (by decide) opsLayer2_writes⟩

/-! ## What each stretch touches: TensorCore references only -/

theorem s0_sub : (s0 (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem s1_sub : (s1 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub ..⟩

theorem s2_sub : (s2 (F := F)).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem s3_sub : (s3 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., binary_bufs_sub .., nullary_bufs_sub .., unary_bufs_sub ..⟩

theorem s4_sub : (s4 (F := F)).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem s5_sub : (s5 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩

theorem s6_sub : (s6 (F := F)).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ops_sub : (ops (F := F)).Forall fun op => op.bufs ⊆ tcRefs τ sig :=
  List.forall_append.mpr ⟨List.forall_append.mpr ⟨List.forall_append.mpr ⟨s0_sub, List.forall_append.mpr ⟨s1_sub, s2_sub⟩⟩,
    List.forall_append.mpr ⟨s3_sub, s4_sub⟩⟩, List.forall_append.mpr ⟨s5_sub, s6_sub⟩⟩

end Cert.ReferenceIdeal.RefRun

end
-- ==== Proof.RefRun.lean ====
/-
  The reference program's run: @main is the straight line of its 260 host operations, so every weakly fair
  execution terminates with each buffer at the operations' fold over the launch contents; no operation writes an
  argument's buffer, so the arguments end as they began.
-/
import proofs.«142385_j6322191859752_1_alg».proof.Proof.RefOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.LibTailOps

variable {F : FTy → Type} [FloatOps F]

/-! ## @main is that straight line

Each of @main's four parts is a chain of `hlo` steps once the outlined functions are unfolded at their calls and
sequencing is reassociated (`bind_assoc`, `pure_bind`); the chain is `seq` of the part's stretches. -/

set_option maxRecDepth 16384 in
set_option maxHeartbeats 4000000 in
theorem main_part0_eq (c : Dev nD) : main_part0 (F := F) c = seq (s0 ++ s1) := by
  simp only [main_part0, fn_where.body, seq, bind_assoc, pure_bind] <;> rfl

set_option maxRecDepth 16384 in
set_option maxHeartbeats 4000000 in
theorem main_part1_eq (c : Dev nD) : main_part1 (F := F) c = seq (s2 ++ s3) := by
  simp only [main_part1, fn_var.body, fn_where_0.body, fn_where_1.body, seq, bind_assoc, pure_bind] <;> rfl

set_option maxRecDepth 16384 in
set_option maxHeartbeats 4000000 in
theorem main_part2_eq (c : Dev nD) : main_part2 (F := F) c = seq (s4 ++ s5) := by
  simp only [main_part2, fn_var.body, fn_where_0.body, fn_where_1.body, fn_var_2.body, fn_where_3.body, seq, bind_assoc, pure_bind] <;> rfl

set_option maxRecDepth 16384 in
set_option maxHeartbeats 4000000 in
theorem main_part3_eq (c : Dev nD) : main_part3 (F := F) c = seq (s6) := by
  simp only [main_part3, fn_where_4.body, seq, bind_assoc, pure_bind] <;> rfl

/-- @main is the straight line of its operations: the four parts in order are the seven stretches in order, which is
    how the layers are grouped too (`seq_append` on both sides). -/
theorem main_eq (c : Dev nD) : main (F := F) c = seq ops := by
  simp only [main, main_part0_eq, main_part1_eq, main_part2_eq, main_part3_eq, ops, opsIds, opsLayer0, opsLayer1, opsLayer2,
    seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op hop => ((List.forall_iff_forall_mem.mp ops_writes) op hop).1)

/-! ## The arguments are not written -/

/-- A buffer declared before every operation's result — an argument's — keeps its contents through @main. -/
theorem ops_keeps (V : Valuation τ sig (Elt F)) {r : Ref sig .tc} (hr : r.idx.val < 16) :
    after ops V (r : DevRef τ sig) = V (r : DevRef τ sig) :=
  after_keeps ops V ops_writes (Nat.not_le.mpr hr)

theorem arg0_unchanged (V : Valuation τ sig (Elt F)) :
    after ops V (main_arg0 : DevRef τ sig) = V (main_arg0 : DevRef τ sig) := ops_keeps V (by decide)
theorem arg1_unchanged (V : Valuation τ sig (Elt F)) :
    after ops V (main_arg1 : DevRef τ sig) = V (main_arg1 : DevRef τ sig) := ops_keeps V (by decide)
theorem arg2_unchanged (V : Valuation τ sig (Elt F)) :
    after ops V (main_arg2 : DevRef τ sig) = V (main_arg2 : DevRef τ sig) := ops_keeps V (by decide)
theorem arg3_unchanged (V : Valuation τ sig (Elt F)) :
    after ops V (main_arg3 : DevRef τ sig) = V (main_arg3 : DevRef τ sig) := ops_keeps V (by decide)
theorem arg4_unchanged (V : Valuation τ sig (Elt F)) :
    after ops V (main_arg4 : DevRef τ sig) = V (main_arg4 : DevRef τ sig) := ops_keeps V (by decide)
theorem arg5_unchanged (V : Valuation τ sig (Elt F)) :
    after ops V (main_arg5 : DevRef τ sig) = V (main_arg5 : DevRef τ sig) := ops_keeps V (by decide)
theorem arg6_unchanged (V : Valuation τ sig (Elt F)) :
    after ops V (main_arg6 : DevRef τ sig) = V (main_arg6 : DevRef τ sig) := ops_keeps V (by decide)
theorem arg7_unchanged (V : Valuation τ sig (Elt F)) :
    after ops V (main_arg7 : DevRef τ sig) = V (main_arg7 : DevRef τ sig) := ops_keeps V (by decide)
theorem arg8_unchanged (V : Valuation τ sig (Elt F)) :
    after ops V (main_arg8 : DevRef τ sig) = V (main_arg8 : DevRef τ sig) := ops_keeps V (by decide)
theorem arg9_unchanged (V : Valuation τ sig (Elt F)) :
    after ops V (main_arg9 : DevRef τ sig) = V (main_arg9 : DevRef τ sig) := ops_keeps V (by decide)
theorem arg10_unchanged (V : Valuation τ sig (Elt F)) :
    after ops V (main_arg10 : DevRef τ sig) = V (main_arg10 : DevRef τ sig) := ops_keeps V (by decide)
theorem arg11_unchanged (V : Valuation τ sig (Elt F)) :
    after ops V (main_arg11 : DevRef τ sig) = V (main_arg11 : DevRef τ sig) := ops_keeps V (by decide)
theorem arg12_unchanged (V : Valuation τ sig (Elt F)) :
    after ops V (main_arg12 : DevRef τ sig) = V (main_arg12 : DevRef τ sig) := ops_keeps V (by decide)
theorem arg13_unchanged (V : Valuation τ sig (Elt F)) :
    after ops V (main_arg13 : DevRef τ sig) = V (main_arg13 : DevRef τ sig) := ops_keeps V (by decide)
theorem arg14_unchanged (V : Valuation τ sig (Elt F)) :
    after ops V (main_arg14 : DevRef τ sig) = V (main_arg14 : DevRef τ sig) := ops_keeps V (by decide)
theorem arg15_unchanged (V : Valuation τ sig (Elt F)) :
    after ops V (main_arg15 : DevRef τ sig) = V (main_arg15 : DevRef τ sig) := ops_keeps V (by decide)

/-- The reference runs — terminates, nothing faulting — and its sixteen argument arrays end unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_arg0).trans (arg0_unchanged _),
      (h c main_arg1).trans (arg1_unchanged _),
      (h c main_arg2).trans (arg2_unchanged _),
      (h c main_arg3).trans (arg3_unchanged _),
      (h c main_arg4).trans (arg4_unchanged _),
      (h c main_arg5).trans (arg5_unchanged _),
      (h c main_arg6).trans (arg6_unchanged _),
      (h c main_arg7).trans (arg7_unchanged _),
      (h c main_arg8).trans (arg8_unchanged _),
      (h c main_arg9).trans (arg9_unchanged _),
      (h c main_arg10).trans (arg10_unchanged _),
      (h c main_arg11).trans (arg11_unchanged _),
      (h c main_arg12).trans (arg12_unchanged _),
      (h c main_arg13).trans (arg13_unchanged _),
      (h c main_arg14).trans (arg14_unchanged _),
      (h c main_arg15).trans (arg15_unchanged _)⟩)
    (run_main m ρ)

end Cert.ReferenceIdeal.RefRun

end
-- ==== Proof.RefLayers.lean ====
/-
  What each stretch of the reference computes, as a function of the contents it starts from: the edge endpoints and
  normalisation from the index array, and each graph layer's output from its input features, the endpoints, the
  normalisation and its parameters — for ANY starting contents, so that the three layers compose.
-/
import proofs.«142385_j6322191859752_1_alg».proof.Proof.RefOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.LibTailOps

variable {F : FTy → Type} [FloatOps F]

/-! ## The composed terms

Each definition is the composition of the host operations that produce one value, over the values it is computed
from; the scatter-add, gather, matrix product and column sum stay the library's functions. -/

namespace RefSpec

/-! ### The edge list and its normalisation -/

/-- The first row of the index array: each edge's source node. -/
def rowIds (e : (⟨S2x150000, .i32⟩ : BufTy).Contents (Elt F)) : (⟨S150000, .i32⟩ : BufTy).Contents (Elt F) :=
    (shapeCast S150000 (((extractStridedSlice S1x150000 ![0, 0] · slices_S2x150000_S1x150000_0_0) : (⟨S2x150000, .i32⟩ : BufTy).Contents (Elt F) → (⟨S1x150000, .i32⟩ : BufTy).Contents (Elt F))
        e) shapeCasts_S1x150000_S150000 : (⟨S150000, .i32⟩ : BufTy).Contents (Elt F))

/-- The second row of the index array: each edge's target node. -/
def colIds (e : (⟨S2x150000, .i32⟩ : BufTy).Contents (Elt F)) : (⟨S150000, .i32⟩ : BufTy).Contents (Elt F) :=
    (shapeCast S150000 (((extractStridedSlice S1x150000 ![1, 0] · slices_S2x150000_S1x150000_1_0) : (⟨S2x150000, .i32⟩ : BufTy).Contents (Elt F) → (⟨S1x150000, .i32⟩ : BufTy).Contents (Elt F))
        e) shapeCasts_S1x150000_S150000 : (⟨S150000, .i32⟩ : BufTy).Contents (Elt F))

/-- The in-degree of every node: ones scatter-added at the edges' targets. -/
def deg (col : (⟨S150000, .i32⟩ : BufTy).Contents (Elt F)) : (⟨S50000, .f32⟩ : BufTy).Contents (Elt F) :=
    (((fun x i u => Host.scatterAdd scatter_S50000_S150000x1_S150000_n_0_0_1 x i u) : (⟨S50000, .f32⟩ : BufTy).Contents (Elt F) → (⟨S150000x1, .i32⟩ : BufTy).Contents (Elt F) → (⟨S150000, .f32⟩ : BufTy).Contents (Elt F) → (⟨S50000, .f32⟩ : BufTy).Contents (Elt F))
      ((broadcastInDim S50000 ![] bcast_S_S50000 : (⟨S_, .f32⟩ : BufTy).Contents (Elt F) → (⟨S50000, .f32⟩ : BufTy).Contents (Elt F))
        (constant S_ .f32 0x00000000#32 : (⟨S_, .f32⟩ : BufTy).Contents (Elt F)))
      ((broadcastInDim S150000x1 ![0] bcast_S150000_S150000x1_0 : (⟨S150000, .i32⟩ : BufTy).Contents (Elt F) → (⟨S150000x1, .i32⟩ : BufTy).Contents (Elt F))
        col)
      ((broadcastInDim S150000 ![] bcast_S_S150000 : (⟨S_, .f32⟩ : BufTy).Contents (Elt F) → (⟨S150000, .f32⟩ : BufTy).Contents (Elt F))
        (constant S_ .f32 0x3F800000#32 : (⟨S_, .f32⟩ : BufTy).Contents (Elt F))))

/-- The inverse square root of the degree where it is positive (of `max deg 1`), zero elsewhere. -/
def dis (d : (⟨S50000, .f32⟩ : BufTy).Contents (Elt F)) : (⟨S50000, .f32⟩ : BufTy).Contents (Elt F) :=
    (select
      ((cmpf .ogt : (⟨S50000, .f32⟩ : BufTy).Contents (Elt F) → (⟨S50000, .f32⟩ : BufTy).Contents (Elt F) → (⟨S50000, .i1⟩ : BufTy).Contents (Elt F))
        d
        ((broadcastInDim S50000 ![] bcast_S_S50000 : (⟨S_, .f32⟩ : BufTy).Contents (Elt F) → (⟨S50000, .f32⟩ : BufTy).Contents (Elt F))
          (constant S_ .f32 0x00000000#32 : (⟨S_, .f32⟩ : BufTy).Contents (Elt F))))
      ((Host.rsqrt : (⟨S50000, .f32⟩ : BufTy).Contents (Elt F) → (⟨S50000, .f32⟩ : BufTy).Contents (Elt F))
        ((maximumf : (⟨S50000, .f32⟩ : BufTy).Contents (Elt F) → (⟨S50000, .f32⟩ : BufTy).Contents (Elt F) → (⟨S50000, .f32⟩ : BufTy).Contents (Elt F))
          d
          ((broadcastInDim S50000 ![] bcast_S_S50000 : (⟨S_, .f32⟩ : BufTy).Contents (Elt F) → (⟨S50000, .f32⟩ : BufTy).Contents (Elt F))
            (constant S_ .f32 0x3F800000#32 : (⟨S_, .f32⟩ : BufTy).Contents (Elt F)))))
      ((broadcastInDim S50000 ![] bcast_S_S50000)
        (id
          (constant S_ .f32 0x00000000#32 : (⟨S_, .f32⟩ : BufTy).Contents (Elt F)) : (⟨S_, .f32⟩ : BufTy).Contents (Elt F)) : (⟨S50000, .f32⟩ : BufTy).Contents (Elt F)) : (⟨S50000, .f32⟩ : BufTy).Contents (Elt F))

/-- The symmetric normalisation of every edge: `dis` at its source times `dis` at its target (an index below zero
    counted from the end). -/
def edgeNorm (row col : (⟨S150000, .i32⟩ : BufTy).Contents (Elt F)) : (⟨S150000, .f32⟩ : BufTy).Contents (Elt F) :=
    ((mulf : (⟨S150000, .f32⟩ : BufTy).Contents (Elt F) → (⟨S150000, .f32⟩ : BufTy).Contents (Elt F) → (⟨S150000, .f32⟩ : BufTy).Contents (Elt F))
      (((fun x i => Host.gather gather_S50000_S150000x1_S150000_n_0_n_n_0_1_1 x i) : (⟨S50000, .f32⟩ : BufTy).Contents (Elt F) → (⟨S150000x1, .i32⟩ : BufTy).Contents (Elt F) → (⟨S150000, .f32⟩ : BufTy).Contents (Elt F))
        (dis (F := F) (deg (F := F) col))
        ((broadcastInDim S150000x1 ![0] bcast_S150000_S150000x1_0 : (⟨S150000, .i32⟩ : BufTy).Contents (Elt F) → (⟨S150000x1, .i32⟩ : BufTy).Contents (Elt F))
          ((select : (⟨S150000, .i1⟩ : BufTy).Contents (Elt F) → (⟨S150000, .i32⟩ : BufTy).Contents (Elt F) → (⟨S150000, .i32⟩ : BufTy).Contents (Elt F) → (⟨S150000, .i32⟩ : BufTy).Contents (Elt F))
            ((cmpi .slt : (⟨S150000, .i32⟩ : BufTy).Contents (Elt F) → (⟨S150000, .i32⟩ : BufTy).Contents (Elt F) → (⟨S150000, .i1⟩ : BufTy).Contents (Elt F))
              row
              ((broadcastInDim S150000 ![] bcast_S_S150000 : (⟨S_, .i32⟩ : BufTy).Contents (Elt F) → (⟨S150000, .i32⟩ : BufTy).Contents (Elt F))
                (constantI S_ 32 0#32 : (⟨S_, .i32⟩ : BufTy).Contents (Elt F))))
            ((addi : (⟨S150000, .i32⟩ : BufTy).Contents (Elt F) → (⟨S150000, .i32⟩ : BufTy).Contents (Elt F) → (⟨S150000, .i32⟩ : BufTy).Contents (Elt F))
              row
              ((broadcastInDim S150000 ![] bcast_S_S150000 : (⟨S_, .i32⟩ : BufTy).Contents (Elt F) → (⟨S150000, .i32⟩ : BufTy).Contents (Elt F))
                (constantI S_ 32 50000#32 : (⟨S_, .i32⟩ : BufTy).Contents (Elt F))))
            row)))
      (((fun x i => Host.gather gather_S50000_S150000x1_S150000_n_0_n_n_0_1_1 x i) : (⟨S50000, .f32⟩ : BufTy).Contents (Elt F) → (⟨S150000x1, .i32⟩ : BufTy).Contents (Elt F) → (⟨S150000, .f32⟩ : BufTy).Contents (Elt F))
        (dis (F := F) (deg (F := F) col))
        ((broadcastInDim S150000x1 ![0] bcast_S150000_S150000x1_0 : (⟨S150000, .i32⟩ : BufTy).Contents (Elt F) → (⟨S150000x1, .i32⟩ : BufTy).Contents (Elt F))
          ((select : (⟨S150000, .i1⟩ : BufTy).Contents (Elt F) → (⟨S150000, .i32⟩ : BufTy).Contents (Elt F) → (⟨S150000, .i32⟩ : BufTy).Contents (Elt F) → (⟨S150000, .i32⟩ : BufTy).Contents (Elt F))
            ((cmpi .slt : (⟨S150000, .i32⟩ : BufTy).Contents (Elt F) → (⟨S150000, .i32⟩ : BufTy).Contents (Elt F) → (⟨S150000, .i1⟩ : BufTy).Contents (Elt F))
              col
              ((broadcastInDim S150000 ![] bcast_S_S150000 : (⟨S_, .i32⟩ : BufTy).Contents (Elt F) → (⟨S150000, .i32⟩ : BufTy).Contents (Elt F))
                (constantI S_ 32 0#32 : (⟨S_, .i32⟩ : BufTy).Contents (Elt F))))
            ((addi : (⟨S150000, .i32⟩ : BufTy).Contents (Elt F) → (⟨S150000, .i32⟩ : BufTy).Contents (Elt F) → (⟨S150000, .i32⟩ : BufTy).Contents (Elt F))
              col
              ((broadcastInDim S150000 ![] bcast_S_S150000 : (⟨S_, .i32⟩ : BufTy).Contents (Elt F) → (⟨S150000, .i32⟩ : BufTy).Contents (Elt F))
                (constantI S_ 32 50000#32 : (⟨S_, .i32⟩ : BufTy).Contents (Elt F))))
            col))))

/-- The edge normalisation as a function of the index array. -/
def norm (e : (⟨S2x150000, .i32⟩ : BufTy).Contents (Elt F)) : (⟨S150000, .f32⟩ : BufTy).Contents (Elt F) := edgeNorm (F := F) (rowIds (F := F) e) (colIds (F := F) e)

/-! ### One graph layer -/

/-- The neighbourhood sum: the rows of `x` at the edges' sources (an index below zero counted from the end), each
    scaled by its edge's normalisation, scatter-added at the edges' targets. -/
def agg512 (x : (⟨S50000x512, .f32⟩ : BufTy).Contents (Elt F)) (row col : (⟨S150000, .i32⟩ : BufTy).Contents (Elt F)) (norm : (⟨S150000, .f32⟩ : BufTy).Contents (Elt F)) : (⟨S50000x512, .f32⟩ : BufTy).Contents (Elt F) :=
    (((fun x i u => Host.scatterAdd scatter_S50000x512_S150000x1_S150000x512_1_0_0_1 x i u) : (⟨S50000x512, .f32⟩ : BufTy).Contents (Elt F) → (⟨S150000x1, .i32⟩ : BufTy).Contents (Elt F) → (⟨S150000x512, .f32⟩ : BufTy).Contents (Elt F) → (⟨S50000x512, .f32⟩ : BufTy).Contents (Elt F))
      ((broadcastInDim S50000x512 ![] bcast_S_S50000x512 : (⟨S_, .f32⟩ : BufTy).Contents (Elt F) → (⟨S50000x512, .f32⟩ : BufTy).Contents (Elt F))
        (constant S_ .f32 0x00000000#32 : (⟨S_, .f32⟩ : BufTy).Contents (Elt F)))
      ((broadcastInDim S150000x1 ![0] bcast_S150000_S150000x1_0 : (⟨S150000, .i32⟩ : BufTy).Contents (Elt F) → (⟨S150000x1, .i32⟩ : BufTy).Contents (Elt F))
        col)
      ((mulf : (⟨S150000x512, .f32⟩ : BufTy).Contents (Elt F) → (⟨S150000x512, .f32⟩ : BufTy).Contents (Elt F) → (⟨S150000x512, .f32⟩ : BufTy).Contents (Elt F))
        (((fun x i => Host.gather gather_S50000x512_S150000x1_S150000x512_1_0_n_n_0_1_1512 x i) : (⟨S50000x512, .f32⟩ : BufTy).Contents (Elt F) → (⟨S150000x1, .i32⟩ : BufTy).Contents (Elt F) → (⟨S150000x512, .f32⟩ : BufTy).Contents (Elt F))
          x
          ((broadcastInDim S150000x1 ![0] bcast_S150000_S150000x1_0 : (⟨S150000, .i32⟩ : BufTy).Contents (Elt F) → (⟨S150000x1, .i32⟩ : BufTy).Contents (Elt F))
            ((select : (⟨S150000, .i1⟩ : BufTy).Contents (Elt F) → (⟨S150000, .i32⟩ : BufTy).Contents (Elt F) → (⟨S150000, .i32⟩ : BufTy).Contents (Elt F) → (⟨S150000, .i32⟩ : BufTy).Contents (Elt F))
              ((cmpi .slt : (⟨S150000, .i32⟩ : BufTy).Contents (Elt F) → (⟨S150000, .i32⟩ : BufTy).Contents (Elt F) → (⟨S150000, .i1⟩ : BufTy).Contents (Elt F))
                row
                ((broadcastInDim S150000 ![] bcast_S_S150000 : (⟨S_, .i32⟩ : BufTy).Contents (Elt F) → (⟨S150000, .i32⟩ : BufTy).Contents (Elt F))
                  (constantI S_ 32 0#32 : (⟨S_, .i32⟩ : BufTy).Contents (Elt F))))
              ((addi : (⟨S150000, .i32⟩ : BufTy).Contents (Elt F) → (⟨S150000, .i32⟩ : BufTy).Contents (Elt F) → (⟨S150000, .i32⟩ : BufTy).Contents (Elt F))
                row
                ((broadcastInDim S150000 ![] bcast_S_S150000 : (⟨S_, .i32⟩ : BufTy).Contents (Elt F) → (⟨S150000, .i32⟩ : BufTy).Contents (Elt F))
                  (constantI S_ 32 50000#32 : (⟨S_, .i32⟩ : BufTy).Contents (Elt F))))
              row)))
        ((broadcastInDim S150000x512 ![0, 1] bcast_S150000x1_S150000x512_0_1 : (⟨S150000x1, .f32⟩ : BufTy).Contents (Elt F) → (⟨S150000x512, .f32⟩ : BufTy).Contents (Elt F))
          ((broadcastInDim S150000x1 ![0] bcast_S150000_S150000x1_0 : (⟨S150000, .f32⟩ : BufTy).Contents (Elt F) → (⟨S150000x1, .f32⟩ : BufTy).Contents (Elt F))
            norm))))

/-- The layer's linear part before normalisation: `x · w0 + agg · w1` plus the bias row. -/
def pre512 (x : (⟨S50000x512, .f32⟩ : BufTy).Contents (Elt F)) (agg : (⟨S50000x512, .f32⟩ : BufTy).Contents (Elt F)) (w0 w1 : (⟨S512x512, .f32⟩ : BufTy).Contents (Elt F)) (b : (⟨S512, .f32⟩ : BufTy).Contents (Elt F)) : (⟨S50000x512, .f32⟩ : BufTy).Contents (Elt F) :=
    ((addf : (⟨S50000x512, .f32⟩ : BufTy).Contents (Elt F) → (⟨S50000x512, .f32⟩ : BufTy).Contents (Elt F) → (⟨S50000x512, .f32⟩ : BufTy).Contents (Elt F))
      ((addf : (⟨S50000x512, .f32⟩ : BufTy).Contents (Elt F) → (⟨S50000x512, .f32⟩ : BufTy).Contents (Elt F) → (⟨S50000x512, .f32⟩ : BufTy).Contents (Elt F))
        (((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
          x
          w0)
        (((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F))
          agg
          w1))
      ((broadcastInDim S50000x512 ![0, 1] bcast_S1x512_S50000x512_0_1 : (⟨S1x512, .f32⟩ : BufTy).Contents (Elt F) → (⟨S50000x512, .f32⟩ : BufTy).Contents (Elt F))
        ((broadcastInDim S1x512 ![1] bcast_S512_S1x512_1 : (⟨S512, .f32⟩ : BufTy).Contents (Elt F) → (⟨S1x512, .f32⟩ : BufTy).Contents (Elt F))
          b)))

/-- The column means of `h` (sum over the 50000 rows divided by 50000). -/
def mean512 (h : (⟨S50000x512, .f32⟩ : BufTy).Contents (Elt F)) : (⟨S512, .f32⟩ : BufTy).Contents (Elt F) :=
    ((Host.divf : (⟨S512, .f32⟩ : BufTy).Contents (Elt F) → (⟨S512, .f32⟩ : BufTy).Contents (Elt F) → (⟨S512, .f32⟩ : BufTy).Contents (Elt F))
      (((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F))
        h
        (constant S_ .f32 0x00000000#32 : (⟨S_, .f32⟩ : BufTy).Contents (Elt F)))
      ((broadcastInDim S512 ![] bcast_S_S512 : (⟨S_, .f32⟩ : BufTy).Contents (Elt F) → (⟨S512, .f32⟩ : BufTy).Contents (Elt F))
        (constant S_ .f32 0x47435000#32 : (⟨S_, .f32⟩ : BufTy).Contents (Elt F))))

/-- The column variances of `h`, biased (divisor 50000 − 0), as the outlined variance computes them: its own column
    means, the squared deviations summed, divided; not-a-number where the divisor is not positive. -/
def var512 (h : (⟨S50000x512, .f32⟩ : BufTy).Contents (Elt F)) : (⟨S512, .f32⟩ : BufTy).Contents (Elt F) :=
    ((fun p a b => select (broadcastInDim S512 ![] bcast_S_S512 p) a b)
      ((cmpf .ogt)
        (subf
          (constant S_ .f32 0x47435000#32 : (⟨S_, .f32⟩ : BufTy).Contents (Elt F))
          ((sitofp .f32)
            (constantI S_ 32 0#32 : (⟨S_, .i32⟩ : BufTy).Contents (Elt F)) : (⟨S_, .f32⟩ : BufTy).Contents (Elt F)) : (⟨S_, .f32⟩ : BufTy).Contents (Elt F))
        (constant S_ .f32 0x00000000#32 : (⟨S_, .f32⟩ : BufTy).Contents (Elt F)) : (⟨S_, .i1⟩ : BufTy).Contents (Elt F))
      (Host.divf
        ((fun x v => Host.reduceAdd x v reducesTo_S50000x512_S512_d0 h_S_)
          (mulf
            (subf
              h
              ((broadcastInDim S50000x512 ![0, 1] bcast_S1x512_S50000x512_0_1)
                (Host.divf
                  ((broadcastInDim S1x512 ![1] bcast_S512_S1x512_1)
                    ((fun x v => Host.reduceAdd x v reducesTo_S50000x512_S512_d0 h_S_)
                      h
                      (constant S_ .f32 0x00000000#32 : (⟨S_, .f32⟩ : BufTy).Contents (Elt F)) : (⟨S512, .f32⟩ : BufTy).Contents (Elt F)) : (⟨S1x512, .f32⟩ : BufTy).Contents (Elt F))
                  ((broadcastInDim S1x512 ![] bcast_S_S1x512)
                    (constant S_ .f32 0x47435000#32 : (⟨S_, .f32⟩ : BufTy).Contents (Elt F)) : (⟨S1x512, .f32⟩ : BufTy).Contents (Elt F)) : (⟨S1x512, .f32⟩ : BufTy).Contents (Elt F)) : (⟨S50000x512, .f32⟩ : BufTy).Contents (Elt F)) : (⟨S50000x512, .f32⟩ : BufTy).Contents (Elt F))
            (subf
              h
              ((broadcastInDim S50000x512 ![0, 1] bcast_S1x512_S50000x512_0_1)
                (Host.divf
                  ((broadcastInDim S1x512 ![1] bcast_S512_S1x512_1)
                    ((fun x v => Host.reduceAdd x v reducesTo_S50000x512_S512_d0 h_S_)
                      h
                      (constant S_ .f32 0x00000000#32 : (⟨S_, .f32⟩ : BufTy).Contents (Elt F)) : (⟨S512, .f32⟩ : BufTy).Contents (Elt F)) : (⟨S1x512, .f32⟩ : BufTy).Contents (Elt F))
                  ((broadcastInDim S1x512 ![] bcast_S_S1x512)
                    (constant S_ .f32 0x47435000#32 : (⟨S_, .f32⟩ : BufTy).Contents (Elt F)) : (⟨S1x512, .f32⟩ : BufTy).Contents (Elt F)) : (⟨S1x512, .f32⟩ : BufTy).Contents (Elt F)) : (⟨S50000x512, .f32⟩ : BufTy).Contents (Elt F)) : (⟨S50000x512, .f32⟩ : BufTy).Contents (Elt F)) : (⟨S50000x512, .f32⟩ : BufTy).Contents (Elt F))
          (constant S_ .f32 0x00000000#32 : (⟨S_, .f32⟩ : BufTy).Contents (Elt F)) : (⟨S512, .f32⟩ : BufTy).Contents (Elt F))
        ((broadcastInDim S512 ![] bcast_S_S512)
          (subf
            (constant S_ .f32 0x47435000#32 : (⟨S_, .f32⟩ : BufTy).Contents (Elt F))
            ((sitofp .f32)
              (constantI S_ 32 0#32 : (⟨S_, .i32⟩ : BufTy).Contents (Elt F)) : (⟨S_, .f32⟩ : BufTy).Contents (Elt F)) : (⟨S_, .f32⟩ : BufTy).Contents (Elt F)) : (⟨S512, .f32⟩ : BufTy).Contents (Elt F)) : (⟨S512, .f32⟩ : BufTy).Contents (Elt F))
      ((broadcastInDim S512 ![] bcast_S_S512)
        (id
          (constant S_ .f32 0x7FC00000#32 : (⟨S_, .f32⟩ : BufTy).Contents (Elt F)) : (⟨S_, .f32⟩ : BufTy).Contents (Elt F)) : (⟨S512, .f32⟩ : BufTy).Contents (Elt F)) : (⟨S512, .f32⟩ : BufTy).Contents (Elt F))

/-- Batch normalisation with scale and shift: `(h − mean) · rsqrt (var + ε) · γ + β`, the row vectors broadcast down the columns. -/
def bn512 (h : (⟨S50000x512, .f32⟩ : BufTy).Contents (Elt F)) (mean var gamma beta : (⟨S512, .f32⟩ : BufTy).Contents (Elt F)) : (⟨S50000x512, .f32⟩ : BufTy).Contents (Elt F) :=
    ((addf : (⟨S50000x512, .f32⟩ : BufTy).Contents (Elt F) → (⟨S50000x512, .f32⟩ : BufTy).Contents (Elt F) → (⟨S50000x512, .f32⟩ : BufTy).Contents (Elt F))
      ((mulf : (⟨S50000x512, .f32⟩ : BufTy).Contents (Elt F) → (⟨S50000x512, .f32⟩ : BufTy).Contents (Elt F) → (⟨S50000x512, .f32⟩ : BufTy).Contents (Elt F))
        ((mulf : (⟨S50000x512, .f32⟩ : BufTy).Contents (Elt F) → (⟨S50000x512, .f32⟩ : BufTy).Contents (Elt F) → (⟨S50000x512, .f32⟩ : BufTy).Contents (Elt F))
          ((subf : (⟨S50000x512, .f32⟩ : BufTy).Contents (Elt F) → (⟨S50000x512, .f32⟩ : BufTy).Contents (Elt F) → (⟨S50000x512, .f32⟩ : BufTy).Contents (Elt F))
            h
            ((broadcastInDim S50000x512 ![0, 1] bcast_S1x512_S50000x512_0_1 : (⟨S1x512, .f32⟩ : BufTy).Contents (Elt F) → (⟨S50000x512, .f32⟩ : BufTy).Contents (Elt F))
              ((broadcastInDim S1x512 ![1] bcast_S512_S1x512_1 : (⟨S512, .f32⟩ : BufTy).Contents (Elt F) → (⟨S1x512, .f32⟩ : BufTy).Contents (Elt F))
                mean)))
          ((broadcastInDim S50000x512 ![0, 1] bcast_S1x512_S50000x512_0_1 : (⟨S1x512, .f32⟩ : BufTy).Contents (Elt F) → (⟨S50000x512, .f32⟩ : BufTy).Contents (Elt F))
            ((broadcastInDim S1x512 ![1] bcast_S512_S1x512_1 : (⟨S512, .f32⟩ : BufTy).Contents (Elt F) → (⟨S1x512, .f32⟩ : BufTy).Contents (Elt F))
              ((Host.rsqrt : (⟨S512, .f32⟩ : BufTy).Contents (Elt F) → (⟨S512, .f32⟩ : BufTy).Contents (Elt F))
                ((addf : (⟨S512, .f32⟩ : BufTy).Contents (Elt F) → (⟨S512, .f32⟩ : BufTy).Contents (Elt F) → (⟨S512, .f32⟩ : BufTy).Contents (Elt F))
                  var
                  ((broadcastInDim S512 ![] bcast_S_S512 : (⟨S_, .f32⟩ : BufTy).Contents (Elt F) → (⟨S512, .f32⟩ : BufTy).Contents (Elt F))
                    (constant S_ .f32 0x3727C5AC#32 : (⟨S_, .f32⟩ : BufTy).Contents (Elt F))))))))
        ((broadcastInDim S50000x512 ![0, 1] bcast_S1x512_S50000x512_0_1 : (⟨S1x512, .f32⟩ : BufTy).Contents (Elt F) → (⟨S50000x512, .f32⟩ : BufTy).Contents (Elt F))
          ((broadcastInDim S1x512 ![1] bcast_S512_S1x512_1 : (⟨S512, .f32⟩ : BufTy).Contents (Elt F) → (⟨S1x512, .f32⟩ : BufTy).Contents (Elt F))
            gamma)))
      ((broadcastInDim S50000x512 ![0, 1] bcast_S1x512_S50000x512_0_1 : (⟨S1x512, .f32⟩ : BufTy).Contents (Elt F) → (⟨S50000x512, .f32⟩ : BufTy).Contents (Elt F))
        ((broadcastInDim S1x512 ![1] bcast_S512_S1x512_1 : (⟨S512, .f32⟩ : BufTy).Contents (Elt F) → (⟨S1x512, .f32⟩ : BufTy).Contents (Elt F))
          beta)))

/-- The leaky rectifier: `z` where positive, `c · z` elsewhere, `c` the value of the word `0x3C23D70A` (the float nearest a
    hundredth). -/
def leaky512 (z : (⟨S50000x512, .f32⟩ : BufTy).Contents (Elt F)) : (⟨S50000x512, .f32⟩ : BufTy).Contents (Elt F) :=
    (select
      ((cmpf .ogt : (⟨S50000x512, .f32⟩ : BufTy).Contents (Elt F) → (⟨S50000x512, .f32⟩ : BufTy).Contents (Elt F) → (⟨S50000x512, .i1⟩ : BufTy).Contents (Elt F))
        z
        ((broadcastInDim S50000x512 ![] bcast_S_S50000x512 : (⟨S_, .f32⟩ : BufTy).Contents (Elt F) → (⟨S50000x512, .f32⟩ : BufTy).Contents (Elt F))
          (constant S_ .f32 0x00000000#32 : (⟨S_, .f32⟩ : BufTy).Contents (Elt F))))
      z
      ((mulf : (⟨S50000x512, .f32⟩ : BufTy).Contents (Elt F) → (⟨S50000x512, .f32⟩ : BufTy).Contents (Elt F) → (⟨S50000x512, .f32⟩ : BufTy).Contents (Elt F))
        ((broadcastInDim S50000x512 ![] bcast_S_S50000x512 : (⟨S_, .f32⟩ : BufTy).Contents (Elt F) → (⟨S50000x512, .f32⟩ : BufTy).Contents (Elt F))
          (constant S_ .f32 0x3C23D70A#32 : (⟨S_, .f32⟩ : BufTy).Contents (Elt F)))
        z) : (⟨S50000x512, .f32⟩ : BufTy).Contents (Elt F))

/-- A layer of width 512 with bias: neighbourhood sum, linear part, batch normalisation, leaky rectifier. -/
def layer512 (x : (⟨S50000x512, .f32⟩ : BufTy).Contents (Elt F)) (row col : (⟨S150000, .i32⟩ : BufTy).Contents (Elt F)) (norm : (⟨S150000, .f32⟩ : BufTy).Contents (Elt F)) (w0 w1 : (⟨S512x512, .f32⟩ : BufTy).Contents (Elt F)) (b gamma beta : (⟨S512, .f32⟩ : BufTy).Contents (Elt F)) : (⟨S50000x512, .f32⟩ : BufTy).Contents (Elt F) :=
  leaky512 (F := F) (bn512 (F := F) (pre512 (F := F) x (agg512 (F := F) x row col norm) w0 w1 b)
    (mean512 (F := F) (pre512 (F := F) x (agg512 (F := F) x row col norm) w0 w1 b))
    (var512 (F := F) (pre512 (F := F) x (agg512 (F := F) x row col norm) w0 w1 b)) gamma beta)

/-- The layer's linear part before normalisation: `x · w0 + agg · w1`. -/
def pre256 (x : (⟨S50000x512, .f32⟩ : BufTy).Contents (Elt F)) (agg : (⟨S50000x512, .f32⟩ : BufTy).Contents (Elt F)) (w0 w1 : (⟨S512x256, .f32⟩ : BufTy).Contents (Elt F)) : (⟨S50000x256, .f32⟩ : BufTy).Contents (Elt F) :=
    ((addf : (⟨S50000x256, .f32⟩ : BufTy).Contents (Elt F) → (⟨S50000x256, .f32⟩ : BufTy).Contents (Elt F) → (⟨S50000x256, .f32⟩ : BufTy).Contents (Elt F))
      (((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
        x
        w0)
      (((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))
        agg
        w1))

/-- The column means of `h` (sum over the 50000 rows divided by 50000). -/
def mean256 (h : (⟨S50000x256, .f32⟩ : BufTy).Contents (Elt F)) : (⟨S256, .f32⟩ : BufTy).Contents (Elt F) :=
    ((Host.divf : (⟨S256, .f32⟩ : BufTy).Contents (Elt F) → (⟨S256, .f32⟩ : BufTy).Contents (Elt F) → (⟨S256, .f32⟩ : BufTy).Contents (Elt F))
      (((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))
        h
        (constant S_ .f32 0x00000000#32 : (⟨S_, .f32⟩ : BufTy).Contents (Elt F)))
      ((broadcastInDim S256 ![] bcast_S_S256 : (⟨S_, .f32⟩ : BufTy).Contents (Elt F) → (⟨S256, .f32⟩ : BufTy).Contents (Elt F))
        (constant S_ .f32 0x47435000#32 : (⟨S_, .f32⟩ : BufTy).Contents (Elt F))))

/-- The column variances of `h`, biased (divisor 50000 − 0), as the outlined variance computes them: its own column
    means, the squared deviations summed, divided; not-a-number where the divisor is not positive. -/
def var256 (h : (⟨S50000x256, .f32⟩ : BufTy).Contents (Elt F)) : (⟨S256, .f32⟩ : BufTy).Contents (Elt F) :=
    ((fun p a b => select (broadcastInDim S256 ![] bcast_S_S256 p) a b)
      ((cmpf .ogt)
        (subf
          (constant S_ .f32 0x47435000#32 : (⟨S_, .f32⟩ : BufTy).Contents (Elt F))
          ((sitofp .f32)
            (constantI S_ 32 0#32 : (⟨S_, .i32⟩ : BufTy).Contents (Elt F)) : (⟨S_, .f32⟩ : BufTy).Contents (Elt F)) : (⟨S_, .f32⟩ : BufTy).Contents (Elt F))
        (constant S_ .f32 0x00000000#32 : (⟨S_, .f32⟩ : BufTy).Contents (Elt F)) : (⟨S_, .i1⟩ : BufTy).Contents (Elt F))
      (Host.divf
        ((fun x v => Host.reduceAdd x v reducesTo_S50000x256_S256_d0 h_S_)
          (mulf
            (subf
              h
              ((broadcastInDim S50000x256 ![0, 1] bcast_S1x256_S50000x256_0_1)
                (Host.divf
                  ((broadcastInDim S1x256 ![1] bcast_S256_S1x256_1)
                    ((fun x v => Host.reduceAdd x v reducesTo_S50000x256_S256_d0 h_S_)
                      h
                      (constant S_ .f32 0x00000000#32 : (⟨S_, .f32⟩ : BufTy).Contents (Elt F)) : (⟨S256, .f32⟩ : BufTy).Contents (Elt F)) : (⟨S1x256, .f32⟩ : BufTy).Contents (Elt F))
                  ((broadcastInDim S1x256 ![] bcast_S_S1x256)
                    (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F))
            (subf
              h
              ((broadcastInDim S50000x256 ![0, 1] bcast_S1x256_S50000x256_0_1)
                (Host.divf
                  ((broadcastInDim S1x256 ![1] bcast_S256_S1x256_1)
                    ((fun x v => Host.reduceAdd x v reducesTo_S50000x256_S256_d0 h_S_)
                      h
                      (constant S_ .f32 0x00000000#32 : (⟨S_, .f32⟩ : BufTy).Contents (Elt F)) : (⟨S256, .f32⟩ : BufTy).Contents (Elt F)) : (⟨S1x256, .f32⟩ : BufTy).Contents (Elt F))
                  ((broadcastInDim S1x256 ![] bcast_S_S1x256)
                    (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F))
          (constant S_ .f32 0x00000000#32 : (⟨S_, .f32⟩ : BufTy).Contents (Elt F)) : (⟨S256, .f32⟩ : BufTy).Contents (Elt F))
        ((broadcastInDim S256 ![] bcast_S_S256)
          (subf
            (constant S_ .f32 0x47435000#32 : (⟨S_, .f32⟩ : BufTy).Contents (Elt F))
            ((sitofp .f32)
              (constantI S_ 32 0#32 : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F))
      ((broadcastInDim S256 ![] bcast_S_S256)
        (id
          (constant S_ .f32 0x7FC00000#32 : (⟨S_, .f32⟩ : BufTy).Contents (Elt F)) : (⟨S_, .f32⟩ : BufTy).Contents (Elt F)) : (⟨S256, .f32⟩ : BufTy).Contents (Elt F)) : (⟨S256, .f32⟩ : BufTy).Contents (Elt F))

/-- Batch normalisation with scale and shift: `(h − mean) · rsqrt (var + ε) · γ + β`, the row vectors broadcast down the columns. -/
def bn256 (h : (⟨S50000x256, .f32⟩ : BufTy).Contents (Elt F)) (mean var gamma beta : (⟨S256, .f32⟩ : BufTy).Contents (Elt F)) : (⟨S50000x256, .f32⟩ : BufTy).Contents (Elt F) :=
    ((addf : (⟨S50000x256, .f32⟩ : BufTy).Contents (Elt F) → (⟨S50000x256, .f32⟩ : BufTy).Contents (Elt F) → (⟨S50000x256, .f32⟩ : BufTy).Contents (Elt F))
      ((mulf : (⟨S50000x256, .f32⟩ : BufTy).Contents (Elt F) → (⟨S50000x256, .f32⟩ : BufTy).Contents (Elt F) → (⟨S50000x256, .f32⟩ : BufTy).Contents (Elt F))
        ((mulf : (⟨S50000x256, .f32⟩ : BufTy).Contents (Elt F) → (⟨S50000x256, .f32⟩ : BufTy).Contents (Elt F) → (⟨S50000x256, .f32⟩ : BufTy).Contents (Elt F))
          ((subf : (⟨S50000x256, .f32⟩ : BufTy).Contents (Elt F) → (⟨S50000x256, .f32⟩ : BufTy).Contents (Elt F) → (⟨S50000x256, .f32⟩ : BufTy).Contents (Elt F))
            h
            ((broadcastInDim S50000x256 ![0, 1] bcast_S1x256_S50000x256_0_1 : (⟨S1x256, .f32⟩ : BufTy).Contents (Elt F) → (⟨S50000x256, .f32⟩ : BufTy).Contents (Elt F))
              ((broadcastInDim S1x256 ![1] bcast_S256_S1x256_1 : (⟨S256, .f32⟩ : BufTy).Contents (Elt F) → (⟨S1x256, .f32⟩ : BufTy).Contents (Elt F))
                mean)))
          ((broadcastInDim S50000x256 ![0, 1] bcast_S1x256_S50000x256_0_1 : (⟨S1x256, .f32⟩ : BufTy).Contents (Elt F) → (⟨S50000x256, .f32⟩ : BufTy).Contents (Elt F))
            ((broadcastInDim S1x256 ![1] bcast_S256_S1x256_1 : (⟨S256, .f32⟩ : BufTy).Contents (Elt F) → (⟨S1x256, .f32⟩ : BufTy).Contents (Elt F))
              ((Host.rsqrt : (⟨S256, .f32⟩ : BufTy).Contents (Elt F) → (⟨S256, .f32⟩ : BufTy).Contents (Elt F))
                ((addf : (⟨S256, .f32⟩ : BufTy).Contents (Elt F) → (⟨S256, .f32⟩ : BufTy).Contents (Elt F) → (⟨S256, .f32⟩ : BufTy).Contents (Elt F))
                  var
                  ((broadcastInDim S256 ![] bcast_S_S256 : (⟨S_, .f32⟩ : BufTy).Contents (Elt F) → (⟨S256, .f32⟩ : BufTy).Contents (Elt F))
                    (constant S_ .f32 0x3727C5AC#32 : (⟨S_, .f32⟩ : BufTy).Contents (Elt F))))))))
        ((broadcastInDim S50000x256 ![0, 1] bcast_S1x256_S50000x256_0_1 : (⟨S1x256, .f32⟩ : BufTy).Contents (Elt F) → (⟨S50000x256, .f32⟩ : BufTy).Contents (Elt F))
          ((broadcastInDim S1x256 ![1] bcast_S256_S1x256_1 : (⟨S256, .f32⟩ : BufTy).Contents (Elt F) → (⟨S1x256, .f32⟩ : BufTy).Contents (Elt F))
            gamma)))
      ((broadcastInDim S50000x256 ![0, 1] bcast_S1x256_S50000x256_0_1 : (⟨S1x256, .f32⟩ : BufTy).Contents (Elt F) → (⟨S50000x256, .f32⟩ : BufTy).Contents (Elt F))
        ((broadcastInDim S1x256 ![1] bcast_S256_S1x256_1 : (⟨S256, .f32⟩ : BufTy).Contents (Elt F) → (⟨S1x256, .f32⟩ : BufTy).Contents (Elt F))
          beta)))

/-- The leaky rectifier: `z` where positive, `c · z` elsewhere, `c` the value of the word `0x3C23D70A` (the float nearest a
    hundredth). -/
def leaky256 (z : (⟨S50000x256, .f32⟩ : BufTy).Contents (Elt F)) : (⟨S50000x256, .f32⟩ : BufTy).Contents (Elt F) :=
    (select
      ((cmpf .ogt : (⟨S50000x256, .f32⟩ : BufTy).Contents (Elt F) → (⟨S50000x256, .f32⟩ : BufTy).Contents (Elt F) → (⟨S50000x256, .i1⟩ : BufTy).Contents (Elt F))
        z
        ((broadcastInDim S50000x256 ![] bcast_S_S50000x256 : (⟨S_, .f32⟩ : BufTy).Contents (Elt F) → (⟨S50000x256, .f32⟩ : BufTy).Contents (Elt F))
          (constant S_ .f32 0x00000000#32 : (⟨S_, .f32⟩ : BufTy).Contents (Elt F))))
      z
      ((mulf : (⟨S50000x256, .f32⟩ : BufTy).Contents (Elt F) → (⟨S50000x256, .f32⟩ : BufTy).Contents (Elt F) → (⟨S50000x256, .f32⟩ : BufTy).Contents (Elt F))
        ((broadcastInDim S50000x256 ![] bcast_S_S50000x256 : (⟨S_, .f32⟩ : BufTy).Contents (Elt F) → (⟨S50000x256, .f32⟩ : BufTy).Contents (Elt F))
          (constant S_ .f32 0x3C23D70A#32 : (⟨S_, .f32⟩ : BufTy).Contents (Elt F)))
        z) : (⟨S50000x256, .f32⟩ : BufTy).Contents (Elt F))

/-- The last layer, of width 256 and without bias. -/
def layer256 (x : (⟨S50000x512, .f32⟩ : BufTy).Contents (Elt F)) (row col : (⟨S150000, .i32⟩ : BufTy).Contents (Elt F)) (norm : (⟨S150000, .f32⟩ : BufTy).Contents (Elt F)) (w0 w1 : (⟨S512x256, .f32⟩ : BufTy).Contents (Elt F)) (gamma beta : (⟨S256, .f32⟩ : BufTy).Contents (Elt F)) : (⟨S50000x256, .f32⟩ : BufTy).Contents (Elt F) :=
  leaky256 (F := F) (bn256 (F := F) (pre256 (F := F) x (agg512 (F := F) x row col norm) w0 w1)
    (mean256 (F := F) (pre256 (F := F) x (agg512 (F := F) x row col norm) w0 w1))
    (var256 (F := F) (pre256 (F := F) x (agg512 (F := F) x row col norm) w0 w1)) gamma beta)

end RefSpec

/-! ## The stretches compute them

For any starting contents `V`: the fold of a stretch, read at the buffer of the value it produces, is the composed
term over `V` at the buffers the stretch reads from outside itself. The fold is unrolled, each operation's result
taken at its own buffer and passed over at every other, and what is left is the definition unfolded. -/

attribute [local irreducible] Host.gather Host.scatterAdd Host.reduceAdd in
set_option maxRecDepth 65536 in
set_option maxHeartbeats 8000000 in
theorem opsIds_row (V : Valuation τ sig (Elt F)) :
    after opsIds V (main_v1 : DevRef τ sig) = RefSpec.rowIds (F := F) (V (main_arg1 : DevRef τ sig)) := by
  after_results_simp
  rfl

attribute [local irreducible] Host.gather Host.scatterAdd Host.reduceAdd in
set_option maxRecDepth 65536 in
set_option maxHeartbeats 8000000 in
theorem opsIds_col (V : Valuation τ sig (Elt F)) :
    after opsIds V (main_v3 : DevRef τ sig) = RefSpec.colIds (F := F) (V (main_arg1 : DevRef τ sig)) := by
  after_results_simp
  rfl

attribute [local irreducible] Host.gather Host.scatterAdd Host.reduceAdd in
set_option maxRecDepth 65536 in
set_option maxHeartbeats 8000000 in
theorem opsIds_norm (V : Valuation τ sig (Elt F)) :
    after opsIds V (main_v32 : DevRef τ sig) = RefSpec.norm (F := F) (V (main_arg1 : DevRef τ sig)) := by
  after_results_simp
  rfl

attribute [local irreducible] Host.gather Host.scatterAdd Host.reduceAdd in
set_option maxRecDepth 65536 in
set_option maxHeartbeats 8000000 in
theorem opsLayer0_out (V : Valuation τ sig (Elt F)) :
    after opsLayer0 V (main_v75 : DevRef τ sig)
      = RefSpec.layer512 (F := F) (V (main_arg0 : DevRef τ sig)) (V (main_v1 : DevRef τ sig)) (V (main_v3 : DevRef τ sig)) (V (main_v32 : DevRef τ sig)) (V (main_arg2 : DevRef τ sig)) (V (main_arg3 : DevRef τ sig)) (V (main_arg4 : DevRef τ sig)) (V (main_arg5 : DevRef τ sig)) (V (main_arg6 : DevRef τ sig)) := by
  simp only [opsLayer0, after_append]
  after_results_simp
  rfl

attribute [local irreducible] Host.gather Host.scatterAdd Host.reduceAdd in
set_option maxRecDepth 65536 in
set_option maxHeartbeats 8000000 in
theorem opsLayer1_out (V : Valuation τ sig (Elt F)) :
    after opsLayer1 V (main_v118 : DevRef τ sig)
      = RefSpec.layer512 (F := F) (V (main_v75 : DevRef τ sig)) (V (main_v1 : DevRef τ sig)) (V (main_v3 : DevRef τ sig)) (V (main_v32 : DevRef τ sig)) (V (main_arg7 : DevRef τ sig)) (V (main_arg8 : DevRef τ sig)) (V (main_arg9 : DevRef τ sig)) (V (main_arg10 : DevRef τ sig)) (V (main_arg11 : DevRef τ sig)) := by
  simp only [opsLayer1, after_append]
  after_results_simp
  rfl

attribute [local irreducible] Host.gather Host.scatterAdd Host.reduceAdd in
set_option maxRecDepth 65536 in
set_option maxHeartbeats 8000000 in
theorem opsLayer2_out (V : Valuation τ sig (Elt F)) :
    after opsLayer2 V (main_v158 : DevRef τ sig)
      = RefSpec.layer256 (F := F) (V (main_v118 : DevRef τ sig)) (V (main_v1 : DevRef τ sig)) (V (main_v3 : DevRef τ sig)) (V (main_v32 : DevRef τ sig)) (V (main_arg12 : DevRef τ sig)) (V (main_arg13 : DevRef τ sig)) (V (main_arg14 : DevRef τ sig)) (V (main_arg15 : DevRef τ sig)) := by
  simp only [opsLayer2, after_append]
  after_results_simp
  rfl

/-! ## What each stretch leaves alone: every buffer declared before its first result -/

/-- The first stretch leaves the arguments alone. -/
theorem opsIds_keeps (V : Valuation τ sig (Elt F)) {r : Ref sig .tc} (hr : r.idx.val < 16) :
    after opsIds V (r : DevRef τ sig) = V (r : DevRef τ sig) :=
  after_keeps opsIds V opsIds_writes (Nat.not_le.mpr hr)

/-- The first layer leaves the arguments, the endpoints and the normalisation alone. -/
theorem opsLayer0_keeps (V : Valuation τ sig (Elt F)) {r : Ref sig .tc} (hr : r.idx.val < 60) :
    after opsLayer0 V (r : DevRef τ sig) = V (r : DevRef τ sig) :=
  after_keeps opsLayer0 V opsLayer0_writes (Nat.not_le.mpr hr)

/-- The second layer leaves alone everything up to the first layer's output. -/
theorem opsLayer1_keeps (V : Valuation τ sig (Elt F)) {r : Ref sig .tc} (hr : r.idx.val < 133) :
    after opsLayer1 V (r : DevRef τ sig) = V (r : DevRef τ sig) :=
  after_keeps opsLayer1 V opsLayer1_writes (Nat.not_le.mpr hr)

/-- The third layer leaves alone everything up to the second layer's output. -/
theorem opsLayer2_keeps (V : Valuation τ sig (Elt F)) {r : Ref sig .tc} (hr : r.idx.val < 206) :
    after opsLayer2 V (r : DevRef τ sig) = V (r : DevRef τ sig) :=
  after_keeps opsLayer2 V opsLayer2_writes (Nat.not_le.mpr hr)

/-! ## The three layers composed -/

/-- The program's result as a function of its sixteen arguments: the three layers one after the other over the same
    edge endpoints and normalisation. Each layer's stretch reads its input features and parameters where the earlier
    stretches left them: they write later buffers only. -/
theorem result_eq (V : Valuation τ sig (Elt F)) :
    after ops V (main_v158 : DevRef τ sig)
      = RefSpec.layer256 (F := F)
          (RefSpec.layer512 (F := F)
            (RefSpec.layer512 (F := F) (V (main_arg0 : DevRef τ sig))
              (RefSpec.rowIds (F := F) (V (main_arg1 : DevRef τ sig))) (RefSpec.colIds (F := F) (V (main_arg1 : DevRef τ sig))) (RefSpec.norm (F := F) (V (main_arg1 : DevRef τ sig)))
              (V (main_arg2 : DevRef τ sig)) (V (main_arg3 : DevRef τ sig)) (V (main_arg4 : DevRef τ sig)) (V (main_arg5 : DevRef τ sig)) (V (main_arg6 : DevRef τ sig)))
            (RefSpec.rowIds (F := F) (V (main_arg1 : DevRef τ sig))) (RefSpec.colIds (F := F) (V (main_arg1 : DevRef τ sig))) (RefSpec.norm (F := F) (V (main_arg1 : DevRef τ sig)))
            (V (main_arg7 : DevRef τ sig)) (V (main_arg8 : DevRef τ sig)) (V (main_arg9 : DevRef τ sig)) (V (main_arg10 : DevRef τ sig)) (V (main_arg11 : DevRef τ sig)))
          (RefSpec.rowIds (F := F) (V (main_arg1 : DevRef τ sig))) (RefSpec.colIds (F := F) (V (main_arg1 : DevRef τ sig))) (RefSpec.norm (F := F) (V (main_arg1 : DevRef τ sig)))
          (V (main_arg12 : DevRef τ sig)) (V (main_arg13 : DevRef τ sig)) (V (main_arg14 : DevRef τ sig)) (V (main_arg15 : DevRef τ sig)) := by
  show after (opsIds ++ opsLayer0 ++ opsLayer1 ++ opsLayer2) V _ = _
  rw [after_append (opsIds ++ opsLayer0 ++ opsLayer1) opsLayer2, after_append (opsIds ++ opsLayer0) opsLayer1,
    after_append opsIds opsLayer0]
  rw [opsLayer2_out, opsLayer1_out,
    opsLayer1_keeps _ (r := main_v1) (by decide),
    opsLayer1_keeps _ (r := main_v3) (by decide),
    opsLayer1_keeps _ (r := main_v32) (by decide),
    opsLayer1_keeps _ (r := main_arg12) (by decide),
    opsLayer1_keeps _ (r := main_arg13) (by decide),
    opsLayer1_keeps _ (r := main_arg14) (by decide),
    opsLayer1_keeps _ (r := main_arg15) (by decide)]
  rw [opsLayer0_out,
    opsLayer0_keeps _ (r := main_v1) (by decide),
    opsLayer0_keeps _ (r := main_v3) (by decide),
    opsLayer0_keeps _ (r := main_v32) (by decide),
    opsLayer0_keeps _ (r := main_arg7) (by decide),
    opsLayer0_keeps _ (r := main_arg8) (by decide),
    opsLayer0_keeps _ (r := main_arg9) (by decide),
    opsLayer0_keeps _ (r := main_arg10) (by decide),
    opsLayer0_keeps _ (r := main_arg11) (by decide),
    opsLayer0_keeps _ (r := main_arg12) (by decide),
    opsLayer0_keeps _ (r := main_arg13) (by decide),
    opsLayer0_keeps _ (r := main_arg14) (by decide),
    opsLayer0_keeps _ (r := main_arg15) (by decide)]
  rw [opsIds_row, opsIds_col, opsIds_norm,
    opsIds_keeps _ (r := main_arg0) (by decide),
    opsIds_keeps _ (r := main_arg2) (by decide),
    opsIds_keeps _ (r := main_arg3) (by decide),
    opsIds_keeps _ (r := main_arg4) (by decide),
    opsIds_keeps _ (r := main_arg5) (by decide),
    opsIds_keeps _ (r := main_arg6) (by decide),
    opsIds_keeps _ (r := main_arg7) (by decide),
    opsIds_keeps _ (r := main_arg8) (by decide),
    opsIds_keeps _ (r := main_arg9) (by decide),
    opsIds_keeps _ (r := main_arg10) (by decide),
    opsIds_keeps _ (r := main_arg11) (by decide),
    opsIds_keeps _ (r := main_arg12) (by decide),
    opsIds_keeps _ (r := main_arg13) (by decide),
    opsIds_keeps _ (r := main_arg14) (by decide),
    opsIds_keeps _ (r := main_arg15) (by decide)]

end Cert.ReferenceIdeal.RefRun

end
-- ==== Proof.Assemble.lean ====
/-
  The certificate's claims assembled from one hypothesis.

  The idealized kernel's run ends with its result buffer at the last boundary's contents, and the reference's run
  ends with its result buffer at the three graph layers composed over its sixteen arguments. If the first is that
  same composition of the kernel's arguments whenever the precondition holds, then from memories that agree on the
  arguments both programs end with equal results and unchanged arguments; the three frame claims are the
  programs' runs.
-/
import proofs.«142385_j6322191859752_1_alg».proof.Defs
import proofs.«142385_j6322191859752_1_alg».proof.Proof.Gen.Kernel.Frame
import proofs.«142385_j6322191859752_1_alg».proof.Proof.Gen.KernelIdeal.Frame
import proofs.«142385_j6322191859752_1_alg».proof.Proof.Gen.Kernel
import proofs.«142385_j6322191859752_1_alg».proof.Proof.Gen.KernelIdeal
import proofs.«142385_j6322191859752_1_alg».proof.Proof.Gen.ReferenceIdeal
import proofs.«142385_j6322191859752_1_alg».proof.Proof.Gen.Pre_finite_inputs
import proofs.«142385_j6322191859752_1_alg».proof.Proof.KRun
import proofs.«142385_j6322191859752_1_alg».proof.Proof.RefRun
import proofs.«142385_j6322191859752_1_alg».proof.Proof.RefLayers
import Idealize.ShloMosaic.Adequacy
import Idealize.ShloMosaic.Init

noncomputable section

namespace Cert.Assemble

open Idealize.ShloMosaic Idealize.ShloMosaic.TcCoe Idealize.SL.Sem Idealize.ShloMosaic.StableHlo
open Cert.ReferenceIdeal.RefRun

/-- The reference's result as a function of the sixteen argument arrays: the three graph layers one after the other
    over the same edge endpoints and normalisation, all read off the index array `e`. -/
def refOut (a0 : FVec Ideal Cert.ReferenceIdeal.S50000x512 .f32) (e : IVec Cert.ReferenceIdeal.S2x150000 32)
    (a2 a3 : FVec Ideal Cert.ReferenceIdeal.S512x512 .f32) (a4 a5 a6 : FVec Ideal Cert.ReferenceIdeal.S512 .f32)
    (a7 a8 : FVec Ideal Cert.ReferenceIdeal.S512x512 .f32) (a9 a10 a11 : FVec Ideal Cert.ReferenceIdeal.S512 .f32)
    (a12 a13 : FVec Ideal Cert.ReferenceIdeal.S512x256 .f32) (a14 a15 : FVec Ideal Cert.ReferenceIdeal.S256 .f32) : FVec Ideal Cert.ReferenceIdeal.S50000x256 .f32 :=
  RefSpec.layer256 (F := Ideal)
    (RefSpec.layer512 (F := Ideal)
      (RefSpec.layer512 (F := Ideal) a0 (RefSpec.rowIds (F := Ideal) e) (RefSpec.colIds (F := Ideal) e) (RefSpec.norm (F := Ideal) e) a2 a3 a4 a5 a6)
      (RefSpec.rowIds (F := Ideal) e) (RefSpec.colIds (F := Ideal) e) (RefSpec.norm (F := Ideal) e) a7 a8 a9 a10 a11)
    (RefSpec.rowIds (F := Ideal) e) (RefSpec.colIds (F := Ideal) e) (RefSpec.norm (F := Ideal) e) a12 a13 a14 a15

/-- The reference's operations leave its result buffer at `refOut` of the argument buffers' contents. -/
theorem after_refOut (V : Valuation Cert.ReferenceIdeal.τ Cert.ReferenceIdeal.sig (Elt Ideal)) :
    after (ops (F := Ideal)) V (Cert.ReferenceIdeal.main_v158 : DevRef Cert.ReferenceIdeal.τ Cert.ReferenceIdeal.sig)
      = refOut (V (Cert.ReferenceIdeal.main_arg0 : DevRef Cert.ReferenceIdeal.τ Cert.ReferenceIdeal.sig)) (V (Cert.ReferenceIdeal.main_arg1 : DevRef Cert.ReferenceIdeal.τ Cert.ReferenceIdeal.sig)) (V (Cert.ReferenceIdeal.main_arg2 : DevRef Cert.ReferenceIdeal.τ Cert.ReferenceIdeal.sig)) (V (Cert.ReferenceIdeal.main_arg3 : DevRef Cert.ReferenceIdeal.τ Cert.ReferenceIdeal.sig)) (V (Cert.ReferenceIdeal.main_arg4 : DevRef Cert.ReferenceIdeal.τ Cert.ReferenceIdeal.sig)) (V (Cert.ReferenceIdeal.main_arg5 : DevRef Cert.ReferenceIdeal.τ Cert.ReferenceIdeal.sig)) (V (Cert.ReferenceIdeal.main_arg6 : DevRef Cert.ReferenceIdeal.τ Cert.ReferenceIdeal.sig)) (V (Cert.ReferenceIdeal.main_arg7 : DevRef Cert.ReferenceIdeal.τ Cert.ReferenceIdeal.sig)) (V (Cert.ReferenceIdeal.main_arg8 : DevRef Cert.ReferenceIdeal.τ Cert.ReferenceIdeal.sig)) (V (Cert.ReferenceIdeal.main_arg9 : DevRef Cert.ReferenceIdeal.τ Cert.ReferenceIdeal.sig)) (V (Cert.ReferenceIdeal.main_arg10 : DevRef Cert.ReferenceIdeal.τ Cert.ReferenceIdeal.sig)) (V (Cert.ReferenceIdeal.main_arg11 : DevRef Cert.ReferenceIdeal.τ Cert.ReferenceIdeal.sig)) (V (Cert.ReferenceIdeal.main_arg12 : DevRef Cert.ReferenceIdeal.τ Cert.ReferenceIdeal.sig)) (V (Cert.ReferenceIdeal.main_arg13 : DevRef Cert.ReferenceIdeal.τ Cert.ReferenceIdeal.sig)) (V (Cert.ReferenceIdeal.main_arg14 : DevRef Cert.ReferenceIdeal.τ Cert.ReferenceIdeal.sig)) (V (Cert.ReferenceIdeal.main_arg15 : DevRef Cert.ReferenceIdeal.τ Cert.ReferenceIdeal.sig)) :=
  result_eq V

/-- THE ONE HYPOTHESIS: under the precondition, the idealized kernel's result buffer at the last boundary is the
    reference's result function of the kernel's sixteen arguments. -/
abbrev ValueHyp : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.Pre_KernelIdeal (hPre_finite_inputs := Cert.Pre_finite_inputs.Gen.facts) m →
      Cert.KernelIdeal.Gen.W14 m ρ c (Proc.devRef .tc Cert.KernelIdeal.main_v135)
        = refOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))

/-- From memories agreeing on the arguments, both programs run, end with equal results and unchanged arguments. -/
theorem algebraic_of (hval : ValueHyp) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.KernelIdeal.Gen.W14 m ρ c (Proc.devRef .tc Cert.KernelIdeal.main_v135), Cert.KernelIdeal.KRun.run (F := Ideal) m ρ, ?_⟩
  refine (θ_run Cert.ReferenceIdeal.defs _ _).mono (fun r h c => ⟨?_,
      (h c Cert.ReferenceIdeal.main_arg0).trans (Cert.ReferenceIdeal.RefRun.arg0_unchanged _),
      (h c Cert.ReferenceIdeal.main_arg1).trans (Cert.ReferenceIdeal.RefRun.arg1_unchanged _),
      (h c Cert.ReferenceIdeal.main_arg2).trans (Cert.ReferenceIdeal.RefRun.arg2_unchanged _),
      (h c Cert.ReferenceIdeal.main_arg3).trans (Cert.ReferenceIdeal.RefRun.arg3_unchanged _),
      (h c Cert.ReferenceIdeal.main_arg4).trans (Cert.ReferenceIdeal.RefRun.arg4_unchanged _),
      (h c Cert.ReferenceIdeal.main_arg5).trans (Cert.ReferenceIdeal.RefRun.arg5_unchanged _),
      (h c Cert.ReferenceIdeal.main_arg6).trans (Cert.ReferenceIdeal.RefRun.arg6_unchanged _),
      (h c Cert.ReferenceIdeal.main_arg7).trans (Cert.ReferenceIdeal.RefRun.arg7_unchanged _),
      (h c Cert.ReferenceIdeal.main_arg8).trans (Cert.ReferenceIdeal.RefRun.arg8_unchanged _),
      (h c Cert.ReferenceIdeal.main_arg9).trans (Cert.ReferenceIdeal.RefRun.arg9_unchanged _),
      (h c Cert.ReferenceIdeal.main_arg10).trans (Cert.ReferenceIdeal.RefRun.arg10_unchanged _),
      (h c Cert.ReferenceIdeal.main_arg11).trans (Cert.ReferenceIdeal.RefRun.arg11_unchanged _),
      (h c Cert.ReferenceIdeal.main_arg12).trans (Cert.ReferenceIdeal.RefRun.arg12_unchanged _),
      (h c Cert.ReferenceIdeal.main_arg13).trans (Cert.ReferenceIdeal.RefRun.arg13_unchanged _),
      (h c Cert.ReferenceIdeal.main_arg14).trans (Cert.ReferenceIdeal.RefRun.arg14_unchanged _),
      (h c Cert.ReferenceIdeal.main_arg15).trans (Cert.ReferenceIdeal.RefRun.arg15_unchanged _)⟩)
    (Cert.ReferenceIdeal.RefRun.run_main (F := Ideal) m' ρ')
  have h1 := (h c Cert.ReferenceIdeal.main_v158).trans (after_refOut _)
  obtain ⟨g0, g1, g2, g3, g4, g5, g6, g7, g8, g9, g10, g11, g12, g13, g14, g15⟩ := hagree c
  beta_reduce
  rw [hval m ρ c hpre, ← g0, ← g1, ← g2, ← g3, ← g4, ← g5, ← g6, ← g7, ← g8, ← g9, ← g10, ← g11, ← g12, ← g13, ← g14, ← g15]
  exact h1

/-- Everything the certificate claims, from the one hypothesis. -/
theorem claim_of (hval : ValueHyp) : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m g _ => Cert.ReferenceIdeal.RefRun.frame m g, trivial, algebraic_of hval⟩

end Cert.Assemble

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.Pay0.lean ====
/-
  The linear body of launch 0 read at an entry, on the extended reals.

  On a block of 2000 rows the stored value at `(p, q)` is `∑ₖ x(p,k)·W0(k,q) + ∑ₖ a(p,k)·W1(k,q) + b(0,q)`: each
  matrix product into a zero accumulator is the plain sum over the shared axis, the bias row is broadcast down the
  rows. The two accumulator updates add to the running row the column sum over the block's 2000 rows of that value,
  and of its square.
-/
import proofs.«142385_j6322191859752_1_alg».proof.Proof.Gen.KernelIdeal.Skeleton
import proofs.«142385_j6322191859752_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay0

open Cert.KernelIdeal Cert.KernelIdeal.Gen
open Idealize.ShloMosaic Idealize.ShloMosaic.ValueIdx
open scoped BigOperators

/-- The printed dimension numbers are the plain ones: rows by contraction times contraction by columns. -/
theorem dot_eq : dot_S2000x512_S512x512_S2000x512_1_0_0_1_n_n = DotDims.plain 2000 512 512 := rfl

/-- The linear layer at entry `(p, q)` of a block of rows. -/
def lin (x a : S2000x512.Idx → EReal) (w0 w1 : S512x512.Idx → EReal) (b : S1x512.Idx → EReal) (p : Fin 2000) (q : Fin 512) : EReal :=
  ((∑ k : Fin 512, x (ix2 p k) * w0 (ix2 k q)) + (∑ k : Fin 512, a (ix2 p k) * w1 (ix2 k q))) + b (ix2 (0 : Fin 1) q)

/-- One matrix product into the zero accumulator, at `(p, q)`. -/
theorem mm_apply (x : FVec Ideal S2000x512 .f32) (w : FVec Ideal S512x512 .f32) (p : Fin 2000) (q : Fin 512) :
    matmul (F := Ideal) dot_S2000x512_S512x512_S2000x512_1_0_0_1_n_n none x w (constant S2000x512 .f32 0x00000000#32) (ix2 p q) = ∑ k : Fin 512, x (ix2 p k) * w (ix2 k q) := by
  refine (Ideal.matmul_constant_zero_apply dot_S2000x512_S512x512_S2000x512_1_0_0_1_n_n none x w (ix2 p q)).trans ?_
  rw [dot_eq]
  exact Cert.LibDense.plain_sum 2000 512 512 x w (ix2 p q)

theorem pay2_apply (x0 : FVec Ideal S2000x512 .f32) (w0 : FVec Ideal S512x512 .f32) (x1 : FVec Ideal S2000x512 .f32) (w1 : FVec Ideal S512x512 .f32)
    (b : FVec Ideal S1x512 .f32) (p : Fin 2000) (q : Fin 512) :
    k0_pay2 (F := Ideal) x0 w0 x1 w1 b (ix2 p q) = lin x0 x1 w0 w1 b p q := by
  have eb : broadcastTo S2000x512 b broadcasts_S1x512_S2000x512 (ix2 p q) = b (ix2 (0 : Fin 1) q) := broadcastTo_1b_ab_apply b _ p q
  unfold k0_pay2
  simp only [shapeCast_self]
  show (matmul (F := Ideal) dot_S2000x512_S512x512_S2000x512_1_0_0_1_n_n none x0 w0 (constant S2000x512 .f32 0x00000000#32) (ix2 p q)
      + matmul (F := Ideal) dot_S2000x512_S512x512_S2000x512_1_0_0_1_n_n none x1 w1 (constant S2000x512 .f32 0x00000000#32) (ix2 p q))
      + broadcastTo S2000x512 b broadcasts_S1x512_S2000x512 (ix2 p q) = _
  rw [mm_apply, mm_apply, eb]
  rfl

/-- A [512] vector cast to the row [1, 512] reads, at `(0, q)`, the vector at `q`. -/
theorem row_cast_apply (v : S512.Idx → EReal) (q : Fin 512) :
    shapeCast S1x512 v shapeCasts_S512_S1x512 (ix2 (0 : Fin 1) q) = v (ix1 q) := by
  refine shapeCast_apply v shapeCasts_S512_S1x512 (ix2 (0 : Fin 1) q) (ix1 q) ?_
  rw [Shape.rowMajor_val_two, Shape.rowMajor_val_one]
  show q.val = 0 * 512 + q.val
  omega

/-- The column sum over the block's rows, at column `q`. -/
theorem colsum_apply (src : FVec Ideal S2000x512 .f32) (q : Fin 512) :
    multiReduction (F := Ideal) .add [0] S512 src 0x00000000#32 reduces_S2000x512_S512 (.inl rfl) rfl (ix1 q) = ∑ p : Fin 2000, src (ix2 p q) := by
  refine (Ideal.multiReduction_add_single src 0x00000000#32 reduces_S2000x512_S512 (.inl rfl) rfl (ix1 q)).trans ?_
  refine Finset.sum_congr rfl fun p _ => congrArg src ?_
  funext a
  match a with
  | ⟨0, _⟩ => rfl
  | ⟨1, _⟩ => rfl

theorem pay3_apply (x0 : FVec Ideal S2000x512 .f32) (w0 : FVec Ideal S512x512 .f32) (x1 : FVec Ideal S2000x512 .f32) (w1 : FVec Ideal S512x512 .f32)
    (b : FVec Ideal S1x512 .f32) (v16 : FVec Ideal S1x512 .f32) (q : Fin 512) :
    k0_pay3 (F := Ideal) x0 w0 x1 w1 b v16 (ix2 (0 : Fin 1) q)
      = v16 (ix2 (0 : Fin 1) q) + ∑ p : Fin 2000, k0_pay2 (F := Ideal) x0 w0 x1 w1 b (ix2 p q) := by
  unfold k0_pay3
  simp only [shapeCast_self]
  show v16 (ix2 (0 : Fin 1) q) + shapeCast S1x512 (multiReduction (F := Ideal) .add [0] S512 (k0_pay2 (F := Ideal) x0 w0 x1 w1 b) 0x00000000#32 reduces_S2000x512_S512 (.inl rfl) rfl) shapeCasts_S512_S1x512 (ix2 (0 : Fin 1) q) = _
  rw [row_cast_apply, colsum_apply]

theorem pay4_apply (x0 : FVec Ideal S2000x512 .f32) (w0 : FVec Ideal S512x512 .f32) (x1 : FVec Ideal S2000x512 .f32) (w1 : FVec Ideal S512x512 .f32)
    (b : FVec Ideal S1x512 .f32) (v22 : FVec Ideal S1x512 .f32) (q : Fin 512) :
    k0_pay4 (F := Ideal) x0 w0 x1 w1 b v22 (ix2 (0 : Fin 1) q)
      = v22 (ix2 (0 : Fin 1) q) + ∑ p : Fin 2000, k0_pay2 (F := Ideal) x0 w0 x1 w1 b (ix2 p q) * k0_pay2 (F := Ideal) x0 w0 x1 w1 b (ix2 p q) := by
  unfold k0_pay4
  simp only [shapeCast_self]
  show v22 (ix2 (0 : Fin 1) q) + shapeCast S1x512 (multiReduction (F := Ideal) .add [0] S512 (mulf (F := Ideal) (k0_pay2 (F := Ideal) x0 w0 x1 w1 b) (k0_pay2 (F := Ideal) x0 w0 x1 w1 b)) 0x00000000#32 reduces_S2000x512_S512 (.inl rfl) rfl) shapeCasts_S512_S1x512 (ix2 (0 : Fin 1) q) = _
  rw [row_cast_apply, colsum_apply]
  rfl

end Cert.KernelIdeal.Pay0

end
-- ==== Proof.LibSumBlocks.lean ====
/-
  A sum over all rows as a sum over row blocks.

  An array of `A·B` rows walked in `A` consecutive blocks of `B` rows: the sum over all rows of any quantity in a
  commutative monoid is the sum over the blocks of the sums inside each block, row `k·B + p` being row `p` of block
  `k`. A second form has the block index run over a range of naturals with a guard, the shape an induction over
  grid points produces. Generic in `A`, `B` and the monoid.
-/
import Mathlib.Algebra.BigOperators.Fin
import Mathlib.Logic.Equiv.Fin.Basic

namespace Cert.LibSumBlocks

open scoped BigOperators

variable {M : Type*} [AddCommMonoid M]

theorem row_lt {A B : ℕ} (k : Fin A) (p : Fin B) : k.val * B + p.val < A * B := by
  have hk := k.isLt
  have hp := p.isLt
  have h1 : k.val * B + p.val < k.val * B + B := by omega
  have h2 : k.val * B + B = (k.val + 1) * B := (Nat.succ_mul k.val B).symm
  have h3 : (k.val + 1) * B ≤ A * B := Nat.mul_le_mul_right B hk
  omega

/-- The sum over all `A·B` rows is the sum over blocks of the sums inside the blocks. -/
theorem sum_blocks (A B : ℕ) (f : Fin (A * B) → M) :
    ∑ r : Fin (A * B), f r = ∑ k : Fin A, ∑ p : Fin B, f ⟨k.val * B + p.val, row_lt k p⟩ := by
  rw [← Equiv.sum_comp finProdFinEquiv f, Fintype.sum_prod_type]
  refine Finset.sum_congr rfl fun k _ => Finset.sum_congr rfl fun p _ => congrArg f (Fin.ext ?_)
  show p.val + B * k.val = k.val * B + p.val
  rw [Nat.mul_comm, Nat.add_comm]

/-- The same with the block index running over a range of naturals under a guard. -/
theorem sum_blocks_range (A B : ℕ) (f : Fin (A * B) → M) :
    ∑ r : Fin (A * B), f r
      = ∑ k ∈ Finset.range A, if h : k < A then ∑ p : Fin B, f ⟨k * B + p.val, row_lt ⟨k, h⟩ p⟩ else 0 := by
  rw [sum_blocks, Finset.sum_range]
  refine Finset.sum_congr rfl fun k _ => ?_
  rw [dif_pos k.isLt]

end Cert.LibSumBlocks
-- ==== Proof.Lin0.lean ====
/-
  What launch 0 (the linear layer with its column statistics, [50000, 512] rows in 25 blocks of 2000, 512 output
  columns) leaves in its two result arrays, for any contents `V` of the buffers at its entry.

  Grid point `t` reads rows `2000·t …` of `x` and of the aggregated `a`, both weight matrices and the bias row, and
  stores `P_t = x_t·W0 + a_t·W1 + b` through its whole output block, written back to the same rows: the first result
  array ends holding every block's `P_t`. The second result is a [2, 512] accumulator whose block never moves: point 0
  zeroes it, every point adds the column sums of `P_t` to row 0 and of `P_t²` to row 1, and the last point alone
  writes it back. So by induction on the point it holds the running sums, and the array ends at the sums over all 25
  points.
-/
import proofs.«142385_j6322191859752_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import proofs.«142385_j6322191859752_1_alg».proof.Proof.Pay0
import proofs.«142385_j6322191859752_1_alg».proof.Proof.LibSumBlocks

set_option maxRecDepth 16384

noncomputable section

namespace Cert.KernelIdeal.Lin0

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

open scoped BigOperators

variable (V : (c : Dev nD) → (b : Ref sig .tc) → Buf (Elt F) ((c : Thread nD τ).loc b))

theorem hz : (![0, 0] : Fin 2 → Nat) = fun _ => 0 := funext fun a => by fin_cases a <;> rfl

/-! ## What each case of the body leaves in the first output's buffer: the one covering store's payload -/

theorem out_A_5 (c : Dev nD) (i : grid0.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : cond0_0 i)
    (x0 x1 : Vec F S2000x512 .f32) (x2 x3 : Vec F S512x512 .f32) (x4 : Vec F S1x512 .f32) :
    out0_A_5 c i a1 h1 a2 h2 a3 h3 a4 h4 a5 h5 a6 h6 a7 h7 hc x0 x1 x2 x3 x4 = k0_pay2 x0 x2 x1 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  rw [View.canon_unit_zero hz]
  simp only [View.readAt_eq_ld, h1.read_unread, h2.read_unread, h3.read_unread, h4.read_unread, h5.read_unread,
    View.ld_unit_zero (S := S2000x512) hz, View.ld_unit_zero (S := S512x512) hz, View.ld_unit_zero (S := S1x512) hz]

theorem out_B_5 (c : Dev nD) (i : grid0.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : ¬cond0_0 i)
    (x0 x1 : Vec F S2000x512 .f32) (x2 x3 : Vec F S512x512 .f32) (x4 : Vec F S1x512 .f32) (xo6 : Vec F S2x512 .f32) :
    out0_B_5 c i a1 h1 a2 h2 a3 h3 a4 h4 a5 h5 a6 h6 a7 h7 hc x0 x1 x2 x3 x4 xo6 = k0_pay2 x0 x2 x1 x3 x4 := by
  unfold out0_B_5
  rw [View.read_writes_eq_canon _ _ _ (cover0_B_5 c i a1 h1 a2 h2 a3 h3 a4 h4 a5 h5 a6 h6 a7 h7 hc x0 x1 x2 x3 x4 xo6)]
  unfold kernelRun0_B
  dsimp only
  rw [View.canon_unit_zero hz]
  simp only [View.readAt_eq_ld, h1.read_unread, h2.read_unread, h3.read_unread, h4.read_unread, h5.read_unread,
    View.ld_unit_zero (S := S2000x512) hz, View.ld_unit_zero (S := S512x512) hz, View.ld_unit_zero (S := S1x512) hz]

/-! ## The accumulator's two rows -/

/-- Row 0 and row 1 of the [2, 512] accumulator, as the rectangles the body loads and stores them through. -/
abbrev rrow0 : Rect S2x512 := Rect.unit ![0, 0] ![1, 512] inb_S2x512_S1x512_0_0
abbrev rrow1 : Rect S2x512 := Rect.unit ![1, 0] ![1, 512] inb_S2x512_S1x512_1_0

theorem emb_row0 (q : Fin 512) : (rrow0 : Rect S2x512).emb (ix2 (0 : Fin 1) q) = ix2 (0 : Fin 2) q := by
  funext a; apply Fin.ext
  match a with
  | ⟨0, _⟩ => show 0 + 1 * 0 = 0; rfl
  | ⟨1, _⟩ => show 0 + 1 * q.val = q.val; omega

theorem emb_row1 (q : Fin 512) : (rrow1 : Rect S2x512).emb (ix2 (0 : Fin 1) q) = ix2 (1 : Fin 2) q := by
  funext a; apply Fin.ext
  match a with
  | ⟨0, _⟩ => show 1 + 1 * 0 = 1; rfl
  | ⟨1, _⟩ => show 0 + 1 * q.val = q.val; omega

theorem row0_not_mem_row1 (q : Fin 512) : ix2 (0 : Fin 2) q ∉ (rrow1 : Rect S2x512).set := by
  rw [Rect.mem_set_unit]
  intro h
  have h0 : (1 : ℕ) ≤ 0 := (h 0).1
  omega

/-- Two row stores, row 1 last, over anything: row 1 reads the last store, row 0 the one before. -/
theorem canon_row1 (w1 : Vec F S1x512 .f32) (L : List (View.Piece (Elt F) S2x512 .f32)) (q : Fin 512) :
    View.canon ((⟨rrow1, w1⟩ : View.Piece (Elt F) S2x512 .f32) :: L) (ix2 (1 : Fin 2) q) = w1 (ix2 (0 : Fin 1) q) := by
  rw [← emb_row1 q]; exact View.canon_cons_emb (rrow1 : Rect S2x512) w1 L _

theorem canon_row0 (w1 w0 : Vec F S1x512 .f32) (L : List (View.Piece (Elt F) S2x512 .f32)) (q : Fin 512) :
    View.canon ((⟨rrow1, w1⟩ : View.Piece (Elt F) S2x512 .f32) :: ⟨rrow0, w0⟩ :: L) (ix2 (0 : Fin 2) q) = w0 (ix2 (0 : Fin 1) q) := by
  rw [View.canon_cons_of_not_mem (⟨rrow1, w1⟩ : View.Piece (Elt F) S2x512 .f32) (⟨rrow0, w0⟩ :: L) (row0_not_mem_row1 q), ← emb_row0 q]
  exact View.canon_cons_emb (rrow0 : Rect S2x512) w0 L _

/-- Case B (every point but the first): each row is its payload over that row of the running contents. -/
theorem out_B_6_row0 (c : Dev nD) (i : grid0.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : ¬cond0_0 i)
    (x0 x1 : Vec F S2000x512 .f32) (x2 x3 : Vec F S512x512 .f32) (x4 : Vec F S1x512 .f32) (xo6 : Vec F S2x512 .f32) (q : Fin 512) :
    out0_B_6 c i a1 h1 a2 h2 a3 h3 a4 h4 a5 h5 a6 h6 a7 h7 hc x0 x1 x2 x3 x4 xo6 (ix2 (0 : Fin 2) q)
      = k0_pay3 x0 x2 x1 x3 x4 (View.ld xo6 rrow0) (ix2 (0 : Fin 1) q) := by
  unfold out0_B_6
  rw [View.read_writes_eq_canon _ _ _ (cover0_B_6 c i a1 h1 a2 h2 a3 h3 a4 h4 a5 h5 a6 h6 a7 h7 hc x0 x1 x2 x3 x4 xo6)]
  unfold kernelRun0_B
  dsimp only
  sl_unfold_words
  simp only [View.readAt_eq_ld, h1.read_unread, h2.read_unread, h3.read_unread, h4.read_unread, h5.read_unread,
    View.ld_unit_zero (S := S2000x512) hz, View.ld_unit_zero (S := S512x512) hz, View.ld_unit_zero (S := S1x512) hz, h7.read_unread]
  exact canon_row0 _ _ _ q

theorem out_B_6_row1 (c : Dev nD) (i : grid0.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : ¬cond0_0 i)
    (x0 x1 : Vec F S2000x512 .f32) (x2 x3 : Vec F S512x512 .f32) (x4 : Vec F S1x512 .f32) (xo6 : Vec F S2x512 .f32) (q : Fin 512) :
    out0_B_6 c i a1 h1 a2 h2 a3 h3 a4 h4 a5 h5 a6 h6 a7 h7 hc x0 x1 x2 x3 x4 xo6 (ix2 (1 : Fin 2) q)
      = k0_pay4 x0 x2 x1 x3 x4 (View.ld xo6 rrow1) (ix2 (0 : Fin 1) q) := by
  unfold out0_B_6
  rw [View.read_writes_eq_canon _ _ _ (cover0_B_6 c i a1 h1 a2 h2 a3 h3 a4 h4 a5 h5 a6 h6 a7 h7 hc x0 x1 x2 x3 x4 xo6)]
  unfold kernelRun0_B
  dsimp only
  sl_unfold_words
  simp only [View.readAt_eq_ld, h1.read_unread, h2.read_unread, h3.read_unread, h4.read_unread, h5.read_unread,
    View.ld_unit_zero (S := S2000x512) hz, View.ld_unit_zero (S := S512x512) hz, View.ld_unit_zero (S := S1x512) hz, h7.read_unread]
  exact canon_row1 _ _ q

theorem row1_not_mem_row0 (q : Fin 512) : ix2 (1 : Fin 2) q ∉ (rrow0 : Rect S2x512).set := by
  rw [Rect.mem_set_unit]
  intro h
  have h0 : (1 : ℕ) < 0 + 1 := (h 0).2
  omega

/-- The zero block the first point stores reads zero everywhere. -/
theorem pay1_apply (y : S2x512.Idx) : k0_pay1 (F := F) y = FloatOps.ofBits .f32 0x00000000#32 := rfl

/-- A row-0 load of a buffer one whole store filled reads that store's row 0. -/
theorem readCov_row0 {sp : Space} (v : View sig .tc sp S2x512 .f32) (Z : Vec F S2x512 .f32) (q' : Fin 512) :
    v.readCov [(⟨Rect.unit ![0, 0] ![2, 512] inb_S2x512_S2x512_0_0, Z⟩ : View.Piece (Elt F) S2x512 .f32)] (rrow0 : Rect S2x512).toLoadRect (ix2 (0 : Fin 1) q')
      = Z (ix2 (0 : Fin 2) q') := by
  rw [View.readCov_eq_canon_ld v [(⟨Rect.unit ![0, 0] ![2, 512] inb_S2x512_S2x512_0_0, Z⟩ : View.Piece (Elt F) S2x512 .f32)] (rrow0 : Rect S2x512)
    (fun y => ⟨⟨Rect.unit ![0, 0] ![2, 512] inb_S2x512_S2x512_0_0, Z⟩, List.mem_singleton_self _, View.mem_set_unit_zero hz inb_S2x512_S2x512_0_0 y⟩),
    View.canon_unit_zero hz]
  show Z ((rrow0 : Rect S2x512).emb (ix2 (0 : Fin 1) q')) = _
  rw [emb_row0 q']

/-- A row-1 load after a whole store and then a row-0 store reads the whole store's row 1: the row-0 store leaves it alone. -/
theorem readCov_row1 {sp : Space} (v : View sig .tc sp S2x512 .f32) (w0 : Vec F S1x512 .f32) (Z : Vec F S2x512 .f32) (q' : Fin 512) :
    v.readCov [(⟨rrow0, w0⟩ : View.Piece (Elt F) S2x512 .f32), ⟨Rect.unit ![0, 0] ![2, 512] inb_S2x512_S2x512_0_0, Z⟩] (rrow1 : Rect S2x512).toLoadRect (ix2 (0 : Fin 1) q')
      = Z (ix2 (1 : Fin 2) q') := by
  rw [View.readCov_eq_canon_ld v [(⟨rrow0, w0⟩ : View.Piece (Elt F) S2x512 .f32), ⟨Rect.unit ![0, 0] ![2, 512] inb_S2x512_S2x512_0_0, Z⟩] (rrow1 : Rect S2x512)
    (fun y => ⟨⟨Rect.unit ![0, 0] ![2, 512] inb_S2x512_S2x512_0_0, Z⟩, List.mem_cons_of_mem _ (List.mem_singleton_self _), View.mem_set_unit_zero hz inb_S2x512_S2x512_0_0 y⟩)]
  show View.canon [(⟨rrow0, w0⟩ : View.Piece (Elt F) S2x512 .f32), ⟨Rect.unit ![0, 0] ![2, 512] inb_S2x512_S2x512_0_0, Z⟩] ((rrow1 : Rect S2x512).emb (ix2 (0 : Fin 1) q')) = _
  rw [emb_row1 q', View.canon_cons_of_not_mem (⟨rrow0, w0⟩ : View.Piece (Elt F) S2x512 .f32) [⟨Rect.unit ![0, 0] ![2, 512] inb_S2x512_S2x512_0_0, Z⟩] (row1_not_mem_row0 q'),
    View.canon_unit_zero hz]

/-- Case A (the first point): each row is its payload over a row of zeros — the zero store read back, row 1 after the
    row-0 store, which leaves row 1 alone. -/
theorem out_A_6_row0 (c : Dev nD) (i : grid0.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : cond0_0 i)
    (x0 x1 : Vec F S2000x512 .f32) (x2 x3 : Vec F S512x512 .f32) (x4 : Vec F S1x512 .f32) (q : Fin 512) :
    ∃ Z : Vec F S1x512 .f32, (∀ q' : Fin 512, Z (ix2 (0 : Fin 1) q') = FloatOps.ofBits .f32 0x00000000#32) ∧
      out0_A_6 c i a1 h1 a2 h2 a3 h3 a4 h4 a5 h5 a6 h6 a7 h7 hc x0 x1 x2 x3 x4 (ix2 (0 : Fin 2) q) = k0_pay3 x0 x2 x1 x3 x4 Z (ix2 (0 : Fin 1) q) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  simp only [View.readAt_eq_ld, h1.read_unread, h2.read_unread, h3.read_unread, h4.read_unread, h5.read_unread,
    View.ld_unit_zero (S := S2000x512) hz, View.ld_unit_zero (S := S512x512) hz, View.ld_unit_zero (S := S1x512) hz]
  exact ⟨_, fun q' => readCov_row0 a7.view k0_pay1 q', canon_row0 _ _ _ q⟩

theorem out_A_6_row1 (c : Dev nD) (i : grid0.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : cond0_0 i)
    (x0 x1 : Vec F S2000x512 .f32) (x2 x3 : Vec F S512x512 .f32) (x4 : Vec F S1x512 .f32) (q : Fin 512) :
    ∃ Z : Vec F S1x512 .f32, (∀ q' : Fin 512, Z (ix2 (0 : Fin 1) q') = FloatOps.ofBits .f32 0x00000000#32) ∧
      out0_A_6 c i a1 h1 a2 h2 a3 h3 a4 h4 a5 h5 a6 h6 a7 h7 hc x0 x1 x2 x3 x4 (ix2 (1 : Fin 2) q) = k0_pay4 x0 x2 x1 x3 x4 Z (ix2 (0 : Fin 1) q) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  simp only [View.readAt_eq_ld, h1.read_unread, h2.read_unread, h3.read_unread, h4.read_unread, h5.read_unread,
    View.ld_unit_zero (S := S2000x512) hz, View.ld_unit_zero (S := S512x512) hz, View.ld_unit_zero (S := S1x512) hz]
  exact ⟨_, fun q' => readCov_row1 a7.view _ k0_pay1 q', canon_row1 _ _ q⟩

/-! ## The first output: every point leaves its block's payload -/

/-- The linear layer's value on the blocks point `t` reads. -/
abbrev P (c : Dev nD) (t : Fin cfg0.N) : Vec F S2000x512 .f32 :=
  k0_pay2 (iblk0 V c 0 t) (iblk0 V c 2 t) (iblk0 V c 1 t) (iblk0 V c 3 t) (iblk0 V c 4 t)

set_option maxHeartbeats 4000000 in
theorem outs_fst (c : Dev nD) (t : Fin cfg0.N) : (outsAt0 V c t.val t.isLt).1 = P V c t := by
  by_cases h : t.val % 25 = 0
  · rw [outsAt0_A V c t h]
    dsimp only
    exact out_A_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk0 V c 0 t) (iblk0 V c 1 t) (iblk0 V c 2 t) (iblk0 V c 3 t) (iblk0 V c 4 t)
  · rw [outsAt0_B V c t h]
    dsimp only
    exact out_B_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h' => h ((hcond0_0 t).mp h')) (iblk0 V c 0 t) (iblk0 V c 1 t) (iblk0 V c 2 t) (iblk0 V c 3 t) (iblk0 V c 4 t) _

/-! ## On the extended reals: the two result arrays as functions of the arrays the launch finds -/

section AtIdeal

variable (W : (c : Dev nD) → (b : Ref sig .tc) → Buf (Elt Ideal) ((c : Thread nD τ).loc b))

/-- The printed index maps over the grid: the row blocks of `x`, `a` and the first output move together, everything
    else stays at block (0, 0). -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0
  ∧ win0_6.index t (0 : Fin 2) = 0 ∧ win0_6.index t (1 : Fin 2) = 0 :=
  (by decide +kernel : ∀ t : Fin grid0.N, _)

/-- The linear layer on whole arrays: entry `(r, n)` is `∑ₖ x(r,k)·W0(k,n) + ∑ₖ a(r,k)·W1(k,n) + b(0,n)`. -/
def PRE (x a : S50000x512.Idx → EReal) (w0 w1 : S512x512.Idx → EReal) (b : S1x512.Idx → EReal) : S50000x512.Idx → EReal :=
  fun i => ((∑ k : Fin 512, x (ix2 (i 0 : Fin 50000) k) * w0 (ix2 k (i 1 : Fin 512)))
    + (∑ k : Fin 512, a (ix2 (i 0 : Fin 50000) k) * w1 (ix2 k (i 1 : Fin 512)))) + b (ix2 (0 : Fin 1) (i 1 : Fin 512))

/-! ### Each window's block at point `t` read off its array -/

theorem x_read (c : Dev nD) (t : Fin cfg0.N) (p : Fin 2000) (k : Fin 512) (r : Fin 50000) (s : Fin 512)
    (hr : r.val = t.val * 2000 + p.val) (hs : s.val = k.val) :
    iblk0 W c 0 t (ix2 p k) = (W c (Pipeline.arrRef spec0 0)) (ix2 r s) := by
  obtain ⟨e0, e1, e2, e3, e4, e5, e6, e7, e8, e9, e10, e11, e12, e13⟩ := idx_facts t
  unfold iblk0
  rw [View.read_apply]
  show (W c (Pipeline.arrRef spec0 0)) _ = (W c (Pipeline.arrRef spec0 0)) _
  congr 1
  funext a; apply Fin.ext
  match a with
  | ⟨0, _⟩ => show win0_0.index t (0 : Fin 2) * 2000 + 1 * p.val = r.val; omega
  | ⟨1, _⟩ => show win0_0.index t (1 : Fin 2) * 512 + 1 * k.val = s.val; omega

theorem a_read (c : Dev nD) (t : Fin cfg0.N) (p : Fin 2000) (k : Fin 512) (r : Fin 50000) (s : Fin 512)
    (hr : r.val = t.val * 2000 + p.val) (hs : s.val = k.val) :
    iblk0 W c 1 t (ix2 p k) = (W c (Pipeline.arrRef spec0 1)) (ix2 r s) := by
  obtain ⟨e0, e1, e2, e3, e4, e5, e6, e7, e8, e9, e10, e11, e12, e13⟩ := idx_facts t
  unfold iblk0
  rw [View.read_apply]
  show (W c (Pipeline.arrRef spec0 1)) _ = (W c (Pipeline.arrRef spec0 1)) _
  congr 1
  funext a; apply Fin.ext
  match a with
  | ⟨0, _⟩ => show win0_1.index t (0 : Fin 2) * 2000 + 1 * p.val = r.val; omega
  | ⟨1, _⟩ => show win0_1.index t (1 : Fin 2) * 512 + 1 * k.val = s.val; omega

theorem w0_read (c : Dev nD) (t : Fin cfg0.N) (p : Fin 512) (k : Fin 512) (r : Fin 512) (s : Fin 512)
    (hr : r.val = p.val) (hs : s.val = k.val) :
    iblk0 W c 2 t (ix2 p k) = (W c (Pipeline.arrRef spec0 2)) (ix2 r s) := by
  obtain ⟨e0, e1, e2, e3, e4, e5, e6, e7, e8, e9, e10, e11, e12, e13⟩ := idx_facts t
  unfold iblk0
  rw [View.read_apply]
  show (W c (Pipeline.arrRef spec0 2)) _ = (W c (Pipeline.arrRef spec0 2)) _
  congr 1
  funext a; apply Fin.ext
  match a with
  | ⟨0, _⟩ => show win0_2.index t (0 : Fin 2) * 512 + 1 * p.val = r.val; omega
  | ⟨1, _⟩ => show win0_2.index t (1 : Fin 2) * 512 + 1 * k.val = s.val; omega

theorem w1_read (c : Dev nD) (t : Fin cfg0.N) (p : Fin 512) (k : Fin 512) (r : Fin 512) (s : Fin 512)
    (hr : r.val = p.val) (hs : s.val = k.val) :
    iblk0 W c 3 t (ix2 p k) = (W c (Pipeline.arrRef spec0 3)) (ix2 r s) := by
  obtain ⟨e0, e1, e2, e3, e4, e5, e6, e7, e8, e9, e10, e11, e12, e13⟩ := idx_facts t
  unfold iblk0
  rw [View.read_apply]
  show (W c (Pipeline.arrRef spec0 3)) _ = (W c (Pipeline.arrRef spec0 3)) _
  congr 1
  funext a; apply Fin.ext
  match a with
  | ⟨0, _⟩ => show win0_3.index t (0 : Fin 2) * 512 + 1 * p.val = r.val; omega
  | ⟨1, _⟩ => show win0_3.index t (1 : Fin 2) * 512 + 1 * k.val = s.val; omega

theorem b_read (c : Dev nD) (t : Fin cfg0.N) (p : Fin 1) (k : Fin 512) (r : Fin 1) (s : Fin 512)
    (hr : r.val = p.val) (hs : s.val = k.val) :
    iblk0 W c 4 t (ix2 p k) = (W c (Pipeline.arrRef spec0 4)) (ix2 r s) := by
  obtain ⟨e0, e1, e2, e3, e4, e5, e6, e7, e8, e9, e10, e11, e12, e13⟩ := idx_facts t
  unfold iblk0
  rw [View.read_apply]
  show (W c (Pipeline.arrRef spec0 4)) _ = (W c (Pipeline.arrRef spec0 4)) _
  congr 1
  funext a; apply Fin.ext
  match a with
  | ⟨0, _⟩ => show win0_4.index t (0 : Fin 2) * 1 + 1 * p.val = r.val; omega
  | ⟨1, _⟩ => show win0_4.index t (1 : Fin 2) * 512 + 1 * k.val = s.val; omega

/-- The body's value at `(p, q)` of point `t`'s block is the linear layer at row `2000·t + p`. -/
theorem P_apply (c : Dev nD) (t : Fin cfg0.N) (p : Fin 2000) (q : Fin 512) (r : Fin 50000) (hr : r.val = t.val * 2000 + p.val) :
    P W c t (ix2 p q) = PRE (W c (Pipeline.arrRef spec0 0)) (W c (Pipeline.arrRef spec0 1)) (W c (Pipeline.arrRef spec0 2)) (W c (Pipeline.arrRef spec0 3)) (W c (Pipeline.arrRef spec0 4)) (ix2 r q) := by
  refine (Pay0.pay2_apply (iblk0 W c 0 t) (iblk0 W c 2 t) (iblk0 W c 1 t) (iblk0 W c 3 t) (iblk0 W c 4 t) p q).trans ?_
  unfold Pay0.lin PRE
  refine congrArg₂ (· + ·) (congrArg₂ (· + ·)
    (Finset.sum_congr rfl fun k _ => congrArg₂ (· * ·) (x_read W c t p k r k hr rfl) (w0_read W c t k q k q rfl rfl))
    (Finset.sum_congr rfl fun k _ => congrArg₂ (· * ·) (a_read W c t p k r k hr rfl) (w1_read W c t k q k q rfl rfl)))
    (b_read W c t 0 q 0 q rfl rfl)

/-! ### The accumulator after each point -/

/-- The first point: the rows are the column sums of its block's values, and of their squares, over a zero. -/
theorem acc_A (c : Dev nD) (t : Fin cfg0.N) (h0 : t.val % 25 = 0) (q : Fin 512) :
    (outsAt0 W c t.val t.isLt).2 (ix2 (0 : Fin 2) q) = ∑ p : Fin 2000, P W c t (ix2 p q)
    ∧ (outsAt0 W c t.val t.isLt).2 (ix2 (1 : Fin 2) q) = ∑ p : Fin 2000, P W c t (ix2 p q) * P W c t (ix2 p q) := by
  rw [outsAt0_A W c t h0]
  dsimp only
  obtain ⟨Z0, hZ0, e0⟩ := out_A_6_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 W c 0 t) (iblk0 W c 1 t) (iblk0 W c 2 t) (iblk0 W c 3 t) (iblk0 W c 4 t) q
  obtain ⟨Z1, hZ1, e1⟩ := out_A_6_row1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 W c 0 t) (iblk0 W c 1 t) (iblk0 W c 2 t) (iblk0 W c 3 t) (iblk0 W c 4 t) q
  refine ⟨e0.trans ?_, e1.trans ?_⟩
  · refine (Pay0.pay3_apply (iblk0 W c 0 t) (iblk0 W c 2 t) (iblk0 W c 1 t) (iblk0 W c 3 t) (iblk0 W c 4 t) Z0 q).trans ?_
    rw [hZ0 q]
    show Ideal.ofBits .f32 0x00000000#32 + _ = _
    rw [Ideal.ofBits_zero_f32, zero_add]
  · refine (Pay0.pay4_apply (iblk0 W c 0 t) (iblk0 W c 2 t) (iblk0 W c 1 t) (iblk0 W c 3 t) (iblk0 W c 4 t) Z1 q).trans ?_
    rw [hZ1 q]
    show Ideal.ofBits .f32 0x00000000#32 + _ = _
    rw [Ideal.ofBits_zero_f32, zero_add]

/-- Every later point adds its block's column sums to what the point before left. -/
theorem acc_B (c : Dev nD) (t : Fin cfg0.N) (h0 : ¬t.val % 25 = 0) (q : Fin 512) :
    (outsAt0 W c t.val t.isLt).2 (ix2 (0 : Fin 2) q)
      = (outsAt0 W c (t.val - 1) (Nat.lt_of_le_of_lt (Nat.sub_le _ _) t.isLt)).2 (ix2 (0 : Fin 2) q) + ∑ p : Fin 2000, P W c t (ix2 p q)
    ∧ (outsAt0 W c t.val t.isLt).2 (ix2 (1 : Fin 2) q)
      = (outsAt0 W c (t.val - 1) (Nat.lt_of_le_of_lt (Nat.sub_le _ _) t.isLt)).2 (ix2 (1 : Fin 2) q) + ∑ p : Fin 2000, P W c t (ix2 p q) * P W c t (ix2 p q) := by
  rw [outsAt0_B W c t h0]
  dsimp only
  refine ⟨(out_B_6_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h' => h0 ((hcond0_0 t).mp h')) (iblk0 W c 0 t) (iblk0 W c 1 t) (iblk0 W c 2 t) (iblk0 W c 3 t) (iblk0 W c 4 t) _ q).trans ?_,
    (out_B_6_row1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h' => h0 ((hcond0_0 t).mp h')) (iblk0 W c 0 t) (iblk0 W c 1 t) (iblk0 W c 2 t) (iblk0 W c 3 t) (iblk0 W c 4 t) _ q).trans ?_⟩
  · refine (Pay0.pay3_apply (iblk0 W c 0 t) (iblk0 W c 2 t) (iblk0 W c 1 t) (iblk0 W c 3 t) (iblk0 W c 4 t) _ q).trans ?_
    show (outsAt0 W c (t.val - 1) _).2 ((rrow0 : Rect S2x512).emb (ix2 (0 : Fin 1) q)) + _ = _
    rw [emb_row0 q]
  · refine (Pay0.pay4_apply (iblk0 W c 0 t) (iblk0 W c 2 t) (iblk0 W c 1 t) (iblk0 W c 3 t) (iblk0 W c 4 t) _ q).trans ?_
    show (outsAt0 W c (t.val - 1) _).2 ((rrow1 : Rect S2x512).emb (ix2 (0 : Fin 1) q)) + _ = _
    rw [emb_row1 q]

/-- Point `n`'s column sums, as functions on all naturals (zero past the grid). -/
def S1 (c : Dev nD) (q : Fin 512) (n : ℕ) : EReal :=
  if h : n < cfg0.N then ∑ p : Fin 2000, P W c ⟨n, h⟩ (ix2 p q) else 0
def S2 (c : Dev nD) (q : Fin 512) (n : ℕ) : EReal :=
  if h : n < cfg0.N then ∑ p : Fin 2000, P W c ⟨n, h⟩ (ix2 p q) * P W c ⟨n, h⟩ (ix2 p q) else 0

/-- By induction on the point: after point `n` the accumulator holds the sums over the points `0 … n`. -/
theorem acc_eq (c : Dev nD) (q : Fin 512) : ∀ (n : ℕ) (h : n < cfg0.N),
    (outsAt0 W c n h).2 (ix2 (0 : Fin 2) q) = ∑ k ∈ Finset.range (n + 1), S1 W c q k
    ∧ (outsAt0 W c n h).2 (ix2 (1 : Fin 2) q) = ∑ k ∈ Finset.range (n + 1), S2 W c q k
  | 0, h => by
    have hA := acc_A W c ⟨0, h⟩ rfl q
    rw [Finset.sum_range_one, Finset.sum_range_one]
    unfold S1 S2
    rw [dif_pos h, dif_pos h]
    exact hA
  | n + 1, h => by
    have hN : cfg0.N = 25 := N_0
    have hB : ¬(⟨n + 1, h⟩ : Fin cfg0.N).val % 25 = 0 := by dsimp only; omega
    have hb := acc_B W c ⟨n + 1, h⟩ hB q
    have ih := acc_eq c q n (Nat.lt_of_succ_lt h)
    rw [Finset.sum_range_succ (S1 W c q), Finset.sum_range_succ (S2 W c q), ← ih.1, ← ih.2]
    have e1 : S1 W c q (n + 1) = ∑ p : Fin 2000, P W c ⟨n + 1, h⟩ (ix2 p q) := by unfold S1; rw [dif_pos h]
    have e2 : S2 W c q (n + 1) = ∑ p : Fin 2000, P W c ⟨n + 1, h⟩ (ix2 p q) * P W c ⟨n + 1, h⟩ (ix2 p q) := by unfold S2; rw [dif_pos h]
    rw [e1, e2]
    exact hb

end AtIdeal

section Finals

variable (W : (c : Dev nD) → (b : Ref sig .tc) → Buf (Elt Ideal) ((c : Thread nD τ).loc b))

/-! ### The first result array: the linear layer of the arrays the launch finds -/

set_option maxHeartbeats 4000000 in
/-- What point `t` writes back is block `t` of the linear layer. -/
theorem flushed5_eq (c : Dev nD) (t : Fin cfg0.N) :
    (dat0 W c).flushed 5 t = ((cfg0.win 5).blk t).view.read (Elt Ideal) (PRE (W c (Pipeline.arrRef spec0 0)) (W c (Pipeline.arrRef spec0 1)) (W c (Pipeline.arrRef spec0 2)) (W c (Pipeline.arrRef spec0 3)) (W c (Pipeline.arrRef spec0 4))) := by
  show (cfg0.win 5).cut (grid0.coords t) ((dat0 W c).after 5 t) = _
  rw [after0_5, outs_fst]
  obtain ⟨e0, e1, e2, e3, e4, e5, e6, e7, e8, e9, e10, e11, e12, e13⟩ := idx_facts t
  have hN : cfg0.N = 25 := N_0
  have key : ∀ (y : S2000x512.Idx) (r : Fin 50000), r.val = t.val * 2000 + (y 0).val →
      P W c t y = (PRE (W c (Pipeline.arrRef spec0 0)) (W c (Pipeline.arrRef spec0 1)) (W c (Pipeline.arrRef spec0 2)) (W c (Pipeline.arrRef spec0 3)) (W c (Pipeline.arrRef spec0 4))) (ix2 r (y 1 : Fin 512)) := by
    intro y r hr
    exact (congrArg (P W c t) (eq_ix2 y)).trans (P_apply W c t (y 0) (y 1) r hr)
  funext j
  rw [View.read_apply]
  have hj0 : (j 0).val < 2000 := (j 0).isLt
  have ht : t.val < 25 := hN ▸ t.isLt
  refine (key ((cfg0.win 5).xinj (grid0.coords t) j) ⟨t.val * 2000 + (j 0).val, by omega⟩ rfl).trans ?_
  have hi : (ix2 (⟨t.val * 2000 + (j 0).val, by omega⟩ : Fin 50000) ((((cfg0.win 5).xinj (grid0.coords t) j) 1 : Fin 512)) : S50000x512.Idx)
      = ((cfg0.win 5).blk t).view.emb j := by
    funext a; apply Fin.ext
    match a with
    | ⟨0, _⟩ => show t.val * 2000 + (j 0).val = win0_5.index t (0 : Fin 2) * 2000 + 1 * (j 0).val; omega
    | ⟨1, _⟩ => show (j 1).val = win0_5.index t (1 : Fin 2) * 512 + 1 * (j 1).val; omega
  rw [hi]
  first | rfl | exact (cast_eq _ _).symm

theorem mem_blk5 (t : Fin cfg0.N) (i : S50000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole (Pipeline.arrRef spec0 5)).slice (win0_5.rect t)).set ↔ _
  rw [View.set_slice_whole, Rect.mem_set_unit]
  exact Iff.rfl

theorem cover5 (i : S50000x512.Idx) : ∃ t : Fin cfg0.N, (cfg0.win 5).flush t = true ∧ i ∈ ((cfg0.win 5).blk t).view.set := by
  have hi0 : (i 0).val < 50000 := (i 0).isLt
  have hi1 : (i 1).val < 512 := (i 1).isLt
  have hN : cfg0.N = 25 := N_0
  have hlt : (i 0).val / 2000 < cfg0.N := by rw [hN]; omega
  obtain ⟨e0, e1, e2, e3, e4, e5, e6, e7, e8, e9, e10, e11, e12, e13⟩ := idx_facts ⟨(i 0).val / 2000, hlt⟩
  refine ⟨⟨(i 0).val / 2000, hlt⟩, flush0_5 _, ?_⟩
  rw [mem_blk5]
  intro a
  match a with
  | ⟨0, _⟩ => show win0_5.index ⟨(i 0).val / 2000, hlt⟩ (0 : Fin 2) * 2000 ≤ (i 0).val ∧ (i 0).val < win0_5.index ⟨(i 0).val / 2000, hlt⟩ (0 : Fin 2) * 2000 + 2000
              rw [e10]; show (i 0).val / 2000 * 2000 ≤ (i 0).val ∧ (i 0).val < (i 0).val / 2000 * 2000 + 2000; omega
  | ⟨1, _⟩ => show win0_5.index ⟨(i 0).val / 2000, hlt⟩ (1 : Fin 2) * 512 ≤ (i 1).val ∧ (i 1).val < win0_5.index ⟨(i 0).val / 2000, hlt⟩ (1 : Fin 2) * 512 + 512
              rw [e11]; omega

/-- The first result array after the launch. -/
theorem final5 (c : Dev nD) : (dat0 W c).arrAt 5 cfg0.N = (PRE (W c (Pipeline.arrRef spec0 0)) (W c (Pipeline.arrRef spec0 1)) (W c (Pipeline.arrRef spec0 2)) (W c (Pipeline.arrRef spec0 3)) (W c (Pipeline.arrRef spec0 4))) :=
  (dat0 W c).arrAt_eq_of_cover 5 _ (fun t _ => flushed5_eq W c t) cover5

/-! ### The second result array: the column sums over all 25 points -/

/-- Row 0: the column sums of the linear layer's values over the points; row 1: of their squares. -/
def STATS (c : Dev nD) : S2x512.Idx → EReal :=
  fun i => if (i 0).val = 0 then ∑ k ∈ Finset.range 25, S1 W c (i 1 : Fin 512) k else ∑ k ∈ Finset.range 25, S2 W c (i 1 : Fin 512) k

theorem outs_snd_last (c : Dev nD) (h : 24 < cfg0.N) : (outsAt0 W c 24 h).2 = STATS W c := by
  funext i
  obtain ⟨ρ, q, rfl⟩ : ∃ (ρ : Fin 2) (q : Fin 512), i = ix2 ρ q := ⟨i 0, i 1, eq_ix2 i⟩
  have hacc := acc_eq W c q 24 h
  unfold STATS
  match ρ with
  | ⟨0, _⟩ => exact hacc.1.trans (if_pos rfl).symm
  | ⟨1, _⟩ => exact hacc.2.trans (if_neg Nat.one_ne_zero).symm

set_option maxHeartbeats 4000000 in
/-- The one write-back, at the last point, writes the accumulator: block (0, 0) of the [2, 512] array is the array. -/
theorem flushed6_eq (c : Dev nD) (t : Fin cfg0.N) (hf : (cfg0.win 6).flush t = true) :
    (dat0 W c).flushed 6 t = ((cfg0.win 6).blk t).view.read (Elt Ideal) (STATS W c) := by
  have hN : cfg0.N = 25 := N_0
  have hlt : 24 < cfg0.N := by rw [hN]; decide
  have h24 : t.val = 24 := by have := (flush0_6 t).mp hf; have := t.isLt; omega
  obtain rfl : t = ⟨24, hlt⟩ := Fin.ext h24
  obtain ⟨e0, e1, e2, e3, e4, e5, e6, e7, e8, e9, e10, e11, e12, e13⟩ := idx_facts ⟨24, hlt⟩
  show (cfg0.win 6).cut (grid0.coords _) ((dat0 W c).after 6 _) = _
  rw [after0_6, outs_snd_last]
  funext j
  rw [View.read_apply]
  have hi : (cfg0.win 6).xinj (grid0.coords ⟨24, hlt⟩) j = ((cfg0.win 6).blk ⟨24, hlt⟩).view.emb j := by
    funext a; apply Fin.ext
    match a with
    | ⟨0, _⟩ => show (j 0).val = win0_6.index ⟨24, _⟩ (0 : Fin 2) * 2 + 1 * (j 0).val; omega
    | ⟨1, _⟩ => show (j 1).val = win0_6.index ⟨24, _⟩ (1 : Fin 2) * 512 + 1 * (j 1).val; omega
  show STATS W c ((cfg0.win 6).xinj (grid0.coords ⟨24, hlt⟩) j) = _
  rw [hi]
  first | rfl | exact (cast_eq _ _).symm

theorem mem_blk6 (t : Fin cfg0.N) (i : S2x512.Idx) :
    i ∈ ((cfg0.win 6).blk t).view.set ↔ ∀ a : Fin 2, win0_6.index t a * S2x512.size a ≤ (i a).val ∧ (i a).val < win0_6.index t a * S2x512.size a + S2x512.size a := by
  show i ∈ ((View.whole (Pipeline.arrRef spec0 6)).slice (win0_6.rect t)).set ↔ _
  rw [View.set_slice_whole, Rect.mem_set_unit]
  exact Iff.rfl

theorem cover6 (i : S2x512.Idx) : ∃ t : Fin cfg0.N, (cfg0.win 6).flush t = true ∧ i ∈ ((cfg0.win 6).blk t).view.set := by
  have hi0 : (i 0).val < 2 := (i 0).isLt
  have hi1 : (i 1).val < 512 := (i 1).isLt
  have hN : cfg0.N = 25 := N_0
  have hlt : 24 < cfg0.N := by omega
  obtain ⟨e0, e1, e2, e3, e4, e5, e6, e7, e8, e9, e10, e11, e12, e13⟩ := idx_facts ⟨24, hlt⟩
  refine ⟨⟨24, hlt⟩, (flush0_6 _).mpr rfl, ?_⟩
  rw [mem_blk6]
  intro a
  match a with
  | ⟨0, _⟩ => show win0_6.index ⟨24, hlt⟩ (0 : Fin 2) * 2 ≤ (i 0).val ∧ (i 0).val < win0_6.index ⟨24, hlt⟩ (0 : Fin 2) * 2 + 2
              rw [e12]; omega
  | ⟨1, _⟩ => show win0_6.index ⟨24, hlt⟩ (1 : Fin 2) * 512 ≤ (i 1).val ∧ (i 1).val < win0_6.index ⟨24, hlt⟩ (1 : Fin 2) * 512 + 512
              rw [e13]; omega

/-- The second result array after the launch. -/
theorem final6 (c : Dev nD) : (dat0 W c).arrAt 6 cfg0.N = STATS W c :=
  (dat0 W c).arrAt_eq_of_cover 6 _ (fun t hf => flushed6_eq W c t hf) cover6

/-! ### The statistics as a function of the linear layer's array -/

/-- Row 0: each column's sum over all 50000 rows; row 1: each column's sum of squares. -/
def colStats (h : S50000x512.Idx → EReal) : S2x512.Idx → EReal :=
  fun i => if (i 0).val = 0 then ∑ r : Fin 50000, h (ix2 r (i 1 : Fin 512))
    else ∑ r : Fin 50000, h (ix2 r (i 1 : Fin 512)) * h (ix2 r (i 1 : Fin 512))

/-- The sums over the 25 points' blocks are the sums over all rows. -/
theorem STATS_eq (c : Dev nD) : STATS W c = colStats (PRE (W c (Pipeline.arrRef spec0 0)) (W c (Pipeline.arrRef spec0 1)) (W c (Pipeline.arrRef spec0 2)) (W c (Pipeline.arrRef spec0 3)) (W c (Pipeline.arrRef spec0 4))) := by
  have hN : cfg0.N = 25 := N_0
  funext i
  unfold STATS colStats
  have e1 : ∀ q : Fin 512, ∑ k ∈ Finset.range 25, S1 W c q k
      = ∑ r : Fin 50000, PRE (W c (Pipeline.arrRef spec0 0)) (W c (Pipeline.arrRef spec0 1)) (W c (Pipeline.arrRef spec0 2)) (W c (Pipeline.arrRef spec0 3)) (W c (Pipeline.arrRef spec0 4)) (ix2 r q) := by
    intro q
    refine Eq.trans ?_ (Cert.LibSumBlocks.sum_blocks_range 25 2000 (fun r : Fin 50000 => PRE (W c (Pipeline.arrRef spec0 0)) (W c (Pipeline.arrRef spec0 1)) (W c (Pipeline.arrRef spec0 2)) (W c (Pipeline.arrRef spec0 3)) (W c (Pipeline.arrRef spec0 4)) (ix2 r q))).symm
    refine Finset.sum_congr rfl fun k hk => ?_
    have hk25 : k < 25 := Finset.mem_range.mp hk
    have hkN : k < cfg0.N := by omega
    unfold S1
    rw [dif_pos hkN, dif_pos hk25]
    exact Finset.sum_congr rfl fun p _ => P_apply W c ⟨k, hkN⟩ p q ⟨k * 2000 + p.val, Cert.LibSumBlocks.row_lt (A := 25) (B := 2000) ⟨k, hk25⟩ p⟩ rfl
  have e2 : ∀ q : Fin 512, ∑ k ∈ Finset.range 25, S2 W c q k
      = ∑ r : Fin 50000, PRE (W c (Pipeline.arrRef spec0 0)) (W c (Pipeline.arrRef spec0 1)) (W c (Pipeline.arrRef spec0 2)) (W c (Pipeline.arrRef spec0 3)) (W c (Pipeline.arrRef spec0 4)) (ix2 r q)
          * PRE (W c (Pipeline.arrRef spec0 0)) (W c (Pipeline.arrRef spec0 1)) (W c (Pipeline.arrRef spec0 2)) (W c (Pipeline.arrRef spec0 3)) (W c (Pipeline.arrRef spec0 4)) (ix2 r q) := by
    intro q
    refine Eq.trans ?_ (Cert.LibSumBlocks.sum_blocks_range 25 2000 (fun r : Fin 50000 => PRE (W c (Pipeline.arrRef spec0 0)) (W c (Pipeline.arrRef spec0 1)) (W c (Pipeline.arrRef spec0 2)) (W c (Pipeline.arrRef spec0 3)) (W c (Pipeline.arrRef spec0 4)) (ix2 r q)
      * PRE (W c (Pipeline.arrRef spec0 0)) (W c (Pipeline.arrRef spec0 1)) (W c (Pipeline.arrRef spec0 2)) (W c (Pipeline.arrRef spec0 3)) (W c (Pipeline.arrRef spec0 4)) (ix2 r q))).symm
    refine Finset.sum_congr rfl fun k hk => ?_
    have hk25 : k < 25 := Finset.mem_range.mp hk
    have hkN : k < cfg0.N := by omega
    unfold S2
    rw [dif_pos hkN, dif_pos hk25]
    refine Finset.sum_congr rfl fun p _ => ?_
    rw [P_apply W c ⟨k, hkN⟩ p q ⟨k * 2000 + p.val, Cert.LibSumBlocks.row_lt (A := 25) (B := 2000) ⟨k, hk25⟩ p⟩ rfl]
  split
  · exact e1 _
  · exact e2 _

/-- The second result array as the column statistics of the first. -/
theorem final6' (c : Dev nD) : (dat0 W c).arrAt 6 cfg0.N
    = colStats (PRE (W c (Pipeline.arrRef spec0 0)) (W c (Pipeline.arrRef spec0 1)) (W c (Pipeline.arrRef spec0 2)) (W c (Pipeline.arrRef spec0 3)) (W c (Pipeline.arrRef spec0 4))) :=
  (final6 W c).trans (STATS_eq W c)

end Finals

end Cert.KernelIdeal.Lin0

end
-- ==== Proof.Pay2.lean ====
/-
  The linear body of launch 2 read at an entry, on the extended reals.

  On a block of 2000 rows the stored value at `(p, q)` is `∑ₖ x(p,k)·W0(k,q) + ∑ₖ a(p,k)·W1(k,q) + b(0,q)`: each
  matrix product into a zero accumulator is the plain sum over the shared axis, the bias row is broadcast down the
  rows. The two accumulator updates add to the running row the column sum over the block's 2000 rows of that value,
  and of its square.
-/
import proofs.«142385_j6322191859752_1_alg».proof.Proof.Gen.KernelIdeal.Skeleton
import proofs.«142385_j6322191859752_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay2

open Cert.KernelIdeal Cert.KernelIdeal.Gen
open Idealize.ShloMosaic Idealize.ShloMosaic.ValueIdx
open scoped BigOperators

/-- The printed dimension numbers are the plain ones: rows by contraction times contraction by columns. -/
theorem dot_eq : dot_S2000x512_S512x512_S2000x512_1_0_0_1_n_n = DotDims.plain 2000 512 512 := rfl

/-- The linear layer at entry `(p, q)` of a block of rows. -/
def lin (x a : S2000x512.Idx → EReal) (w0 w1 : S512x512.Idx → EReal) (b : S1x512.Idx → EReal) (p : Fin 2000) (q : Fin 512) : EReal :=
  ((∑ k : Fin 512, x (ix2 p k) * w0 (ix2 k q)) + (∑ k : Fin 512, a (ix2 p k) * w1 (ix2 k q))) + b (ix2 (0 : Fin 1) q)

/-- One matrix product into the zero accumulator, at `(p, q)`. -/
theorem mm_apply (x : FVec Ideal S2000x512 .f32) (w : FVec Ideal S512x512 .f32) (p : Fin 2000) (q : Fin 512) :
    matmul (F := Ideal) dot_S2000x512_S512x512_S2000x512_1_0_0_1_n_n none x w (constant S2000x512 .f32 0x00000000#32) (ix2 p q) = ∑ k : Fin 512, x (ix2 p k) * w (ix2 k q) := by
  refine (Ideal.matmul_constant_zero_apply dot_S2000x512_S512x512_S2000x512_1_0_0_1_n_n none x w (ix2 p q)).trans ?_
  rw [dot_eq]
  exact Cert.LibDense.plain_sum 2000 512 512 x w (ix2 p q)

theorem pay2_apply (x0 : FVec Ideal S2000x512 .f32) (w0 : FVec Ideal S512x512 .f32) (x1 : FVec Ideal S2000x512 .f32) (w1 : FVec Ideal S512x512 .f32)
    (b : FVec Ideal S1x512 .f32) (p : Fin 2000) (q : Fin 512) :
    k2_pay2 (F := Ideal) x0 w0 x1 w1 b (ix2 p q) = lin x0 x1 w0 w1 b p q := by
  have eb : broadcastTo S2000x512 b broadcasts_S1x512_S2000x512 (ix2 p q) = b (ix2 (0 : Fin 1) q) := broadcastTo_1b_ab_apply b _ p q
  unfold k2_pay2
  simp only [shapeCast_self]
  show (matmul (F := Ideal) dot_S2000x512_S512x512_S2000x512_1_0_0_1_n_n none x0 w0 (constant S2000x512 .f32 0x00000000#32) (ix2 p q)
      + matmul (F := Ideal) dot_S2000x512_S512x512_S2000x512_1_0_0_1_n_n none x1 w1 (constant S2000x512 .f32 0x00000000#32) (ix2 p q))
      + broadcastTo S2000x512 b broadcasts_S1x512_S2000x512 (ix2 p q) = _
  rw [mm_apply, mm_apply, eb]
  rfl

/-- A [512] vector cast to the row [1, 512] reads, at `(0, q)`, the vector at `q`. -/
theorem row_cast_apply (v : S512.Idx → EReal) (q : Fin 512) :
    shapeCast S1x512 v shapeCasts_S512_S1x512 (ix2 (0 : Fin 1) q) = v (ix1 q) := by
  refine shapeCast_apply v shapeCasts_S512_S1x512 (ix2 (0 : Fin 1) q) (ix1 q) ?_
  rw [Shape.rowMajor_val_two, Shape.rowMajor_val_one]
  show q.val = 0 * 512 + q.val
  omega

/-- The column sum over the block's rows, at column `q`. -/
theorem colsum_apply (src : FVec Ideal S2000x512 .f32) (q : Fin 512) :
    multiReduction (F := Ideal) .add [0] S512 src 0x00000000#32 reduces_S2000x512_S512 (.inl rfl) rfl (ix1 q) = ∑ p : Fin 2000, src (ix2 p q) := by
  refine (Ideal.multiReduction_add_single src 0x00000000#32 reduces_S2000x512_S512 (.inl rfl) rfl (ix1 q)).trans ?_
  refine Finset.sum_congr rfl fun p _ => congrArg src ?_
  funext a
  match a with
  | ⟨0, _⟩ => rfl
  | ⟨1, _⟩ => rfl

theorem pay3_apply (x0 : FVec Ideal S2000x512 .f32) (w0 : FVec Ideal S512x512 .f32) (x1 : FVec Ideal S2000x512 .f32) (w1 : FVec Ideal S512x512 .f32)
    (b : FVec Ideal S1x512 .f32) (v16 : FVec Ideal S1x512 .f32) (q : Fin 512) :
    k2_pay3 (F := Ideal) x0 w0 x1 w1 b v16 (ix2 (0 : Fin 1) q)
      = v16 (ix2 (0 : Fin 1) q) + ∑ p : Fin 2000, k2_pay2 (F := Ideal) x0 w0 x1 w1 b (ix2 p q) := by
  unfold k2_pay3
  simp only [shapeCast_self]
  show v16 (ix2 (0 : Fin 1) q) + shapeCast S1x512 (multiReduction (F := Ideal) .add [0] S512 (k2_pay2 (F := Ideal) x0 w0 x1 w1 b) 0x00000000#32 reduces_S2000x512_S512 (.inl rfl) rfl) shapeCasts_S512_S1x512 (ix2 (0 : Fin 1) q) = _
  rw [row_cast_apply, colsum_apply]

theorem pay4_apply (x0 : FVec Ideal S2000x512 .f32) (w0 : FVec Ideal S512x512 .f32) (x1 : FVec Ideal S2000x512 .f32) (w1 : FVec Ideal S512x512 .f32)
    (b : FVec Ideal S1x512 .f32) (v22 : FVec Ideal S1x512 .f32) (q : Fin 512) :
    k2_pay4 (F := Ideal) x0 w0 x1 w1 b v22 (ix2 (0 : Fin 1) q)
      = v22 (ix2 (0 : Fin 1) q) + ∑ p : Fin 2000, k2_pay2 (F := Ideal) x0 w0 x1 w1 b (ix2 p q) * k2_pay2 (F := Ideal) x0 w0 x1 w1 b (ix2 p q) := by
  unfold k2_pay4
  simp only [shapeCast_self]
  show v22 (ix2 (0 : Fin 1) q) + shapeCast S1x512 (multiReduction (F := Ideal) .add [0] S512 (mulf (F := Ideal) (k2_pay2 (F := Ideal) x0 w0 x1 w1 b) (k2_pay2 (F := Ideal) x0 w0 x1 w1 b)) 0x00000000#32 reduces_S2000x512_S512 (.inl rfl) rfl) shapeCasts_S512_S1x512 (ix2 (0 : Fin 1) q) = _
  rw [row_cast_apply, colsum_apply]
  rfl

end Cert.KernelIdeal.Pay2

end
-- ==== Proof.Lin2.lean ====
/-
  What launch 2 (the linear layer with its column statistics, [50000, 512] rows in 25 blocks of 2000, 512 output
  columns) leaves in its two result arrays, for any contents `V` of the buffers at its entry.

  Grid point `t` reads rows `2000·t …` of `x` and of the aggregated `a`, both weight matrices and the bias row, and
  stores `P_t = x_t·W0 + a_t·W1 + b` through its whole output block, written back to the same rows: the first result
  array ends holding every block's `P_t`. The second result is a [2, 512] accumulator whose block never moves: point 0
  zeroes it, every point adds the column sums of `P_t` to row 0 and of `P_t²` to row 1, and the last point alone
  writes it back. So by induction on the point it holds the running sums, and the array ends at the sums over all 25
  points.
-/
import proofs.«142385_j6322191859752_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import proofs.«142385_j6322191859752_1_alg».proof.Proof.Pay2
import proofs.«142385_j6322191859752_1_alg».proof.Proof.LibSumBlocks

set_option maxRecDepth 16384

noncomputable section

namespace Cert.KernelIdeal.Lin2

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

open scoped BigOperators

variable (V : (c : Dev nD) → (b : Ref sig .tc) → Buf (Elt F) ((c : Thread nD τ).loc b))

theorem hz : (![0, 0] : Fin 2 → Nat) = fun _ => 0 := funext fun a => by fin_cases a <;> rfl

/-! ## What each case of the body leaves in the first output's buffer: the one covering store's payload -/

theorem out_A_5 (c : Dev nD) (i : grid2.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : cond2_0 i)
    (x0 x1 : Vec F S2000x512 .f32) (x2 x3 : Vec F S512x512 .f32) (x4 : Vec F S1x512 .f32) :
    out2_A_5 c i a1 h1 a2 h2 a3 h3 a4 h4 a5 h5 a6 h6 a7 h7 hc x0 x1 x2 x3 x4 = k2_pay2 x0 x2 x1 x3 x4 := by
  unfold out2_A_5
  rw [View.read_writes_eq_canon _ _ _ (cover2_A_5 c i a1 h1 a2 h2 a3 h3 a4 h4 a5 h5 a6 h6 a7 h7 hc x0 x1 x2 x3 x4)]
  unfold kernelRun2_A
  dsimp only
  rw [View.canon_unit_zero hz]
  simp only [View.readAt_eq_ld, h1.read_unread, h2.read_unread, h3.read_unread, h4.read_unread, h5.read_unread,
    View.ld_unit_zero (S := S2000x512) hz, View.ld_unit_zero (S := S512x512) hz, View.ld_unit_zero (S := S1x512) hz]

theorem out_B_5 (c : Dev nD) (i : grid2.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : ¬cond2_0 i)
    (x0 x1 : Vec F S2000x512 .f32) (x2 x3 : Vec F S512x512 .f32) (x4 : Vec F S1x512 .f32) (xo6 : Vec F S2x512 .f32) :
    out2_B_5 c i a1 h1 a2 h2 a3 h3 a4 h4 a5 h5 a6 h6 a7 h7 hc x0 x1 x2 x3 x4 xo6 = k2_pay2 x0 x2 x1 x3 x4 := by
  unfold out2_B_5
  rw [View.read_writes_eq_canon _ _ _ (cover2_B_5 c i a1 h1 a2 h2 a3 h3 a4 h4 a5 h5 a6 h6 a7 h7 hc x0 x1 x2 x3 x4 xo6)]
  unfold kernelRun2_B
  dsimp only
  rw [View.canon_unit_zero hz]
  simp only [View.readAt_eq_ld, h1.read_unread, h2.read_unread, h3.read_unread, h4.read_unread, h5.read_unread,
    View.ld_unit_zero (S := S2000x512) hz, View.ld_unit_zero (S := S512x512) hz, View.ld_unit_zero (S := S1x512) hz]

/-! ## The accumulator's two rows -/

/-- Row 0 and row 1 of the [2, 512] accumulator, as the rectangles the body loads and stores them through. -/
abbrev rrow0 : Rect S2x512 := Rect.unit ![0, 0] ![1, 512] inb_S2x512_S1x512_0_0
abbrev rrow1 : Rect S2x512 := Rect.unit ![1, 0] ![1, 512] inb_S2x512_S1x512_1_0

theorem emb_row0 (q : Fin 512) : (rrow0 : Rect S2x512).emb (ix2 (0 : Fin 1) q) = ix2 (0 : Fin 2) q := by
  funext a; apply Fin.ext
  match a with
  | ⟨0, _⟩ => show 0 + 1 * 0 = 0; rfl
  | ⟨1, _⟩ => show 0 + 1 * q.val = q.val; omega

theorem emb_row1 (q : Fin 512) : (rrow1 : Rect S2x512).emb (ix2 (0 : Fin 1) q) = ix2 (1 : Fin 2) q := by
  funext a; apply Fin.ext
  match a with
  | ⟨0, _⟩ => show 1 + 1 * 0 = 1; rfl
  | ⟨1, _⟩ => show 0 + 1 * q.val = q.val; omega

theorem row0_not_mem_row1 (q : Fin 512) : ix2 (0 : Fin 2) q ∉ (rrow1 : Rect S2x512).set := by
  rw [Rect.mem_set_unit]
  intro h
  have h0 : (1 : ℕ) ≤ 0 := (h 0).1
  omega

/-- Two row stores, row 1 last, over anything: row 1 reads the last store, row 0 the one before. -/
theorem canon_row1 (w1 : Vec F S1x512 .f32) (L : List (View.Piece (Elt F) S2x512 .f32)) (q : Fin 512) :
    View.canon ((⟨rrow1, w1⟩ : View.Piece (Elt F) S2x512 .f32) :: L) (ix2 (1 : Fin 2) q) = w1 (ix2 (0 : Fin 1) q) := by
  rw [← emb_row1 q]; exact View.canon_cons_emb (rrow1 : Rect S2x512) w1 L _

theorem canon_row0 (w1 w0 : Vec F S1x512 .f32) (L : List (View.Piece (Elt F) S2x512 .f32)) (q : Fin 512) :
    View.canon ((⟨rrow1, w1⟩ : View.Piece (Elt F) S2x512 .f32) :: ⟨rrow0, w0⟩ :: L) (ix2 (0 : Fin 2) q) = w0 (ix2 (0 : Fin 1) q) := by
  rw [View.canon_cons_of_not_mem (⟨rrow1, w1⟩ : View.Piece (Elt F) S2x512 .f32) (⟨rrow0, w0⟩ :: L) (row0_not_mem_row1 q), ← emb_row0 q]
  exact View.canon_cons_emb (rrow0 : Rect S2x512) w0 L _

/-- Case B (every point but the first): each row is its payload over that row of the running contents. -/
theorem out_B_6_row0 (c : Dev nD) (i : grid2.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : ¬cond2_0 i)
    (x0 x1 : Vec F S2000x512 .f32) (x2 x3 : Vec F S512x512 .f32) (x4 : Vec F S1x512 .f32) (xo6 : Vec F S2x512 .f32) (q : Fin 512) :
    out2_B_6 c i a1 h1 a2 h2 a3 h3 a4 h4 a5 h5 a6 h6 a7 h7 hc x0 x1 x2 x3 x4 xo6 (ix2 (0 : Fin 2) q)
      = k2_pay3 x0 x2 x1 x3 x4 (View.ld xo6 rrow0) (ix2 (0 : Fin 1) q) := by
  unfold out2_B_6
  rw [View.read_writes_eq_canon _ _ _ (cover2_B_6 c i a1 h1 a2 h2 a3 h3 a4 h4 a5 h5 a6 h6 a7 h7 hc x0 x1 x2 x3 x4 xo6)]
  unfold kernelRun2_B
  dsimp only
  sl_unfold_words
  simp only [View.readAt_eq_ld, h1.read_unread, h2.read_unread, h3.read_unread, h4.read_unread, h5.read_unread,
    View.ld_unit_zero (S := S2000x512) hz, View.ld_unit_zero (S := S512x512) hz, View.ld_unit_zero (S := S1x512) hz, h7.read_unread]
  exact canon_row0 _ _ _ q

theorem out_B_6_row1 (c : Dev nD) (i : grid2.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : ¬cond2_0 i)
    (x0 x1 : Vec F S2000x512 .f32) (x2 x3 : Vec F S512x512 .f32) (x4 : Vec F S1x512 .f32) (xo6 : Vec F S2x512 .f32) (q : Fin 512) :
    out2_B_6 c i a1 h1 a2 h2 a3 h3 a4 h4 a5 h5 a6 h6 a7 h7 hc x0 x1 x2 x3 x4 xo6 (ix2 (1 : Fin 2) q)
      = k2_pay4 x0 x2 x1 x3 x4 (View.ld xo6 rrow1) (ix2 (0 : Fin 1) q) := by
  unfold out2_B_6
  rw [View.read_writes_eq_canon _ _ _ (cover2_B_6 c i a1 h1 a2 h2 a3 h3 a4 h4 a5 h5 a6 h6 a7 h7 hc x0 x1 x2 x3 x4 xo6)]
  unfold kernelRun2_B
  dsimp only
  sl_unfold_words
  simp only [View.readAt_eq_ld, h1.read_unread, h2.read_unread, h3.read_unread, h4.read_unread, h5.read_unread,
    View.ld_unit_zero (S := S2000x512) hz, View.ld_unit_zero (S := S512x512) hz, View.ld_unit_zero (S := S1x512) hz, h7.read_unread]
  exact canon_row1 _ _ q

theorem row1_not_mem_row0 (q : Fin 512) : ix2 (1 : Fin 2) q ∉ (rrow0 : Rect S2x512).set := by
  rw [Rect.mem_set_unit]
  intro h
  have h0 : (1 : ℕ) < 0 + 1 := (h 0).2
  omega

/-- The zero block the first point stores reads zero everywhere. -/
theorem pay1_apply (y : S2x512.Idx) : k2_pay1 (F := F) y = FloatOps.ofBits .f32 0x00000000#32 := rfl

/-- A row-0 load of a buffer one whole store filled reads that store's row 0. -/
theorem readCov_row0 {sp : Space} (v : View sig .tc sp S2x512 .f32) (Z : Vec F S2x512 .f32) (q' : Fin 512) :
    v.readCov [(⟨Rect.unit ![0, 0] ![2, 512] inb_S2x512_S2x512_0_0, Z⟩ : View.Piece (Elt F) S2x512 .f32)] (rrow0 : Rect S2x512).toLoadRect (ix2 (0 : Fin 1) q')
      = Z (ix2 (0 : Fin 2) q') := by
  rw [View.readCov_eq_canon_ld v [(⟨Rect.unit ![0, 0] ![2, 512] inb_S2x512_S2x512_0_0, Z⟩ : View.Piece (Elt F) S2x512 .f32)] (rrow0 : Rect S2x512)
    (fun y => ⟨⟨Rect.unit ![0, 0] ![2, 512] inb_S2x512_S2x512_0_0, Z⟩, List.mem_singleton_self _, View.mem_set_unit_zero hz inb_S2x512_S2x512_0_0 y⟩),
    View.canon_unit_zero hz]
  show Z ((rrow0 : Rect S2x512).emb (ix2 (0 : Fin 1) q')) = _
  rw [emb_row0 q']

/-- A row-1 load after a whole store and then a row-0 store reads the whole store's row 1: the row-0 store leaves it alone. -/
theorem readCov_row1 {sp : Space} (v : View sig .tc sp S2x512 .f32) (w0 : Vec F S1x512 .f32) (Z : Vec F S2x512 .f32) (q' : Fin 512) :
    v.readCov [(⟨rrow0, w0⟩ : View.Piece (Elt F) S2x512 .f32), ⟨Rect.unit ![0, 0] ![2, 512] inb_S2x512_S2x512_0_0, Z⟩] (rrow1 : Rect S2x512).toLoadRect (ix2 (0 : Fin 1) q')
      = Z (ix2 (1 : Fin 2) q') := by
  rw [View.readCov_eq_canon_ld v [(⟨rrow0, w0⟩ : View.Piece (Elt F) S2x512 .f32), ⟨Rect.unit ![0, 0] ![2, 512] inb_S2x512_S2x512_0_0, Z⟩] (rrow1 : Rect S2x512)
    (fun y => ⟨⟨Rect.unit ![0, 0] ![2, 512] inb_S2x512_S2x512_0_0, Z⟩, List.mem_cons_of_mem _ (List.mem_singleton_self _), View.mem_set_unit_zero hz inb_S2x512_S2x512_0_0 y⟩)]
  show View.canon [(⟨rrow0, w0⟩ : View.Piece (Elt F) S2x512 .f32), ⟨Rect.unit ![0, 0] ![2, 512] inb_S2x512_S2x512_0_0, Z⟩] ((rrow1 : Rect S2x512).emb (ix2 (0 : Fin 1) q')) = _
  rw [emb_row1 q', View.canon_cons_of_not_mem (⟨rrow0, w0⟩ : View.Piece (Elt F) S2x512 .f32) [⟨Rect.unit ![0, 0] ![2, 512] inb_S2x512_S2x512_0_0, Z⟩] (row1_not_mem_row0 q'),
    View.canon_unit_zero hz]

/-- Case A (the first point): each row is its payload over a row of zeros — the zero store read back, row 1 after the
    row-0 store, which leaves row 1 alone. -/
theorem out_A_6_row0 (c : Dev nD) (i : grid2.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : cond2_0 i)
    (x0 x1 : Vec F S2000x512 .f32) (x2 x3 : Vec F S512x512 .f32) (x4 : Vec F S1x512 .f32) (q : Fin 512) :
    ∃ Z : Vec F S1x512 .f32, (∀ q' : Fin 512, Z (ix2 (0 : Fin 1) q') = FloatOps.ofBits .f32 0x00000000#32) ∧
      out2_A_6 c i a1 h1 a2 h2 a3 h3 a4 h4 a5 h5 a6 h6 a7 h7 hc x0 x1 x2 x3 x4 (ix2 (0 : Fin 2) q) = k2_pay3 x0 x2 x1 x3 x4 Z (ix2 (0 : Fin 1) q) := by
  unfold out2_A_6
  rw [View.read_writes_eq_canon _ _ _ (cover2_A_6 c i a1 h1 a2 h2 a3 h3 a4 h4 a5 h5 a6 h6 a7 h7 hc x0 x1 x2 x3 x4)]
  unfold kernelRun2_A
  dsimp only
  sl_unfold_words
  simp only [View.readAt_eq_ld, h1.read_unread, h2.read_unread, h3.read_unread, h4.read_unread, h5.read_unread,
    View.ld_unit_zero (S := S2000x512) hz, View.ld_unit_zero (S := S512x512) hz, View.ld_unit_zero (S := S1x512) hz]
  exact ⟨_, fun q' => readCov_row0 a7.view k2_pay1 q', canon_row0 _ _ _ q⟩

theorem out_A_6_row1 (c : Dev nD) (i : grid2.Coords) (a1 : Memref sig .tc .vmem S2000x512 .f32) (h1 : a1.IsWhole) (a2 : Memref sig .tc .vmem S2000x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S2000x512 .f32) (h6 : a6.IsWhole) (a7 : Memref sig .tc .vmem S2x512 .f32) (h7 : a7.IsWhole) (hc : cond2_0 i)
    (x0 x1 : Vec F S2000x512 .f32) (x2 x3 : Vec F S512x512 .f32) (x4 : Vec F S1x512 .f32) (q : Fin 512) :
    ∃ Z : Vec F S1x512 .f32, (∀ q' : Fin 512, Z (ix2 (0 : Fin 1) q') = FloatOps.ofBits .f32 0x00000000#32) ∧
      out2_A_6 c i a1 h1 a2 h2 a3 h3 a4 h4 a5 h5 a6 h6 a7 h7 hc x0 x1 x2 x3 x4 (ix2 (1 : Fin 2) q) = k2_pay4 x0 x2 x1 x3 x4 Z (ix2 (0 : Fin 1) q) := by
  unfold out2_A_6
  rw [View.read_writes_eq_canon _ _ _ (cover2_A_6 c i a1 h1 a2 h2 a3 h3 a4 h4 a5 h5 a6 h6 a7 h7 hc x0 x1 x2 x3 x4)]
  unfold kernelRun2_A
  dsimp only
  sl_unfold_words
  simp only [View.readAt_eq_ld, h1.read_unread, h2.read_unread, h3.read_unread, h4.read_unread, h5.read_unread,
    View.ld_unit_zero (S := S2000x512) hz, View.ld_unit_zero (S := S512x512) hz, View.ld_unit_zero (S := S1x512) hz]
  exact ⟨_, fun q' => readCov_row1 a7.view _ k2_pay1 q', canon_row1 _ _ q⟩

/-! ## The first output: every point leaves its block's payload -/

/-- The linear layer's value on the blocks point `t` reads. -/
abbrev P (c : Dev nD) (t : Fin cfg2.N) : Vec F S2000x512 .f32 :=
  k2_pay2 (iblk2 V c 0 t) (iblk2 V c 2 t) (iblk2 V c 1 t) (iblk2 V c 3 t) (iblk2 V c 4 t)

set_option maxHeartbeats 4000000 in
theorem outs_fst (c : Dev nD) (t : Fin cfg2.N) : (outsAt2 V c t.val t.isLt).1 = P V c t := by
  by_cases h : t.val % 25 = 0
  · rw [outsAt2_A V c t h]
    dsimp only
    exact out_A_5 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h) (iblk2 V c 0 t) (iblk2 V c 1 t) (iblk2 V c 2 t) (iblk2 V c 3 t) (iblk2 V c 4 t)
  · rw [outsAt2_B V c t h]
    dsimp only
    exact out_B_5 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h' => h ((hcond2_0 t).mp h')) (iblk2 V c 0 t) (iblk2 V c 1 t) (iblk2 V c 2 t) (iblk2 V c 3 t) (iblk2 V c 4 t) _

/-! ## On the extended reals: the two result arrays as functions of the arrays the launch finds -/

section AtIdeal

variable (W : (c : Dev nD) → (b : Ref sig .tc) → Buf (Elt Ideal) ((c : Thread nD τ).loc b))

/-- The printed index maps over the grid: the row blocks of `x`, `a` and the first output move together, everything
    else stays at block (0, 0). -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0
  ∧ win2_6.index t (0 : Fin 2) = 0 ∧ win2_6.index t (1 : Fin 2) = 0 :=
  (by decide +kernel : ∀ t : Fin grid2.N, _)

/-- The linear layer on whole arrays: entry `(r, n)` is `∑ₖ x(r,k)·W0(k,n) + ∑ₖ a(r,k)·W1(k,n) + b(0,n)`. -/
def PRE (x a : S50000x512.Idx → EReal) (w0 w1 : S512x512.Idx → EReal) (b : S1x512.Idx → EReal) : S50000x512.Idx → EReal :=
  fun i => ((∑ k : Fin 512, x (ix2 (i 0 : Fin 50000) k) * w0 (ix2 k (i 1 : Fin 512)))
    + (∑ k : Fin 512, a (ix2 (i 0 : Fin 50000) k) * w1 (ix2 k (i 1 : Fin 512)))) + b (ix2 (0 : Fin 1) (i 1 : Fin 512))

/-! ### Each window's block at point `t` read off its array -/

theorem x_read (c : Dev nD) (t : Fin cfg2.N) (p : Fin 2000) (k : Fin 512) (r : Fin 50000) (s : Fin 512)
    (hr : r.val = t.val * 2000 + p.val) (hs : s.val = k.val) :
    iblk2 W c 0 t (ix2 p k) = (W c (Pipeline.arrRef spec2 0)) (ix2 r s) := by
  obtain ⟨e0, e1, e2, e3, e4, e5, e6, e7, e8, e9, e10, e11, e12, e13⟩ := idx_facts t
  unfold iblk2
  rw [View.read_apply]
  show (W c (Pipeline.arrRef spec2 0)) _ = (W c (Pipeline.arrRef spec2 0)) _
  congr 1
  funext a; apply Fin.ext
  match a with
  | ⟨0, _⟩ => show win2_0.index t (0 : Fin 2) * 2000 + 1 * p.val = r.val; omega
  | ⟨1, _⟩ => show win2_0.index t (1 : Fin 2) * 512 + 1 * k.val = s.val; omega

theorem a_read (c : Dev nD) (t : Fin cfg2.N) (p : Fin 2000) (k : Fin 512) (r : Fin 50000) (s : Fin 512)
    (hr : r.val = t.val * 2000 + p.val) (hs : s.val = k.val) :
    iblk2 W c 1 t (ix2 p k) = (W c (Pipeline.arrRef spec2 1)) (ix2 r s) := by
  obtain ⟨e0, e1, e2, e3, e4, e5, e6, e7, e8, e9, e10, e11, e12, e13⟩ := idx_facts t
  unfold iblk2
  rw [View.read_apply]
  show (W c (Pipeline.arrRef spec2 1)) _ = (W c (Pipeline.arrRef spec2 1)) _
  congr 1
  funext a; apply Fin.ext
  match a with
  | ⟨0, _⟩ => show win2_1.index t (0 : Fin 2) * 2000 + 1 * p.val = r.val; omega
  | ⟨1, _⟩ => show win2_1.index t (1 : Fin 2) * 512 + 1 * k.val = s.val; omega

theorem w0_read (c : Dev nD) (t : Fin cfg2.N) (p : Fin 512) (k : Fin 512) (r : Fin 512) (s : Fin 512)
    (hr : r.val = p.val) (hs : s.val = k.val) :
    iblk2 W c 2 t (ix2 p k) = (W c (Pipeline.arrRef spec2 2)) (ix2 r s) := by
  obtain ⟨e0, e1, e2, e3, e4, e5, e6, e7, e8, e9, e10, e11, e12, e13⟩ := idx_facts t
  unfold iblk2
  rw [View.read_apply]
  show (W c (Pipeline.arrRef spec2 2)) _ = (W c (Pipeline.arrRef spec2 2)) _
  congr 1
  funext a; apply Fin.ext
  match a with
  | ⟨0, _⟩ => show win2_2.index t (0 : Fin 2) * 512 + 1 * p.val = r.val; omega
  | ⟨1, _⟩ => show win2_2.index t (1 : Fin 2) * 512 + 1 * k.val = s.val; omega

theorem w1_read (c : Dev nD) (t : Fin cfg2.N) (p : Fin 512) (k : Fin 512) (r : Fin 512) (s : Fin 512)
    (hr : r.val = p.val) (hs : s.val = k.val) :
    iblk2 W c 3 t (ix2 p k) = (W c (Pipeline.arrRef spec2 3)) (ix2 r s) := by
  obtain ⟨e0, e1, e2, e3, e4, e5, e6, e7, e8, e9, e10, e11, e12, e13⟩ := idx_facts t
  unfold iblk2
  rw [View.read_apply]
  show (W c (Pipeline.arrRef spec2 3)) _ = (W c (Pipeline.arrRef spec2 3)) _
  congr 1
  funext a; apply Fin.ext
  match a with
  | ⟨0, _⟩ => show win2_3.index t (0 : Fin 2) * 512 + 1 * p.val = r.val; omega
  | ⟨1, _⟩ => show win2_3.index t (1 : Fin 2) * 512 + 1 * k.val = s.val; omega

theorem b_read (c : Dev nD) (t : Fin cfg2.N) (p : Fin 1) (k : Fin 512) (r : Fin 1) (s : Fin 512)
    (hr : r.val = p.val) (hs : s.val = k.val) :
    iblk2 W c 4 t (ix2 p k) = (W c (Pipeline.arrRef spec2 4)) (ix2 r s) := by
  obtain ⟨e0, e1, e2, e3, e4, e5, e6, e7, e8, e9, e10, e11, e12, e13⟩ := idx_facts t
  unfold iblk2
  rw [View.read_apply]
  show (W c (Pipeline.arrRef spec2 4)) _ = (W c (Pipeline.arrRef spec2 4)) _
  congr 1
  funext a; apply Fin.ext
  match a with
  | ⟨0, _⟩ => show win2_4.index t (0 : Fin 2) * 1 + 1 * p.val = r.val; omega
  | ⟨1, _⟩ => show win2_4.index t (1 : Fin 2) * 512 + 1 * k.val = s.val; omega

/-- The body's value at `(p, q)` of point `t`'s block is the linear layer at row `2000·t + p`. -/
theorem P_apply (c : Dev nD) (t : Fin cfg2.N) (p : Fin 2000) (q : Fin 512) (r : Fin 50000) (hr : r.val = t.val * 2000 + p.val) :
    P W c t (ix2 p q) = PRE (W c (Pipeline.arrRef spec2 0)) (W c (Pipeline.arrRef spec2 1)) (W c (Pipeline.arrRef spec2 2)) (W c (Pipeline.arrRef spec2 3)) (W c (Pipeline.arrRef spec2 4)) (ix2 r q) := by
  refine (Pay2.pay2_apply (iblk2 W c 0 t) (iblk2 W c 2 t) (iblk2 W c 1 t) (iblk2 W c 3 t) (iblk2 W c 4 t) p q).trans ?_
  unfold Pay2.lin PRE
  refine congrArg₂ (· + ·) (congrArg₂ (· + ·)
    (Finset.sum_congr rfl fun k _ => congrArg₂ (· * ·) (x_read W c t p k r k hr rfl) (w0_read W c t k q k q rfl rfl))
    (Finset.sum_congr rfl fun k _ => congrArg₂ (· * ·) (a_read W c t p k r k hr rfl) (w1_read W c t k q k q rfl rfl)))
    (b_read W c t 0 q 0 q rfl rfl)

/-! ### The accumulator after each point -/

/-- The first point: the rows are the column sums of its block's values, and of their squares, over a zero. -/
theorem acc_A (c : Dev nD) (t : Fin cfg2.N) (h0 : t.val % 25 = 0) (q : Fin 512) :
    (outsAt2 W c t.val t.isLt).2 (ix2 (0 : Fin 2) q) = ∑ p : Fin 2000, P W c t (ix2 p q)
    ∧ (outsAt2 W c t.val t.isLt).2 (ix2 (1 : Fin 2) q) = ∑ p : Fin 2000, P W c t (ix2 p q) * P W c t (ix2 p q) := by
  rw [outsAt2_A W c t h0]
  dsimp only
  obtain ⟨Z0, hZ0, e0⟩ := out_A_6_row0 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 W c 0 t) (iblk2 W c 1 t) (iblk2 W c 2 t) (iblk2 W c 3 t) (iblk2 W c 4 t) q
  obtain ⟨Z1, hZ1, e1⟩ := out_A_6_row1 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 W c 0 t) (iblk2 W c 1 t) (iblk2 W c 2 t) (iblk2 W c 3 t) (iblk2 W c 4 t) q
  refine ⟨e0.trans ?_, e1.trans ?_⟩
  · refine (Pay2.pay3_apply (iblk2 W c 0 t) (iblk2 W c 2 t) (iblk2 W c 1 t) (iblk2 W c 3 t) (iblk2 W c 4 t) Z0 q).trans ?_
    rw [hZ0 q]
    show Ideal.ofBits .f32 0x00000000#32 + _ = _
    rw [Ideal.ofBits_zero_f32, zero_add]
  · refine (Pay2.pay4_apply (iblk2 W c 0 t) (iblk2 W c 2 t) (iblk2 W c 1 t) (iblk2 W c 3 t) (iblk2 W c 4 t) Z1 q).trans ?_
    rw [hZ1 q]
    show Ideal.ofBits .f32 0x00000000#32 + _ = _
    rw [Ideal.ofBits_zero_f32, zero_add]

/-- Every later point adds its block's column sums to what the point before left. -/
theorem acc_B (c : Dev nD) (t : Fin cfg2.N) (h0 : ¬t.val % 25 = 0) (q : Fin 512) :
    (outsAt2 W c t.val t.isLt).2 (ix2 (0 : Fin 2) q)
      = (outsAt2 W c (t.val - 1) (Nat.lt_of_le_of_lt (Nat.sub_le _ _) t.isLt)).2 (ix2 (0 : Fin 2) q) + ∑ p : Fin 2000, P W c t (ix2 p q)
    ∧ (outsAt2 W c t.val t.isLt).2 (ix2 (1 : Fin 2) q)
      = (outsAt2 W c (t.val - 1) (Nat.lt_of_le_of_lt (Nat.sub_le _ _) t.isLt)).2 (ix2 (1 : Fin 2) q) + ∑ p : Fin 2000, P W c t (ix2 p q) * P W c t (ix2 p q) := by
  rw [outsAt2_B W c t h0]
  dsimp only
  refine ⟨(out_B_6_row0 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h' => h0 ((hcond2_0 t).mp h')) (iblk2 W c 0 t) (iblk2 W c 1 t) (iblk2 W c 2 t) (iblk2 W c 3 t) (iblk2 W c 4 t) _ q).trans ?_,
    (out_B_6_row1 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h' => h0 ((hcond2_0 t).mp h')) (iblk2 W c 0 t) (iblk2 W c 1 t) (iblk2 W c 2 t) (iblk2 W c 3 t) (iblk2 W c 4 t) _ q).trans ?_⟩
  · refine (Pay2.pay3_apply (iblk2 W c 0 t) (iblk2 W c 2 t) (iblk2 W c 1 t) (iblk2 W c 3 t) (iblk2 W c 4 t) _ q).trans ?_
    show (outsAt2 W c (t.val - 1) _).2 ((rrow0 : Rect S2x512).emb (ix2 (0 : Fin 1) q)) + _ = _
    rw [emb_row0 q]
  · refine (Pay2.pay4_apply (iblk2 W c 0 t) (iblk2 W c 2 t) (iblk2 W c 1 t) (iblk2 W c 3 t) (iblk2 W c 4 t) _ q).trans ?_
    show (outsAt2 W c (t.val - 1) _).2 ((rrow1 : Rect S2x512).emb (ix2 (0 : Fin 1) q)) + _ = _
    rw [emb_row1 q]

/-- Point `n`'s column sums, as functions on all naturals (zero past the grid). -/
def S1 (c : Dev nD) (q : Fin 512) (n : ℕ) : EReal :=
  if h : n < cfg2.N then ∑ p : Fin 2000, P W c ⟨n, h⟩ (ix2 p q) else 0
def S2 (c : Dev nD) (q : Fin 512) (n : ℕ) : EReal :=
  if h : n < cfg2.N then ∑ p : Fin 2000, P W c ⟨n, h⟩ (ix2 p q) * P W c ⟨n, h⟩ (ix2 p q) else 0

/-- By induction on the point: after point `n` the accumulator holds the sums over the points `0 … n`. -/
theorem acc_eq (c : Dev nD) (q : Fin 512) : ∀ (n : ℕ) (h : n < cfg2.N),
    (outsAt2 W c n h).2 (ix2 (0 : Fin 2) q) = ∑ k ∈ Finset.range (n + 1), S1 W c q k
    ∧ (outsAt2 W c n h).2 (ix2 (1 : Fin 2) q) = ∑ k ∈ Finset.range (n + 1), S2 W c q k
  | 0, h => by
    have hA := acc_A W c ⟨0, h⟩ rfl q
    rw [Finset.sum_range_one, Finset.sum_range_one]
    unfold S1 S2
    rw [dif_pos h, dif_pos h]
    exact hA
  | n + 1, h => by
    have hN : cfg2.N = 25 := N_2
    have hB : ¬(⟨n + 1, h⟩ : Fin cfg2.N).val % 25 = 0 := by dsimp only; omega
    have hb := acc_B W c ⟨n + 1, h⟩ hB q
    have ih := acc_eq c q n (Nat.lt_of_succ_lt h)
    rw [Finset.sum_range_succ (S1 W c q), Finset.sum_range_succ (S2 W c q), ← ih.1, ← ih.2]
    have e1 : S1 W c q (n + 1) = ∑ p : Fin 2000, P W c ⟨n + 1, h⟩ (ix2 p q) := by unfold S1; rw [dif_pos h]
    have e2 : S2 W c q (n + 1) = ∑ p : Fin 2000, P W c ⟨n + 1, h⟩ (ix2 p q) * P W c ⟨n + 1, h⟩ (ix2 p q) := by unfold S2; rw [dif_pos h]
    rw [e1, e2]
    exact hb

end AtIdeal

section Finals

variable (W : (c : Dev nD) → (b : Ref sig .tc) → Buf (Elt Ideal) ((c : Thread nD τ).loc b))

/-! ### The first result array: the linear layer of the arrays the launch finds -/

set_option maxHeartbeats 4000000 in
/-- What point `t` writes back is block `t` of the linear layer. -/
theorem flushed5_eq (c : Dev nD) (t : Fin cfg2.N) :
    (dat2 W c).flushed 5 t = ((cfg2.win 5).blk t).view.read (Elt Ideal) (PRE (W c (Pipeline.arrRef spec2 0)) (W c (Pipeline.arrRef spec2 1)) (W c (Pipeline.arrRef spec2 2)) (W c (Pipeline.arrRef spec2 3)) (W c (Pipeline.arrRef spec2 4))) := by
  show (cfg2.win 5).cut (grid2.coords t) ((dat2 W c).after 5 t) = _
  rw [after2_5, outs_fst]
  obtain ⟨e0, e1, e2, e3, e4, e5, e6, e7, e8, e9, e10, e11, e12, e13⟩ := idx_facts t
  have hN : cfg2.N = 25 := N_2
  have key : ∀ (y : S2000x512.Idx) (r : Fin 50000), r.val = t.val * 2000 + (y 0).val →
      P W c t y = (PRE (W c (Pipeline.arrRef spec2 0)) (W c (Pipeline.arrRef spec2 1)) (W c (Pipeline.arrRef spec2 2)) (W c (Pipeline.arrRef spec2 3)) (W c (Pipeline.arrRef spec2 4))) (ix2 r (y 1 : Fin 512)) := by
    intro y r hr
    exact (congrArg (P W c t) (eq_ix2 y)).trans (P_apply W c t (y 0) (y 1) r hr)
  funext j
  rw [View.read_apply]
  have hj0 : (j 0).val < 2000 := (j 0).isLt
  have ht : t.val < 25 := hN ▸ t.isLt
  refine (key ((cfg2.win 5).xinj (grid2.coords t) j) ⟨t.val * 2000 + (j 0).val, by omega⟩ rfl).trans ?_
  have hi : (ix2 (⟨t.val * 2000 + (j 0).val, by omega⟩ : Fin 50000) ((((cfg2.win 5).xinj (grid2.coords t) j) 1 : Fin 512)) : S50000x512.Idx)
      = ((cfg2.win 5).blk t).view.emb j := by
    funext a; apply Fin.ext
    match a with
    | ⟨0, _⟩ => show t.val * 2000 + (j 0).val = win2_5.index t (0 : Fin 2) * 2000 + 1 * (j 0).val; omega
    | ⟨1, _⟩ => show (j 1).val = win2_5.index t (1 : Fin 2) * 512 + 1 * (j 1).val; omega
  rw [hi]
  first | rfl | exact (cast_eq _ _).symm

theorem mem_blk5 (t : Fin cfg2.N) (i : S50000x512.Idx) :
    i ∈ ((cfg2.win 5).blk t).view.set ↔ ∀ a : Fin 2, win2_5.index t a * S2000x512.size a ≤ (i a).val ∧ (i a).val < win2_5.index t a * S2000x512.size a + S2000x512.size a := by
  show i ∈ ((View.whole (Pipeline.arrRef spec2 5)).slice (win2_5.rect t)).set ↔ _
  rw [View.set_slice_whole, Rect.mem_set_unit]
  exact Iff.rfl

theorem cover5 (i : S50000x512.Idx) : ∃ t : Fin cfg2.N, (cfg2.win 5).flush t = true ∧ i ∈ ((cfg2.win 5).blk t).view.set := by
  have hi0 : (i 0).val < 50000 := (i 0).isLt
  have hi1 : (i 1).val < 512 := (i 1).isLt
  have hN : cfg2.N = 25 := N_2
  have hlt : (i 0).val / 2000 < cfg2.N := by rw [hN]; omega
  obtain ⟨e0, e1, e2, e3, e4, e5, e6, e7, e8, e9, e10, e11, e12, e13⟩ := idx_facts ⟨(i 0).val / 2000, hlt⟩
  refine ⟨⟨(i 0).val / 2000, hlt⟩, flush2_5 _, ?_⟩
  rw [mem_blk5]
  intro a
  match a with
  | ⟨0, _⟩ => show win2_5.index ⟨(i 0).val / 2000, hlt⟩ (0 : Fin 2) * 2000 ≤ (i 0).val ∧ (i 0).val < win2_5.index ⟨(i 0).val / 2000, hlt⟩ (0 : Fin 2) * 2000 + 2000
              rw [e10]; show (i 0).val / 2000 * 2000 ≤ (i 0).val ∧ (i 0).val < (i 0).val / 2000 * 2000 + 2000; omega
  | ⟨1, _⟩ => show win2_5.index ⟨(i 0).val / 2000, hlt⟩ (1 : Fin 2) * 512 ≤ (i 1).val ∧ (i 1).val < win2_5.index ⟨(i 0).val / 2000, hlt⟩ (1 : Fin 2) * 512 + 512
              rw [e11]; omega

/-- The first result array after the launch. -/
theorem final5 (c : Dev nD) : (dat2 W c).arrAt 5 cfg2.N = (PRE (W c (Pipeline.arrRef spec2 0)) (W c (Pipeline.arrRef spec2 1)) (W c (Pipeline.arrRef spec2 2)) (W c (Pipeline.arrRef spec2 3)) (W c (Pipeline.arrRef spec2 4))) :=
  (dat2 W c).arrAt_eq_of_cover 5 _ (fun t _ => flushed5_eq W c t) cover5

/-! ### The second result array: the column sums over all 25 points -/

/-- Row 0: the column sums of the linear layer's values over the points; row 1: of their squares. -/
def STATS (c : Dev nD) : S2x512.Idx → EReal :=
  fun i => if (i 0).val = 0 then ∑ k ∈ Finset.range 25, S1 W c (i 1 : Fin 512) k else ∑ k ∈ Finset.range 25, S2 W c (i 1 : Fin 512) k

theorem outs_snd_last (c : Dev nD) (h : 24 < cfg2.N) : (outsAt2 W c 24 h).2 = STATS W c := by
  funext i
  obtain ⟨ρ, q, rfl⟩ : ∃ (ρ : Fin 2) (q : Fin 512), i = ix2 ρ q := ⟨i 0, i 1, eq_ix2 i⟩
  have hacc := acc_eq W c q 24 h
  unfold STATS
  match ρ with
  | ⟨0, _⟩ => exact hacc.1.trans (if_pos rfl).symm
  | ⟨1, _⟩ => exact hacc.2.trans (if_neg Nat.one_ne_zero).symm

set_option maxHeartbeats 4000000 in
/-- The one write-back, at the last point, writes the accumulator: block (0, 0) of the [2, 512] array is the array. -/
theorem flushed6_eq (c : Dev nD) (t : Fin cfg2.N) (hf : (cfg2.win 6).flush t = true) :
    (dat2 W c).flushed 6 t = ((cfg2.win 6).blk t).view.read (Elt Ideal) (STATS W c) := by
  have hN : cfg2.N = 25 := N_2
  have hlt : 24 < cfg2.N := by rw [hN]; decide
  have h24 : t.val = 24 := by have := (flush2_6 t).mp hf; have := t.isLt; omega
  obtain rfl : t = ⟨24, hlt⟩ := Fin.ext h24
  obtain ⟨e0, e1, e2, e3, e4, e5, e6, e7, e8, e9, e10, e11, e12, e13⟩ := idx_facts ⟨24, hlt⟩
  show (cfg2.win 6).cut (grid2.coords _) ((dat2 W c).after 6 _) = _
  rw [after2_6, outs_snd_last]
  funext j
  rw [View.read_apply]
  have hi : (cfg2.win 6).xinj (grid2.coords ⟨24, hlt⟩) j = ((cfg2.win 6).blk ⟨24, hlt⟩).view.emb j := by
    funext a; apply Fin.ext
    match a with
    | ⟨0, _⟩ => show (j 0).val = win2_6.index ⟨24, _⟩ (0 : Fin 2) * 2 + 1 * (j 0).val; omega
    | ⟨1, _⟩ => show (j 1).val = win2_6.index ⟨24, _⟩ (1 : Fin 2) * 512 + 1 * (j 1).val; omega
  show STATS W c ((cfg2.win 6).xinj (grid2.coords ⟨24, hlt⟩) j) = _
  rw [hi]
  first | rfl | exact (cast_eq _ _).symm

theorem mem_blk6 (t : Fin cfg2.N) (i : S2x512.Idx) :
    i ∈ ((cfg2.win 6).blk t).view.set ↔ ∀ a : Fin 2, win2_6.index t a * S2x512.size a ≤ (i a).val ∧ (i a).val < win2_6.index t a * S2x512.size a + S2x512.size a := by
  show i ∈ ((View.whole (Pipeline.arrRef spec2 6)).slice (win2_6.rect t)).set ↔ _
  rw [View.set_slice_whole, Rect.mem_set_unit]
  exact Iff.rfl

theorem cover6 (i : S2x512.Idx) : ∃ t : Fin cfg2.N, (cfg2.win 6).flush t = true ∧ i ∈ ((cfg2.win 6).blk t).view.set := by
  have hi0 : (i 0).val < 2 := (i 0).isLt
  have hi1 : (i 1).val < 512 := (i 1).isLt
  have hN : cfg2.N = 25 := N_2
  have hlt : 24 < cfg2.N := by omega
  obtain ⟨e0, e1, e2, e3, e4, e5, e6, e7, e8, e9, e10, e11, e12, e13⟩ := idx_facts ⟨24, hlt⟩
  refine ⟨⟨24, hlt⟩, (flush2_6 _).mpr rfl, ?_⟩
  rw [mem_blk6]
  intro a
  match a with
  | ⟨0, _⟩ => show win2_6.index ⟨24, hlt⟩ (0 : Fin 2) * 2 ≤ (i 0).val ∧ (i 0).val < win2_6.index ⟨24, hlt⟩ (0 : Fin 2) * 2 + 2
              rw [e12]; omega
  | ⟨1, _⟩ => show win2_6.index ⟨24, hlt⟩ (1 : Fin 2) * 512 ≤ (i 1).val ∧ (i 1).val < win2_6.index ⟨24, hlt⟩ (1 : Fin 2) * 512 + 512
              rw [e13]; omega

/-- The second result array after the launch. -/
theorem final6 (c : Dev nD) : (dat2 W c).arrAt 6 cfg2.N = STATS W c :=
  (dat2 W c).arrAt_eq_of_cover 6 _ (fun t hf => flushed6_eq W c t hf) cover6

/-! ### The statistics as a function of the linear layer's array -/

/-- Row 0: each column's sum over all 50000 rows; row 1: each column's sum of squares. -/
def colStats (h : S50000x512.Idx → EReal) : S2x512.Idx → EReal :=
  fun i => if (i 0).val = 0 then ∑ r : Fin 50000, h (ix2 r (i 1 : Fin 512))
    else ∑ r : Fin 50000, h (ix2 r (i 1 : Fin 512)) * h (ix2 r (i 1 : Fin 512))

set_option maxHeartbeats 4000000 in
/-- The sums over the 25 points' blocks are the sums over all rows. -/
theorem STATS_eq (c : Dev nD) : STATS W c = colStats (PRE (W c (Pipeline.arrRef spec2 0)) (W c (Pipeline.arrRef spec2 1)) (W c (Pipeline.arrRef spec2 2)) (W c (Pipeline.arrRef spec2 3)) (W c (Pipeline.arrRef spec2 4))) := by
  have hN : cfg2.N = 25 := N_2
  funext i
  unfold STATS colStats
  have e1 : ∀ q : Fin 512, ∑ k ∈ Finset.range 25, S1 W c q k
      = ∑ r : Fin 50000, PRE (W c (Pipeline.arrRef spec2 0)) (W c (Pipeline.arrRef spec2 1)) (W c (Pipeline.arrRef spec2 2)) (W c (Pipeline.arrRef spec2 3)) (W c (Pipeline.arrRef spec2 4)) (ix2 r q) := by
    intro q
    refine Eq.trans ?_ (Cert.LibSumBlocks.sum_blocks_range 25 2000 (fun r : Fin 50000 => PRE (W c (Pipeline.arrRef spec2 0)) (W c (Pipeline.arrRef spec2 1)) (W c (Pipeline.arrRef spec2 2)) (W c (Pipeline.arrRef spec2 3)) (W c (Pipeline.arrRef spec2 4)) (ix2 r q))).symm
    refine Finset.sum_congr rfl fun k hk => ?_
    have hk25 : k < 25 := Finset.mem_range.mp hk
    have hkN : k < cfg2.N := by omega
    unfold S1
    rw [dif_pos hkN, dif_pos hk25]
    exact Finset.sum_congr rfl fun p _ => P_apply W c ⟨k, hkN⟩ p q ⟨k * 2000 + p.val, Cert.LibSumBlocks.row_lt (A := 25) (B := 2000) ⟨k, hk25⟩ p⟩ rfl
  have e2 : ∀ q : Fin 512, ∑ k ∈ Finset.range 25, S2 W c q k
      = ∑ r : Fin 50000, PRE (W c (Pipeline.arrRef spec2 0)) (W c (Pipeline.arrRef spec2 1)) (W c (Pipeline.arrRef spec2 2)) (W c (Pipeline.arrRef spec2 3)) (W c (Pipeline.arrRef spec2 4)) (ix2 r q)
          * PRE (W c (Pipeline.arrRef spec2 0)) (W c (Pipeline.arrRef spec2 1)) (W c (Pipeline.arrRef spec2 2)) (W c (Pipeline.arrRef spec2 3)) (W c (Pipeline.arrRef spec2 4)) (ix2 r q) := by
    intro q
    refine Eq.trans ?_ (Cert.LibSumBlocks.sum_blocks_range 25 2000 (fun r : Fin 50000 => PRE (W c (Pipeline.arrRef spec2 0)) (W c (Pipeline.arrRef spec2 1)) (W c (Pipeline.arrRef spec2 2)) (W c (Pipeline.arrRef spec2 3)) (W c (Pipeline.arrRef spec2 4)) (ix2 r q)
      * PRE (W c (Pipeline.arrRef spec2 0)) (W c (Pipeline.arrRef spec2 1)) (W c (Pipeline.arrRef spec2 2)) (W c (Pipeline.arrRef spec2 3)) (W c (Pipeline.arrRef spec2 4)) (ix2 r q))).symm
    refine Finset.sum_congr rfl fun k hk => ?_
    have hk25 : k < 25 := Finset.mem_range.mp hk
    have hkN : k < cfg2.N := by omega
    unfold S2
    rw [dif_pos hkN, dif_pos hk25]
    refine Finset.sum_congr rfl fun p _ => ?_
    rw [P_apply W c ⟨k, hkN⟩ p q ⟨k * 2000 + p.val, Cert.LibSumBlocks.row_lt (A := 25) (B := 2000) ⟨k, hk25⟩ p⟩ rfl]
  split
  · exact e1 _
  · exact e2 _

/-- The second result array as the column statistics of the first. -/
theorem final6' (c : Dev nD) : (dat2 W c).arrAt 6 cfg2.N
    = colStats (PRE (W c (Pipeline.arrRef spec2 0)) (W c (Pipeline.arrRef spec2 1)) (W c (Pipeline.arrRef spec2 2)) (W c (Pipeline.arrRef spec2 3)) (W c (Pipeline.arrRef spec2 4))) :=
  (final6 W c).trans (STATS_eq W c)

end Finals

end Cert.KernelIdeal.Lin2

end
-- ==== Proof.Pay4.lean ====
/-
  The linear body of launch 4 read at an entry, on the extended reals.

  On a block of 2000 rows the stored value at `(p, q)` is `∑ₖ x(p,k)·W0(k,q) + ∑ₖ a(p,k)·W1(k,q) + b(0,q)`: each
  matrix product into a zero accumulator is the plain sum over the shared axis, the bias row is broadcast down the
  rows. The two accumulator updates add to the running row the column sum over the block's 2000 rows of that value,
  and of its square.
-/
import proofs.«142385_j6322191859752_1_alg».proof.Proof.Gen.KernelIdeal.Skeleton
import proofs.«142385_j6322191859752_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay4

open Cert.KernelIdeal Cert.KernelIdeal.Gen
open Idealize.ShloMosaic Idealize.ShloMosaic.ValueIdx
open scoped BigOperators

/-- The printed dimension numbers are the plain ones: rows by contraction times contraction by columns. -/
theorem dot_eq : dot_S2000x512_S512x256_S2000x256_1_0_0_1_n_n = DotDims.plain 2000 512 256 := rfl

/-- The linear layer at entry `(p, q)` of a block of rows. -/
def lin (x a : S2000x512.Idx → EReal) (w0 w1 : S512x256.Idx → EReal) (b : S1x256.Idx → EReal) (p : Fin 2000) (q : Fin 256) : EReal :=
  ((∑ k : Fin 512, x (ix2 p k) * w0 (ix2 k q)) + (∑ k : Fin 512, a (ix2 p k) * w1 (ix2 k q))) + b (ix2 (0 : Fin 1) q)

/-- One matrix product into the zero accumulator, at `(p, q)`. -/
theorem mm_apply (x : FVec Ideal S2000x512 .f32) (w : FVec Ideal S512x256 .f32) (p : Fin 2000) (q : Fin 256) :
    matmul (F := Ideal) dot_S2000x512_S512x256_S2000x256_1_0_0_1_n_n none x w (constant S2000x256 .f32 0x00000000#32) (ix2 p q) = ∑ k : Fin 512, x (ix2 p k) * w (ix2 k q) := by
  refine (Ideal.matmul_constant_zero_apply dot_S2000x512_S512x256_S2000x256_1_0_0_1_n_n none x w (ix2 p q)).trans ?_
  rw [dot_eq]
  exact Cert.LibDense.plain_sum 2000 512 256 x w (ix2 p q)

theorem pay2_apply (x0 : FVec Ideal S2000x512 .f32) (w0 : FVec Ideal S512x256 .f32) (x1 : FVec Ideal S2000x512 .f32) (w1 : FVec Ideal S512x256 .f32)
    (b : FVec Ideal S1x256 .f32) (p : Fin 2000) (q : Fin 256) :
    k4_pay2 (F := Ideal) x0 w0 x1 w1 b (ix2 p q) = lin x0 x1 w0 w1 b p q := by
  have eb : broadcastTo S2000x256 b broadcasts_S1x256_S2000x256 (ix2 p q) = b (ix2 (0 : Fin 1) q) := broadcastTo_1b_ab_apply b _ p q
  unfold k4_pay2
  simp only [shapeCast_self]
  show (matmul (F := Ideal) dot_S2000x512_S512x256_S2000x256_1_0_0_1_n_n none x0 w0 (constant S2000x256 .f32 0x00000000#32) (ix2 p q)
      + matmul (F := Ideal) dot_S2000x512_S512x256_S2000x256_1_0_0_1_n_n none x1 w1 (constant S2000x256 .f32 0x00000000#32) (ix2 p q))
      + broadcastTo S2000x256 b broadcasts_S1x256_S2000x256 (ix2 p q) = _
  rw [mm_apply, mm_apply, eb]
  rfl

/-- A [256] vector cast to the row [1, 256] reads, at `(0, q)`, the vector at `q`. -/
theorem row_cast_apply (v : S256.Idx → EReal) (q : Fin 256) :
    shapeCast S1x256 v shapeCasts_S256_S1x256 (ix2 (0 : Fin 1) q) = v (ix1 q) := by
  refine shapeCast_apply v shapeCasts_S256_S1x256 (ix2 (0 : Fin 1) q) (ix1 q) ?_
  rw [Shape.rowMajor_val_two, Shape.rowMajor_val_one]
  show q.val = 0 * 256 + q.val
  omega

/-- The column sum over the block's rows, at column `q`. -/
theorem colsum_apply (src : FVec Ideal S2000x256 .f32) (q : Fin 256) :
    multiReduction (F := Ideal) .add [0] S256 src 0x00000000#32 reduces_S2000x256_S256 (.inl rfl) rfl (ix1 q) = ∑ p : Fin 2000, src (ix2 p q) := by
  refine (Ideal.multiReduction_add_single src 0x00000000#32 reduces_S2000x256_S256 (.inl rfl) rfl (ix1 q)).trans ?_
  refine Finset.sum_congr rfl fun p _ => congrArg src ?_
  funext a
  match a with
  | ⟨0, _⟩ => rfl
  | ⟨1, _⟩ => rfl

theorem pay3_apply (x0 : FVec Ideal S2000x512 .f32) (w0 : FVec Ideal S512x256 .f32) (x1 : FVec Ideal S2000x512 .f32) (w1 : FVec Ideal S512x256 .f32)
    (b : FVec Ideal S1x256 .f32) (v16 : FVec Ideal S1x256 .f32) (q : Fin 256) :
    k4_pay3 (F := Ideal) x0 w0 x1 w1 b v16 (ix2 (0 : Fin 1) q)
      = v16 (ix2 (0 : Fin 1) q) + ∑ p : Fin 2000, k4_pay2 (F := Ideal) x0 w0 x1 w1 b (ix2 p q) := by
  unfold k4_pay3
  simp only [shapeCast_self]
  show v16 (ix2 (0 : Fin 1) q) + shapeCast S1x256 (multiReduction (F := Ideal) .add [0] S256 (k4_pay2 (F := Ideal) x0 w0 x1 w1 b) 0x00000000#32 reduces_S2000x256_S256 (.inl rfl) rfl) shapeCasts_S256_S1x256 (ix2 (0 : Fin 1) q) = _
  rw [row_cast_apply, colsum_apply]

theorem pay4_apply (x0 : FVec Ideal S2000x512 .f32) (w0 : FVec Ideal S512x256 .f32) (x1 : FVec Ideal S2000x512 .f32) (w1 : FVec Ideal S512x256 .f32)
    (b : FVec Ideal S1x256 .f32) (v22 : FVec Ideal S1x256 .f32) (q : Fin 256) :
    k4_pay4 (F := Ideal) x0 w0 x1 w1 b v22 (ix2 (0 : Fin 1) q)
      = v22 (ix2 (0 : Fin 1) q) + ∑ p : Fin 2000, k4_pay2 (F := Ideal) x0 w0 x1 w1 b (ix2 p q) * k4_pay2 (F := Ideal) x0 w0 x1 w1 b (ix2 p q) := by
  unfold k4_pay4
  simp only [shapeCast_self]
  show v22 (ix2 (0 : Fin 1) q) + shapeCast S1x256 (multiReduction (F := Ideal) .add [0] S256 (mulf (F := Ideal) (k4_pay2 (F := Ideal) x0 w0 x1 w1 b) (k4_pay2 (F := Ideal) x0 w0 x1 w1 b)) 0x00000000#32 reduces_S2000x256_S256 (.inl rfl) rfl) shapeCasts_S256_S1x256 (ix2 (0 : Fin 1) q) = _
  rw [row_cast_apply, colsum_apply]
  rfl

end Cert.KernelIdeal.Pay4

end
-- ==== Proof.Lin4.lean ====
/-
  What launch 4 (the linear layer with its column statistics, [50000, 512] rows in 25 blocks of 2000, 256 output
  columns) leaves in its two result arrays, for any contents `V` of the buffers at its entry.

  Grid point `t` reads rows `2000·t …` of `x` and of the aggregated `a`, both weight matrices and the bias row, and
  stores `P_t = x_t·W0 + a_t·W1 + b` through its whole output block, written back to the same rows: the first result
  array ends holding every block's `P_t`. The second result is a [2, 256] accumulator whose block never moves: point 0
  zeroes it, every point adds the column sums of `P_t` to row 0 and of `P_t²` to row 1, and the last point alone
  writes it back. So by induction on the point it holds the running sums, and the array ends at the sums over all 25
  points.
-/
import proofs.«142385_j6322191859752_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import proofs.«142385_j6322191859752_1_alg».proof.Proof.Pay4
import proofs.«142385_j6322191859752_1_alg».proof.Proof.LibSumBlocks

set_option maxRecDepth 16384

noncomputable section

namespace Cert.KernelIdeal.Lin4

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

open scoped BigOperators

variable (V : (c : Dev nD) → (b : Ref sig .tc) → Buf (Elt F) ((c : Thread nD τ).loc b))

theorem hz : (![0, 0] : Fin 2 → Nat) = fun _ => 0 := funext fun a => by fin_cases a <;> rfl

/-! ## What each case of the body leaves in the first output's buffer: the one covering store's payload -/

theorem out_A_5 (c : Dev nD) (i : grid4.Coords) (a1 : Memref sig .tc .vmem S2000x512 .f32) (h1 : a1.IsWhole) (a2 : Memref sig .tc .vmem S2000x512 .f32) (h2 : a2.IsWhole) (a3 : Memref sig .tc .vmem S512x256 .f32) (h3 : a3.IsWhole) (a4 : Memref sig .tc .vmem S512x256 .f32) (h4 : a4.IsWhole) (a5 : Memref sig .tc .vmem S1x256 .f32) (h5 : a5.IsWhole) (a6 : Memref sig .tc .vmem S2000x256 .f32) (h6 : a6.IsWhole) (a7 : Memref sig .tc .vmem S2x256 .f32) (h7 : a7.IsWhole) (hc : cond4_0 i)
    (x0 x1 : Vec F S2000x512 .f32) (x2 x3 : Vec F S512x256 .f32) (x4 : Vec F S1x256 .f32) :
    out4_A_5 c i a1 h1 a2 h2 a3 h3 a4 h4 a5 h5 a6 h6 a7 h7 hc x0 x1 x2 x3 x4 = k4_pay2 x0 x2 x1 x3 x4 := by
  unfold out4_A_5
  rw [View.read_writes_eq_canon _ _ _ (cover4_A_5 c i a1 h1 a2 h2 a3 h3 a4 h4 a5 h5 a6 h6 a7 h7 hc x0 x1 x2 x3 x4)]
  unfold kernelRun4_A
  dsimp only
  rw [View.canon_unit_zero hz]
  simp only [View.readAt_eq_ld, h1.read_unread, h2.read_unread, h3.read_unread, h4.read_unread, h5.read_unread,
    View.ld_unit_zero (S := S2000x512) hz, View.ld_unit_zero (S := S512x256) hz, View.ld_unit_zero (S := S1x256) hz]

theorem out_B_5 (c : Dev nD) (i : grid4.Coords) (a1 : Memref sig .tc .vmem S2000x512 .f32) (h1 : a1.IsWhole) (a2 : Memref sig .tc .vmem S2000x512 .f32) (h2 : a2.IsWhole) (a3 : Memref sig .tc .vmem S512x256 .f32) (h3 : a3.IsWhole) (a4 : Memref sig .tc .vmem S512x256 .f32) (h4 : a4.IsWhole) (a5 : Memref sig .tc .vmem S1x256 .f32) (h5 : a5.IsWhole) (a6 : Memref sig .tc .vmem S2000x256 .f32) (h6 : a6.IsWhole) (a7 : Memref sig .tc .vmem S2x256 .f32) (h7 : a7.IsWhole) (hc : ¬cond4_0 i)
    (x0 x1 : Vec F S2000x512 .f32) (x2 x3 : Vec F S512x256 .f32) (x4 : Vec F S1x256 .f32) (xo6 : Vec F S2x256 .f32) :
    out4_B_5 c i a1 h1 a2 h2 a3 h3 a4 h4 a5 h5 a6 h6 a7 h7 hc x0 x1 x2 x3 x4 xo6 = k4_pay2 x0 x2 x1 x3 x4 := by
  unfold out4_B_5
  rw [View.read_writes_eq_canon _ _ _ (cover4_B_5 c i a1 h1 a2 h2 a3 h3 a4 h4 a5 h5 a6 h6 a7 h7 hc x0 x1 x2 x3 x4 xo6)]
  unfold kernelRun4_B
  dsimp only
  rw [View.canon_unit_zero hz]
  simp only [View.readAt_eq_ld, h1.read_unread, h2.read_unread, h3.read_unread, h4.read_unread, h5.read_unread,
    View.ld_unit_zero (S := S2000x512) hz, View.ld_unit_zero (S := S512x256) hz, View.ld_unit_zero (S := S1x256) hz]

/-! ## The accumulator's two rows -/

/-- Row 0 and row 1 of the [2, 256] accumulator, as the rectangles the body loads and stores them through. -/
abbrev rrow0 : Rect S2x256 := Rect.unit ![0, 0] ![1, 256] inb_S2x256_S1x256_0_0
abbrev rrow1 : Rect S2x256 := Rect.unit ![1, 0] ![1, 256] inb_S2x256_S1x256_1_0

theorem emb_row0 (q : Fin 256) : (rrow0 : Rect S2x256).emb (ix2 (0 : Fin 1) q) = ix2 (0 : Fin 2) q := by
  funext a; apply Fin.ext
  match a with
  | ⟨0, _⟩ => show 0 + 1 * 0 = 0; rfl
  | ⟨1, _⟩ => show 0 + 1 * q.val = q.val; omega

theorem emb_row1 (q : Fin 256) : (rrow1 : Rect S2x256).emb (ix2 (0 : Fin 1) q) = ix2 (1 : Fin 2) q := by
  funext a; apply Fin.ext
  match a with
  | ⟨0, _⟩ => show 1 + 1 * 0 = 1; rfl
  | ⟨1, _⟩ => show 0 + 1 * q.val = q.val; omega

theorem row0_not_mem_row1 (q : Fin 256) : ix2 (0 : Fin 2) q ∉ (rrow1 : Rect S2x256).set := by
  rw [Rect.mem_set_unit]
  intro h
  have h0 : (1 : ℕ) ≤ 0 := (h 0).1
  omega

/-- Two row stores, row 1 last, over anything: row 1 reads the last store, row 0 the one before. -/
theorem canon_row1 (w1 : Vec F S1x256 .f32) (L : List (View.Piece (Elt F) S2x256 .f32)) (q : Fin 256) :
    View.canon ((⟨rrow1, w1⟩ : View.Piece (Elt F) S2x256 .f32) :: L) (ix2 (1 : Fin 2) q) = w1 (ix2 (0 : Fin 1) q) := by
  rw [← emb_row1 q]; exact View.canon_cons_emb (rrow1 : Rect S2x256) w1 L _

theorem canon_row0 (w1 w0 : Vec F S1x256 .f32) (L : List (View.Piece (Elt F) S2x256 .f32)) (q : Fin 256) :
    View.canon ((⟨rrow1, w1⟩ : View.Piece (Elt F) S2x256 .f32) :: ⟨rrow0, w0⟩ :: L) (ix2 (0 : Fin 2) q) = w0 (ix2 (0 : Fin 1) q) := by
  rw [View.canon_cons_of_not_mem (⟨rrow1, w1⟩ : View.Piece (Elt F) S2x256 .f32) (⟨rrow0, w0⟩ :: L) (row0_not_mem_row1 q), ← emb_row0 q]
  exact View.canon_cons_emb (rrow0 : Rect S2x256) w0 L _

/-- Case B (every point but the first): each row is its payload over that row of the running contents. -/
theorem out_B_6_row0 (c : Dev nD) (i : grid4.Coords) (a1 : Memref sig .tc .vmem S2000x512 .f32) (h1 : a1.IsWhole) (a2 : Memref sig .tc .vmem S2000x512 .f32) (h2 : a2.IsWhole) (a3 : Memref sig .tc .vmem S512x256 .f32) (h3 : a3.IsWhole) (a4 : Memref sig .tc .vmem S512x256 .f32) (h4 : a4.IsWhole) (a5 : Memref sig .tc .vmem S1x256 .f32) (h5 : a5.IsWhole) (a6 : Memref sig .tc .vmem S2000x256 .f32) (h6 : a6.IsWhole) (a7 : Memref sig .tc .vmem S2x256 .f32) (h7 : a7.IsWhole) (hc : ¬cond4_0 i)
    (x0 x1 : Vec F S2000x512 .f32) (x2 x3 : Vec F S512x256 .f32) (x4 : Vec F S1x256 .f32) (xo6 : Vec F S2x256 .f32) (q : Fin 256) :
    out4_B_6 c i a1 h1 a2 h2 a3 h3 a4 h4 a5 h5 a6 h6 a7 h7 hc x0 x1 x2 x3 x4 xo6 (ix2 (0 : Fin 2) q)
      = k4_pay3 x0 x2 x1 x3 x4 (View.ld xo6 rrow0) (ix2 (0 : Fin 1) q) := by
  unfold out4_B_6
  rw [View.read_writes_eq_canon _ _ _ (cover4_B_6 c i a1 h1 a2 h2 a3 h3 a4 h4 a5 h5 a6 h6 a7 h7 hc x0 x1 x2 x3 x4 xo6)]
  unfold kernelRun4_B
  dsimp only
  sl_unfold_words
  simp only [View.readAt_eq_ld, h1.read_unread, h2.read_unread, h3.read_unread, h4.read_unread, h5.read_unread,
    View.ld_unit_zero (S := S2000x512) hz, View.ld_unit_zero (S := S512x256) hz, View.ld_unit_zero (S := S1x256) hz, h7.read_unread]
  exact canon_row0 _ _ _ q

theorem out_B_6_row1 (c : Dev nD) (i : grid4.Coords) (a1 : Memref sig .tc .vmem S2000x512 .f32) (h1 : a1.IsWhole) (a2 : Memref sig .tc .vmem S2000x512 .f32) (h2 : a2.IsWhole) (a3 : Memref sig .tc .vmem S512x256 .f32) (h3 : a3.IsWhole) (a4 : Memref sig .tc .vmem S512x256 .f32) (h4 : a4.IsWhole) (a5 : Memref sig .tc .vmem S1x256 .f32) (h5 : a5.IsWhole) (a6 : Memref sig .tc .vmem S2000x256 .f32) (h6 : a6.IsWhole) (a7 : Memref sig .tc .vmem S2x256 .f32) (h7 : a7.IsWhole) (hc : ¬cond4_0 i)
    (x0 x1 : Vec F S2000x512 .f32) (x2 x3 : Vec F S512x256 .f32) (x4 : Vec F S1x256 .f32) (xo6 : Vec F S2x256 .f32) (q : Fin 256) :
    out4_B_6 c i a1 h1 a2 h2 a3 h3 a4 h4 a5 h5 a6 h6 a7 h7 hc x0 x1 x2 x3 x4 xo6 (ix2 (1 : Fin 2) q)
      = k4_pay4 x0 x2 x1 x3 x4 (View.ld xo6 rrow1) (ix2 (0 : Fin 1) q) := by
  unfold out4_B_6
  rw [View.read_writes_eq_canon _ _ _ (cover4_B_6 c i a1 h1 a2 h2 a3 h3 a4 h4 a5 h5 a6 h6 a7 h7 hc x0 x1 x2 x3 x4 xo6)]
  unfold kernelRun4_B
  dsimp only
  sl_unfold_words
  simp only [View.readAt_eq_ld, h1.read_unread, h2.read_unread, h3.read_unread, h4.read_unread, h5.read_unread,
    View.ld_unit_zero (S := S2000x512) hz, View.ld_unit_zero (S := S512x256) hz, View.ld_unit_zero (S := S1x256) hz, h7.read_unread]
  exact canon_row1 _ _ q

theorem row1_not_mem_row0 (q : Fin 256) : ix2 (1 : Fin 2) q ∉ (rrow0 : Rect S2x256).set := by
  rw [Rect.mem_set_unit]
  intro h
  have h0 : (1 : ℕ) < 0 + 1 := (h 0).2
  omega

/-- The zero block the first point stores reads zero everywhere. -/
theorem pay1_apply (y : S2x256.Idx) : k4_pay1 (F := F) y = FloatOps.ofBits .f32 0x00000000#32 := rfl

/-- A row-0 load of a buffer one whole store filled reads that store's row 0. -/
theorem readCov_row0 {sp : Space} (v : View sig .tc sp S2x256 .f32) (Z : Vec F S2x256 .f32) (q' : Fin 256) :
    v.readCov [(⟨Rect.unit ![0, 0] ![2, 256] inb_S2x256_S2x256_0_0, Z⟩ : View.Piece (Elt F) S2x256 .f32)] (rrow0 : Rect S2x256).toLoadRect (ix2 (0 : Fin 1) q')
      = Z (ix2 (0 : Fin 2) q') := by
  rw [View.readCov_eq_canon_ld v [(⟨Rect.unit ![0, 0] ![2, 256] inb_S2x256_S2x256_0_0, Z⟩ : View.Piece (Elt F) S2x256 .f32)] (rrow0 : Rect S2x256)
    (fun y => ⟨⟨Rect.unit ![0, 0] ![2, 256] inb_S2x256_S2x256_0_0, Z⟩, List.mem_singleton_self _, View.mem_set_unit_zero hz inb_S2x256_S2x256_0_0 y⟩),
    View.canon_unit_zero hz]
  show Z ((rrow0 : Rect S2x256).emb (ix2 (0 : Fin 1) q')) = _
  rw [emb_row0 q']

/-- A row-1 load after a whole store and then a row-0 store reads the whole store's row 1: the row-0 store leaves it alone. -/
theorem readCov_row1 {sp : Space} (v : View sig .tc sp S2x256 .f32) (w0 : Vec F S1x256 .f32) (Z : Vec F S2x256 .f32) (q' : Fin 256) :
    v.readCov [(⟨rrow0, w0⟩ : View.Piece (Elt F) S2x256 .f32), ⟨Rect.unit ![0, 0] ![2, 256] inb_S2x256_S2x256_0_0, Z⟩] (rrow1 : Rect S2x256).toLoadRect (ix2 (0 : Fin 1) q')
      = Z (ix2 (1 : Fin 2) q') := by
  rw [View.readCov_eq_canon_ld v [(⟨rrow0, w0⟩ : View.Piece (Elt F) S2x256 .f32), ⟨Rect.unit ![0, 0] ![2, 256] inb_S2x256_S2x256_0_0, Z⟩] (rrow1 : Rect S2x256)
    (fun y => ⟨⟨Rect.unit ![0, 0] ![2, 256] inb_S2x256_S2x256_0_0, Z⟩, List.mem_cons_of_mem _ (List.mem_singleton_self _), View.mem_set_unit_zero hz inb_S2x256_S2x256_0_0 y⟩)]
  show View.canon [(⟨rrow0, w0⟩ : View.Piece (Elt F) S2x256 .f32), ⟨Rect.unit ![0, 0] ![2, 256] inb_S2x256_S2x256_0_0, Z⟩] ((rrow1 : Rect S2x256).emb (ix2 (0 : Fin 1) q')) = _
  rw [emb_row1 q', View.canon_cons_of_not_mem (⟨rrow0, w0⟩ : View.Piece (Elt F) S2x256 .f32) [⟨Rect.unit ![0, 0] ![2, 256] inb_S2x256_S2x256_0_0, Z⟩] (row1_not_mem_row0 q'),
    View.canon_unit_zero hz]

/-- Case A (the first point): each row is its payload over a row of zeros — the zero store read back, row 1 after the
    row-0 store, which leaves row 1 alone. -/
theorem out_A_6_row0 (c : Dev nD) (i : grid4.Coords) (a1 : Memref sig .tc .vmem S2000x512 .f32) (h1 : a1.IsWhole) (a2 : Memref sig .tc .vmem S2000x512 .f32) (h2 : a2.IsWhole) (a3 : Memref sig .tc .vmem S512x256 .f32) (h3 : a3.IsWhole) (a4 : Memref sig .tc .vmem S512x256 .f32) (h4 : a4.IsWhole) (a5 : Memref sig .tc .vmem S1x256 .f32) (h5 : a5.IsWhole) (a6 : Memref sig .tc .vmem S2000x256 .f32) (h6 : a6.IsWhole) (a7 : Memref sig .tc .vmem S2x256 .f32) (h7 : a7.IsWhole) (hc : cond4_0 i)
    (x0 x1 : Vec F S2000x512 .f32) (x2 x3 : Vec F S512x256 .f32) (x4 : Vec F S1x256 .f32) (q : Fin 256) :
    ∃ Z : Vec F S1x256 .f32, (∀ q' : Fin 256, Z (ix2 (0 : Fin 1) q') = FloatOps.ofBits .f32 0x00000000#32) ∧
      out4_A_6 c i a1 h1 a2 h2 a3 h3 a4 h4 a5 h5 a6 h6 a7 h7 hc x0 x1 x2 x3 x4 (ix2 (0 : Fin 2) q) = k4_pay3 x0 x2 x1 x3 x4 Z (ix2 (0 : Fin 1) q) := by
  unfold out4_A_6
  rw [View.read_writes_eq_canon _ _ _ (cover4_A_6 c i a1 h1 a2 h2 a3 h3 a4 h4 a5 h5 a6 h6 a7 h7 hc x0 x1 x2 x3 x4)]
  unfold kernelRun4_A
  dsimp only
  sl_unfold_words
  simp only [View.readAt_eq_ld, h1.read_unread, h2.read_unread, h3.read_unread, h4.read_unread, h5.read_unread,
    View.ld_unit_zero (S := S2000x512) hz, View.ld_unit_zero (S := S512x256) hz, View.ld_unit_zero (S := S1x256) hz]
  exact ⟨_, fun q' => readCov_row0 a7.view k4_pay1 q', canon_row0 _ _ _ q⟩

theorem out_A_6_row1 (c : Dev nD) (i : grid4.Coords) (a1 : Memref sig .tc .vmem S2000x512 .f32) (h1 : a1.IsWhole) (a2 : Memref sig .tc .vmem S2000x512 .f32) (h2 : a2.IsWhole) (a3 : Memref sig .tc .vmem S512x256 .f32) (h3 : a3.IsWhole) (a4 : Memref sig .tc .vmem S512x256 .f32) (h4 : a4.IsWhole) (a5 : Memref sig .tc .vmem S1x256 .f32) (h5 : a5.IsWhole) (a6 : Memref sig .tc .vmem S2000x256 .f32) (h6 : a6.IsWhole) (a7 : Memref sig .tc .vmem S2x256 .f32) (h7 : a7.IsWhole) (hc : cond4_0 i)
    (x0 x1 : Vec F S2000x512 .f32) (x2 x3 : Vec F S512x256 .f32) (x4 : Vec F S1x256 .f32) (q : Fin 256) :
    ∃ Z : Vec F S1x256 .f32, (∀ q' : Fin 256, Z (ix2 (0 : Fin 1) q') = FloatOps.ofBits .f32 0x00000000#32) ∧
      out4_A_6 c i a1 h1 a2 h2 a3 h3 a4 h4 a5 h5 a6 h6 a7 h7 hc x0 x1 x2 x3 x4 (ix2 (1 : Fin 2) q) = k4_pay4 x0 x2 x1 x3 x4 Z (ix2 (0 : Fin 1) q) := by
  unfold out4_A_6
  rw [View.read_writes_eq_canon _ _ _ (cover4_A_6 c i a1 h1 a2 h2 a3 h3 a4 h4 a5 h5 a6 h6 a7 h7 hc x0 x1 x2 x3 x4)]
  unfold kernelRun4_A
  dsimp only
  sl_unfold_words
  simp only [View.readAt_eq_ld, h1.read_unread, h2.read_unread, h3.read_unread, h4.read_unread, h5.read_unread,
    View.ld_unit_zero (S := S2000x512) hz, View.ld_unit_zero (S := S512x256) hz, View.ld_unit_zero (S := S1x256) hz]
  exact ⟨_, fun q' => readCov_row1 a7.view _ k4_pay1 q', canon_row1 _ _ q⟩

/-! ## The first output: every point leaves its block's payload -/

/-- The linear layer's value on the blocks point `t` reads. -/
abbrev P (c : Dev nD) (t : Fin cfg4.N) : Vec F S2000x256 .f32 :=
  k4_pay2 (iblk4 V c 0 t) (iblk4 V c 2 t) (iblk4 V c 1 t) (iblk4 V c 3 t) (iblk4 V c 4 t)

set_option maxHeartbeats 4000000 in
theorem outs_fst (c : Dev nD) (t : Fin cfg4.N) : (outsAt4 V c t.val t.isLt).1 = P V c t := by
  by_cases h : t.val % 25 = 0
  · rw [outsAt4_A V c t h]
    dsimp only
    exact out_A_5 (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h) (iblk4 V c 0 t) (iblk4 V c 1 t) (iblk4 V c 2 t) (iblk4 V c 3 t) (iblk4 V c 4 t)
  · rw [outsAt4_B V c t h]
    dsimp only
    exact out_B_5 (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h' => h ((hcond4_0 t).mp h')) (iblk4 V c 0 t) (iblk4 V c 1 t) (iblk4 V c 2 t) (iblk4 V c 3 t) (iblk4 V c 4 t) _

/-! ## On the extended reals: the two result arrays as functions of the arrays the launch finds -/

section AtIdeal

variable (W : (c : Dev nD) → (b : Ref sig .tc) → Buf (Elt Ideal) ((c : Thread nD τ).loc b))

/-- The printed index maps over the grid: the row blocks of `x`, `a` and the first output move together, everything
    else stays at block (0, 0). -/
theorem idx_facts : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = 0 ∧ win4_2.index t (1 : Fin 2) = 0
  ∧ win4_3.index t (0 : Fin 2) = 0 ∧ win4_3.index t (1 : Fin 2) = 0
  ∧ win4_4.index t (0 : Fin 2) = 0 ∧ win4_4.index t (1 : Fin 2) = 0
  ∧ win4_5.index t (0 : Fin 2) = t.val ∧ win4_5.index t (1 : Fin 2) = 0
  ∧ win4_6.index t (0 : Fin 2) = 0 ∧ win4_6.index t (1 : Fin 2) = 0 :=
  (by decide +kernel : ∀ t : Fin grid4.N, _)

/-- The linear layer on whole arrays: entry `(r, n)` is `∑ₖ x(r,k)·W0(k,n) + ∑ₖ a(r,k)·W1(k,n) + b(0,n)`. -/
def PRE (x a : S50000x512.Idx → EReal) (w0 w1 : S512x256.Idx → EReal) (b : S1x256.Idx → EReal) : S50000x256.Idx → EReal :=
  fun i => ((∑ k : Fin 512, x (ix2 (i 0 : Fin 50000) k) * w0 (ix2 k (i 1 : Fin 256)))
    + (∑ k : Fin 512, a (ix2 (i 0 : Fin 50000) k) * w1 (ix2 k (i 1 : Fin 256)))) + b (ix2 (0 : Fin 1) (i 1 : Fin 256))

/-! ### Each window's block at point `t` read off its array -/

theorem x_read (c : Dev nD) (t : Fin cfg4.N) (p : Fin 2000) (k : Fin 512) (r : Fin 50000) (s : Fin 512)
    (hr : r.val = t.val * 2000 + p.val) (hs : s.val = k.val) :
    iblk4 W c 0 t (ix2 p k) = (W c (Pipeline.arrRef spec4 0)) (ix2 r s) := by
  obtain ⟨e0, e1, e2, e3, e4, e5, e6, e7, e8, e9, e10, e11, e12, e13⟩ := idx_facts t
  unfold iblk4
  rw [View.read_apply]
  show (W c (Pipeline.arrRef spec4 0)) _ = (W c (Pipeline.arrRef spec4 0)) _
  congr 1
  funext a; apply Fin.ext
  match a with
  | ⟨0, _⟩ => show win4_0.index t (0 : Fin 2) * 2000 + 1 * p.val = r.val; omega
  | ⟨1, _⟩ => show win4_0.index t (1 : Fin 2) * 512 + 1 * k.val = s.val; omega

theorem a_read (c : Dev nD) (t : Fin cfg4.N) (p : Fin 2000) (k : Fin 512) (r : Fin 50000) (s : Fin 512)
    (hr : r.val = t.val * 2000 + p.val) (hs : s.val = k.val) :
    iblk4 W c 1 t (ix2 p k) = (W c (Pipeline.arrRef spec4 1)) (ix2 r s) := by
  obtain ⟨e0, e1, e2, e3, e4, e5, e6, e7, e8, e9, e10, e11, e12, e13⟩ := idx_facts t
  unfold iblk4
  rw [View.read_apply]
  show (W c (Pipeline.arrRef spec4 1)) _ = (W c (Pipeline.arrRef spec4 1)) _
  congr 1
  funext a; apply Fin.ext
  match a with
  | ⟨0, _⟩ => show win4_1.index t (0 : Fin 2) * 2000 + 1 * p.val = r.val; omega
  | ⟨1, _⟩ => show win4_1.index t (1 : Fin 2) * 512 + 1 * k.val = s.val; omega

theorem w0_read (c : Dev nD) (t : Fin cfg4.N) (p : Fin 512) (k : Fin 256) (r : Fin 512) (s : Fin 256)
    (hr : r.val = p.val) (hs : s.val = k.val) :
    iblk4 W c 2 t (ix2 p k) = (W c (Pipeline.arrRef spec4 2)) (ix2 r s) := by
  obtain ⟨e0, e1, e2, e3, e4, e5, e6, e7, e8, e9, e10, e11, e12, e13⟩ := idx_facts t
  unfold iblk4
  rw [View.read_apply]
  show (W c (Pipeline.arrRef spec4 2)) _ = (W c (Pipeline.arrRef spec4 2)) _
  congr 1
  funext a; apply Fin.ext
  match a with
  | ⟨0, _⟩ => show win4_2.index t (0 : Fin 2) * 512 + 1 * p.val = r.val; omega
  | ⟨1, _⟩ => show win4_2.index t (1 : Fin 2) * 256 + 1 * k.val = s.val; omega

theorem w1_read (c : Dev nD) (t : Fin cfg4.N) (p : Fin 512) (k : Fin 256) (r : Fin 512) (s : Fin 256)
    (hr : r.val = p.val) (hs : s.val = k.val) :
    iblk4 W c 3 t (ix2 p k) = (W c (Pipeline.arrRef spec4 3)) (ix2 r s) := by
  obtain ⟨e0, e1, e2, e3, e4, e5, e6, e7, e8, e9, e10, e11, e12, e13⟩ := idx_facts t
  unfold iblk4
  rw [View.read_apply]
  show (W c (Pipeline.arrRef spec4 3)) _ = (W c (Pipeline.arrRef spec4 3)) _
  congr 1
  funext a; apply Fin.ext
  match a with
  | ⟨0, _⟩ => show win4_3.index t (0 : Fin 2) * 512 + 1 * p.val = r.val; omega
  | ⟨1, _⟩ => show win4_3.index t (1 : Fin 2) * 256 + 1 * k.val = s.val; omega

theorem b_read (c : Dev nD) (t : Fin cfg4.N) (p : Fin 1) (k : Fin 256) (r : Fin 1) (s : Fin 256)
    (hr : r.val = p.val) (hs : s.val = k.val) :
    iblk4 W c 4 t (ix2 p k) = (W c (Pipeline.arrRef spec4 4)) (ix2 r s) := by
  obtain ⟨e0, e1, e2, e3, e4, e5, e6, e7, e8, e9, e10, e11, e12, e13⟩ := idx_facts t
  unfold iblk4
  rw [View.read_apply]
  show (W c (Pipeline.arrRef spec4 4)) _ = (W c (Pipeline.arrRef spec4 4)) _
  congr 1
  funext a; apply Fin.ext
  match a with
  | ⟨0, _⟩ => show win4_4.index t (0 : Fin 2) * 1 + 1 * p.val = r.val; omega
  | ⟨1, _⟩ => show win4_4.index t (1 : Fin 2) * 256 + 1 * k.val = s.val; omega

/-- The body's value at `(p, q)` of point `t`'s block is the linear layer at row `2000·t + p`. -/
theorem P_apply (c : Dev nD) (t : Fin cfg4.N) (p : Fin 2000) (q : Fin 256) (r : Fin 50000) (hr : r.val = t.val * 2000 + p.val) :
    P W c t (ix2 p q) = PRE (W c (Pipeline.arrRef spec4 0)) (W c (Pipeline.arrRef spec4 1)) (W c (Pipeline.arrRef spec4 2)) (W c (Pipeline.arrRef spec4 3)) (W c (Pipeline.arrRef spec4 4)) (ix2 r q) := by
  refine (Pay4.pay2_apply (iblk4 W c 0 t) (iblk4 W c 2 t) (iblk4 W c 1 t) (iblk4 W c 3 t) (iblk4 W c 4 t) p q).trans ?_
  unfold Pay4.lin PRE
  refine congrArg₂ (· + ·) (congrArg₂ (· + ·)
    (Finset.sum_congr rfl fun k _ => congrArg₂ (· * ·) (x_read W c t p k r k hr rfl) (w0_read W c t k q k q rfl rfl))
    (Finset.sum_congr rfl fun k _ => congrArg₂ (· * ·) (a_read W c t p k r k hr rfl) (w1_read W c t k q k q rfl rfl)))
    (b_read W c t 0 q 0 q rfl rfl)

/-! ### The accumulator after each point -/

/-- The first point: the rows are the column sums of its block's values, and of their squares, over a zero. -/
theorem acc_A (c : Dev nD) (t : Fin cfg4.N) (h0 : t.val % 25 = 0) (q : Fin 256) :
    (outsAt4 W c t.val t.isLt).2 (ix2 (0 : Fin 2) q) = ∑ p : Fin 2000, P W c t (ix2 p q)
    ∧ (outsAt4 W c t.val t.isLt).2 (ix2 (1 : Fin 2) q) = ∑ p : Fin 2000, P W c t (ix2 p q) * P W c t (ix2 p q) := by
  rw [outsAt4_A W c t h0]
  dsimp only
  obtain ⟨Z0, hZ0, e0⟩ := out_A_6_row0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 W c 0 t) (iblk4 W c 1 t) (iblk4 W c 2 t) (iblk4 W c 3 t) (iblk4 W c 4 t) q
  obtain ⟨Z1, hZ1, e1⟩ := out_A_6_row1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 W c 0 t) (iblk4 W c 1 t) (iblk4 W c 2 t) (iblk4 W c 3 t) (iblk4 W c 4 t) q
  refine ⟨e0.trans ?_, e1.trans ?_⟩
  · refine (Pay4.pay3_apply (iblk4 W c 0 t) (iblk4 W c 2 t) (iblk4 W c 1 t) (iblk4 W c 3 t) (iblk4 W c 4 t) Z0 q).trans ?_
    rw [hZ0 q]
    show Ideal.ofBits .f32 0x00000000#32 + _ = _
    rw [Ideal.ofBits_zero_f32, zero_add]
  · refine (Pay4.pay4_apply (iblk4 W c 0 t) (iblk4 W c 2 t) (iblk4 W c 1 t) (iblk4 W c 3 t) (iblk4 W c 4 t) Z1 q).trans ?_
    rw [hZ1 q]
    show Ideal.ofBits .f32 0x00000000#32 + _ = _
    rw [Ideal.ofBits_zero_f32, zero_add]

/-- Every later point adds its block's column sums to what the point before left. -/
theorem acc_B (c : Dev nD) (t : Fin cfg4.N) (h0 : ¬t.val % 25 = 0) (q : Fin 256) :
    (outsAt4 W c t.val t.isLt).2 (ix2 (0 : Fin 2) q)
      = (outsAt4 W c (t.val - 1) (Nat.lt_of_le_of_lt (Nat.sub_le _ _) t.isLt)).2 (ix2 (0 : Fin 2) q) + ∑ p : Fin 2000, P W c t (ix2 p q)
    ∧ (outsAt4 W c t.val t.isLt).2 (ix2 (1 : Fin 2) q)
      = (outsAt4 W c (t.val - 1) (Nat.lt_of_le_of_lt (Nat.sub_le _ _) t.isLt)).2 (ix2 (1 : Fin 2) q) + ∑ p : Fin 2000, P W c t (ix2 p q) * P W c t (ix2 p q) := by
  rw [outsAt4_B W c t h0]
  dsimp only
  refine ⟨(out_B_6_row0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h' => h0 ((hcond4_0 t).mp h')) (iblk4 W c 0 t) (iblk4 W c 1 t) (iblk4 W c 2 t) (iblk4 W c 3 t) (iblk4 W c 4 t) _ q).trans ?_,
    (out_B_6_row1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h' => h0 ((hcond4_0 t).mp h')) (iblk4 W c 0 t) (iblk4 W c 1 t) (iblk4 W c 2 t) (iblk4 W c 3 t) (iblk4 W c 4 t) _ q).trans ?_⟩
  · refine (Pay4.pay3_apply (iblk4 W c 0 t) (iblk4 W c 2 t) (iblk4 W c 1 t) (iblk4 W c 3 t) (iblk4 W c 4 t) _ q).trans ?_
    show (outsAt4 W c (t.val - 1) _).2 ((rrow0 : Rect S2x256).emb (ix2 (0 : Fin 1) q)) + _ = _
    rw [emb_row0 q]
  · refine (Pay4.pay4_apply (iblk4 W c 0 t) (iblk4 W c 2 t) (iblk4 W c 1 t) (iblk4 W c 3 t) (iblk4 W c 4 t) _ q).trans ?_
    show (outsAt4 W c (t.val - 1) _).2 ((rrow1 : Rect S2x256).emb (ix2 (0 : Fin 1) q)) + _ = _
    rw [emb_row1 q]

/-- Point `n`'s column sums, as functions on all naturals (zero past the grid). -/
def S1 (c : Dev nD) (q : Fin 256) (n : ℕ) : EReal :=
  if h : n < cfg4.N then ∑ p : Fin 2000, P W c ⟨n, h⟩ (ix2 p q) else 0
def S2 (c : Dev nD) (q : Fin 256) (n : ℕ) : EReal :=
  if h : n < cfg4.N then ∑ p : Fin 2000, P W c ⟨n, h⟩ (ix2 p q) * P W c ⟨n, h⟩ (ix2 p q) else 0

/-- By induction on the point: after point `n` the accumulator holds the sums over the points `0 … n`. -/
theorem acc_eq (c : Dev nD) (q : Fin 256) : ∀ (n : ℕ) (h : n < cfg4.N),
    (outsAt4 W c n h).2 (ix2 (0 : Fin 2) q) = ∑ k ∈ Finset.range (n + 1), S1 W c q k
    ∧ (outsAt4 W c n h).2 (ix2 (1 : Fin 2) q) = ∑ k ∈ Finset.range (n + 1), S2 W c q k
  | 0, h => by
    have hA := acc_A W c ⟨0, h⟩ rfl q
    rw [Finset.sum_range_one, Finset.sum_range_one]
    unfold S1 S2
    rw [dif_pos h, dif_pos h]
    exact hA
  | n + 1, h => by
    have hN : cfg4.N = 25 := N_4
    have hB : ¬(⟨n + 1, h⟩ : Fin cfg4.N).val % 25 = 0 := by dsimp only; omega
    have hb := acc_B W c ⟨n + 1, h⟩ hB q
    have ih := acc_eq c q n (Nat.lt_of_succ_lt h)
    rw [Finset.sum_range_succ (S1 W c q), Finset.sum_range_succ (S2 W c q), ← ih.1, ← ih.2]
    have e1 : S1 W c q (n + 1) = ∑ p : Fin 2000, P W c ⟨n + 1, h⟩ (ix2 p q) := by unfold S1; rw [dif_pos h]
    have e2 : S2 W c q (n + 1) = ∑ p : Fin 2000, P W c ⟨n + 1, h⟩ (ix2 p q) * P W c ⟨n + 1, h⟩ (ix2 p q) := by unfold S2; rw [dif_pos h]
    rw [e1, e2]
    exact hb

end AtIdeal

section Finals

variable (W : (c : Dev nD) → (b : Ref sig .tc) → Buf (Elt Ideal) ((c : Thread nD τ).loc b))

/-! ### The first result array: the linear layer of the arrays the launch finds -/

set_option maxHeartbeats 4000000 in
/-- What point `t` writes back is block `t` of the linear layer. -/
theorem flushed5_eq (c : Dev nD) (t : Fin cfg4.N) :
    (dat4 W c).flushed 5 t = ((cfg4.win 5).blk t).view.read (Elt Ideal) (PRE (W c (Pipeline.arrRef spec4 0)) (W c (Pipeline.arrRef spec4 1)) (W c (Pipeline.arrRef spec4 2)) (W c (Pipeline.arrRef spec4 3)) (W c (Pipeline.arrRef spec4 4))) := by
  show (cfg4.win 5).cut (grid4.coords t) ((dat4 W c).after 5 t) = _
  rw [after4_5, outs_fst]
  obtain ⟨e0, e1, e2, e3, e4, e5, e6, e7, e8, e9, e10, e11, e12, e13⟩ := idx_facts t
  have hN : cfg4.N = 25 := N_4
  have key : ∀ (y : S2000x256.Idx) (r : Fin 50000), r.val = t.val * 2000 + (y 0).val →
      P W c t y = (PRE (W c (Pipeline.arrRef spec4 0)) (W c (Pipeline.arrRef spec4 1)) (W c (Pipeline.arrRef spec4 2)) (W c (Pipeline.arrRef spec4 3)) (W c (Pipeline.arrRef spec4 4))) (ix2 r (y 1 : Fin 256)) := by
    intro y r hr
    exact (congrArg (P W c t) (eq_ix2 y)).trans (P_apply W c t (y 0) (y 1) r hr)
  funext j
  rw [View.read_apply]
  have hj0 : (j 0).val < 2000 := (j 0).isLt
  have ht : t.val < 25 := hN ▸ t.isLt
  refine (key ((cfg4.win 5).xinj (grid4.coords t) j) ⟨t.val * 2000 + (j 0).val, by omega⟩ rfl).trans ?_
  have hi : (ix2 (⟨t.val * 2000 + (j 0).val, by omega⟩ : Fin 50000) ((((cfg4.win 5).xinj (grid4.coords t) j) 1 : Fin 256)) : S50000x256.Idx)
      = ((cfg4.win 5).blk t).view.emb j := by
    funext a; apply Fin.ext
    match a with
    | ⟨0, _⟩ => show t.val * 2000 + (j 0).val = win4_5.index t (0 : Fin 2) * 2000 + 1 * (j 0).val; omega
    | ⟨1, _⟩ => show (j 1).val = win4_5.index t (1 : Fin 2) * 256 + 1 * (j 1).val; omega
  rw [hi]
  first | rfl | exact (cast_eq _ _).symm

theorem mem_blk5 (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole (Pipeline.arrRef spec4 5)).slice (win4_5.rect t)).set ↔ _
  rw [View.set_slice_whole, Rect.mem_set_unit]
  exact Iff.rfl

theorem cover5 (i : S50000x256.Idx) : ∃ t : Fin cfg4.N, (cfg4.win 5).flush t = true ∧ i ∈ ((cfg4.win 5).blk t).view.set := by
  have hi0 : (i 0).val < 50000 := (i 0).isLt
  have hi1 : (i 1).val < 256 := (i 1).isLt
  have hN : cfg4.N = 25 := N_4
  have hlt : (i 0).val / 2000 < cfg4.N := by rw [hN]; omega
  obtain ⟨e0, e1, e2, e3, e4, e5, e6, e7, e8, e9, e10, e11, e12, e13⟩ := idx_facts ⟨(i 0).val / 2000, hlt⟩
  refine ⟨⟨(i 0).val / 2000, hlt⟩, flush4_5 _, ?_⟩
  rw [mem_blk5]
  intro a
  match a with
  | ⟨0, _⟩ => show win4_5.index ⟨(i 0).val / 2000, hlt⟩ (0 : Fin 2) * 2000 ≤ (i 0).val ∧ (i 0).val < win4_5.index ⟨(i 0).val / 2000, hlt⟩ (0 : Fin 2) * 2000 + 2000
              rw [e10]; show (i 0).val / 2000 * 2000 ≤ (i 0).val ∧ (i 0).val < (i 0).val / 2000 * 2000 + 2000; omega
  | ⟨1, _⟩ => show win4_5.index ⟨(i 0).val / 2000, hlt⟩ (1 : Fin 2) * 256 ≤ (i 1).val ∧ (i 1).val < win4_5.index ⟨(i 0).val / 2000, hlt⟩ (1 : Fin 2) * 256 + 256
              rw [e11]; omega

/-- The first result array after the launch. -/
theorem final5 (c : Dev nD) : (dat4 W c).arrAt 5 cfg4.N = (PRE (W c (Pipeline.arrRef spec4 0)) (W c (Pipeline.arrRef spec4 1)) (W c (Pipeline.arrRef spec4 2)) (W c (Pipeline.arrRef spec4 3)) (W c (Pipeline.arrRef spec4 4))) :=
  (dat4 W c).arrAt_eq_of_cover 5 _ (fun t _ => flushed5_eq W c t) cover5

/-! ### The second result array: the column sums over all 25 points -/

/-- Row 0: the column sums of the linear layer's values over the points; row 1: of their squares. -/
def STATS (c : Dev nD) : S2x256.Idx → EReal :=
  fun i => if (i 0).val = 0 then ∑ k ∈ Finset.range 25, S1 W c (i 1 : Fin 256) k else ∑ k ∈ Finset.range 25, S2 W c (i 1 : Fin 256) k

theorem outs_snd_last (c : Dev nD) (h : 24 < cfg4.N) : (outsAt4 W c 24 h).2 = STATS W c := by
  funext i
  obtain ⟨ρ, q, rfl⟩ : ∃ (ρ : Fin 2) (q : Fin 256), i = ix2 ρ q := ⟨i 0, i 1, eq_ix2 i⟩
  have hacc := acc_eq W c q 24 h
  unfold STATS
  match ρ with
  | ⟨0, _⟩ => exact hacc.1.trans (if_pos rfl).symm
  | ⟨1, _⟩ => exact hacc.2.trans (if_neg Nat.one_ne_zero).symm

set_option maxHeartbeats 4000000 in
/-- The one write-back, at the last point, writes the accumulator: block (0, 0) of the [2, 256] array is the array. -/
theorem flushed6_eq (c : Dev nD) (t : Fin cfg4.N) (hf : (cfg4.win 6).flush t = true) :
    (dat4 W c).flushed 6 t = ((cfg4.win 6).blk t).view.read (Elt Ideal) (STATS W c) := by
  have hN : cfg4.N = 25 := N_4
  have hlt : 24 < cfg4.N := by rw [hN]; decide
  have h24 : t.val = 24 := by have := (flush4_6 t).mp hf; have := t.isLt; omega
  obtain rfl : t = ⟨24, hlt⟩ := Fin.ext h24
  obtain ⟨e0, e1, e2, e3, e4, e5, e6, e7, e8, e9, e10, e11, e12, e13⟩ := idx_facts ⟨24, hlt⟩
  show (cfg4.win 6).cut (grid4.coords _) ((dat4 W c).after 6 _) = _
  rw [after4_6, outs_snd_last]
  funext j
  rw [View.read_apply]
  have hi : (cfg4.win 6).xinj (grid4.coords ⟨24, hlt⟩) j = ((cfg4.win 6).blk ⟨24, hlt⟩).view.emb j := by
    funext a; apply Fin.ext
    match a with
    | ⟨0, _⟩ => show (j 0).val = win4_6.index ⟨24, _⟩ (0 : Fin 2) * 2 + 1 * (j 0).val; omega
    | ⟨1, _⟩ => show (j 1).val = win4_6.index ⟨24, _⟩ (1 : Fin 2) * 256 + 1 * (j 1).val; omega
  show STATS W c ((cfg4.win 6).xinj (grid4.coords ⟨24, hlt⟩) j) = _
  rw [hi]
  first | rfl | exact (cast_eq _ _).symm

theorem mem_blk6 (t : Fin cfg4.N) (i : S2x256.Idx) :
    i ∈ ((cfg4.win 6).blk t).view.set ↔ ∀ a : Fin 2, win4_6.index t a * S2x256.size a ≤ (i a).val ∧ (i a).val < win4_6.index t a * S2x256.size a + S2x256.size a := by
  show i ∈ ((View.whole (Pipeline.arrRef spec4 6)).slice (win4_6.rect t)).set ↔ _
  rw [View.set_slice_whole, Rect.mem_set_unit]
  exact Iff.rfl

theorem cover6 (i : S2x256.Idx) : ∃ t : Fin cfg4.N, (cfg4.win 6).flush t = true ∧ i ∈ ((cfg4.win 6).blk t).view.set := by
  have hi0 : (i 0).val < 2 := (i 0).isLt
  have hi1 : (i 1).val < 256 := (i 1).isLt
  have hN : cfg4.N = 25 := N_4
  have hlt : 24 < cfg4.N := by omega
  obtain ⟨e0, e1, e2, e3, e4, e5, e6, e7, e8, e9, e10, e11, e12, e13⟩ := idx_facts ⟨24, hlt⟩
  refine ⟨⟨24, hlt⟩, (flush4_6 _).mpr rfl, ?_⟩
  rw [mem_blk6]
  intro a
  match a with
  | ⟨0, _⟩ => show win4_6.index ⟨24, hlt⟩ (0 : Fin 2) * 2 ≤ (i 0).val ∧ (i 0).val < win4_6.index ⟨24, hlt⟩ (0 : Fin 2) * 2 + 2
              rw [e12]; omega
  | ⟨1, _⟩ => show win4_6.index ⟨24, hlt⟩ (1 : Fin 2) * 256 ≤ (i 1).val ∧ (i 1).val < win4_6.index ⟨24, hlt⟩ (1 : Fin 2) * 256 + 256
              rw [e13]; omega

/-- The second result array after the launch. -/
theorem final6 (c : Dev nD) : (dat4 W c).arrAt 6 cfg4.N = STATS W c :=
  (dat4 W c).arrAt_eq_of_cover 6 _ (fun t hf => flushed6_eq W c t hf) cover6

/-! ### The statistics as a function of the linear layer's array -/

/-- Row 0: each column's sum over all 50000 rows; row 1: each column's sum of squares. -/
def colStats (h : S50000x256.Idx → EReal) : S2x256.Idx → EReal :=
  fun i => if (i 0).val = 0 then ∑ r : Fin 50000, h (ix2 r (i 1 : Fin 256))
    else ∑ r : Fin 50000, h (ix2 r (i 1 : Fin 256)) * h (ix2 r (i 1 : Fin 256))

/-- The sums over the 25 points' blocks are the sums over all rows. -/
theorem STATS_eq (c : Dev nD) : STATS W c = colStats (PRE (W c (Pipeline.arrRef spec4 0)) (W c (Pipeline.arrRef spec4 1)) (W c (Pipeline.arrRef spec4 2)) (W c (Pipeline.arrRef spec4 3)) (W c (Pipeline.arrRef spec4 4))) := by
  have hN : cfg4.N = 25 := N_4
  funext i
  unfold STATS colStats
  have e1 : ∀ q : Fin 256, ∑ k ∈ Finset.range 25, S1 W c q k
      = ∑ r : Fin 50000, PRE (W c (Pipeline.arrRef spec4 0)) (W c (Pipeline.arrRef spec4 1)) (W c (Pipeline.arrRef spec4 2)) (W c (Pipeline.arrRef spec4 3)) (W c (Pipeline.arrRef spec4 4)) (ix2 r q) := by
    intro q
    refine Eq.trans ?_ (Cert.LibSumBlocks.sum_blocks_range 25 2000 (fun r : Fin 50000 => PRE (W c (Pipeline.arrRef spec4 0)) (W c (Pipeline.arrRef spec4 1)) (W c (Pipeline.arrRef spec4 2)) (W c (Pipeline.arrRef spec4 3)) (W c (Pipeline.arrRef spec4 4)) (ix2 r q))).symm
    refine Finset.sum_congr rfl fun k hk => ?_
    have hk25 : k < 25 := Finset.mem_range.mp hk
    have hkN : k < cfg4.N := by omega
    unfold S1
    rw [dif_pos hkN, dif_pos hk25]
    exact Finset.sum_congr rfl fun p _ => P_apply W c ⟨k, hkN⟩ p q ⟨k * 2000 + p.val, Cert.LibSumBlocks.row_lt (A := 25) (B := 2000) ⟨k, hk25⟩ p⟩ rfl
  have e2 : ∀ q : Fin 256, ∑ k ∈ Finset.range 25, S2 W c q k
      = ∑ r : Fin 50000, PRE (W c (Pipeline.arrRef spec4 0)) (W c (Pipeline.arrRef spec4 1)) (W c (Pipeline.arrRef spec4 2)) (W c (Pipeline.arrRef spec4 3)) (W c (Pipeline.arrRef spec4 4)) (ix2 r q)
          * PRE (W c (Pipeline.arrRef spec4 0)) (W c (Pipeline.arrRef spec4 1)) (W c (Pipeline.arrRef spec4 2)) (W c (Pipeline.arrRef spec4 3)) (W c (Pipeline.arrRef spec4 4)) (ix2 r q) := by
    intro q
    refine Eq.trans ?_ (Cert.LibSumBlocks.sum_blocks_range 25 2000 (fun r : Fin 50000 => PRE (W c (Pipeline.arrRef spec4 0)) (W c (Pipeline.arrRef spec4 1)) (W c (Pipeline.arrRef spec4 2)) (W c (Pipeline.arrRef spec4 3)) (W c (Pipeline.arrRef spec4 4)) (ix2 r q)
      * PRE (W c (Pipeline.arrRef spec4 0)) (W c (Pipeline.arrRef spec4 1)) (W c (Pipeline.arrRef spec4 2)) (W c (Pipeline.arrRef spec4 3)) (W c (Pipeline.arrRef spec4 4)) (ix2 r q))).symm
    refine Finset.sum_congr rfl fun k hk => ?_
    have hk25 : k < 25 := Finset.mem_range.mp hk
    have hkN : k < cfg4.N := by omega
    unfold S2
    rw [dif_pos hkN, dif_pos hk25]
    refine Finset.sum_congr rfl fun p _ => ?_
    rw [P_apply W c ⟨k, hkN⟩ p q ⟨k * 2000 + p.val, Cert.LibSumBlocks.row_lt (A := 25) (B := 2000) ⟨k, hk25⟩ p⟩ rfl]
  split
  · exact e1 _
  · exact e2 _

/-- The second result array as the column statistics of the first. -/
theorem final6' (c : Dev nD) : (dat4 W c).arrAt 6 cfg4.N
    = colStats (PRE (W c (Pipeline.arrRef spec4 0)) (W c (Pipeline.arrRef spec4 1)) (W c (Pipeline.arrRef spec4 2)) (W c (Pipeline.arrRef spec4 3)) (W c (Pipeline.arrRef spec4 4))) :=
  (final6 W c).trans (STATS_eq W c)

end Finals

end Cert.KernelIdeal.Lin4

end
-- ==== Proof.Spec.lean ====
/-
  The scalar functions the three layers share, at any float instance.

  `act p s h` is the normalise-and-activate step on one entry: `y = p·s + h`, then `y` itself where `y > 0` and
  `0.01·y` elsewhere (the leaky rectifier; the slope is the float nearest 0.01, the same word in both programs).
-/
import Idealize.ShloMosaic.PureOps.Vector
import Idealize.ShloMosaic.Lib.ValueIdx

noncomputable section

namespace Cert.Spec

open Idealize.ShloMosaic

variable {F : FTy → Type} [FloatOps F]

/-- The leaky rectifier of one number: itself where positive, a hundredth of it elsewhere. -/
def leaky (y : F .f32) : F .f32 :=
  Scalar.select (FloatOps.cmpf .ogt y (FloatOps.ofBits .f32 0x00000000#32)) y
    (FloatOps.mulf (FloatOps.ofBits .f32 0x3C23D70A#32) y)

/-- Scale, shift, then the leaky rectifier. -/
def act (p s h : F .f32) : F .f32 := leaky (FloatOps.addf (FloatOps.mulf p s) h)

end Cert.Spec

end
-- ==== Proof.Act1.lean ====
/-
  What launch 1 (normalise and activate, [50000, 512] in 25 row blocks of 2000) leaves in its result array, for any
  contents `V` of the buffers at its entry: entry `(r, n)` is `act (pre (r, n)) (scale (0, n)) (shift (0, n))` of the
  three arrays its windows read. Each grid point `t` reads rows `2000·t … 2000·t + 1999` of `pre`, the one row of
  `scale` and of `shift`, stores the pointwise result through the whole block, and writes it back to the same rows;
  the 25 blocks tile the array.
-/
import proofs.«142385_j6322191859752_1_alg».proof.Proof.Gen.KernelIdeal.Frame
import proofs.«142385_j6322191859752_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Act1

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The whole-array function: entry `(r, n)` from `pre (r, n)`, `scale (0, n)`, `shift (0, n)`. -/
def G (pre : S50000x512.Idx → F .f32) (sc sh : S1x512.Idx → F .f32) : S50000x512.Idx → F .f32 :=
  fun i => act (pre i) (sc (ix2 (0 : Fin 1) (i 1))) (sh (ix2 (0 : Fin 1) (i 1)))

/-- The body's stored value at `(p, q)` of a block: the one row of scale and of shift is broadcast over the rows. -/
theorem pay_apply (v0 : Vec F S2000x512 .f32) (v2 v6 : Vec F S1x512 .f32) (p : Fin 2000) (q : Fin 512) :
    k1_pay1 v0 v2 v6 (ix2 p q) = act (v0 (ix2 p q)) (v2 (ix2 (0 : Fin 1) q)) (v6 (ix2 (0 : Fin 1) q)) := by
  have e2 : broadcastTo S2000x512 v2 broadcasts_S1x512_S2000x512 (ix2 p q) = v2 (ix2 (0 : Fin 1) q) :=
    broadcastTo_1b_ab_apply v2 _ p q
  have e6 : broadcastTo S2000x512 v6 broadcasts_S1x512_S2000x512 (ix2 p q) = v6 (ix2 (0 : Fin 1) q) :=
    broadcastTo_1b_ab_apply v6 _ p q
  unfold k1_pay1
  simp only [shapeCast_self]
  show Scalar.select (FloatOps.cmpf .ogt (FloatOps.addf (FloatOps.mulf (v0 (ix2 p q)) (broadcastTo S2000x512 v2 broadcasts_S1x512_S2000x512 (ix2 p q))) (broadcastTo S2000x512 v6 broadcasts_S1x512_S2000x512 (ix2 p q))) (FloatOps.ofBits .f32 0x00000000#32))
      (FloatOps.addf (FloatOps.mulf (v0 (ix2 p q)) (broadcastTo S2000x512 v2 broadcasts_S1x512_S2000x512 (ix2 p q))) (broadcastTo S2000x512 v6 broadcasts_S1x512_S2000x512 (ix2 p q)))
      (FloatOps.mulf (FloatOps.ofBits .f32 0x3C23D70A#32) (FloatOps.addf (FloatOps.mulf (v0 (ix2 p q)) (broadcastTo S2000x512 v2 broadcasts_S1x512_S2000x512 (ix2 p q))) (broadcastTo S2000x512 v6 broadcasts_S1x512_S2000x512 (ix2 p q)))) = _
  rw [e2, e6]
  rfl

/-- The same at any index of the block. -/
theorem pay_at (v0 : Vec F S2000x512 .f32) (v2 v6 : Vec F S1x512 .f32) (y : S2000x512.Idx) :
    k1_pay1 v0 v2 v6 y = act (v0 y) (v2 (ix2 (0 : Fin 1) (y 1))) (v6 (ix2 (0 : Fin 1) (y 1))) := by
  obtain ⟨p, q, rfl⟩ : ∃ (p : Fin 2000) (q : Fin 512), y = ix2 p q := ⟨y 0, y 1, eq_ix2 y⟩
  exact pay_apply v0 v2 v6 p q

/-- The printed index maps over the grid: the input and the output block move together down the rows, the two row
    vectors stay put. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 4000000 in
/-- What point `t` writes back is block `t` of `G` of the arrays as the launch finds them. -/
theorem flushed_eq (c : Dev nD) (t : Fin cfg1.N) :
    (dat1 V c).flushed 3 t = ((cfg1.win 3).blk t).view.read (Elt F)
      (G (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x512) hz, View.ld_unit_zero (S := S1x512) hz]
  obtain ⟨e0, e1, e2, e3, e4, e5, e6, e7⟩ := idx_facts t
  funext j
  rw [View.read_apply]
  refine (pay_at (iblk1 V c 0 t) (iblk1 V c 1 t) (iblk1 V c 2 t) ((cfg1.win 3).xinj (grid1.coords t) j)).trans ?_
  unfold G
  have h0 : ((cfg1.win 0).blk t).view.emb ((cfg1.win 3).xinj (grid1.coords t) j) = ((cfg1.win 3).blk t).view.emb j := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 512 + 1 * (j 1).val = win1_3.index t (1 : Fin 2) * 512 + 1 * (j 1).val; omega
  have h1 : ((cfg1.win 1).blk t).view.emb (ix2 (0 : Fin 1) (((cfg1.win 3).xinj (grid1.coords t) j) 1)) = ix2 (0 : Fin 1) ((((cfg1.win 3).blk t).view.emb j) 1) := by
    funext a; apply Fin.ext
    match a with
    | ⟨0, _⟩ => show win1_1.index t (0 : Fin 2) * 1 + 1 * 0 = 0; omega
    | ⟨1, _⟩ => show win1_1.index t (1 : Fin 2) * 512 + 1 * (j 1).val = win1_3.index t (1 : Fin 2) * 512 + 1 * (j 1).val; omega
  have h2 : ((cfg1.win 2).blk t).view.emb (ix2 (0 : Fin 1) (((cfg1.win 3).xinj (grid1.coords t) j) 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega
  show act (V c (Pipeline.arrRef spec1 0) (((cfg1.win 0).blk t).view.emb ((cfg1.win 3).xinj (grid1.coords t) j)))
      (V c (Pipeline.arrRef spec1 1) (((cfg1.win 1).blk t).view.emb (ix2 (0 : Fin 1) (((cfg1.win 3).xinj (grid1.coords t) j) 1))))
      (V c (Pipeline.arrRef spec1 2) (((cfg1.win 2).blk t).view.emb (ix2 (0 : Fin 1) (((cfg1.win 3).xinj (grid1.coords t) j) 1)))) = _
  rw [h0, h1, h2]
  first | rfl | exact (cast_eq _ _).symm

/-- An index of the array is in point `t`'s block iff each coordinate is in the block's range on its axis. -/
theorem mem_blk (t : Fin cfg1.N) (i : S50000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole (Pipeline.arrRef spec1 3)).slice (win1_3.rect t)).set ↔ _
  rw [View.set_slice_whole, Rect.mem_set_unit]
  exact Iff.rfl

/-- Every row lies in the block of the point `row / 2000`. -/
theorem cover (i : S50000x512.Idx) : ∃ t : Fin cfg1.N, (cfg1.win 3).flush t = true ∧ i ∈ ((cfg1.win 3).blk t).view.set := by
  have hi0 : (i 0).val < 50000 := (i 0).isLt
  have hi1 : (i 1).val < 512 := (i 1).isLt
  have hN : cfg1.N = 25 := N_1
  have hlt : (i 0).val / 2000 < cfg1.N := by rw [hN]; omega
  obtain ⟨e0, e1, e2, e3, e4, e5, e6, e7⟩ := idx_facts ⟨(i 0).val / 2000, hlt⟩
  refine ⟨⟨(i 0).val / 2000, hlt⟩, flush1_3 _, ?_⟩
  rw [mem_blk]
  intro a
  match a with
  | ⟨0, _⟩ => show win1_3.index ⟨(i 0).val / 2000, hlt⟩ (0 : Fin 2) * 2000 ≤ (i 0).val ∧ (i 0).val < win1_3.index ⟨(i 0).val / 2000, hlt⟩ (0 : Fin 2) * 2000 + 2000
              rw [e6]; show (i 0).val / 2000 * 2000 ≤ (i 0).val ∧ (i 0).val < (i 0).val / 2000 * 2000 + 2000; omega
  | ⟨1, _⟩ => show win1_3.index ⟨(i 0).val / 2000, hlt⟩ (1 : Fin 2) * 512 ≤ (i 1).val ∧ (i 1).val < win1_3.index ⟨(i 0).val / 2000, hlt⟩ (1 : Fin 2) * 512 + 512
              rw [e7]; omega

/-- The result array after the launch: `G` of the three arrays as the launch finds them. -/
theorem final (c : Dev nD) : (dat1 V c).arrAt 3 cfg1.N
    = G (V c (Pipeline.arrRef spec1 0)) (V c (Pipeline.arrRef spec1 1)) (V c (Pipeline.arrRef spec1 2)) :=
  (dat1 V c).arrAt_eq_of_cover 3 _ (fun t _ => flushed_eq V c t) (cover)

end Cert.KernelIdeal.Act1

end
-- ==== Proof.Act3.lean ====
/-
  What launch 3 (normalise and activate, [50000, 512] in 25 row blocks of 2000) leaves in its result array, for any
  contents `V` of the buffers at its entry: entry `(r, n)` is `act (pre (r, n)) (scale (0, n)) (shift (0, n))` of the
  three arrays its windows read. Each grid point `t` reads rows `2000·t … 2000·t + 1999` of `pre`, the one row of
  `scale` and of `shift`, stores the pointwise result through the whole block, and writes it back to the same rows;
  the 25 blocks tile the array.
-/
import proofs.«142385_j6322191859752_1_alg».proof.Proof.Gen.KernelIdeal.Frame
import proofs.«142385_j6322191859752_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Act3

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The whole-array function: entry `(r, n)` from `pre (r, n)`, `scale (0, n)`, `shift (0, n)`. -/
def G (pre : S50000x512.Idx → F .f32) (sc sh : S1x512.Idx → F .f32) : S50000x512.Idx → F .f32 :=
  fun i => act (pre i) (sc (ix2 (0 : Fin 1) (i 1))) (sh (ix2 (0 : Fin 1) (i 1)))

/-- The body's stored value at `(p, q)` of a block: the one row of scale and of shift is broadcast over the rows. -/
theorem pay_apply (v0 : Vec F S2000x512 .f32) (v2 v6 : Vec F S1x512 .f32) (p : Fin 2000) (q : Fin 512) :
    k3_pay1 v0 v2 v6 (ix2 p q) = act (v0 (ix2 p q)) (v2 (ix2 (0 : Fin 1) q)) (v6 (ix2 (0 : Fin 1) q)) := by
  have e2 : broadcastTo S2000x512 v2 broadcasts_S1x512_S2000x512 (ix2 p q) = v2 (ix2 (0 : Fin 1) q) :=
    broadcastTo_1b_ab_apply v2 _ p q
  have e6 : broadcastTo S2000x512 v6 broadcasts_S1x512_S2000x512 (ix2 p q) = v6 (ix2 (0 : Fin 1) q) :=
    broadcastTo_1b_ab_apply v6 _ p q
  unfold k3_pay1
  simp only [shapeCast_self]
  show Scalar.select (FloatOps.cmpf .ogt (FloatOps.addf (FloatOps.mulf (v0 (ix2 p q)) (broadcastTo S2000x512 v2 broadcasts_S1x512_S2000x512 (ix2 p q))) (broadcastTo S2000x512 v6 broadcasts_S1x512_S2000x512 (ix2 p q))) (FloatOps.ofBits .f32 0x00000000#32))
      (FloatOps.addf (FloatOps.mulf (v0 (ix2 p q)) (broadcastTo S2000x512 v2 broadcasts_S1x512_S2000x512 (ix2 p q))) (broadcastTo S2000x512 v6 broadcasts_S1x512_S2000x512 (ix2 p q)))
      (FloatOps.mulf (FloatOps.ofBits .f32 0x3C23D70A#32) (FloatOps.addf (FloatOps.mulf (v0 (ix2 p q)) (broadcastTo S2000x512 v2 broadcasts_S1x512_S2000x512 (ix2 p q))) (broadcastTo S2000x512 v6 broadcasts_S1x512_S2000x512 (ix2 p q)))) = _
  rw [e2, e6]
  rfl

/-- The same at any index of the block. -/
theorem pay_at (v0 : Vec F S2000x512 .f32) (v2 v6 : Vec F S1x512 .f32) (y : S2000x512.Idx) :
    k3_pay1 v0 v2 v6 y = act (v0 y) (v2 (ix2 (0 : Fin 1) (y 1))) (v6 (ix2 (0 : Fin 1) (y 1))) := by
  obtain ⟨p, q, rfl⟩ : ∃ (p : Fin 2000) (q : Fin 512), y = ix2 p q := ⟨y 0, y 1, eq_ix2 y⟩
  exact pay_apply v0 v2 v6 p q

/-- The printed index maps over the grid: the input and the output block move together down the rows, the two row
    vectors stay put. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 4000000 in
/-- What point `t` writes back is block `t` of `G` of the arrays as the launch finds them. -/
theorem flushed_eq (c : Dev nD) (t : Fin cfg3.N) :
    (dat3 V c).flushed 3 t = ((cfg3.win 3).blk t).view.read (Elt F)
      (G (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S2000x512) hz, View.ld_unit_zero (S := S1x512) hz]
  obtain ⟨e0, e1, e2, e3, e4, e5, e6, e7⟩ := idx_facts t
  funext j
  rw [View.read_apply]
  refine (pay_at (iblk3 V c 0 t) (iblk3 V c 1 t) (iblk3 V c 2 t) ((cfg3.win 3).xinj (grid3.coords t) j)).trans ?_
  unfold G
  have h0 : ((cfg3.win 0).blk t).view.emb ((cfg3.win 3).xinj (grid3.coords t) j) = ((cfg3.win 3).blk t).view.emb j := by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 512 + 1 * (j 1).val = win3_3.index t (1 : Fin 2) * 512 + 1 * (j 1).val; omega
  have h1 : ((cfg3.win 1).blk t).view.emb (ix2 (0 : Fin 1) (((cfg3.win 3).xinj (grid3.coords t) j) 1)) = ix2 (0 : Fin 1) ((((cfg3.win 3).blk t).view.emb j) 1) := by
    funext a; apply Fin.ext
    match a with
    | ⟨0, _⟩ => show win3_1.index t (0 : Fin 2) * 1 + 1 * 0 = 0; omega
    | ⟨1, _⟩ => show win3_1.index t (1 : Fin 2) * 512 + 1 * (j 1).val = win3_3.index t (1 : Fin 2) * 512 + 1 * (j 1).val; omega
  have h2 : ((cfg3.win 2).blk t).view.emb (ix2 (0 : Fin 1) (((cfg3.win 3).xinj (grid3.coords t) j) 1)) = ix2 (0 : Fin 1) ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 512 + 1 * (j 1).val = win3_3.index t (1 : Fin 2) * 512 + 1 * (j 1).val; omega
  show act (V c (Pipeline.arrRef spec3 0) (((cfg3.win 0).blk t).view.emb ((cfg3.win 3).xinj (grid3.coords t) j)))
      (V c (Pipeline.arrRef spec3 1) (((cfg3.win 1).blk t).view.emb (ix2 (0 : Fin 1) (((cfg3.win 3).xinj (grid3.coords t) j) 1))))
      (V c (Pipeline.arrRef spec3 2) (((cfg3.win 2).blk t).view.emb (ix2 (0 : Fin 1) (((cfg3.win 3).xinj (grid3.coords t) j) 1)))) = _
  rw [h0, h1, h2]
  first | rfl | exact (cast_eq _ _).symm

/-- An index of the array is in point `t`'s block iff each coordinate is in the block's range on its axis. -/
theorem mem_blk (t : Fin cfg3.N) (i : S50000x512.Idx) :
    i ∈ ((cfg3.win 3).blk t).view.set ↔ ∀ a : Fin 2, win3_3.index t a * S2000x512.size a ≤ (i a).val ∧ (i a).val < win3_3.index t a * S2000x512.size a + S2000x512.size a := by
  show i ∈ ((View.whole (Pipeline.arrRef spec3 3)).slice (win3_3.rect t)).set ↔ _
  rw [View.set_slice_whole, Rect.mem_set_unit]
  exact Iff.rfl

/-- Every row lies in the block of the point `row / 2000`. -/
theorem cover (i : S50000x512.Idx) : ∃ t : Fin cfg3.N, (cfg3.win 3).flush t = true ∧ i ∈ ((cfg3.win 3).blk t).view.set := by
  have hi0 : (i 0).val < 50000 := (i 0).isLt
  have hi1 : (i 1).val < 512 := (i 1).isLt
  have hN : cfg3.N = 25 := N_3
  have hlt : (i 0).val / 2000 < cfg3.N := by rw [hN]; omega
  obtain ⟨e0, e1, e2, e3, e4, e5, e6, e7⟩ := idx_facts ⟨(i 0).val / 2000, hlt⟩
  refine ⟨⟨(i 0).val / 2000, hlt⟩, flush3_3 _, ?_⟩
  rw [mem_blk]
  intro a
  match a with
  | ⟨0, _⟩ => show win3_3.index ⟨(i 0).val / 2000, hlt⟩ (0 : Fin 2) * 2000 ≤ (i 0).val ∧ (i 0).val < win3_3.index ⟨(i 0).val / 2000, hlt⟩ (0 : Fin 2) * 2000 + 2000
              rw [e6]; show (i 0).val / 2000 * 2000 ≤ (i 0).val ∧ (i 0).val < (i 0).val / 2000 * 2000 + 2000; omega
  | ⟨1, _⟩ => show win3_3.index ⟨(i 0).val / 2000, hlt⟩ (1 : Fin 2) * 512 ≤ (i 1).val ∧ (i 1).val < win3_3.index ⟨(i 0).val / 2000, hlt⟩ (1 : Fin 2) * 512 + 512
              rw [e7]; omega

/-- The result array after the launch: `G` of the three arrays as the launch finds them. -/
theorem final (c : Dev nD) : (dat3 V c).arrAt 3 cfg3.N
    = G (V c (Pipeline.arrRef spec3 0)) (V c (Pipeline.arrRef spec3 1)) (V c (Pipeline.arrRef spec3 2)) :=
  (dat3 V c).arrAt_eq_of_cover 3 _ (fun t _ => flushed_eq V c t) (cover)

end Cert.KernelIdeal.Act3

end
-- ==== Proof.Act5.lean ====
/-
  What launch 5 (normalise and activate, [50000, 256] in 25 row blocks of 2000) leaves in its result array, for any
  contents `V` of the buffers at its entry: entry `(r, n)` is `act (pre (r, n)) (scale (0, n)) (shift (0, n))` of the
  three arrays its windows read. Each grid point `t` reads rows `2000·t … 2000·t + 1999` of `pre`, the one row of
  `scale` and of `shift`, stores the pointwise result through the whole block, and writes it back to the same rows;
  the 25 blocks tile the array.
-/
import proofs.«142385_j6322191859752_1_alg».proof.Proof.Gen.KernelIdeal.Frame
import proofs.«142385_j6322191859752_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Act5

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The whole-array function: entry `(r, n)` from `pre (r, n)`, `scale (0, n)`, `shift (0, n)`. -/
def G (pre : S50000x256.Idx → F .f32) (sc sh : S1x256.Idx → F .f32) : S50000x256.Idx → F .f32 :=
  fun i => act (pre i) (sc (ix2 (0 : Fin 1) (i 1))) (sh (ix2 (0 : Fin 1) (i 1)))

/-- The body's stored value at `(p, q)` of a block: the one row of scale and of shift is broadcast over the rows. -/
theorem pay_apply (v0 : Vec F S2000x256 .f32) (v2 v6 : Vec F S1x256 .f32) (p : Fin 2000) (q : Fin 256) :
    k5_pay1 v0 v2 v6 (ix2 p q) = act (v0 (ix2 p q)) (v2 (ix2 (0 : Fin 1) q)) (v6 (ix2 (0 : Fin 1) q)) := by
  have e2 : broadcastTo S2000x256 v2 broadcasts_S1x256_S2000x256 (ix2 p q) = v2 (ix2 (0 : Fin 1) q) :=
    broadcastTo_1b_ab_apply v2 _ p q
  have e6 : broadcastTo S2000x256 v6 broadcasts_S1x256_S2000x256 (ix2 p q) = v6 (ix2 (0 : Fin 1) q) :=
    broadcastTo_1b_ab_apply v6 _ p q
  unfold k5_pay1
  simp only [shapeCast_self]
  show Scalar.select (FloatOps.cmpf .ogt (FloatOps.addf (FloatOps.mulf (v0 (ix2 p q)) (broadcastTo S2000x256 v2 broadcasts_S1x256_S2000x256 (ix2 p q))) (broadcastTo S2000x256 v6 broadcasts_S1x256_S2000x256 (ix2 p q))) (FloatOps.ofBits .f32 0x00000000#32))
      (FloatOps.addf (FloatOps.mulf (v0 (ix2 p q)) (broadcastTo S2000x256 v2 broadcasts_S1x256_S2000x256 (ix2 p q))) (broadcastTo S2000x256 v6 broadcasts_S1x256_S2000x256 (ix2 p q)))
      (FloatOps.mulf (FloatOps.ofBits .f32 0x3C23D70A#32) (FloatOps.addf (FloatOps.mulf (v0 (ix2 p q)) (broadcastTo S2000x256 v2 broadcasts_S1x256_S2000x256 (ix2 p q))) (broadcastTo S2000x256 v6 broadcasts_S1x256_S2000x256 (ix2 p q)))) = _
  rw [e2, e6]
  rfl

/-- The same at any index of the block. -/
theorem pay_at (v0 : Vec F S2000x256 .f32) (v2 v6 : Vec F S1x256 .f32) (y : S2000x256.Idx) :
    k5_pay1 v0 v2 v6 y = act (v0 y) (v2 (ix2 (0 : Fin 1) (y 1))) (v6 (ix2 (0 : Fin 1) (y 1))) := by
  obtain ⟨p, q, rfl⟩ : ∃ (p : Fin 2000) (q : Fin 256), y = ix2 p q := ⟨y 0, y 1, eq_ix2 y⟩
  exact pay_apply v0 v2 v6 p q

/-- The printed index maps over the grid: the input and the output block move together down the rows, the two row
    vectors stay put. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 4000000 in
/-- What point `t` writes back is block `t` of `G` of the arrays as the launch finds them. -/
theorem flushed_eq (c : Dev nD) (t : Fin cfg5.N) :
    (dat5 V c).flushed 3 t = ((cfg5.win 3).blk t).view.read (Elt F)
      (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S2000x256) hz, View.ld_unit_zero (S := S1x256) hz]
  obtain ⟨e0, e1, e2, e3, e4, e5, e6, e7⟩ := idx_facts t
  funext j
  rw [View.read_apply]
  refine (pay_at (iblk5 V c 0 t) (iblk5 V c 1 t) (iblk5 V c 2 t) ((cfg5.win 3).xinj (grid5.coords t) j)).trans ?_
  unfold G
  have h0 : ((cfg5.win 0).blk t).view.emb ((cfg5.win 3).xinj (grid5.coords t) j) = ((cfg5.win 3).blk t).view.emb j := by
    funext a; apply Fin.ext
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 256 + 1 * (j 1).val = win5_3.index t (1 : Fin 2) * 256 + 1 * (j 1).val; omega
  have h1 : ((cfg5.win 1).blk t).view.emb (ix2 (0 : Fin 1) (((cfg5.win 3).xinj (grid5.coords t) j) 1)) = ix2 (0 : Fin 1) ((((cfg5.win 3).blk t).view.emb j) 1) := by
    funext a; apply Fin.ext
    match a with
    | ⟨0, _⟩ => show win5_1.index t (0 : Fin 2) * 1 + 1 * 0 = 0; omega
    | ⟨1, _⟩ => show win5_1.index t (1 : Fin 2) * 256 + 1 * (j 1).val = win5_3.index t (1 : Fin 2) * 256 + 1 * (j 1).val; omega
  have h2 : ((cfg5.win 2).blk t).view.emb (ix2 (0 : Fin 1) (((cfg5.win 3).xinj (grid5.coords t) j) 1)) = ix2 (0 : Fin 1) ((((cfg5.win 3).blk t).view.emb j) 1) := by
    funext a; apply Fin.ext
    match a with
    | ⟨0, _⟩ => show win5_2.index t (0 : Fin 2) * 1 + 1 * 0 = 0; omega
    | ⟨1, _⟩ => show win5_2.index t (1 : Fin 2) * 256 + 1 * (j 1).val = win5_3.index t (1 : Fin 2) * 256 + 1 * (j 1).val; omega
  show act (V c (Pipeline.arrRef spec5 0) (((cfg5.win 0).blk t).view.emb ((cfg5.win 3).xinj (grid5.coords t) j)))
      (V c (Pipeline.arrRef spec5 1) (((cfg5.win 1).blk t).view.emb (ix2 (0 : Fin 1) (((cfg5.win 3).xinj (grid5.coords t) j) 1))))
      (V c (Pipeline.arrRef spec5 2) (((cfg5.win 2).blk t).view.emb (ix2 (0 : Fin 1) (((cfg5.win 3).xinj (grid5.coords t) j) 1)))) = _
  rw [h0, h1, h2]
  first | rfl | exact (cast_eq _ _).symm

/-- An index of the array is in point `t`'s block iff each coordinate is in the block's range on its axis. -/
theorem mem_blk (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole (Pipeline.arrRef spec5 3)).slice (win5_3.rect t)).set ↔ _
  rw [View.set_slice_whole, Rect.mem_set_unit]
  exact Iff.rfl

/-- Every row lies in the block of the point `row / 2000`. -/
theorem cover (i : S50000x256.Idx) : ∃ t : Fin cfg5.N, (cfg5.win 3).flush t = true ∧ i ∈ ((cfg5.win 3).blk t).view.set := by
  have hi0 : (i 0).val < 50000 := (i 0).isLt
  have hi1 : (i 1).val < 256 := (i 1).isLt
  have hN : cfg5.N = 25 := N_5
  have hlt : (i 0).val / 2000 < cfg5.N := by rw [hN]; omega
  obtain ⟨e0, e1, e2, e3, e4, e5, e6, e7⟩ := idx_facts ⟨(i 0).val / 2000, hlt⟩
  refine ⟨⟨(i 0).val / 2000, hlt⟩, flush5_3 _, ?_⟩
  rw [mem_blk]
  intro a
  match a with
  | ⟨0, _⟩ => show win5_3.index ⟨(i 0).val / 2000, hlt⟩ (0 : Fin 2) * 2000 ≤ (i 0).val ∧ (i 0).val < win5_3.index ⟨(i 0).val / 2000, hlt⟩ (0 : Fin 2) * 2000 + 2000
              rw [e6]; show (i 0).val / 2000 * 2000 ≤ (i 0).val ∧ (i 0).val < (i 0).val / 2000 * 2000 + 2000; omega
  | ⟨1, _⟩ => show win5_3.index ⟨(i 0).val / 2000, hlt⟩ (1 : Fin 2) * 256 ≤ (i 1).val ∧ (i 1).val < win5_3.index ⟨(i 0).val / 2000, hlt⟩ (1 : Fin 2) * 256 + 256
              rw [e7]; omega

/-- The result array after the launch: `G` of the three arrays as the launch finds them. -/
theorem final (c : Dev nD) : (dat5 V c).arrAt 3 cfg5.N
    = G (V c (Pipeline.arrRef spec5 0)) (V c (Pipeline.arrRef spec5 1)) (V c (Pipeline.arrRef spec5 2)) :=
  (dat5 V c).arrAt_eq_of_cover 3 _ (fun t _ => flushed_eq V c t) (cover)

end Cert.KernelIdeal.Act5

end
-- ==== Proof.Fin1.lean ====
/-
  The host stretch after a linear launch: from the [2, 512] column statistics (row 0 the sums `s`, row 1 the sums of
  squares `ss`) and the affine parameters `γ`, `β` it computes, per column, `mean = s/N`, `var = ss/N − mean²`,
  `scale = γ · rsqrt(var + ε)` and `shift = β − mean · scale`, and lays each out as one row [1, 512].
-/
import proofs.«142385_j6322191859752_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Fin1

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- Row `ρ` of the statistics as a vector over the columns. -/
def row0 (st : FVec F S2x512 .f32) : FVec F S512 .f32 :=
  fun i => shapeCast S512 (extractStridedSlice S1x512 ![0, 0] st slices_S2x512_S1x512_0_0) shapeCasts_S1x512_S512 i
def row1 (st : FVec F S2x512 .f32) : FVec F S512 .f32 :=
  fun i => shapeCast S512 (extractStridedSlice S1x512 ![1, 0] st slices_S2x512_S1x512_1_0) shapeCasts_S1x512_S512 i

/-- The number of rows and the guard, as the program's constants. -/
def nV : FVec F S512 .f32 := broadcastInDim S512 ![] bcast_S_S512 (constant S_ .f32 0x47435000#32)
def epsV : FVec F S512 .f32 := broadcastInDim S512 ![] bcast_S_S512 (constant S_ .f32 0x3727C5AC#32)

def meanV (st : FVec F S2x512 .f32) : FVec F S512 .f32 := Host.divf (row0 st) nV
def scaleV (st : FVec F S2x512 .f32) (g : FVec F S512 .f32) : FVec F S512 .f32 :=
  mulf g (Host.rsqrt (addf (subf (Host.divf (row1 st) nV) (mulf (meanV st) (meanV st))) epsV))
def shiftV (st : FVec F S2x512 .f32) (g b : FVec F S512 .f32) : FVec F S512 .f32 :=
  subf b (mulf (meanV st) (scaleV st g))

/-- Each laid out as one row. -/
def scaleRow (st : FVec F S2x512 .f32) (g : FVec F S512 .f32) : FVec F S1x512 .f32 :=
  fun i => shapeCast S1x512 (scaleV st g) shapeCasts_S512_S1x512 i
def shiftRow (st : FVec F S2x512 .f32) (g b : FVec F S512 .f32) : FVec F S1x512 .f32 :=
  fun i => shapeCast S1x512 (shiftV st g b) shapeCasts_S512_S1x512 i

set_option maxRecDepth 65536 in
set_option maxHeartbeats 8000000 in
/-- The stretch leaves the scale row in its buffer, -/
theorem scale_eq (W : Valuation τ sig (Elt F)) :
    StableHlo.after hostOps1 W (Proc.devRef .tc main_v64) = scaleRow (W (Proc.devRef .tc main_v47_1)) (W (Proc.devRef .tc main_arg5)) := by
  after_results_simp
  rfl

set_option maxRecDepth 65536 in
set_option maxHeartbeats 8000000 in
/-- and the shift row in its. -/
theorem shift_eq (W : Valuation τ sig (Elt F)) :
    StableHlo.after hostOps1 W (Proc.devRef .tc main_v65) = shiftRow (W (Proc.devRef .tc main_v47_1)) (W (Proc.devRef .tc main_arg5)) (W (Proc.devRef .tc main_arg6)) := by
  after_results_simp
  rfl

/-! ## On the extended reals, column by column -/

theorem row0_apply (st : FVec Ideal S2x512 .f32) (n : Fin 512) : row0 st (ix1 n) = st (ix2 (0 : Fin 2) n) := by
  unfold row0
  refine (shapeCast_apply _ shapeCasts_S1x512_S512 (ix1 n) (ix2 (0 : Fin 1) n) (by
    rw [Shape.rowMajor_val_two, Shape.rowMajor_val_one]; show 0 * 512 + n.val = n.val; omega)).trans ?_
  exact extractStridedSlice_apply ![0, 0] st slices_S2x512_S1x512_0_0 (ix2 (0 : Fin 1) n) (ix2 (0 : Fin 2) n) (fun a => by
    match a with
    | ⟨0, _⟩ => rfl
    | ⟨1, _⟩ => show n.val = 0 + n.val; omega)

theorem row1_apply (st : FVec Ideal S2x512 .f32) (n : Fin 512) : row1 st (ix1 n) = st (ix2 (1 : Fin 2) n) := by
  unfold row1
  refine (shapeCast_apply _ shapeCasts_S1x512_S512 (ix1 n) (ix2 (0 : Fin 1) n) (by
    rw [Shape.rowMajor_val_two, Shape.rowMajor_val_one]; show 0 * 512 + n.val = n.val; omega)).trans ?_
  exact extractStridedSlice_apply ![1, 0] st slices_S2x512_S1x512_1_0 (ix2 (0 : Fin 1) n) (ix2 (1 : Fin 2) n) (fun a => by
    match a with
    | ⟨0, _⟩ => rfl
    | ⟨1, _⟩ => show n.val = 0 + n.val; omega)

/-- The column's mean, scale and shift as scalar functions of the column's two sums. -/
def meanS (s : EReal) : EReal := Ideal.div s (Ideal.ofBits .f32 0x47435000#32)
def scaleS (s ss g : EReal) : EReal :=
  g * Ideal.rsqrt ((Ideal.div ss (Ideal.ofBits .f32 0x47435000#32) - meanS s * meanS s) + Ideal.ofBits .f32 0x3727C5AC#32)
def shiftS (s ss g b : EReal) : EReal := b - meanS s * scaleS s ss g

theorem scaleV_apply (st : FVec Ideal S2x512 .f32) (g : FVec Ideal S512 .f32) (n : Fin 512) :
    scaleV st g (ix1 n) = scaleS (st (ix2 (0 : Fin 2) n)) (st (ix2 (1 : Fin 2) n)) (g (ix1 n)) := by
  show g (ix1 n) * Ideal.rsqrt ((Ideal.div (row1 st (ix1 n)) (nV (F := Ideal) (ix1 n))
      - Ideal.div (row0 st (ix1 n)) (nV (F := Ideal) (ix1 n)) * Ideal.div (row0 st (ix1 n)) (nV (F := Ideal) (ix1 n))) + epsV (F := Ideal) (ix1 n)) = _
  rw [row0_apply, row1_apply]
  rfl

theorem shiftV_apply (st : FVec Ideal S2x512 .f32) (g b : FVec Ideal S512 .f32) (n : Fin 512) :
    shiftV st g b (ix1 n) = shiftS (st (ix2 (0 : Fin 2) n)) (st (ix2 (1 : Fin 2) n)) (g (ix1 n)) (b (ix1 n)) := by
  show b (ix1 n) - Ideal.div (row0 st (ix1 n)) (nV (F := Ideal) (ix1 n)) * scaleV st g (ix1 n) = _
  rw [row0_apply, scaleV_apply]
  rfl

theorem row_cast_apply (v : S512.Idx → EReal) (n : Fin 512) :
    shapeCast S1x512 v shapeCasts_S512_S1x512 (ix2 (0 : Fin 1) n) = v (ix1 n) := by
  refine shapeCast_apply v shapeCasts_S512_S1x512 (ix2 (0 : Fin 1) n) (ix1 n) ?_
  rw [Shape.rowMajor_val_two, Shape.rowMajor_val_one]
  show n.val = 0 * 512 + n.val
  omega

theorem scaleRow_apply (st : FVec Ideal S2x512 .f32) (g : FVec Ideal S512 .f32) (n : Fin 512) :
    scaleRow st g (ix2 (0 : Fin 1) n) = scaleS (st (ix2 (0 : Fin 2) n)) (st (ix2 (1 : Fin 2) n)) (g (ix1 n)) :=
  (row_cast_apply (scaleV st g) n).trans (scaleV_apply st g n)

theorem shiftRow_apply (st : FVec Ideal S2x512 .f32) (g b : FVec Ideal S512 .f32) (n : Fin 512) :
    shiftRow st g b (ix2 (0 : Fin 1) n) = shiftS (st (ix2 (0 : Fin 2) n)) (st (ix2 (1 : Fin 2) n)) (g (ix1 n)) (b (ix1 n)) :=
  (row_cast_apply (shiftV st g b) n).trans (shiftV_apply st g b n)

end Cert.KernelIdeal.Fin1

end
-- ==== Proof.Fin3.lean ====
/-
  The host stretch after a linear launch: from the [2, 512] column statistics (row 0 the sums `s`, row 1 the sums of
  squares `ss`) and the affine parameters `γ`, `β` it computes, per column, `mean = s/N`, `var = ss/N − mean²`,
  `scale = γ · rsqrt(var + ε)` and `shift = β − mean · scale`, and lays each out as one row [1, 512].
-/
import proofs.«142385_j6322191859752_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Fin3

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- Row `ρ` of the statistics as a vector over the columns. -/
def row0 (st : FVec F S2x512 .f32) : FVec F S512 .f32 :=
  fun i => shapeCast S512 (extractStridedSlice S1x512 ![0, 0] st slices_S2x512_S1x512_0_0) shapeCasts_S1x512_S512 i
def row1 (st : FVec F S2x512 .f32) : FVec F S512 .f32 :=
  fun i => shapeCast S512 (extractStridedSlice S1x512 ![1, 0] st slices_S2x512_S1x512_1_0) shapeCasts_S1x512_S512 i

/-- The number of rows and the guard, as the program's constants. -/
def nV : FVec F S512 .f32 := broadcastInDim S512 ![] bcast_S_S512 (constant S_ .f32 0x47435000#32)
def epsV : FVec F S512 .f32 := broadcastInDim S512 ![] bcast_S_S512 (constant S_ .f32 0x3727C5AC#32)

def meanV (st : FVec F S2x512 .f32) : FVec F S512 .f32 := Host.divf (row0 st) nV
def scaleV (st : FVec F S2x512 .f32) (g : FVec F S512 .f32) : FVec F S512 .f32 :=
  mulf g (Host.rsqrt (addf (subf (Host.divf (row1 st) nV) (mulf (meanV st) (meanV st))) epsV))
def shiftV (st : FVec F S2x512 .f32) (g b : FVec F S512 .f32) : FVec F S512 .f32 :=
  subf b (mulf (meanV st) (scaleV st g))

/-- Each laid out as one row. -/
def scaleRow (st : FVec F S2x512 .f32) (g : FVec F S512 .f32) : FVec F S1x512 .f32 :=
  fun i => shapeCast S1x512 (scaleV st g) shapeCasts_S512_S1x512 i
def shiftRow (st : FVec F S2x512 .f32) (g b : FVec F S512 .f32) : FVec F S1x512 .f32 :=
  fun i => shapeCast S1x512 (shiftV st g b) shapeCasts_S512_S1x512 i

set_option maxRecDepth 65536 in
set_option maxHeartbeats 8000000 in
/-- The stretch leaves the scale row in its buffer, -/
theorem scale_eq (W : Valuation τ sig (Elt F)) :
    StableHlo.after hostOps3 W (Proc.devRef .tc main_v98) = scaleRow (W (Proc.devRef .tc main_v81_1)) (W (Proc.devRef .tc main_arg10)) := by
  after_results_simp
  rfl

set_option maxRecDepth 65536 in
set_option maxHeartbeats 8000000 in
/-- and the shift row in its. -/
theorem shift_eq (W : Valuation τ sig (Elt F)) :
    StableHlo.after hostOps3 W (Proc.devRef .tc main_v99) = shiftRow (W (Proc.devRef .tc main_v81_1)) (W (Proc.devRef .tc main_arg10)) (W (Proc.devRef .tc main_arg11)) := by
  after_results_simp
  rfl

/-! ## On the extended reals, column by column -/

theorem row0_apply (st : FVec Ideal S2x512 .f32) (n : Fin 512) : row0 st (ix1 n) = st (ix2 (0 : Fin 2) n) := by
  unfold row0
  refine (shapeCast_apply _ shapeCasts_S1x512_S512 (ix1 n) (ix2 (0 : Fin 1) n) (by
    rw [Shape.rowMajor_val_two, Shape.rowMajor_val_one]; show 0 * 512 + n.val = n.val; omega)).trans ?_
  exact extractStridedSlice_apply ![0, 0] st slices_S2x512_S1x512_0_0 (ix2 (0 : Fin 1) n) (ix2 (0 : Fin 2) n) (fun a => by
    match a with
    | ⟨0, _⟩ => rfl
    | ⟨1, _⟩ => show n.val = 0 + n.val; omega)

theorem row1_apply (st : FVec Ideal S2x512 .f32) (n : Fin 512) : row1 st (ix1 n) = st (ix2 (1 : Fin 2) n) := by
  unfold row1
  refine (shapeCast_apply _ shapeCasts_S1x512_S512 (ix1 n) (ix2 (0 : Fin 1) n) (by
    rw [Shape.rowMajor_val_two, Shape.rowMajor_val_one]; show 0 * 512 + n.val = n.val; omega)).trans ?_
  exact extractStridedSlice_apply ![1, 0] st slices_S2x512_S1x512_1_0 (ix2 (0 : Fin 1) n) (ix2 (1 : Fin 2) n) (fun a => by
    match a with
    | ⟨0, _⟩ => rfl
    | ⟨1, _⟩ => show n.val = 0 + n.val; omega)

/-- The column's mean, scale and shift as scalar functions of the column's two sums. -/
def meanS (s : EReal) : EReal := Ideal.div s (Ideal.ofBits .f32 0x47435000#32)
def scaleS (s ss g : EReal) : EReal :=
  g * Ideal.rsqrt ((Ideal.div ss (Ideal.ofBits .f32 0x47435000#32) - meanS s * meanS s) + Ideal.ofBits .f32 0x3727C5AC#32)
def shiftS (s ss g b : EReal) : EReal := b - meanS s * scaleS s ss g

theorem scaleV_apply (st : FVec Ideal S2x512 .f32) (g : FVec Ideal S512 .f32) (n : Fin 512) :
    scaleV st g (ix1 n) = scaleS (st (ix2 (0 : Fin 2) n)) (st (ix2 (1 : Fin 2) n)) (g (ix1 n)) := by
  show g (ix1 n) * Ideal.rsqrt ((Ideal.div (row1 st (ix1 n)) (nV (F := Ideal) (ix1 n))
      - Ideal.div (row0 st (ix1 n)) (nV (F := Ideal) (ix1 n)) * Ideal.div (row0 st (ix1 n)) (nV (F := Ideal) (ix1 n))) + epsV (F := Ideal) (ix1 n)) = _
  rw [row0_apply, row1_apply]
  rfl

theorem shiftV_apply (st : FVec Ideal S2x512 .f32) (g b : FVec Ideal S512 .f32) (n : Fin 512) :
    shiftV st g b (ix1 n) = shiftS (st (ix2 (0 : Fin 2) n)) (st (ix2 (1 : Fin 2) n)) (g (ix1 n)) (b (ix1 n)) := by
  show b (ix1 n) - Ideal.div (row0 st (ix1 n)) (nV (F := Ideal) (ix1 n)) * scaleV st g (ix1 n) = _
  rw [row0_apply, scaleV_apply]
  rfl

theorem row_cast_apply (v : S512.Idx → EReal) (n : Fin 512) :
    shapeCast S1x512 v shapeCasts_S512_S1x512 (ix2 (0 : Fin 1) n) = v (ix1 n) := by
  refine shapeCast_apply v shapeCasts_S512_S1x512 (ix2 (0 : Fin 1) n) (ix1 n) ?_
  rw [Shape.rowMajor_val_two, Shape.rowMajor_val_one]
  show n.val = 0 * 512 + n.val
  omega

theorem scaleRow_apply (st : FVec Ideal S2x512 .f32) (g : FVec Ideal S512 .f32) (n : Fin 512) :
    scaleRow st g (ix2 (0 : Fin 1) n) = scaleS (st (ix2 (0 : Fin 2) n)) (st (ix2 (1 : Fin 2) n)) (g (ix1 n)) :=
  (row_cast_apply (scaleV st g) n).trans (scaleV_apply st g n)

theorem shiftRow_apply (st : FVec Ideal S2x512 .f32) (g b : FVec Ideal S512 .f32) (n : Fin 512) :
    shiftRow st g b (ix2 (0 : Fin 1) n) = shiftS (st (ix2 (0 : Fin 2) n)) (st (ix2 (1 : Fin 2) n)) (g (ix1 n)) (b (ix1 n)) :=
  (row_cast_apply (shiftV st g b) n).trans (shiftV_apply st g b n)

end Cert.KernelIdeal.Fin3

end
-- ==== Proof.Fin5.lean ====
/-
  The host stretch after a linear launch: from the [2, 256] column statistics (row 0 the sums `s`, row 1 the sums of
  squares `ss`) and the affine parameters `γ`, `β` it computes, per column, `mean = s/N`, `var = ss/N − mean²`,
  `scale = γ · rsqrt(var + ε)` and `shift = β − mean · scale`, and lays each out as one row [1, 256].
-/
import proofs.«142385_j6322191859752_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Fin5

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- Row `ρ` of the statistics as a vector over the columns. -/
def row0 (st : FVec F S2x256 .f32) : FVec F S256 .f32 :=
  fun i => shapeCast S256 (extractStridedSlice S1x256 ![0, 0] st slices_S2x256_S1x256_0_0) shapeCasts_S1x256_S256 i
def row1 (st : FVec F S2x256 .f32) : FVec F S256 .f32 :=
  fun i => shapeCast S256 (extractStridedSlice S1x256 ![1, 0] st slices_S2x256_S1x256_1_0) shapeCasts_S1x256_S256 i

/-- The number of rows and the guard, as the program's constants. -/
def nV : FVec F S256 .f32 := broadcastInDim S256 ![] bcast_S_S256 (constant S_ .f32 0x47435000#32)
def epsV : FVec F S256 .f32 := broadcastInDim S256 ![] bcast_S_S256 (constant S_ .f32 0x3727C5AC#32)

def meanV (st : FVec F S2x256 .f32) : FVec F S256 .f32 := Host.divf (row0 st) nV
def scaleV (st : FVec F S2x256 .f32) (g : FVec F S256 .f32) : FVec F S256 .f32 :=
  mulf g (Host.rsqrt (addf (subf (Host.divf (row1 st) nV) (mulf (meanV st) (meanV st))) epsV))
def shiftV (st : FVec F S2x256 .f32) (g b : FVec F S256 .f32) : FVec F S256 .f32 :=
  subf b (mulf (meanV st) (scaleV st g))

/-- Each laid out as one row. -/
def scaleRow (st : FVec F S2x256 .f32) (g : FVec F S256 .f32) : FVec F S1x256 .f32 :=
  fun i => shapeCast S1x256 (scaleV st g) shapeCasts_S256_S1x256 i
def shiftRow (st : FVec F S2x256 .f32) (g b : FVec F S256 .f32) : FVec F S1x256 .f32 :=
  fun i => shapeCast S1x256 (shiftV st g b) shapeCasts_S256_S1x256 i

set_option maxRecDepth 65536 in
set_option maxHeartbeats 8000000 in
/-- The stretch leaves the scale row in its buffer, -/
theorem scale_eq (W : Valuation τ sig (Elt F)) :
    StableHlo.after hostOps5 W (Proc.devRef .tc main_v133) = scaleRow (W (Proc.devRef .tc main_v116_1)) (W (Proc.devRef .tc main_arg14)) := by
  after_results_simp
  rfl

set_option maxRecDepth 65536 in
set_option maxHeartbeats 8000000 in
/-- and the shift row in its. -/
theorem shift_eq (W : Valuation τ sig (Elt F)) :
    StableHlo.after hostOps5 W (Proc.devRef .tc main_v134) = shiftRow (W (Proc.devRef .tc main_v116_1)) (W (Proc.devRef .tc main_arg14)) (W (Proc.devRef .tc main_arg15)) := by
  after_results_simp
  rfl

/-! ## On the extended reals, column by column -/

theorem row0_apply (st : FVec Ideal S2x256 .f32) (n : Fin 256) : row0 st (ix1 n) = st (ix2 (0 : Fin 2) n) := by
  unfold row0
  refine (shapeCast_apply _ shapeCasts_S1x256_S256 (ix1 n) (ix2 (0 : Fin 1) n) (by
    rw [Shape.rowMajor_val_two, Shape.rowMajor_val_one]; show 0 * 256 + n.val = n.val; omega)).trans ?_
  exact extractStridedSlice_apply ![0, 0] st slices_S2x256_S1x256_0_0 (ix2 (0 : Fin 1) n) (ix2 (0 : Fin 2) n) (fun a => by
    match a with
    | ⟨0, _⟩ => rfl
    | ⟨1, _⟩ => show n.val = 0 + n.val; omega)

theorem row1_apply (st : FVec Ideal S2x256 .f32) (n : Fin 256) : row1 st (ix1 n) = st (ix2 (1 : Fin 2) n) := by
  unfold row1
  refine (shapeCast_apply _ shapeCasts_S1x256_S256 (ix1 n) (ix2 (0 : Fin 1) n) (by
    rw [Shape.rowMajor_val_two, Shape.rowMajor_val_one]; show 0 * 256 + n.val = n.val; omega)).trans ?_
  exact extractStridedSlice_apply ![1, 0] st slices_S2x256_S1x256_1_0 (ix2 (0 : Fin 1) n) (ix2 (1 : Fin 2) n) (fun a => by
    match a with
    | ⟨0, _⟩ => rfl
    | ⟨1, _⟩ => show n.val = 0 + n.val; omega)

/-- The column's mean, scale and shift as scalar functions of the column's two sums. -/
def meanS (s : EReal) : EReal := Ideal.div s (Ideal.ofBits .f32 0x47435000#32)
def scaleS (s ss g : EReal) : EReal :=
  g * Ideal.rsqrt ((Ideal.div ss (Ideal.ofBits .f32 0x47435000#32) - meanS s * meanS s) + Ideal.ofBits .f32 0x3727C5AC#32)
def shiftS (s ss g b : EReal) : EReal := b - meanS s * scaleS s ss g

theorem scaleV_apply (st : FVec Ideal S2x256 .f32) (g : FVec Ideal S256 .f32) (n : Fin 256) :
    scaleV st g (ix1 n) = scaleS (st (ix2 (0 : Fin 2) n)) (st (ix2 (1 : Fin 2) n)) (g (ix1 n)) := by
  show g (ix1 n) * Ideal.rsqrt ((Ideal.div (row1 st (ix1 n)) (nV (F := Ideal) (ix1 n))
      - Ideal.div (row0 st (ix1 n)) (nV (F := Ideal) (ix1 n)) * Ideal.div (row0 st (ix1 n)) (nV (F := Ideal) (ix1 n))) + epsV (F := Ideal) (ix1 n)) = _
  rw [row0_apply, row1_apply]
  rfl

theorem shiftV_apply (st : FVec Ideal S2x256 .f32) (g b : FVec Ideal S256 .f32) (n : Fin 256) :
    shiftV st g b (ix1 n) = shiftS (st (ix2 (0 : Fin 2) n)) (st (ix2 (1 : Fin 2) n)) (g (ix1 n)) (b (ix1 n)) := by
  show b (ix1 n) - Ideal.div (row0 st (ix1 n)) (nV (F := Ideal) (ix1 n)) * scaleV st g (ix1 n) = _
  rw [row0_apply, scaleV_apply]
  rfl

theorem row_cast_apply (v : S256.Idx → EReal) (n : Fin 256) :
    shapeCast S1x256 v shapeCasts_S256_S1x256 (ix2 (0 : Fin 1) n) = v (ix1 n) := by
  refine shapeCast_apply v shapeCasts_S256_S1x256 (ix2 (0 : Fin 1) n) (ix1 n) ?_
  rw [Shape.rowMajor_val_two, Shape.rowMajor_val_one]
  show n.val = 0 * 256 + n.val
  omega

theorem scaleRow_apply (st : FVec Ideal S2x256 .f32) (g : FVec Ideal S256 .f32) (n : Fin 256) :
    scaleRow st g (ix2 (0 : Fin 1) n) = scaleS (st (ix2 (0 : Fin 2) n)) (st (ix2 (1 : Fin 2) n)) (g (ix1 n)) :=
  (row_cast_apply (scaleV st g) n).trans (scaleV_apply st g n)

theorem shiftRow_apply (st : FVec Ideal S2x256 .f32) (g b : FVec Ideal S256 .f32) (n : Fin 256) :
    shiftRow st g b (ix2 (0 : Fin 1) n) = shiftS (st (ix2 (0 : Fin 2) n)) (st (ix2 (1 : Fin 2) n)) (g (ix1 n)) (b (ix1 n)) :=
  (row_cast_apply (shiftV st g b) n).trans (shiftV_apply st g b n)

end Cert.KernelIdeal.Fin5

end
-- ==== Proof.Pro.lean ====
/-
  The host prologue and the two aggregation stretches of the idealized kernel program, read at the buffers the
  launches take: the edge ids, the edge normalisation and each layer's neighbourhood sum are the reference's own
  operations on the same inputs, so they are the same functions; a bias vector is laid out as one row.
-/
import proofs.«142385_j6322191859752_1_alg».proof.Proof.Gen.KernelIdeal.Frame
import proofs.«142385_j6322191859752_1_alg».proof.Proof.RefLayers
import Idealize.ShloMosaic.Lib.StableHlo.Run
import Idealize.ShloMosaic.PureOps.Ideal

noncomputable section

namespace Cert.KernelIdeal.Pro

open Cert.KernelIdeal Cert.KernelIdeal.Gen
open Idealize.ShloMosaic Idealize.ShloMosaic.TcCoe Idealize.SL.Sem Idealize.ShloMosaic.StableHlo

variable {F : FTy → Type} [FloatOps F]

/-- A bias vector laid out as one row. -/
def brow512 (b : FVec F S512 .f32) : FVec F S1x512 .f32 := fun i => shapeCast S1x512 b shapeCasts_S512_S1x512 i
/-- The last layer has no bias: a row of zeros. -/
def zrow256 : FVec F S1x256 .f32 :=
  fun i => shapeCast S1x256 (broadcastInDim S256 ![] bcast_S_S256 (constant (F := F) S_ .f32 0x00000000#32)) shapeCasts_S256_S1x256 i

section Prologue
variable (V : Valuation τ sig (Elt F))

/-- The contents after the three prologue stretches. -/
abbrev P3 : Valuation τ sig (Elt F) := after hostOps0_2 (after hostOps0_1 (after hostOps0 V))

attribute [local irreducible] Host.gather Host.scatterAdd in
set_option maxRecDepth 65536 in
set_option maxHeartbeats 16000000 in
theorem v1_eq : P3 V (Proc.devRef .tc main_v1) = Cert.ReferenceIdeal.RefRun.RefSpec.rowIds (F := F) (V (Proc.devRef .tc main_arg1)) := by
  after_results_simp
  rfl

attribute [local irreducible] Host.gather Host.scatterAdd in
set_option maxRecDepth 65536 in
set_option maxHeartbeats 16000000 in
theorem v3_eq : P3 V (Proc.devRef .tc main_v3) = Cert.ReferenceIdeal.RefRun.RefSpec.colIds (F := F) (V (Proc.devRef .tc main_arg1)) := by
  after_results_simp
  rfl

attribute [local irreducible] Host.gather Host.scatterAdd in
set_option maxRecDepth 65536 in
set_option maxHeartbeats 16000000 in
theorem v32_eq : P3 V (Proc.devRef .tc main_v32) = Cert.ReferenceIdeal.RefRun.RefSpec.norm (F := F) (V (Proc.devRef .tc main_arg1)) := by
  after_results_simp
  rfl

attribute [local irreducible] Host.gather Host.scatterAdd in
set_option maxRecDepth 65536 in
set_option maxHeartbeats 16000000 in
theorem v45_eq : P3 V (Proc.devRef .tc main_v45)
    = Cert.ReferenceIdeal.RefRun.RefSpec.agg512 (F := F) (V (Proc.devRef .tc main_arg0)) (Cert.ReferenceIdeal.RefRun.RefSpec.rowIds (F := F) (V (Proc.devRef .tc main_arg1))) (Cert.ReferenceIdeal.RefRun.RefSpec.colIds (F := F) (V (Proc.devRef .tc main_arg1))) (Cert.ReferenceIdeal.RefRun.RefSpec.norm (F := F) (V (Proc.devRef .tc main_arg1))) := by
  after_results_simp
  rfl

set_option maxRecDepth 65536 in
set_option maxHeartbeats 16000000 in
theorem v46_eq : P3 V (Proc.devRef .tc main_v46) = brow512 (V (Proc.devRef .tc main_arg4)) := by
  after_results_simp
  rfl

end Prologue

section Aggregations
variable (W : Valuation τ sig (Elt F))

attribute [local irreducible] Host.gather Host.scatterAdd in
set_option maxRecDepth 65536 in
set_option maxHeartbeats 16000000 in
theorem v79_eq : after hostOps2 W (Proc.devRef .tc main_v79)
    = Cert.ReferenceIdeal.RefRun.RefSpec.agg512 (F := F) (W (Proc.devRef .tc main_v66)) (W (Proc.devRef .tc main_v1)) (W (Proc.devRef .tc main_v3)) (W (Proc.devRef .tc main_v32)) := by
  after_results_simp
  rfl

set_option maxRecDepth 65536 in
set_option maxHeartbeats 16000000 in
theorem v80_eq : after hostOps2 W (Proc.devRef .tc main_v80) = brow512 (W (Proc.devRef .tc main_arg9)) := by
  after_results_simp
  rfl

attribute [local irreducible] Host.gather Host.scatterAdd in
set_option maxRecDepth 65536 in
set_option maxHeartbeats 16000000 in
theorem v114_eq : after hostOps4 W (Proc.devRef .tc main_v114)
    = Cert.ReferenceIdeal.RefRun.RefSpec.agg512 (F := F) (W (Proc.devRef .tc main_v100)) (W (Proc.devRef .tc main_v1)) (W (Proc.devRef .tc main_v3)) (W (Proc.devRef .tc main_v32)) := by
  after_results_simp
  rfl

set_option maxRecDepth 65536 in
set_option maxHeartbeats 16000000 in
theorem v115_eq : after hostOps4 W (Proc.devRef .tc main_v115) = zrow256 (F := F) := by
  after_results_simp
  rfl

end Aggregations

end Cert.KernelIdeal.Pro

end
-- ==== Proof.Chain.lean ====
/-
  The idealized kernel program's result as a function of its arguments.

  The contents of the buffers at the fourteen segment boundaries of @main are a fold from the launch memory. This module
  reads the fold at the buffers that matter. The host prologue computes the edge ids, the edge normalisation and the
  first aggregation — the reference's own operations, so the same functions. Each layer is then: a linear launch
  (its two result arrays are the linear layer of its input arrays and that layer's column statistics), a host stretch
  turning the statistics and the affine parameters into a scale row and a shift row, an activation launch (scale,
  shift, leaky rectifier), and, before the next layer, the aggregation of the activated array. Every other buffer
  passes through a stretch unchanged because the stretch writes only buffers declared later, and through a launch
  unchanged because the launch writes only its own outputs.
-/
import proofs.«142385_j6322191859752_1_alg».proof.Proof.Gen.KernelIdeal.Frame
import proofs.«142385_j6322191859752_1_alg».proof.Proof.LibTailOps
import proofs.«142385_j6322191859752_1_alg».proof.Proof.RefLayers
import proofs.«142385_j6322191859752_1_alg».proof.Proof.Lin0
import proofs.«142385_j6322191859752_1_alg».proof.Proof.Lin2
import proofs.«142385_j6322191859752_1_alg».proof.Proof.Lin4
import proofs.«142385_j6322191859752_1_alg».proof.Proof.Act1
import proofs.«142385_j6322191859752_1_alg».proof.Proof.Act3
import proofs.«142385_j6322191859752_1_alg».proof.Proof.Act5
import proofs.«142385_j6322191859752_1_alg».proof.Proof.Fin1
import proofs.«142385_j6322191859752_1_alg».proof.Proof.Fin3
import proofs.«142385_j6322191859752_1_alg».proof.Proof.Fin5
import proofs.«142385_j6322191859752_1_alg».proof.Proof.Pro
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## A stretch writes only buffers declared at or after its first one -/

/-- The buffers declared at position `n` or later. -/
abbrev From (n : ℕ) : Ref sig .tc → Prop := fun r => n ≤ r.idx.val

theorem wr0 : (hostOps0 : List (HloOp τ sig (Elt Ideal))).Forall (Cert.LibTailOps.WritesOne (τ := τ) (From 16)) := by writes_one_each
theorem wr0_1 : (hostOps0_1 : List (HloOp τ sig (Elt Ideal))).Forall (Cert.LibTailOps.WritesOne (τ := τ) (From 16)) := by writes_one_each
theorem wr0_2 : (hostOps0_2 : List (HloOp τ sig (Elt Ideal))).Forall (Cert.LibTailOps.WritesOne (τ := τ) (From 16)) := by writes_one_each
theorem wr1 : (hostOps1 : List (HloOp τ sig (Elt Ideal))).Forall (Cert.LibTailOps.WritesOne (τ := τ) (From 79)) := by writes_one_each
theorem wr2 : (hostOps2 : List (HloOp τ sig (Elt Ideal))).Forall (Cert.LibTailOps.WritesOne (τ := τ) (From 101)) := by writes_one_each
theorem wr3 : (hostOps3 : List (HloOp τ sig (Elt Ideal))).Forall (Cert.LibTailOps.WritesOne (τ := τ) (From 120)) := by writes_one_each
theorem wr4 : (hostOps4 : List (HloOp τ sig (Elt Ideal))).Forall (Cert.LibTailOps.WritesOne (τ := τ) (From 142)) := by writes_one_each
theorem wr5 : (hostOps5 : List (HloOp τ sig (Elt Ideal))).Forall (Cert.LibTailOps.WritesOne (τ := τ) (From 163)) := by writes_one_each

/-- A buffer declared before a stretch's first one keeps its contents through the stretch. -/
theorem keep (ops : List (HloOp τ sig (Elt Ideal))) (n : ℕ) (h : ops.Forall (Cert.LibTailOps.WritesOne (τ := τ) (From n)))
    (W : Valuation τ sig (Elt Ideal)) {r : Ref sig .tc} (hr : r.idx.val < n) :
    after ops W (Proc.devRef .tc r) = W (Proc.devRef .tc r) :=
  Cert.LibTailOps.after_keeps ops W h (by show ¬ n ≤ r.idx.val; omega)

variable (m : (ℓ : Loc nD τ sig) → Buf (Elt Ideal) ℓ) (ρ : Dev nD → PrngReg) (c : Dev nD)

/-! ## Carrying a buffer across each boundary -/

theorem lift3 {r : Ref sig .tc} (hr : r.idx.val < 16) : W3 m ρ c (Proc.devRef .tc r) = W0 m ρ c (Proc.devRef .tc r) :=
  (keep hostOps0_2 16 wr0_2 _ hr).trans ((keep hostOps0_1 16 wr0_1 _ hr).trans (keep hostOps0 16 wr0 _ hr))
theorem lift4 {b : Ref sig .tc} (hb : ∀ w, Pipeline.arrRef spec0 w ≠ b) : W4 m ρ c (Proc.devRef .tc b) = W3 m ρ c (Proc.devRef .tc b) := W4_of_ne m ρ c b hb
theorem lift5 {r : Ref sig .tc} (hr : r.idx.val < 79) : W5 m ρ c (Proc.devRef .tc r) = W4 m ρ c (Proc.devRef .tc r) := keep hostOps1 79 wr1 _ hr
theorem lift6 {b : Ref sig .tc} (hb : ∀ w, Pipeline.arrRef spec1 w ≠ b) : W6 m ρ c (Proc.devRef .tc b) = W5 m ρ c (Proc.devRef .tc b) := W6_of_ne m ρ c b hb
theorem lift7 {r : Ref sig .tc} (hr : r.idx.val < 101) : W7 m ρ c (Proc.devRef .tc r) = W6 m ρ c (Proc.devRef .tc r) := keep hostOps2 101 wr2 _ hr
theorem lift8 {b : Ref sig .tc} (hb : ∀ w, Pipeline.arrRef spec2 w ≠ b) : W8 m ρ c (Proc.devRef .tc b) = W7 m ρ c (Proc.devRef .tc b) := W8_of_ne m ρ c b hb
theorem lift9 {r : Ref sig .tc} (hr : r.idx.val < 120) : W9 m ρ c (Proc.devRef .tc r) = W8 m ρ c (Proc.devRef .tc r) := keep hostOps3 120 wr3 _ hr
theorem lift10 {b : Ref sig .tc} (hb : ∀ w, Pipeline.arrRef spec3 w ≠ b) : W10 m ρ c (Proc.devRef .tc b) = W9 m ρ c (Proc.devRef .tc b) := W10_of_ne m ρ c b hb
theorem lift11 {r : Ref sig .tc} (hr : r.idx.val < 142) : W11 m ρ c (Proc.devRef .tc r) = W10 m ρ c (Proc.devRef .tc r) := keep hostOps4 142 wr4 _ hr
theorem lift12 {b : Ref sig .tc} (hb : ∀ w, Pipeline.arrRef spec4 w ≠ b) : W12 m ρ c (Proc.devRef .tc b) = W11 m ρ c (Proc.devRef .tc b) := W12_of_ne m ρ c b hb
theorem lift13 {r : Ref sig .tc} (hr : r.idx.val < 163) : W13 m ρ c (Proc.devRef .tc r) = W12 m ρ c (Proc.devRef .tc r) := keep hostOps5 163 wr5 _ hr

/-! ## Congruences, so that no rewriting happens under a buffer's dependent type -/

theorem congr2 {α₁ α₂ β : Sort*} (f : α₁ → α₂ → β) {a a' : α₁} {b b' : α₂} (ha : a = a') (hb : b = b') : f a b = f a' b' := by
  subst ha hb; rfl
theorem congr3 {α₁ α₂ α₃ β : Sort*} (f : α₁ → α₂ → α₃ → β) {a a' : α₁} {b b' : α₂} {c c' : α₃}
    (ha : a = a') (hb : b = b') (hc : c = c') : f a b c = f a' b' c' := by
  subst ha hb hc; rfl
theorem congr5 {α₁ α₂ α₃ α₄ α₅ β : Sort*} (f : α₁ → α₂ → α₃ → α₄ → α₅ → β) {a a' : α₁} {b b' : α₂} {c c' : α₃} {d d' : α₄} {e e' : α₅}
    (ha : a = a') (hb : b = b') (hc : c = c') (hd : d = d') (he : e = e') : f a b c d e = f a' b' c' d' e' := by
  subst ha hb hc hd he; rfl

/-! ## The layers as functions of arrays -/

/-- Layer a of the kernel program as a function of arrays: the linear layer over `x` and its aggregation, its
    column statistics turned into scale and shift rows, then the activation. -/
def KLa (x : FVec Ideal S50000x512 .f32) (R C : IVec S150000 32) (Nm : FVec Ideal S150000 .f32) (w0 w1 : FVec Ideal S512x512 .f32) (b g be : FVec Ideal S512 .f32) : S50000x512.Idx → EReal :=
  Act1.G (Lin0.PRE x (Cert.ReferenceIdeal.RefRun.RefSpec.agg512 (F := Ideal) x R C Nm) w0 w1 (Pro.brow512 (F := Ideal) b))
    (Fin1.scaleRow (Lin0.colStats (Lin0.PRE x (Cert.ReferenceIdeal.RefRun.RefSpec.agg512 (F := Ideal) x R C Nm) w0 w1 (Pro.brow512 (F := Ideal) b))) g)
    (Fin1.shiftRow (Lin0.colStats (Lin0.PRE x (Cert.ReferenceIdeal.RefRun.RefSpec.agg512 (F := Ideal) x R C Nm) w0 w1 (Pro.brow512 (F := Ideal) b))) g be)

/-- Layer b of the kernel program as a function of arrays: the linear layer over `x` and its aggregation, its
    column statistics turned into scale and shift rows, then the activation. -/
def KLb (x : FVec Ideal S50000x512 .f32) (R C : IVec S150000 32) (Nm : FVec Ideal S150000 .f32) (w0 w1 : FVec Ideal S512x512 .f32) (b g be : FVec Ideal S512 .f32) : S50000x512.Idx → EReal :=
  Act3.G (Lin2.PRE x (Cert.ReferenceIdeal.RefRun.RefSpec.agg512 (F := Ideal) x R C Nm) w0 w1 (Pro.brow512 (F := Ideal) b))
    (Fin3.scaleRow (Lin2.colStats (Lin2.PRE x (Cert.ReferenceIdeal.RefRun.RefSpec.agg512 (F := Ideal) x R C Nm) w0 w1 (Pro.brow512 (F := Ideal) b))) g)
    (Fin3.shiftRow (Lin2.colStats (Lin2.PRE x (Cert.ReferenceIdeal.RefRun.RefSpec.agg512 (F := Ideal) x R C Nm) w0 w1 (Pro.brow512 (F := Ideal) b))) g be)

/-- Layer c of the kernel program as a function of arrays: the linear layer over `x` and its aggregation, its
    column statistics turned into scale and shift rows, then the activation. -/
def KLc (x : FVec Ideal S50000x512 .f32) (R C : IVec S150000 32) (Nm : FVec Ideal S150000 .f32) (w0 w1 : FVec Ideal S512x256 .f32) (g be : FVec Ideal S256 .f32) : S50000x256.Idx → EReal :=
  Act5.G (Lin4.PRE x (Cert.ReferenceIdeal.RefRun.RefSpec.agg512 (F := Ideal) x R C Nm) w0 w1 (Pro.zrow256 (F := Ideal)))
    (Fin5.scaleRow (Lin4.colStats (Lin4.PRE x (Cert.ReferenceIdeal.RefRun.RefSpec.agg512 (F := Ideal) x R C Nm) w0 w1 (Pro.zrow256 (F := Ideal)))) g)
    (Fin5.shiftRow (Lin4.colStats (Lin4.PRE x (Cert.ReferenceIdeal.RefRun.RefSpec.agg512 (F := Ideal) x R C Nm) w0 w1 (Pro.zrow256 (F := Ideal)))) g be)

/-! ## Layer a -/

/-- The linear launch's first result: the linear layer of the arrays at its entry. -/
theorem pre_a : W4 m ρ c (Proc.devRef .tc main_v47_0) = (Lin0.PRE (W0 m ρ c (Proc.devRef .tc main_arg0)) (Cert.ReferenceIdeal.RefRun.RefSpec.agg512 (F := Ideal) (W0 m ρ c (Proc.devRef .tc main_arg0)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1)))) (W0 m ρ c (Proc.devRef .tc main_arg2)) (W0 m ρ c (Proc.devRef .tc main_arg3)) (Pro.brow512 (F := Ideal) (W0 m ρ c (Proc.devRef .tc main_arg4)))) :=
  (W4_arr m ρ c 5).trans ((Lin0.final5 (V3 m ρ) c).trans
    (congr5 Lin0.PRE (lift3 m ρ c (r := main_arg0) (by decide)) (Pro.v45_eq (W0 m ρ c)) (lift3 m ρ c (r := main_arg2) (by decide)) (lift3 m ρ c (r := main_arg3) (by decide)) (Pro.v46_eq (W0 m ρ c))))

/-- Its second result: that array's column statistics. -/
theorem stats_a : W4 m ρ c (Proc.devRef .tc main_v47_1) = Lin0.colStats (Lin0.PRE (W0 m ρ c (Proc.devRef .tc main_arg0)) (Cert.ReferenceIdeal.RefRun.RefSpec.agg512 (F := Ideal) (W0 m ρ c (Proc.devRef .tc main_arg0)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1)))) (W0 m ρ c (Proc.devRef .tc main_arg2)) (W0 m ρ c (Proc.devRef .tc main_arg3)) (Pro.brow512 (F := Ideal) (W0 m ρ c (Proc.devRef .tc main_arg4)))) :=
  (W4_arr m ρ c 6).trans ((Lin0.final6' (V3 m ρ) c).trans
    (congrArg Lin0.colStats (congr5 Lin0.PRE (lift3 m ρ c (r := main_arg0) (by decide)) (Pro.v45_eq (W0 m ρ c)) (lift3 m ρ c (r := main_arg2) (by decide)) (lift3 m ρ c (r := main_arg3) (by decide)) (Pro.v46_eq (W0 m ρ c)))))

/-- The activation launch's result: the whole layer. -/
theorem out_a : W6 m ρ c (Proc.devRef .tc main_v66) = KLa (W0 m ρ c (Proc.devRef .tc main_arg0)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1))) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) :=
  (W6_arr m ρ c 3).trans ((Act1.final (V5 m ρ) c).trans
    (congr3 Act1.G
      ((lift5 m ρ c (r := main_v47_0) (by decide)).trans (pre_a m ρ c))
      ((Fin1.scale_eq (W4 m ρ c)).trans (congr2 Fin1.scaleRow (stats_a m ρ c) ((lift4 m ρ c (b := main_arg5) (by decide)).trans (lift3 m ρ c (r := main_arg5) (by decide)))))
      ((Fin1.shift_eq (W4 m ρ c)).trans (congr3 Fin1.shiftRow (stats_a m ρ c) ((lift4 m ρ c (b := main_arg5) (by decide)).trans (lift3 m ρ c (r := main_arg5) (by decide))) ((lift4 m ρ c (b := main_arg6) (by decide)).trans (lift3 m ρ c (r := main_arg6) (by decide)))))))

/-! ## Layer b -/

/-- The linear launch's first result: the linear layer of the arrays at its entry. -/
theorem pre_b : W8 m ρ c (Proc.devRef .tc main_v81_0) = (Lin2.PRE (W6 m ρ c (Proc.devRef .tc main_v66)) (Cert.ReferenceIdeal.RefRun.RefSpec.agg512 (F := Ideal) (W6 m ρ c (Proc.devRef .tc main_v66)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1)))) (W0 m ρ c (Proc.devRef .tc main_arg7)) (W0 m ρ c (Proc.devRef .tc main_arg8)) (Pro.brow512 (F := Ideal) (W0 m ρ c (Proc.devRef .tc main_arg9)))) :=
  (W8_arr m ρ c 5).trans ((Lin2.final5 (V7 m ρ) c).trans
    (congr5 Lin2.PRE (lift7 m ρ c (r := main_v66) (by decide)) ((Pro.v79_eq (W6 m ρ c)).trans (congr3 (Cert.ReferenceIdeal.RefRun.RefSpec.agg512 (F := Ideal) (W6 m ρ c (Proc.devRef .tc main_v66))) ((lift6 m ρ c (b := main_v1) (by decide)).trans ((lift5 m ρ c (r := main_v1) (by decide)).trans ((lift4 m ρ c (b := main_v1) (by decide)).trans (Pro.v1_eq (W0 m ρ c))))) ((lift6 m ρ c (b := main_v3) (by decide)).trans ((lift5 m ρ c (r := main_v3) (by decide)).trans ((lift4 m ρ c (b := main_v3) (by decide)).trans (Pro.v3_eq (W0 m ρ c))))) ((lift6 m ρ c (b := main_v32) (by decide)).trans ((lift5 m ρ c (r := main_v32) (by decide)).trans ((lift4 m ρ c (b := main_v32) (by decide)).trans (Pro.v32_eq (W0 m ρ c))))))) ((lift7 m ρ c (r := main_arg7) (by decide)).trans ((lift6 m ρ c (b := main_arg7) (by decide)).trans ((lift5 m ρ c (r := main_arg7) (by decide)).trans ((lift4 m ρ c (b := main_arg7) (by decide)).trans (lift3 m ρ c (r := main_arg7) (by decide)))))) ((lift7 m ρ c (r := main_arg8) (by decide)).trans ((lift6 m ρ c (b := main_arg8) (by decide)).trans ((lift5 m ρ c (r := main_arg8) (by decide)).trans ((lift4 m ρ c (b := main_arg8) (by decide)).trans (lift3 m ρ c (r := main_arg8) (by decide)))))) ((Pro.v80_eq (W6 m ρ c)).trans (congrArg (Pro.brow512 (F := Ideal)) ((lift6 m ρ c (b := main_arg9) (by decide)).trans ((lift5 m ρ c (r := main_arg9) (by decide)).trans ((lift4 m ρ c (b := main_arg9) (by decide)).trans (lift3 m ρ c (r := main_arg9) (by decide)))))))))

/-- Its second result: that array's column statistics. -/
theorem stats_b : W8 m ρ c (Proc.devRef .tc main_v81_1) = Lin2.colStats (Lin2.PRE (W6 m ρ c (Proc.devRef .tc main_v66)) (Cert.ReferenceIdeal.RefRun.RefSpec.agg512 (F := Ideal) (W6 m ρ c (Proc.devRef .tc main_v66)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1)))) (W0 m ρ c (Proc.devRef .tc main_arg7)) (W0 m ρ c (Proc.devRef .tc main_arg8)) (Pro.brow512 (F := Ideal) (W0 m ρ c (Proc.devRef .tc main_arg9)))) :=
  (W8_arr m ρ c 6).trans ((Lin2.final6' (V7 m ρ) c).trans
    (congrArg Lin2.colStats (congr5 Lin2.PRE (lift7 m ρ c (r := main_v66) (by decide)) ((Pro.v79_eq (W6 m ρ c)).trans (congr3 (Cert.ReferenceIdeal.RefRun.RefSpec.agg512 (F := Ideal) (W6 m ρ c (Proc.devRef .tc main_v66))) ((lift6 m ρ c (b := main_v1) (by decide)).trans ((lift5 m ρ c (r := main_v1) (by decide)).trans ((lift4 m ρ c (b := main_v1) (by decide)).trans (Pro.v1_eq (W0 m ρ c))))) ((lift6 m ρ c (b := main_v3) (by decide)).trans ((lift5 m ρ c (r := main_v3) (by decide)).trans ((lift4 m ρ c (b := main_v3) (by decide)).trans (Pro.v3_eq (W0 m ρ c))))) ((lift6 m ρ c (b := main_v32) (by decide)).trans ((lift5 m ρ c (r := main_v32) (by decide)).trans ((lift4 m ρ c (b := main_v32) (by decide)).trans (Pro.v32_eq (W0 m ρ c))))))) ((lift7 m ρ c (r := main_arg7) (by decide)).trans ((lift6 m ρ c (b := main_arg7) (by decide)).trans ((lift5 m ρ c (r := main_arg7) (by decide)).trans ((lift4 m ρ c (b := main_arg7) (by decide)).trans (lift3 m ρ c (r := main_arg7) (by decide)))))) ((lift7 m ρ c (r := main_arg8) (by decide)).trans ((lift6 m ρ c (b := main_arg8) (by decide)).trans ((lift5 m ρ c (r := main_arg8) (by decide)).trans ((lift4 m ρ c (b := main_arg8) (by decide)).trans (lift3 m ρ c (r := main_arg8) (by decide)))))) ((Pro.v80_eq (W6 m ρ c)).trans (congrArg (Pro.brow512 (F := Ideal)) ((lift6 m ρ c (b := main_arg9) (by decide)).trans ((lift5 m ρ c (r := main_arg9) (by decide)).trans ((lift4 m ρ c (b := main_arg9) (by decide)).trans (lift3 m ρ c (r := main_arg9) (by decide))))))))))

/-- The activation launch's result: the whole layer. -/
theorem out_b : W10 m ρ c (Proc.devRef .tc main_v100) = KLb (W6 m ρ c (Proc.devRef .tc main_v66)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1))) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) :=
  (W10_arr m ρ c 3).trans ((Act3.final (V9 m ρ) c).trans
    (congr3 Act3.G
      ((lift9 m ρ c (r := main_v81_0) (by decide)).trans (pre_b m ρ c))
      ((Fin3.scale_eq (W8 m ρ c)).trans (congr2 Fin3.scaleRow (stats_b m ρ c) ((lift8 m ρ c (b := main_arg10) (by decide)).trans ((lift7 m ρ c (r := main_arg10) (by decide)).trans ((lift6 m ρ c (b := main_arg10) (by decide)).trans ((lift5 m ρ c (r := main_arg10) (by decide)).trans ((lift4 m ρ c (b := main_arg10) (by decide)).trans (lift3 m ρ c (r := main_arg10) (by decide)))))))))
      ((Fin3.shift_eq (W8 m ρ c)).trans (congr3 Fin3.shiftRow (stats_b m ρ c) ((lift8 m ρ c (b := main_arg10) (by decide)).trans ((lift7 m ρ c (r := main_arg10) (by decide)).trans ((lift6 m ρ c (b := main_arg10) (by decide)).trans ((lift5 m ρ c (r := main_arg10) (by decide)).trans ((lift4 m ρ c (b := main_arg10) (by decide)).trans (lift3 m ρ c (r := main_arg10) (by decide))))))) ((lift8 m ρ c (b := main_arg11) (by decide)).trans ((lift7 m ρ c (r := main_arg11) (by decide)).trans ((lift6 m ρ c (b := main_arg11) (by decide)).trans ((lift5 m ρ c (r := main_arg11) (by decide)).trans ((lift4 m ρ c (b := main_arg11) (by decide)).trans (lift3 m ρ c (r := main_arg11) (by decide)))))))))))

/-! ## Layer c -/

/-- The linear launch's first result: the linear layer of the arrays at its entry. -/
theorem pre_c : W12 m ρ c (Proc.devRef .tc main_v116_0) = (Lin4.PRE (W10 m ρ c (Proc.devRef .tc main_v100)) (Cert.ReferenceIdeal.RefRun.RefSpec.agg512 (F := Ideal) (W10 m ρ c (Proc.devRef .tc main_v100)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1)))) (W0 m ρ c (Proc.devRef .tc main_arg12)) (W0 m ρ c (Proc.devRef .tc main_arg13)) (Pro.zrow256 (F := Ideal))) :=
  (W12_arr m ρ c 5).trans ((Lin4.final5 (V11 m ρ) c).trans
    (congr5 Lin4.PRE (lift11 m ρ c (r := main_v100) (by decide)) ((Pro.v114_eq (W10 m ρ c)).trans (congr3 (Cert.ReferenceIdeal.RefRun.RefSpec.agg512 (F := Ideal) (W10 m ρ c (Proc.devRef .tc main_v100))) ((lift10 m ρ c (b := main_v1) (by decide)).trans ((lift9 m ρ c (r := main_v1) (by decide)).trans ((lift8 m ρ c (b := main_v1) (by decide)).trans ((lift7 m ρ c (r := main_v1) (by decide)).trans ((lift6 m ρ c (b := main_v1) (by decide)).trans ((lift5 m ρ c (r := main_v1) (by decide)).trans ((lift4 m ρ c (b := main_v1) (by decide)).trans (Pro.v1_eq (W0 m ρ c))))))))) ((lift10 m ρ c (b := main_v3) (by decide)).trans ((lift9 m ρ c (r := main_v3) (by decide)).trans ((lift8 m ρ c (b := main_v3) (by decide)).trans ((lift7 m ρ c (r := main_v3) (by decide)).trans ((lift6 m ρ c (b := main_v3) (by decide)).trans ((lift5 m ρ c (r := main_v3) (by decide)).trans ((lift4 m ρ c (b := main_v3) (by decide)).trans (Pro.v3_eq (W0 m ρ c))))))))) ((lift10 m ρ c (b := main_v32) (by decide)).trans ((lift9 m ρ c (r := main_v32) (by decide)).trans ((lift8 m ρ c (b := main_v32) (by decide)).trans ((lift7 m ρ c (r := main_v32) (by decide)).trans ((lift6 m ρ c (b := main_v32) (by decide)).trans ((lift5 m ρ c (r := main_v32) (by decide)).trans ((lift4 m ρ c (b := main_v32) (by decide)).trans (Pro.v32_eq (W0 m ρ c))))))))))) ((lift11 m ρ c (r := main_arg12) (by decide)).trans ((lift10 m ρ c (b := main_arg12) (by decide)).trans ((lift9 m ρ c (r := main_arg12) (by decide)).trans ((lift8 m ρ c (b := main_arg12) (by decide)).trans ((lift7 m ρ c (r := main_arg12) (by decide)).trans ((lift6 m ρ c (b := main_arg12) (by decide)).trans ((lift5 m ρ c (r := main_arg12) (by decide)).trans ((lift4 m ρ c (b := main_arg12) (by decide)).trans (lift3 m ρ c (r := main_arg12) (by decide)))))))))) ((lift11 m ρ c (r := main_arg13) (by decide)).trans ((lift10 m ρ c (b := main_arg13) (by decide)).trans ((lift9 m ρ c (r := main_arg13) (by decide)).trans ((lift8 m ρ c (b := main_arg13) (by decide)).trans ((lift7 m ρ c (r := main_arg13) (by decide)).trans ((lift6 m ρ c (b := main_arg13) (by decide)).trans ((lift5 m ρ c (r := main_arg13) (by decide)).trans ((lift4 m ρ c (b := main_arg13) (by decide)).trans (lift3 m ρ c (r := main_arg13) (by decide)))))))))) (Pro.v115_eq (W10 m ρ c))))

/-- Its second result: that array's column statistics. -/
theorem stats_c : W12 m ρ c (Proc.devRef .tc main_v116_1) = Lin4.colStats (Lin4.PRE (W10 m ρ c (Proc.devRef .tc main_v100)) (Cert.ReferenceIdeal.RefRun.RefSpec.agg512 (F := Ideal) (W10 m ρ c (Proc.devRef .tc main_v100)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1)))) (W0 m ρ c (Proc.devRef .tc main_arg12)) (W0 m ρ c (Proc.devRef .tc main_arg13)) (Pro.zrow256 (F := Ideal))) :=
  (W12_arr m ρ c 6).trans ((Lin4.final6' (V11 m ρ) c).trans
    (congrArg Lin4.colStats (congr5 Lin4.PRE (lift11 m ρ c (r := main_v100) (by decide)) ((Pro.v114_eq (W10 m ρ c)).trans (congr3 (Cert.ReferenceIdeal.RefRun.RefSpec.agg512 (F := Ideal) (W10 m ρ c (Proc.devRef .tc main_v100))) ((lift10 m ρ c (b := main_v1) (by decide)).trans ((lift9 m ρ c (r := main_v1) (by decide)).trans ((lift8 m ρ c (b := main_v1) (by decide)).trans ((lift7 m ρ c (r := main_v1) (by decide)).trans ((lift6 m ρ c (b := main_v1) (by decide)).trans ((lift5 m ρ c (r := main_v1) (by decide)).trans ((lift4 m ρ c (b := main_v1) (by decide)).trans (Pro.v1_eq (W0 m ρ c))))))))) ((lift10 m ρ c (b := main_v3) (by decide)).trans ((lift9 m ρ c (r := main_v3) (by decide)).trans ((lift8 m ρ c (b := main_v3) (by decide)).trans ((lift7 m ρ c (r := main_v3) (by decide)).trans ((lift6 m ρ c (b := main_v3) (by decide)).trans ((lift5 m ρ c (r := main_v3) (by decide)).trans ((lift4 m ρ c (b := main_v3) (by decide)).trans (Pro.v3_eq (W0 m ρ c))))))))) ((lift10 m ρ c (b := main_v32) (by decide)).trans ((lift9 m ρ c (r := main_v32) (by decide)).trans ((lift8 m ρ c (b := main_v32) (by decide)).trans ((lift7 m ρ c (r := main_v32) (by decide)).trans ((lift6 m ρ c (b := main_v32) (by decide)).trans ((lift5 m ρ c (r := main_v32) (by decide)).trans ((lift4 m ρ c (b := main_v32) (by decide)).trans (Pro.v32_eq (W0 m ρ c))))))))))) ((lift11 m ρ c (r := main_arg12) (by decide)).trans ((lift10 m ρ c (b := main_arg12) (by decide)).trans ((lift9 m ρ c (r := main_arg12) (by decide)).trans ((lift8 m ρ c (b := main_arg12) (by decide)).trans ((lift7 m ρ c (r := main_arg12) (by decide)).trans ((lift6 m ρ c (b := main_arg12) (by decide)).trans ((lift5 m ρ c (r := main_arg12) (by decide)).trans ((lift4 m ρ c (b := main_arg12) (by decide)).trans (lift3 m ρ c (r := main_arg12) (by decide)))))))))) ((lift11 m ρ c (r := main_arg13) (by decide)).trans ((lift10 m ρ c (b := main_arg13) (by decide)).trans ((lift9 m ρ c (r := main_arg13) (by decide)).trans ((lift8 m ρ c (b := main_arg13) (by decide)).trans ((lift7 m ρ c (r := main_arg13) (by decide)).trans ((lift6 m ρ c (b := main_arg13) (by decide)).trans ((lift5 m ρ c (r := main_arg13) (by decide)).trans ((lift4 m ρ c (b := main_arg13) (by decide)).trans (lift3 m ρ c (r := main_arg13) (by decide)))))))))) (Pro.v115_eq (W10 m ρ c)))))

/-- The activation launch's result: the whole layer. -/
theorem out_c : W14 m ρ c (Proc.devRef .tc main_v135) = KLc (W10 m ρ c (Proc.devRef .tc main_v100)) (Cert.ReferenceIdeal.RefRun.RefSpec.rowIds (F := Ideal) (W0 m ρ c (Proc.devRef .tc main_arg1))) (Cert.ReferenceIdeal.RefRun.RefSpec.colIds (F := Ideal) (W0 m ρ c (Proc.devRef .tc main_arg1))) (Cert.ReferenceIdeal.RefRun.RefSpec.norm (F := Ideal) (W0 m ρ c (Proc.devRef .tc main_arg1))) (W0 m ρ c (Proc.devRef .tc main_arg12)) (W0 m ρ c (Proc.devRef .tc main_arg13)) (W0 m ρ c (Proc.devRef .tc main_arg14)) (W0 m ρ c (Proc.devRef .tc main_arg15)) :=
  (W14_arr m ρ c 3).trans ((Act5.final (V13 m ρ) c).trans
    (congr3 Act5.G
      ((lift13 m ρ c (r := main_v116_0) (by decide)).trans (pre_c m ρ c))
      ((Fin5.scale_eq (W12 m ρ c)).trans (congr2 Fin5.scaleRow (stats_c m ρ c) ((lift12 m ρ c (b := main_arg14) (by decide)).trans ((lift11 m ρ c (r := main_arg14) (by decide)).trans ((lift10 m ρ c (b := main_arg14) (by decide)).trans ((lift9 m ρ c (r := main_arg14) (by decide)).trans ((lift8 m ρ c (b := main_arg14) (by decide)).trans ((lift7 m ρ c (r := main_arg14) (by decide)).trans ((lift6 m ρ c (b := main_arg14) (by decide)).trans ((lift5 m ρ c (r := main_arg14) (by decide)).trans ((lift4 m ρ c (b := main_arg14) (by decide)).trans (lift3 m ρ c (r := main_arg14) (by decide)))))))))))))
      ((Fin5.shift_eq (W12 m ρ c)).trans (congr3 Fin5.shiftRow (stats_c m ρ c) ((lift12 m ρ c (b := main_arg14) (by decide)).trans ((lift11 m ρ c (r := main_arg14) (by decide)).trans ((lift10 m ρ c (b := main_arg14) (by decide)).trans ((lift9 m ρ c (r := main_arg14) (by decide)).trans ((lift8 m ρ c (b := main_arg14) (by decide)).trans ((lift7 m ρ c (r := main_arg14) (by decide)).trans ((lift6 m ρ c (b := main_arg14) (by decide)).trans ((lift5 m ρ c (r := main_arg14) (by decide)).trans ((lift4 m ρ c (b := main_arg14) (by decide)).trans (lift3 m ρ c (r := main_arg14) (by decide))))))))))) ((lift12 m ρ c (b := main_arg15) (by decide)).trans ((lift11 m ρ c (r := main_arg15) (by decide)).trans ((lift10 m ρ c (b := main_arg15) (by decide)).trans ((lift9 m ρ c (r := main_arg15) (by decide)).trans ((lift8 m ρ c (b := main_arg15) (by decide)).trans ((lift7 m ρ c (r := main_arg15) (by decide)).trans ((lift6 m ρ c (b := main_arg15) (by decide)).trans ((lift5 m ρ c (r := main_arg15) (by decide)).trans ((lift4 m ρ c (b := main_arg15) (by decide)).trans (lift3 m ρ c (r := main_arg15) (by decide)))))))))))))))

end Cert.KernelIdeal.Chain

end
-- ==== Proof.LibBatchNorm.lean ====
/-
  The batch-normalisation law on real numbers and on the extended reals (generic in the number of rows; imports only the
  exact-real reading of the float operations).

  For a column `h` of `N > 0` real numbers with mean `μ = (∑ h) / n` (`n = N`) the biased variance has two spellings,
  the mean of the squares less the squared mean and the mean of the squared deviations:
  `(∑ h²)/n − μ² = (∑ (h − μ)²)/n`, and it is nonnegative. With `r = (var + ε)^(-1/2)`, `ε > 0`, the normalised
  value has two spellings too: `x·(g·r) + (b − μ·(g·r)) = ((x − μ)·r)·g + b`. On the extended reals both hold once
  every number involved is real, which is what the statements below assume.
-/
import Idealize.ShloMosaic.PureOps.Ideal

noncomputable section

namespace Cert.LibBatchNorm

open Idealize.ShloMosaic
open scoped BigOperators

/-- The embedding of the reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- The mean of the squares less the squared mean is the mean of the squared deviations. -/
theorem var_identity {N : ℕ} (h : Fin N → ℝ) (n : ℝ) (hn : n = (N : ℝ)) (hN : 0 < N) :
    (∑ r, h r * h r) * (1 / n) - ((∑ r, h r) * (1 / n)) * ((∑ r, h r) * (1 / n))
      = (∑ r, (h r - (∑ r, h r) * (1 / n)) * (h r - (∑ r, h r) * (1 / n))) * (1 / n) := by
  have hn0 : n ≠ 0 := by rw [hn]; exact_mod_cast hN.ne'
  set S := ∑ r, h r with hS
  set μ := S * (1 / n) with hμ
  have e : ∑ r, (h r - μ) * (h r - μ) = (∑ r, h r * h r) - 2 * μ * S + (N : ℝ) * (μ * μ) := by
    have : ∀ r, (h r - μ) * (h r - μ) = h r * h r - 2 * μ * h r + μ * μ := fun r => by ring
    rw [Finset.sum_congr rfl fun r _ => this r, Finset.sum_add_distrib, Finset.sum_sub_distrib, ← Finset.mul_sum,
      Finset.sum_const, Finset.card_univ, Fintype.card_fin, nsmul_eq_mul]
  rw [e, ← hn, hμ]
  field_simp
  ring

/-- The mean of the squared deviations is nonnegative. -/
theorem var_nonneg {N : ℕ} (h : Fin N → ℝ) (μ n : ℝ) (hn : 0 < n) : 0 ≤ (∑ r, (h r - μ) * (h r - μ)) * (1 / n) :=
  mul_nonneg (Finset.sum_nonneg fun r _ => mul_self_nonneg _) (by positivity)

/-- The reciprocal square root of a positive real is a real. -/
theorem rsqrt_pos {y : ℝ} (hy : 0 < y) : Ideal.rsqrt (y : EReal) = (((Real.sqrt y)⁻¹ : ℝ) : EReal) := by
  rw [Ideal.rsqrt_coe, if_neg (not_lt.mpr hy.le), if_neg hy.ne']

/-- The word `0x47C35000` is the real number 100000. -/
theorem ofBits_n : Ideal.ofBits .f32 0x47C35000#32 = ((100000 : ℝ) : EReal) := by
  simp [Ideal.ofBits, Ideal.ieee, -EReal.coe_mul]; norm_num

/-- The word `0x3727C5AC` (the float nearest 1e-5) is a positive real number. -/
theorem ofBits_eps : ∃ e : ℝ, 0 < e ∧ Ideal.ofBits .f32 0x3727C5AC#32 = (e : EReal) := by
  refine ⟨(10995116 : ℝ) * 2 ^ (-40 : ℤ), by positivity, ?_⟩
  simp [Ideal.ofBits, Ideal.ieee, -EReal.coe_mul]

/-- The two spellings of the normalised, scaled and shifted value agree on a column of real numbers:
    scale and shift rows from the column's sum and sum of squares on the left; the deviation from the mean times the
    reciprocal root of the mean squared deviation on the right. `Z` is the zero the right side's sums start
    from, `N` the number of rows, `E` the positive guard. -/
theorem bn_law {M : ℕ} (hM : 0 < M) (h : Fin M → ℝ) (r0 : Fin M) (g b : ℝ) (N E Z : EReal)
    (hN : N = ((M : ℝ) : EReal)) (hE : ∃ e : ℝ, 0 < e ∧ E = (e : EReal)) (hZ : Z = 0) :
    max ((h r0 : EReal) * ((g : EReal) * Ideal.rsqrt ((Ideal.div (∑ r, (h r : EReal) * (h r : EReal)) N
            - Ideal.div (∑ r, (h r : EReal)) N * Ideal.div (∑ r, (h r : EReal)) N) + E))
          + ((b : EReal) - Ideal.div (∑ r, (h r : EReal)) N * ((g : EReal) * Ideal.rsqrt ((Ideal.div (∑ r, (h r : EReal) * (h r : EReal)) N
            - Ideal.div (∑ r, (h r : EReal)) N * Ideal.div (∑ r, (h r : EReal)) N) + E)))) 0
      = max (((h r0 : EReal) - Ideal.div (Z + ∑ r, (h r : EReal)) N)
            * Ideal.rsqrt (Ideal.div (Z + ∑ r, ((h r : EReal) - Ideal.div (Z + ∑ r, (h r : EReal)) N)
                * ((h r : EReal) - Ideal.div (Z + ∑ r, (h r : EReal)) N)) N + E)
            * (g : EReal) + (b : EReal)) Z := by
  obtain ⟨e, he, rfl⟩ := hE
  subst hZ hN
  have hM0 : ((M : ℝ)) ≠ 0 := by exact_mod_cast hM.ne'
  have hMpos : (0 : ℝ) < (M : ℝ) := by exact_mod_cast hM
  set S1 : ℝ := ∑ r, h r with hS1
  set μ : ℝ := S1 * (1 / (M : ℝ)) with hμ
  have e1 : (∑ r, (h r : EReal)) = (S1 : EReal) := (coe_sum _ _).symm
  have e2 : (∑ r, (h r : EReal) * (h r : EReal)) = ((∑ r, h r * h r : ℝ) : EReal) := by
    rw [coe_sum]; exact Finset.sum_congr rfl fun r _ => (EReal.coe_mul _ _).symm
  have emu : Ideal.div (S1 : EReal) ((M : ℝ) : EReal) = (μ : EReal) := by
    rw [Ideal.div_coe hM0, ← EReal.coe_mul]
  have e3 : (∑ r, ((h r : EReal) - (μ : EReal)) * ((h r : EReal) - (μ : EReal)))
      = ((∑ r, (h r - μ) * (h r - μ) : ℝ) : EReal) := by
    rw [coe_sum]; exact Finset.sum_congr rfl fun r _ => by rw [← EReal.coe_sub, ← EReal.coe_mul]
  simp only [zero_add]
  rw [e1, e2, emu, e3, Ideal.div_coe hM0, Ideal.div_coe hM0]
  simp only [← EReal.coe_mul, ← EReal.coe_sub, ← EReal.coe_add]
  rw [var_identity h (M : ℝ) rfl hM]
  have hv := var_nonneg h μ (M : ℝ) hMpos
  rw [rsqrt_pos (by linarith : 0 < (∑ r, (h r - μ) * (h r - μ)) * (1 / (M : ℝ)) + e)]
  simp only [← EReal.coe_mul, ← EReal.coe_sub, ← EReal.coe_add]
  congr 2
  ring

end Cert.LibBatchNorm

end
-- ==== Proof.LibRowOps.lean ====
/-
  Row-indexed scatter and gather of a matrix, read at an index.

  An accumulating scatter of the rows of an `[e, f]` matrix of updates into an `[n, f]` operand, at one row id per
  update row (the index array `[e, 1]`, each id read as a signed integer, an id outside `[0, n)` dropping its row), is,
  at entry `(r, c)`, the operand there plus the sum over the update rows `k` whose id is `r` of update `(k, c)`.
  A gather of whole rows of an `[n, f]` operand (or of entries of a flat `[n]` operand) at one row id per result row
  reads, at result row `k`, the operand's row `clampRow (id k)`: the id read as a signed integer and clamped into
  `[0, n - 1]`. All three are generic in the extents.
-/
import Idealize.ShloMosaic.PureOps.Ideal
import Idealize.ShloMosaic.Lib.ValueIdx
import Idealize.ShloMosaic.Lib.Pipeline.Value

noncomputable section

namespace Idealize.ShloMosaic.RowOps

open Idealize.ShloMosaic Idealize.ShloMosaic.ValueIdx
open scoped BigOperators

/-- A row id read as a signed integer and clamped into `[0, n - 1]`. -/
def clampRow (n : Nat) (hn : 0 < n) {w : Nat} (x : BitVec w) : Fin n := ⟨min x.toInt.toNat (n - 1), by omega⟩

/-! ## The row scatter -/

/-- The dimension numbers of a scatter of update rows `[e, f]` into an operand `[n, f]` at indices `[e, 1]`: the
    feature axis is the window axis, the operand's row axis inserted and indexed by the index vector's one component. -/
abbrev rowsDims (n e f : Nat) (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

section Rows
variable {n e f w : Nat} (wf : ScatterDims.WF ⟨2, ![n, f]⟩ ⟨2, ![e, 1]⟩ ⟨2, ![e, f]⟩ [1] [0] [0] 1)

/-- On the row axis update `j` starts at the id of its row; -/
theorem rows_start0 (j : (⟨2, ![e, f]⟩ : Shape).Idx) (idx : IVec ⟨2, ![e, 1]⟩ w) :
    (rowsDims n e f wf).start j idx 0 = (idx (ix2 (j 0) 0)).toInt := by
  unfold ScatterDims.start
  rw [dif_pos (show (0 : Fin 2) ∈ (rowsDims n e f wf).scatterDimsToOperandDims from List.mem_singleton.mpr rfl)]
  have hsi : (rowsDims n e f wf).siIdx j ⟨List.idxOf (0 : Fin 2) (rowsDims n e f wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the feature axis at `0`. -/
theorem rows_start1 (j : (⟨2, ![e, f]⟩ : Shape).Idx) (idx : IVec ⟨2, ![e, 1]⟩ w) :
    (rowsDims n e f wf).start j idx 1 = 0 := by
  unfold ScatterDims.start
  rw [dif_neg (show ¬ (1 : Fin 2) ∈ ([0] : List (Fin 2)) by decide)]

/-- The row axis is inserted: no window coordinate there; -/
theorem rows_window0 (j : (⟨2, ![e, f]⟩ : Shape).Idx) : (rowsDims n e f wf).window j 0 = 0 := by
  unfold ScatterDims.window
  rw [dif_neg (fun h => by
    have h2 := (List.mem_filter.mp h).2
    simp at h2)]

/-- the feature axis carries the update's column coordinate. -/
theorem rows_window1 (j : (⟨2, ![e, f]⟩ : Shape).Idx) : (rowsDims n e f wf).window j 1 = (j 1).val := by
  unfold ScatterDims.window
  rw [dif_pos (show (1 : Fin 2) ∈ (rowsDims n e f wf).sKept from
    List.mem_filter.mpr ⟨List.mem_finRange _, by simp⟩)]
  rfl

/-- Update `j` lands on position `i` exactly when its row's id is `i`'s row and its column is `i`'s column. -/
theorem rows_resultIdx (j : (⟨2, ![e, f]⟩ : Shape).Idx) (idx : IVec ⟨2, ![e, 1]⟩ w) (i : (⟨2, ![n, f]⟩ : Shape).Idx) :
    (rowsDims n e f wf).resultIdx? j idx = some i
      ↔ (idx (ix2 (j 0) 0)).toInt = ((i 0).val : ℤ) ∧ (j 1).val = (i 1).val := by
  unfold ScatterDims.resultIdx?
  split_ifs with h
  · rw [Option.some.injEq]
    constructor
    · intro hi
      have h0 := (h 0).1
      rw [← hi]
      constructor
      · show _ = (((rowsDims n e f wf).start j idx 0 + ((rowsDims n e f wf).window j 0 : ℕ)).toNat : ℤ)
        rw [Int.toNat_of_nonneg h0, rows_start0, rows_window0]; simp
      · show _ = ((rowsDims n e f wf).start j idx 1 + ((rowsDims n e f wf).window j 1 : ℕ)).toNat
        rw [rows_start1, rows_window1]; simp
    · rintro ⟨hi0, hi1⟩
      funext a
      refine Fin.ext ?_
      match a with
      | ⟨0, _⟩ =>
        show ((rowsDims n e f wf).start j idx 0 + ((rowsDims n e f wf).window j 0 : ℕ)).toNat = (i 0).val
        rw [rows_start0, rows_window0, hi0]; simp
      | ⟨1, _⟩ =>
        show ((rowsDims n e f wf).start j idx 1 + ((rowsDims n e f wf).window j 1 : ℕ)).toNat = (i 1).val
        rw [rows_start1, rows_window1, hi1]; simp
  · constructor
    · intro hi; exact absurd hi (by simp)
    · rintro ⟨hi0, hi1⟩
      exfalso; apply h
      intro a
      match a with
      | ⟨0, _⟩ =>
        show 0 ≤ (rowsDims n e f wf).start j idx 0 + ((rowsDims n e f wf).window j 0 : ℕ)
          ∧ (rowsDims n e f wf).start j idx 0 + ((rowsDims n e f wf).window j 0 : ℕ) < ((⟨2, ![n, f]⟩ : Shape).size 0 : ℕ)
        rw [rows_start0, rows_window0, hi0]
        have := (i 0).isLt
        constructor <;> omega
      | ⟨1, _⟩ =>
        show 0 ≤ (rowsDims n e f wf).start j idx 1 + ((rowsDims n e f wf).window j 1 : ℕ)
          ∧ (rowsDims n e f wf).start j idx 1 + ((rowsDims n e f wf).window j 1 : ℕ) < ((⟨2, ![n, f]⟩ : Shape).size 1 : ℕ)
        rw [rows_start1, rows_window1, hi1]
        have := (i 1).isLt
        constructor <;> omega

end Rows

/-- THE ROW SCATTER READ AT `(r, c)`: the operand there plus column `c` of the update rows whose id is `r`. -/
theorem rows_apply {n e f w : Nat} (wf : ScatterDims.WF ⟨2, ![n, f]⟩ ⟨2, ![e, 1]⟩ ⟨2, ![e, f]⟩ [1] [0] [0] 1)
    (x : (⟨2, ![n, f]⟩ : Shape).Idx → EReal) (idx : IVec ⟨2, ![e, 1]⟩ w)
    (upd : (⟨2, ![e, f]⟩ : Shape).Idx → EReal) (r : Fin n) (c : Fin f) :
    Ideal.hostScatterAdd (rowsDims n e f wf) x idx upd (ix2 r c)
      = x (ix2 r c) + ∑ k : Fin e, if (idx (ix2 k (0 : Fin 1))).toInt = (r.val : ℤ) then upd (ix2 k c) else 0 := by
  unfold Ideal.hostScatterAdd
  refine congrArg (x (ix2 r c) + ·) ?_
  rw [Finset.sum_filter, sum_idx2]
  refine Finset.sum_congr rfl fun k _ => ?_
  by_cases h : (idx (ix2 k (0 : Fin 1))).toInt = (r.val : ℤ)
  · rw [if_pos h, Finset.sum_eq_single c]
    · exact if_pos ((rows_resultIdx wf (ix2 k c) idx (ix2 r c)).mpr ⟨h, rfl⟩)
    · intro b _ hb
      exact if_neg fun hr => hb (Fin.ext ((rows_resultIdx wf (ix2 k b) idx (ix2 r c)).mp hr).2)
    · intro hc; exact absurd (Finset.mem_univ c) hc
  · rw [if_neg h]
    refine Finset.sum_eq_zero fun b _ => ?_
    exact if_neg fun hr => h ((rows_resultIdx wf (ix2 k b) idx (ix2 r c)).mp hr).1

/-! ## The gathers -/

/-- The dimension numbers of a gather of entries of a flat operand `[n]` at indices `[e, 1]` into `[e]`. -/
abbrev vecGatherDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- THE FLAT GATHER READ AT `k`: the operand at the clamped id of row `k`. -/
theorem vecGather_apply {α : Type} {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (k : Fin e) :
    Host.gather (vecGatherDims n e wf) x idx (ix1 k) = x (ix1 (clampRow n hn (idx (ix2 k (0 : Fin 1))))) := by
  unfold Host.gather
  congr 1
  funext a
  obtain rfl : a = 0 := Subsingleton.elim _ _
  refine Fin.ext ?_
  show (vecGatherDims n e wf).start (ix1 k) idx 0 + (vecGatherDims n e wf).batchCoord (ix1 k) 0
    + (vecGatherDims n e wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n e wf).startIndexMap from List.mem_singleton.mpr rfl)]
  have hsi : (vecGatherDims n e wf).siIdx (ix1 k) ⟨List.idxOf (0 : Fin 1) (vecGatherDims n e wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- The dimension numbers of a gather of whole rows of an operand `[n, f]` at indices `[e, 1]` into `[e, f]`. -/
abbrev rowGatherDims (n e f : Nat) (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- THE ROW GATHER READ AT `(k, c)`: column `c` of the operand's row at the clamped id of row `k`. -/
theorem rowGather_apply {α : Type} {n e f w : Nat} (hn : 0 < n)
    (wf : GatherDims.WF ⟨2, ![n, f]⟩ ⟨2, ![e, 1]⟩ ⟨2, ![e, f]⟩ [1] [0] [] [0] [] 1 ![1, f])
    (x : (⟨2, ![n, f]⟩ : Shape).Idx → α) (idx : IVec ⟨2, ![e, 1]⟩ w) (k : Fin e) (c : Fin f) :
    Host.gather (rowGatherDims n e f wf) x idx (ix2 k c) = x (ix2 (clampRow n hn (idx (ix2 k (0 : Fin 1)))) c) := by
  unfold Host.gather
  congr 1
  funext a
  refine Fin.ext ?_
  match a with
  | ⟨0, _⟩ =>
    show (rowGatherDims n e f wf).start (ix2 k c) idx 0 + (rowGatherDims n e f wf).batchCoord (ix2 k c) 0
      + (rowGatherDims n e f wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e f wf).startIndexMap from List.mem_singleton.mpr rfl)]
    have hsi : (rowGatherDims n e f wf).siIdx (ix2 k c) ⟨List.idxOf (0 : Fin 2) (rowGatherDims n e f wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGatherDims n e f wf).start (ix2 k c) idx 1 + (rowGatherDims n e f wf).batchCoord (ix2 k c) 1
      + (rowGatherDims n e f wf).offCoord (ix2 k c) 1 = c.val
    rw [GatherDims.batchCoord_eq_zero _ _ _ List.not_mem_nil]
    have hs : (rowGatherDims n e f wf).start (ix2 k c) idx 1 = 0 := by
      unfold GatherDims.start
      rw [dif_neg (show ¬ (1 : Fin 2) ∈ ([0] : List (Fin 2)) by decide)]
    have ho : (rowGatherDims n e f wf).offCoord (ix2 k c) 1 = c.val := by
      unfold GatherDims.offCoord
      rw [dif_pos (show (1 : Fin 2) ∈ (rowGatherDims n e f wf).sKept from
        (GatherDims.mem_sKept _ _).mpr
          ⟨(show ¬ (1 : Fin 2) ∈ ([0] : List (Fin 2)) by decide), List.not_mem_nil⟩)]
      rfl
    rw [hs, ho, Nat.zero_add]

end Idealize.ShloMosaic.RowOps

end
-- ==== Proof.RefRead.lean ====
/-
  The reference's layers read at one entry, at the exact values: the linear part as two sums over the shared axis
  plus the bias, the column mean and variance as sums over the rows, the normalisation and the leaky rectifier
  pointwise. The neighbourhood sum stays one opaque array.
-/
import proofs.«142385_j6322191859752_1_alg».proof.Proof.RefLayers
import proofs.«142385_j6322191859752_1_alg».proof.Proof.LibDense
import proofs.«142385_j6322191859752_1_alg».proof.Proof.LibBatchNorm
import proofs.«142385_j6322191859752_1_alg».proof.Proof.LibRowOps
import proofs.«142385_j6322191859752_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefRead

open Cert.ReferenceIdeal Cert.ReferenceIdeal.Facts₀ Cert.ReferenceIdeal.RefRun Idealize.ShloMosaic Idealize.ShloMosaic.ValueIdx

/-! ## Small readings -/

/-- A rank-zero value broadcast to any shape reads its one element everywhere. -/
theorem bcast0_apply {t : Shape} {α : Type} (h : S_.BroadcastsInDim t (![] : Fin 0 → Fin t.rank)) (x : S_.Idx → α) (j : t.Idx) :
    broadcastInDim t ![] h x j = x ix0 :=
  broadcastInDim_apply ![] h x j ix0 (fun a => a.elim0)

/-- A vector laid along a one-row matrix reads the vector at the column. -/
theorem bcastRow_apply {N : Nat} {α : Type} (hd : (⟨1, ![N]⟩ : Shape).BroadcastsInDim ⟨2, ![1, N]⟩ ![1])
    (b : (⟨1, ![N]⟩ : Shape).Idx → α) (q : Fin N) :
    broadcastInDim ⟨2, ![1, N]⟩ ![1] hd b (ix2 (0 : Fin 1) q) = b (ix1 q) := by
  refine broadcastInDim_apply ![1] hd b (ix2 (0 : Fin 1) q) (ix1 q) ?_
  intro a
  match a with
  | ⟨0, _⟩ =>
    show q.val = if N = 1 then 0 else q.val
    split
    · have := q.isLt; omega
    · rfl

/-- The rank-zero zero word is the exact zero's word read. -/
theorem const_apply (w : BitVec 32) (j : S_.Idx) : constant (F := Ideal) S_ .f32 w j = Ideal.ofBits .f32 w := rfl

/-! ## The three words -/

/-- The word `0x47435000` is the real number 50000. -/
theorem ofBits_rows : Ideal.ofBits .f32 0x47435000#32 = ((50000 : ℝ) : EReal) := by
  simp [Ideal.ofBits, Ideal.ieee, -EReal.coe_mul]; norm_num

/-- The divisor the variance computes — the word of 50000 less the conversion of the integer zero — is the word of 50000. -/
theorem normaliser :
    FloatOps.subf (F := Ideal) (φ := .f32) (Ideal.ofBits .f32 0x47435000#32) (FloatOps.sitofp (F := Ideal) .f32 (0#32 : BitVec 32))
      = Ideal.ofBits .f32 0x47435000#32 := by
  show Ideal.ofBits .f32 0x47435000#32 - (((0#32 : BitVec 32).toInt : ℝ) : EReal) = _
  simp

/-- That divisor is positive: the variance's guard holds. -/
theorem guard :
    FloatOps.cmpf (F := Ideal) (φ := .f32) .ogt
        (FloatOps.subf (F := Ideal) (φ := .f32) (Ideal.ofBits .f32 0x47435000#32) (FloatOps.sitofp (F := Ideal) .f32 (0#32 : BitVec 32)))
        (Ideal.ofBits .f32 0x00000000#32) = 1#1 := by
  rw [normaliser]
  show Ideal.cmp .ogt (Ideal.ofBits .f32 0x47435000#32) (Ideal.ofBits .f32 0x00000000#32) = 1#1
  rw [ofBits_rows, Ideal.ofBits_zero_f32]
  have h : (0 : EReal) < ((50000 : ℝ) : EReal) := by exact_mod_cast (by norm_num : (0 : ℝ) < 50000)
  simp [Ideal.cmp, h]

/-- Pointwise readings of the host's quotient and reciprocal root. -/
theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl

/-! ## Width 512 (the first two layers) -/

/-- The host's sum down the 50000 rows of a `[50000, 512]` array, read at column `n`: the initial value plus the sum over the rows. -/
theorem colsum512_apply (h : FVec Ideal S50000x512 .f32) (init : FVec Ideal S_ .f32) (n : Fin 512) :
    Host.reduceAdd (F := Ideal) h init reducesTo_S50000x512_S512_d0 h_S_ (ix1 n) = init ix0 + ∑ r : Fin 50000, h (ix2 r n) := by
  have hr : S50000x512.Reduces [0] S512 := by decide
  show Ideal.hostReduceAdd reducesTo_S50000x512_S512_d0 h (init (Shape.Idx.first h_S_)) (ix1 n) = _
  rw [Ideal.hostReduceAdd_single _ hr, eq_ix0 (Shape.Idx.first h_S_)]
  refine congrArg (init ix0 + ·) (Finset.sum_congr rfl fun k _ => congrArg h (funext fun a => ?_))
  match a with
  | ⟨0, _⟩ => exact Fin.ext rfl
  | ⟨1, _⟩ => exact Fin.ext rfl

/-- The linear part at entry `(r, n)`: the two contractions over the 512 shared coordinates, plus the bias at the column. -/
theorem pre512_apply (x agg : FVec Ideal S50000x512 .f32) (w0 w1 : FVec Ideal S512x512 .f32) (b : FVec Ideal S512 .f32)
    (r : Fin 50000) (n : Fin 512) :
    RefSpec.pre512 (F := Ideal) x agg w0 w1 b (ix2 r n)
      = (∑ k : Fin 512, x (ix2 r k) * w0 (ix2 k n) + ∑ k : Fin 512, agg (ix2 r k) * w1 (ix2 k n)) + b (ix1 n) := by
  have e0 := (Ideal.dotGeneral_apply (DotDims.plain 50000 512 512) none .single x w0 (ix2 r n)).trans
    (Cert.LibDense.plain_sum 50000 512 512 x w0 (ix2 r n))
  have e1 := (Ideal.dotGeneral_apply (DotDims.plain 50000 512 512) none .single agg w1 (ix2 r n)).trans
    (Cert.LibDense.plain_sum 50000 512 512 agg w1 (ix2 r n))
  have e2 := Cert.LibDense.bias_rows_host_ix (A := 50000) b bcast_S512_S1x512_1 bcast_S1x512_S50000x512_0_1 r n
  exact congrArg₂ (· + ·) (congrArg₂ (· + ·) e0 e1) e2

/-- The leaky rectifier is pointwise. -/
theorem leaky512_apply (z : FVec Ideal S50000x512 .f32) (j : S50000x512.Idx) :
    RefSpec.leaky512 (F := Ideal) z j = Cert.Spec.leaky (z j) := rfl

/-- The column mean at column `n`: the sum down the rows from the zero word, divided by the word of 50000. -/
theorem mean512_apply (h : FVec Ideal S50000x512 .f32) (n : Fin 512) :
    RefSpec.mean512 (F := Ideal) h (ix1 n)
      = Ideal.div (Ideal.ofBits .f32 0x00000000#32 + ∑ r : Fin 50000, h (ix2 r n)) (Ideal.ofBits .f32 0x47435000#32) := by
  show Ideal.div (Host.reduceAdd (F := Ideal) h (constant S_ .f32 0x00000000#32) reducesTo_S50000x512_S512_d0 h_S_ (ix1 n))
    (broadcastInDim S512 ![] bcast_S_S512 (constant (F := Ideal) S_ .f32 0x47435000#32) (ix1 n)) = _
  rw [colsum512_apply, bcast0_apply]
  rfl

/-- The deviation from the column mean, as the variance computes it, at entry `(r, n)`. -/
theorem dev512_apply (h : FVec Ideal S50000x512 .f32) (r : Fin 50000) (n : Fin 512) :
    (subf h (broadcastInDim S50000x512 ![0, 1] bcast_S1x512_S50000x512_0_1
        (Host.divf (broadcastInDim S1x512 ![1] bcast_S512_S1x512_1
            (Host.reduceAdd (F := Ideal) h (constant S_ .f32 0x00000000#32) reducesTo_S50000x512_S512_d0 h_S_))
          (broadcastInDim S1x512 ![] bcast_S_S1x512 (constant (F := Ideal) S_ .f32 0x47435000#32)))) : FVec Ideal S50000x512 .f32) (ix2 r n)
      = h (ix2 r n) - Ideal.div (Ideal.ofBits .f32 0x00000000#32 + ∑ r' : Fin 50000, h (ix2 r' n)) (Ideal.ofBits .f32 0x47435000#32) := by
  rw [subf_apply, broadcastInDim_oneRow_apply, hostDivf_apply, bcastRow_apply, bcast0_apply, colsum512_apply]
  rfl

/-- The column variance at column `n`: the guard holds, so it is the sum down the rows of the squared deviations from the
    column mean, from the zero word, divided by the word of 50000. -/
theorem var512_apply (h : FVec Ideal S50000x512 .f32) (n : Fin 512) :
    RefSpec.var512 (F := Ideal) h (ix1 n)
      = Ideal.div (Ideal.ofBits .f32 0x00000000#32 + ∑ r : Fin 50000,
            (h (ix2 r n) - Ideal.div (Ideal.ofBits .f32 0x00000000#32 + ∑ r' : Fin 50000, h (ix2 r' n)) (Ideal.ofBits .f32 0x47435000#32)) * (h (ix2 r n) - Ideal.div (Ideal.ofBits .f32 0x00000000#32 + ∑ r' : Fin 50000, h (ix2 r' n)) (Ideal.ofBits .f32 0x47435000#32)))
          (Ideal.ofBits .f32 0x47435000#32) := by
  unfold RefSpec.var512
  beta_reduce
  rw [select_apply]
  have hg : (broadcastInDim S512 ![] bcast_S_S512 (cmpf .ogt (subf (constant (F := Ideal) S_ .f32 0x47435000#32)
      (sitofp (F := Ideal) .f32 (constantI S_ 32 0#32))) (constant (F := Ideal) S_ .f32 0x00000000#32)) : IVec S512 1) (ix1 n) = 1#1 :=
    (bcast0_apply _ _ _).trans guard
  have hq : (broadcastInDim S512 ![] bcast_S_S512 (subf (constant (F := Ideal) S_ .f32 0x47435000#32)
      (sitofp (F := Ideal) .f32 (constantI S_ 32 0#32))) : FVec Ideal S512 .f32) (ix1 n) = Ideal.ofBits .f32 0x47435000#32 :=
    (bcast0_apply _ _ _).trans normaliser
  rw [hg, select_one, hostDivf_apply, hq, colsum512_apply]
  refine congrArg (fun t => Ideal.div t (Ideal.ofBits .f32 0x47435000#32)) ?_
  refine congrArg₂ (· + ·) rfl (Finset.sum_congr rfl fun r _ => ?_)
  rw [mulf_apply, dev512_apply]

/-- The normalisation at entry `(r, n)`: the deviation from the mean times the reciprocal root of the variance plus the
    guard word, times the scale, plus the shift — the row vectors read at the column. -/
theorem bn512_apply (h : FVec Ideal S50000x512 .f32) (mean var gamma beta : FVec Ideal S512 .f32) (r : Fin 50000) (n : Fin 512) :
    RefSpec.bn512 (F := Ideal) h mean var gamma beta (ix2 r n)
      = ((h (ix2 r n) - mean (ix1 n)) * Ideal.rsqrt (var (ix1 n) + Ideal.ofBits .f32 0x3727C5AC#32)) * gamma (ix1 n) + beta (ix1 n) := by
  have em := Cert.LibDense.bias_rows_host_ix (A := 50000) mean bcast_S512_S1x512_1 bcast_S1x512_S50000x512_0_1 r n
  have eg := Cert.LibDense.bias_rows_host_ix (A := 50000) gamma bcast_S512_S1x512_1 bcast_S1x512_S50000x512_0_1 r n
  have eb := Cert.LibDense.bias_rows_host_ix (A := 50000) beta bcast_S512_S1x512_1 bcast_S1x512_S50000x512_0_1 r n
  have er := Cert.LibDense.bias_rows_host_ix (A := 50000)
    (Host.rsqrt (addf var (broadcastInDim S512 ![] bcast_S_S512 (constant (F := Ideal) S_ .f32 0x3727C5AC#32))) : FVec Ideal S512 .f32)
    bcast_S512_S1x512_1 bcast_S1x512_S50000x512_0_1 r n
  have ev : (Host.rsqrt (addf var (broadcastInDim S512 ![] bcast_S_S512 (constant (F := Ideal) S_ .f32 0x3727C5AC#32))) : FVec Ideal S512 .f32) (ix1 n)
      = Ideal.rsqrt (var (ix1 n) + Ideal.ofBits .f32 0x3727C5AC#32) := by
    rw [hostRsqrt_apply, addf_apply, bcast0_apply]; rfl
  exact congrArg₂ (· + ·) (congrArg₂ (· * ·) (congrArg₂ (· * ·) (congrArg (h (ix2 r n) - ·) em) (er.trans ev)) eg) eb

/-- THE LAYER AT ONE ENTRY. With `H r n` the linear part — the two contractions over the 512 shared coordinates, the
    second over the neighbourhood sum, plus the bias —, `μ n` its column mean and `v n` its column variance (sums down the
    50000 rows from the zero word, divided by the word of 50000), the output at `(r, n)` is the leaky rectifier of
    `((H r n − μ n) · rsqrt (v n + ε)) · γ n + β n`. -/
theorem layer512_apply (x : FVec Ideal S50000x512 .f32) (row col : IVec S150000 32) (norm : FVec Ideal S150000 .f32)
    (w0 w1 : FVec Ideal S512x512 .f32) (b gamma beta : FVec Ideal S512 .f32) (r : Fin 50000) (n : Fin 512) :
    RefSpec.layer512 (F := Ideal) x row col norm w0 w1 b gamma beta (ix2 r n)
      = Cert.Spec.leaky (F := Ideal)
          (((((∑ k : Fin 512, x (ix2 r k) * w0 (ix2 k n) + ∑ k : Fin 512, RefSpec.agg512 (F := Ideal) x row col norm (ix2 r k) * w1 (ix2 k n)) + b (ix1 n)) - Ideal.div (Ideal.ofBits .f32 0x00000000#32 + ∑ r' : Fin 50000, ((∑ k : Fin 512, x (ix2 r' k) * w0 (ix2 k n) + ∑ k : Fin 512, RefSpec.agg512 (F := Ideal) x row col norm (ix2 r' k) * w1 (ix2 k n)) + b (ix1 n))) (Ideal.ofBits .f32 0x47435000#32))
              * Ideal.rsqrt (Ideal.div (Ideal.ofBits .f32 0x00000000#32 + ∑ r'' : Fin 50000,
                    (((∑ k : Fin 512, x (ix2 r'' k) * w0 (ix2 k n) + ∑ k : Fin 512, RefSpec.agg512 (F := Ideal) x row col norm (ix2 r'' k) * w1 (ix2 k n)) + b (ix1 n)) - Ideal.div (Ideal.ofBits .f32 0x00000000#32 + ∑ r' : Fin 50000, ((∑ k : Fin 512, x (ix2 r' k) * w0 (ix2 k n) + ∑ k : Fin 512, RefSpec.agg512 (F := Ideal) x row col norm (ix2 r' k) * w1 (ix2 k n)) + b (ix1 n))) (Ideal.ofBits .f32 0x47435000#32)) * (((∑ k : Fin 512, x (ix2 r'' k) * w0 (ix2 k n) + ∑ k : Fin 512, RefSpec.agg512 (F := Ideal) x row col norm (ix2 r'' k) * w1 (ix2 k n)) + b (ix1 n)) - Ideal.div (Ideal.ofBits .f32 0x00000000#32 + ∑ r' : Fin 50000, ((∑ k : Fin 512, x (ix2 r' k) * w0 (ix2 k n) + ∑ k : Fin 512, RefSpec.agg512 (F := Ideal) x row col norm (ix2 r' k) * w1 (ix2 k n)) + b (ix1 n))) (Ideal.ofBits .f32 0x47435000#32)))
                  (Ideal.ofBits .f32 0x47435000#32) + Ideal.ofBits .f32 0x3727C5AC#32))
            * gamma (ix1 n) + beta (ix1 n)) := by
  unfold RefSpec.layer512
  rw [leaky512_apply, bn512_apply, mean512_apply, var512_apply]
  simp only [pre512_apply]

/-! ## Width 256 (the last layer, no bias) -/

/-- The host's sum down the 50000 rows of a `[50000, 256]` array, read at column `n`: the initial value plus the sum over the rows. -/
theorem colsum256_apply (h : FVec Ideal S50000x256 .f32) (init : FVec Ideal S_ .f32) (n : Fin 256) :
    Host.reduceAdd (F := Ideal) h init reducesTo_S50000x256_S256_d0 h_S_ (ix1 n) = init ix0 + ∑ r : Fin 50000, h (ix2 r n) := by
  have hr : S50000x256.Reduces [0] S256 := by decide
  show Ideal.hostReduceAdd reducesTo_S50000x256_S256_d0 h (init (Shape.Idx.first h_S_)) (ix1 n) = _
  rw [Ideal.hostReduceAdd_single _ hr, eq_ix0 (Shape.Idx.first h_S_)]
  refine congrArg (init ix0 + ·) (Finset.sum_congr rfl fun k _ => congrArg h (funext fun a => ?_))
  match a with
  | ⟨0, _⟩ => exact Fin.ext rfl
  | ⟨1, _⟩ => exact Fin.ext rfl

/-- The linear part at entry `(r, n)`: the two contractions over the 512 shared coordinates. -/
theorem pre256_apply (x agg : FVec Ideal S50000x512 .f32) (w0 w1 : FVec Ideal S512x256 .f32)
    (r : Fin 50000) (n : Fin 256) :
    RefSpec.pre256 (F := Ideal) x agg w0 w1 (ix2 r n)
      = ∑ k : Fin 512, x (ix2 r k) * w0 (ix2 k n) + ∑ k : Fin 512, agg (ix2 r k) * w1 (ix2 k n) := by
  have e0 := (Ideal.dotGeneral_apply (DotDims.plain 50000 512 256) none .single x w0 (ix2 r n)).trans
    (Cert.LibDense.plain_sum 50000 512 256 x w0 (ix2 r n))
  have e1 := (Ideal.dotGeneral_apply (DotDims.plain 50000 512 256) none .single agg w1 (ix2 r n)).trans
    (Cert.LibDense.plain_sum 50000 512 256 agg w1 (ix2 r n))
  exact congrArg₂ (· + ·) e0 e1

/-- The leaky rectifier is pointwise. -/
theorem leaky256_apply (z : FVec Ideal S50000x256 .f32) (j : S50000x256.Idx) :
    RefSpec.leaky256 (F := Ideal) z j = Cert.Spec.leaky (z j) := rfl

/-- The column mean at column `n`: the sum down the rows from the zero word, divided by the word of 50000. -/
theorem mean256_apply (h : FVec Ideal S50000x256 .f32) (n : Fin 256) :
    RefSpec.mean256 (F := Ideal) h (ix1 n)
      = Ideal.div (Ideal.ofBits .f32 0x00000000#32 + ∑ r : Fin 50000, h (ix2 r n)) (Ideal.ofBits .f32 0x47435000#32) := by
  show Ideal.div (Host.reduceAdd (F := Ideal) h (constant S_ .f32 0x00000000#32) reducesTo_S50000x256_S256_d0 h_S_ (ix1 n))
    (broadcastInDim S256 ![] bcast_S_S256 (constant (F := Ideal) S_ .f32 0x47435000#32) (ix1 n)) = _
  rw [colsum256_apply, bcast0_apply]
  rfl

/-- The deviation from the column mean, as the variance computes it, at entry `(r, n)`. -/
theorem dev256_apply (h : FVec Ideal S50000x256 .f32) (r : Fin 50000) (n : Fin 256) :
    (subf h (broadcastInDim S50000x256 ![0, 1] bcast_S1x256_S50000x256_0_1
        (Host.divf (broadcastInDim S1x256 ![1] bcast_S256_S1x256_1
            (Host.reduceAdd (F := Ideal) h (constant S_ .f32 0x00000000#32) reducesTo_S50000x256_S256_d0 h_S_))
          (broadcastInDim S1x256 ![] bcast_S_S1x256 (constant (F := Ideal) S_ .f32 0x47435000#32)))) : FVec Ideal S50000x256 .f32) (ix2 r n)
      = h (ix2 r n) - Ideal.div (Ideal.ofBits .f32 0x00000000#32 + ∑ r' : Fin 50000, h (ix2 r' n)) (Ideal.ofBits .f32 0x47435000#32) := by
  rw [subf_apply, broadcastInDim_oneRow_apply, hostDivf_apply, bcastRow_apply, bcast0_apply, colsum256_apply]
  rfl

/-- The column variance at column `n`: the guard holds, so it is the sum down the rows of the squared deviations from the
    column mean, from the zero word, divided by the word of 50000. -/
theorem var256_apply (h : FVec Ideal S50000x256 .f32) (n : Fin 256) :
    RefSpec.var256 (F := Ideal) h (ix1 n)
      = Ideal.div (Ideal.ofBits .f32 0x00000000#32 + ∑ r : Fin 50000,
            (h (ix2 r n) - Ideal.div (Ideal.ofBits .f32 0x00000000#32 + ∑ r' : Fin 50000, h (ix2 r' n)) (Ideal.ofBits .f32 0x47435000#32)) * (h (ix2 r n) - Ideal.div (Ideal.ofBits .f32 0x00000000#32 + ∑ r' : Fin 50000, h (ix2 r' n)) (Ideal.ofBits .f32 0x47435000#32)))
          (Ideal.ofBits .f32 0x47435000#32) := by
  unfold RefSpec.var256
  beta_reduce
  rw [select_apply]
  have hg : (broadcastInDim S256 ![] bcast_S_S256 (cmpf .ogt (subf (constant (F := Ideal) S_ .f32 0x47435000#32)
      (sitofp (F := Ideal) .f32 (constantI S_ 32 0#32))) (constant (F := Ideal) S_ .f32 0x00000000#32)) : IVec S256 1) (ix1 n) = 1#1 :=
    (bcast0_apply _ _ _).trans guard
  have hq : (broadcastInDim S256 ![] bcast_S_S256 (subf (constant (F := Ideal) S_ .f32 0x47435000#32)
      (sitofp (F := Ideal) .f32 (constantI S_ 32 0#32))) : FVec Ideal S256 .f32) (ix1 n) = Ideal.ofBits .f32 0x47435000#32 :=
    (bcast0_apply _ _ _).trans normaliser
  rw [hg, select_one, hostDivf_apply, hq, colsum256_apply]
  refine congrArg (fun t => Ideal.div t (Ideal.ofBits .f32 0x47435000#32)) ?_
  refine congrArg₂ (· + ·) rfl (Finset.sum_congr rfl fun r _ => ?_)
  rw [mulf_apply, dev256_apply]

/-- The normalisation at entry `(r, n)`: the deviation from the mean times the reciprocal root of the variance plus the
    guard word, times the scale, plus the shift — the row vectors read at the column. -/
theorem bn256_apply (h : FVec Ideal S50000x256 .f32) (mean var gamma beta : FVec Ideal S256 .f32) (r : Fin 50000) (n : Fin 256) :
    RefSpec.bn256 (F := Ideal) h mean var gamma beta (ix2 r n)
      = ((h (ix2 r n) - mean (ix1 n)) * Ideal.rsqrt (var (ix1 n) + Ideal.ofBits .f32 0x3727C5AC#32)) * gamma (ix1 n) + beta (ix1 n) := by
  have em := Cert.LibDense.bias_rows_host_ix (A := 50000) mean bcast_S256_S1x256_1 bcast_S1x256_S50000x256_0_1 r n
  have eg := Cert.LibDense.bias_rows_host_ix (A := 50000) gamma bcast_S256_S1x256_1 bcast_S1x256_S50000x256_0_1 r n
  have eb := Cert.LibDense.bias_rows_host_ix (A := 50000) beta bcast_S256_S1x256_1 bcast_S1x256_S50000x256_0_1 r n
  have er := Cert.LibDense.bias_rows_host_ix (A := 50000)
    (Host.rsqrt (addf var (broadcastInDim S256 ![] bcast_S_S256 (constant (F := Ideal) S_ .f32 0x3727C5AC#32))) : FVec Ideal S256 .f32)
    bcast_S256_S1x256_1 bcast_S1x256_S50000x256_0_1 r n
  have ev : (Host.rsqrt (addf var (broadcastInDim S256 ![] bcast_S_S256 (constant (F := Ideal) S_ .f32 0x3727C5AC#32))) : FVec Ideal S256 .f32) (ix1 n)
      = Ideal.rsqrt (var (ix1 n) + Ideal.ofBits .f32 0x3727C5AC#32) := by
    rw [hostRsqrt_apply, addf_apply, bcast0_apply]; rfl
  exact congrArg₂ (· + ·) (congrArg₂ (· * ·) (congrArg₂ (· * ·) (congrArg (h (ix2 r n) - ·) em) (er.trans ev)) eg) eb

/-- THE LAYER AT ONE ENTRY. With `H r n` the linear part — the two contractions over the 512 shared coordinates, the
    second over the neighbourhood sum —, `μ n` its column mean and `v n` its column variance (sums down the
    50000 rows from the zero word, divided by the word of 50000), the output at `(r, n)` is the leaky rectifier of
    `((H r n − μ n) · rsqrt (v n + ε)) · γ n + β n`. -/
theorem layer256_apply (x : FVec Ideal S50000x512 .f32) (row col : IVec S150000 32) (norm : FVec Ideal S150000 .f32)
    (w0 w1 : FVec Ideal S512x256 .f32) (gamma beta : FVec Ideal S256 .f32) (r : Fin 50000) (n : Fin 256) :
    RefSpec.layer256 (F := Ideal) x row col norm w0 w1 gamma beta (ix2 r n)
      = Cert.Spec.leaky (F := Ideal)
          ((((∑ k : Fin 512, x (ix2 r k) * w0 (ix2 k n) + ∑ k : Fin 512, RefSpec.agg512 (F := Ideal) x row col norm (ix2 r k) * w1 (ix2 k n)) - Ideal.div (Ideal.ofBits .f32 0x00000000#32 + ∑ r' : Fin 50000, (∑ k : Fin 512, x (ix2 r' k) * w0 (ix2 k n) + ∑ k : Fin 512, RefSpec.agg512 (F := Ideal) x row col norm (ix2 r' k) * w1 (ix2 k n))) (Ideal.ofBits .f32 0x47435000#32))
              * Ideal.rsqrt (Ideal.div (Ideal.ofBits .f32 0x00000000#32 + ∑ r'' : Fin 50000,
                    ((∑ k : Fin 512, x (ix2 r'' k) * w0 (ix2 k n) + ∑ k : Fin 512, RefSpec.agg512 (F := Ideal) x row col norm (ix2 r'' k) * w1 (ix2 k n)) - Ideal.div (Ideal.ofBits .f32 0x00000000#32 + ∑ r' : Fin 50000, (∑ k : Fin 512, x (ix2 r' k) * w0 (ix2 k n) + ∑ k : Fin 512, RefSpec.agg512 (F := Ideal) x row col norm (ix2 r' k) * w1 (ix2 k n))) (Ideal.ofBits .f32 0x47435000#32)) * ((∑ k : Fin 512, x (ix2 r'' k) * w0 (ix2 k n) + ∑ k : Fin 512, RefSpec.agg512 (F := Ideal) x row col norm (ix2 r'' k) * w1 (ix2 k n)) - Ideal.div (Ideal.ofBits .f32 0x00000000#32 + ∑ r' : Fin 50000, (∑ k : Fin 512, x (ix2 r' k) * w0 (ix2 k n) + ∑ k : Fin 512, RefSpec.agg512 (F := Ideal) x row col norm (ix2 r' k) * w1 (ix2 k n))) (Ideal.ofBits .f32 0x47435000#32)))
                  (Ideal.ofBits .f32 0x47435000#32) + Ideal.ofBits .f32 0x3727C5AC#32))
            * gamma (ix1 n) + beta (ix1 n)) := by
  unfold RefSpec.layer256
  rw [leaky256_apply, bn256_apply, mean256_apply, var256_apply]
  simp only [pre256_apply]

end Cert.ReferenceIdeal.RefRead

end
-- ==== Proof.RealVec.lean ====
/-
  Extended reals that are real numbers.

  The batch-normalisation law joins the two programs only where every number involved is real (it distributes
  products over sums and cancels). `IsReal x` says the extended real `x` is the image of a real number; sums,
  differences and products of such numbers are such numbers, and so is the reciprocal root of a positive one.
  `AllReal v` says it of every entry of an array.
-/
import Idealize.ShloMosaic.PureOps.Ideal

noncomputable section

namespace Cert.RealVec

open Idealize.ShloMosaic
open scoped BigOperators

/-- The extended real is a real number. -/
def IsReal (x : EReal) : Prop := ∃ y : ℝ, x = (y : EReal)

theorem IsReal.coe (y : ℝ) : IsReal (y : EReal) := ⟨y, rfl⟩
theorem IsReal.zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

theorem IsReal.ite {p : Prop} [Decidable p] {a b : EReal} (ha : IsReal a) (hb : IsReal b) : IsReal (if p then a else b) := by
  split <;> assumption

/-- Every entry of the array is a real number. -/
def AllReal {ι : Type*} (v : ι → EReal) : Prop := ∀ i, IsReal (v i)

/-- A real-valued array is the image of an array of reals. -/
theorem AllReal.choose {ι : Type*} {v : ι → EReal} (h : AllReal v) : ∃ f : ι → ℝ, ∀ i, v i = (f i : EReal) :=
  ⟨fun i => (h i).choose, fun i => (h i).choose_spec⟩

end Cert.RealVec

end
-- ==== Proof.LibSegmentSum.lean ====
/-
  An accumulating scatter of a flat list of updates into a flat array, read at an index — the form a
  segment sum `out[seg[k]] += data[k]` takes — in its two spellings: updates and result as flat arrays
  (`[e]` into `[n]`), and as one-column matrices (`[e, 1]` into `[n, 1]`, the column a window axis).
  In both the result at position `i` is the operand there plus the sum, over the update rows `k` whose
  segment id (the index array's entry `[k, 0]`, read as a signed integer) equals `i`, of update `k`;
  an id outside `[0, n)` names no position and its update is dropped. So the two spellings are one
  function, up to the reshaping of a column into a flat array.
-/
import Idealize.ShloMosaic.PureOps.Ideal
import Idealize.ShloMosaic.Lib.ValueIdx
import Idealize.ShloMosaic.Lib.Pipeline.Value

noncomputable section

namespace Idealize.ShloMosaic.SegmentSum

open Idealize.ShloMosaic Idealize.ShloMosaic.ValueIdx
open scoped BigOperators

/-! ## Flat arrays and one-column matrices are indexed by their rows -/

/-- A flat array's indices are its positions. -/
def rowEquiv1 {n : Nat} : (⟨1, ![n]⟩ : Shape).Idx ≃ Fin n where
  toFun j := j 0
  invFun := ix1
  left_inv j := (eq_ix1 j).symm
  right_inv _ := rfl

/-- A one-column matrix's indices are its rows. -/
def rowEquiv2 {n : Nat} : (⟨2, ![n, 1]⟩ : Shape).Idx ≃ Fin n where
  toFun j := j 0
  invFun a := ix2 a 0
  left_inv j := by
    funext a
    match a with
    | ⟨0, _⟩ => rfl
    | ⟨1, _⟩ => exact Subsingleton.elim (α := Fin 1) _ _
  right_inv _ := rfl

/-- On the extended reals the host's accumulating scatter is the exact sum, whatever the schedule. -/
theorem scatterAdd_ideal {φ : FTy} {s si u : Shape} {w : Nat} (d : ScatterDims s si u) (x : FVec Ideal s φ)
    (idx : IVec si w) (upd : FVec Ideal u φ) :
    Host.scatterAdd (F := Ideal) d x idx upd = Ideal.hostScatterAdd d x idx upd := rfl

/-! ## The layout operations around a segment sum, read at an index -/

/-- The ids `[n]` broadcast to the index array `[n, 1]` read, at `(k, 0)`, id `k`. -/
theorem ids_apply {α : Type} {n : Nat} (h : (⟨1, ![n]⟩ : Shape).BroadcastsInDim ⟨2, ![n, 1]⟩ ![0]) (hn : n ≠ 1)
    (x : (⟨1, ![n]⟩ : Shape).Idx → α) (k : Fin n) :
    broadcastInDim ⟨2, ![n, 1]⟩ ![0] h x (ix2 k (0 : Fin 1)) = x (ix1 k) :=
  broadcastInDim_apply _ h x (ix2 k 0) (ix1 k) (fun b => match b with
    | ⟨0, _⟩ => by show k.val = if n = 1 then 0 else k.val; rw [if_neg hn])

/-- A one-column matrix `[n, 1]` reshaped to the flat array `[n]` reads, at `k`, entry `(k, 0)`. -/
theorem flatten_apply {α : Type} {n : Nat} (h : (⟨2, ![n, 1]⟩ : Shape).ShapeCasts ⟨1, ![n]⟩)
    (y : (⟨2, ![n, 1]⟩ : Shape).Idx → α) (k : Fin n) :
    shapeCast ⟨1, ![n]⟩ y h (ix1 k) = y (ix2 k (0 : Fin 1)) :=
  shapeCast_apply y h (ix1 k) (ix2 k 0) (by
    rw [Shape.rowMajor_val_two, Shape.rowMajor_val_one]; show k.val * 1 + 0 = k.val; omega)

/-! ## The flat spelling -/

/-- The dimension numbers of a scatter of flat updates `[e]` into a flat operand `[n]` at indices `[e, 1]`:
    no window axis, the operand's one axis inserted and indexed by the index vector's one component. -/
abbrev flatDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Flat
variable {n e w : Nat} (wf : ScatterDims.WF ⟨1, ![n]⟩ ⟨2, ![e, 1]⟩ ⟨1, ![e]⟩ [] [0] [0] 1)

/-- Update `j` starts at the segment id of its row. -/
theorem flat_start (j : (⟨1, ![e]⟩ : Shape).Idx) (idx : IVec ⟨2, ![e, 1]⟩ w) :
    (flatDims n e wf).start j idx 0 = (idx (ix2 (j 0) 0)).toInt := by
  unfold ScatterDims.start
  rw [dif_pos (show (0 : Fin 1) ∈ (flatDims n e wf).scatterDimsToOperandDims from List.mem_singleton.mpr rfl)]
  have hsi : (flatDims n e wf).siIdx j ⟨List.idxOf (0 : Fin 1) (flatDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- There is no window: the only operand axis is inserted. -/
theorem flat_window (j : (⟨1, ![e]⟩ : Shape).Idx) : (flatDims n e wf).window j 0 = 0 := by
  unfold ScatterDims.window
  rw [dif_neg (fun h => by
    have h2 := (List.mem_filter.mp h).2
    simp at h2)]

/-- Update `j` lands on position `i` exactly when its row's segment id is `i`. -/
theorem flat_resultIdx (j : (⟨1, ![e]⟩ : Shape).Idx) (idx : IVec ⟨2, ![e, 1]⟩ w) (i : (⟨1, ![n]⟩ : Shape).Idx) :
    (flatDims n e wf).resultIdx? j idx = some i ↔ (idx (ix2 (j 0) 0)).toInt = ((i 0).val : ℤ) := by
  unfold ScatterDims.resultIdx?
  split_ifs with h
  · rw [Option.some.injEq]
    constructor
    · intro hi
      have h0 := (h 0).1
      rw [← hi]
      show _ = (((flatDims n e wf).start j idx 0 + ((flatDims n e wf).window j 0 : ℕ)).toNat : ℤ)
      rw [Int.toNat_of_nonneg h0, flat_start, flat_window]; simp
    · intro hi
      funext a
      obtain rfl : a = 0 := Subsingleton.elim _ _
      refine Fin.ext ?_
      show ((flatDims n e wf).start j idx 0 + ((flatDims n e wf).window j 0 : ℕ)).toNat = (i 0).val
      rw [flat_start, flat_window, hi]; simp
  · constructor
    · intro hi; exact absurd hi (by simp)
    · intro hi
      exfalso; apply h
      intro a
      obtain rfl : a = 0 := Subsingleton.elim _ _
      rw [flat_start, flat_window, hi]
      have := (i 0).isLt
      constructor <;> omega

/-- THE FLAT SCATTER READ AT `i`: the operand there plus the updates of the rows whose segment id is `i`. -/
theorem flat_apply (x : (⟨1, ![n]⟩ : Shape).Idx → EReal) (idx : IVec ⟨2, ![e, 1]⟩ w)
    (upd : (⟨1, ![e]⟩ : Shape).Idx → EReal) (i : (⟨1, ![n]⟩ : Shape).Idx) :
    Ideal.hostScatterAdd (flatDims n e wf) x idx upd i
      = x i + ∑ k : Fin e, if (idx (ix2 k 0)).toInt = ((i 0).val : ℤ) then upd (ix1 k) else 0 := by
  unfold Ideal.hostScatterAdd
  refine congrArg (x i + ·) ?_
  rw [Finset.sum_filter]
  refine Fintype.sum_equiv rowEquiv1 _ _ fun j => ?_
  show _ = if (idx (ix2 (j 0) 0)).toInt = ((i 0).val : ℤ) then upd (ix1 (j 0)) else 0
  by_cases h : (idx (ix2 (j 0) 0)).toInt = ((i 0).val : ℤ)
  · rw [if_pos ((flat_resultIdx wf j idx i).mpr h), if_pos h]
    exact congrArg upd (eq_ix1 j)
  · rw [if_neg (mt (flat_resultIdx wf j idx i).mp h), if_neg h]

end Flat

/-! ## The one-column spelling -/

/-- The dimension numbers of a scatter of one-column updates `[e, 1]` into a one-column operand `[n, 1]` at
    indices `[e, 1]`: the column is the window axis, the operand's row axis inserted and indexed. -/
abbrev colDims (n e : Nat) (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ where
  updateWindowDims := [1]
  insertedWindowDims := [0]
  scatterDimsToOperandDims := [0]
  indexVectorDim := 1
  wf := wf

section Col
variable {n e w : Nat} (wf : ScatterDims.WF ⟨2, ![n, 1]⟩ ⟨2, ![e, 1]⟩ ⟨2, ![e, 1]⟩ [1] [0] [0] 1)

/-- On the row axis update `j` starts at the segment id of its row; -/
theorem col_start0 (j : (⟨2, ![e, 1]⟩ : Shape).Idx) (idx : IVec ⟨2, ![e, 1]⟩ w) :
    (colDims n e wf).start j idx 0 = (idx (ix2 (j 0) 0)).toInt := by
  unfold ScatterDims.start
  rw [dif_pos (show (0 : Fin 2) ∈ (colDims n e wf).scatterDimsToOperandDims from List.mem_singleton.mpr rfl)]
  have hsi : (colDims n e wf).siIdx j ⟨List.idxOf (0 : Fin 2) (colDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the column axis at `0`. -/
theorem col_start1 (j : (⟨2, ![e, 1]⟩ : Shape).Idx) (idx : IVec ⟨2, ![e, 1]⟩ w) :
    (colDims n e wf).start j idx 1 = 0 := by
  unfold ScatterDims.start
  rw [dif_neg (show ¬ (1 : Fin 2) ∈ ([0] : List (Fin 2)) by decide)]

/-- The row axis is inserted: no window coordinate there; -/
theorem col_window0 (j : (⟨2, ![e, 1]⟩ : Shape).Idx) : (colDims n e wf).window j 0 = 0 := by
  unfold ScatterDims.window
  rw [dif_neg (fun h => by
    have h2 := (List.mem_filter.mp h).2
    simp at h2)]

/-- the column axis carries the update's column coordinate. -/
theorem col_window1 (j : (⟨2, ![e, 1]⟩ : Shape).Idx) : (colDims n e wf).window j 1 = (j 1).val := by
  unfold ScatterDims.window
  rw [dif_pos (show (1 : Fin 2) ∈ (colDims n e wf).sKept from
    List.mem_filter.mpr ⟨List.mem_finRange _, by simp⟩)]
  rfl

/-- Update `j` lands on position `i` exactly when its row's segment id is `i`'s row (the columns, of width
    one, always agree). -/
theorem col_resultIdx (j : (⟨2, ![e, 1]⟩ : Shape).Idx) (idx : IVec ⟨2, ![e, 1]⟩ w) (i : (⟨2, ![n, 1]⟩ : Shape).Idx) :
    (colDims n e wf).resultIdx? j idx = some i ↔ (idx (ix2 (j 0) 0)).toInt = ((i 0).val : ℤ) := by
  have hj1 : (j 1).val = 0 := by have : (j 1).val < 1 := (j 1).isLt; omega
  have hi1 : (i 1).val = 0 := by have : (i 1).val < 1 := (i 1).isLt; omega
  unfold ScatterDims.resultIdx?
  split_ifs with h
  · rw [Option.some.injEq]
    constructor
    · intro hi
      have h0 := (h 0).1
      rw [← hi]
      show _ = (((colDims n e wf).start j idx 0 + ((colDims n e wf).window j 0 : ℕ)).toNat : ℤ)
      rw [Int.toNat_of_nonneg h0, col_start0, col_window0]; simp
    · intro hi
      funext a
      refine Fin.ext ?_
      match a with
      | ⟨0, _⟩ =>
        show ((colDims n e wf).start j idx 0 + ((colDims n e wf).window j 0 : ℕ)).toNat = (i 0).val
        rw [col_start0, col_window0, hi]; simp
      | ⟨1, _⟩ =>
        show ((colDims n e wf).start j idx 1 + ((colDims n e wf).window j 1 : ℕ)).toNat = (i 1).val
        rw [col_start1, col_window1, hj1, hi1]; simp
  · constructor
    · intro hi; exact absurd hi (by simp)
    · intro hi
      exfalso; apply h
      intro a
      match a with
      | ⟨0, _⟩ =>
        show 0 ≤ (colDims n e wf).start j idx 0 + ((colDims n e wf).window j 0 : ℕ)
          ∧ (colDims n e wf).start j idx 0 + ((colDims n e wf).window j 0 : ℕ) < ((⟨2, ![n, 1]⟩ : Shape).size 0 : ℕ)
        rw [col_start0, col_window0, hi]
        have := (i 0).isLt
        constructor <;> omega
      | ⟨1, _⟩ =>
        show 0 ≤ (colDims n e wf).start j idx 1 + ((colDims n e wf).window j 1 : ℕ)
          ∧ (colDims n e wf).start j idx 1 + ((colDims n e wf).window j 1 : ℕ) < ((⟨2, ![n, 1]⟩ : Shape).size 1 : ℕ)
        rw [col_start1, col_window1, hj1]
        have : ((⟨2, ![n, 1]⟩ : Shape).size 1 : ℕ) = 1 := rfl
        constructor <;> omega

/-- THE ONE-COLUMN SCATTER READ AT `i`: the operand there plus the updates of the rows whose segment id is
    `i`'s row. -/
theorem col_apply (x : (⟨2, ![n, 1]⟩ : Shape).Idx → EReal) (idx : IVec ⟨2, ![e, 1]⟩ w)
    (upd : (⟨2, ![e, 1]⟩ : Shape).Idx → EReal) (i : (⟨2, ![n, 1]⟩ : Shape).Idx) :
    Ideal.hostScatterAdd (colDims n e wf) x idx upd i
      = x i + ∑ k : Fin e, if (idx (ix2 k 0)).toInt = ((i 0).val : ℤ) then upd (ix2 k 0) else 0 := by
  unfold Ideal.hostScatterAdd
  refine congrArg (x i + ·) ?_
  rw [Finset.sum_filter]
  refine Fintype.sum_equiv rowEquiv2 _ _ fun j => ?_
  show _ = if (idx (ix2 (j 0) 0)).toInt = ((i 0).val : ℤ) then upd (ix2 (j 0) 0) else 0
  have hj : ix2 (j 0) (0 : Fin 1) = j := rowEquiv2.left_inv j
  by_cases h : (idx (ix2 (j 0) 0)).toInt = ((i 0).val : ℤ)
  · rw [if_pos ((col_resultIdx wf j idx i).mpr h), if_pos h]
    exact congrArg upd hj.symm
  · rw [if_neg (mt (col_resultIdx wf j idx i).mp h), if_neg h]

end Col

end Idealize.ShloMosaic.SegmentSum

end
-- ==== Proof.RefReal.lean ====
/-
  The edge normalisation and the neighbourhood sum of the reference are real numbers.

  The in-degree of a node is zero plus a finite sum of ones and zeros, so it is a real number; the larger of it and
  one is a real number at least one, whose reciprocal square root is a real number; a select takes one of two real
  numbers; a gather's entry is an entry of its operand; so every edge's normalisation, a product of two such
  entries, is a real number. The neighbourhood sum of a real array under a real normalisation is, at every entry,
  zero plus a finite sum of products of two real numbers and zeros, so it is real too.
-/
import proofs.«142385_j6322191859752_1_alg».proof.Proof.RefLayers
import proofs.«142385_j6322191859752_1_alg».proof.Proof.RealVec
import proofs.«142385_j6322191859752_1_alg».proof.Proof.LibRowOps
import proofs.«142385_j6322191859752_1_alg».proof.Proof.LibSegmentSum

noncomputable section

namespace Cert.ReferenceIdeal.RefReal

open Cert.ReferenceIdeal Cert.ReferenceIdeal.Facts₀ Idealize.ShloMosaic Idealize.ShloMosaic.ValueIdx
open Idealize.ShloMosaic.RowOps Idealize.ShloMosaic.SegmentSum
open Cert.ReferenceIdeal.RefRun Cert.RealVec
open scoped BigOperators

/-! ## The constant words and the scalar operations -/

/-- The word `0x3F800000` is the real number one. -/
theorem ofBits_one : Ideal.ofBits .f32 0x3F800000#32 = ((1 : ℝ) : EReal) := by
  simp [Ideal.ofBits, Ideal.ieee, -EReal.coe_mul]; norm_num

/-- The zero word is the real number zero. -/
theorem ofBits_zero : Ideal.ofBits .f32 0x00000000#32 = 0 := by
  simp [Ideal.ofBits, Ideal.ieee]

/-- The zero word is a real number. -/
theorem isReal_zero_word : IsReal (Ideal.ofBits .f32 0x00000000#32) := by
  rw [ofBits_zero]; exact IsReal.zero

/-- The word of one is a real number. -/
theorem isReal_one_word : IsReal (Ideal.ofBits .f32 0x3F800000#32) := ⟨1, ofBits_one⟩

/-- The reciprocal square root of a positive real is a real. -/
theorem rsqrt_real {y : ℝ} (hy : 0 < y) : IsReal (Ideal.rsqrt (y : EReal)) :=
  ⟨(Real.sqrt y)⁻¹, by rw [Ideal.rsqrt_coe, if_neg (not_lt.mpr hy.le), if_neg hy.ne']⟩

/-- The larger of a real number and one is a real number at least one. -/
theorem max_one_real (y : ℝ) : max (y : EReal) ((1 : ℝ) : EReal) = ((max y 1 : ℝ) : EReal) :=
  (EReal.coe_strictMono.monotone.map_max).symm

/-! ## Arrays of real numbers under the layout and elementwise operations -/

/-- A constant array of a real word is real. -/
theorem const_real {s : Shape} (b : BitVec (FTy.f32).bits) (hb : IsReal (Ideal.ofBits .f32 b)) :
    AllReal (constant (F := Ideal) s .f32 b) := fun _ => hb

/-- A broadcast of a real array is real: each entry is an entry of the operand. -/
theorem bcast_real {s t : Shape} (dims : Fin s.rank → Fin t.rank) (h : s.BroadcastsInDim t dims) (x : FVec Ideal s .f32)
    (hx : AllReal x) : AllReal (broadcastInDim t dims h x) := by
  intro j
  unfold broadcastInDim
  exact hx _

/-- A product of real arrays is real. -/
theorem mulf_real {s : Shape} (a b : FVec Ideal s .f32) (ha : AllReal a) (hb : AllReal b) : AllReal (mulf a b) := by
  intro i
  exact (ha i).mul (hb i)

/-! ## The gathers and the accumulating scatters -/

/-- A gather of entries of a flat real array is real: each entry is the operand at the clamped id. -/
theorem vecGather_real (x : FVec Ideal S50000 .f32) (idx : IVec S150000x1 32) (hx : AllReal x) :
    AllReal (Host.gather gather_S50000_S150000x1_S150000_n_0_n_n_0_1_1 x idx) := by
  intro i
  obtain ⟨k, rfl⟩ : ∃ k, i = ix1 k := ⟨i 0, eq_ix1 i⟩
  have h : Host.gather gather_S50000_S150000x1_S150000_n_0_n_n_0_1_1 x idx (ix1 k) = _ :=
    vecGather_apply (n := 50000) (e := 150000) (by norm_num) gather_S50000_S150000x1_S150000_n_0_n_n_0_1_1_wf x idx k
  rw [h]
  exact hx _

/-- A gather of whole rows of a real matrix is real: each entry is the operand's at the clamped row id. -/
theorem rowGather_real (x : FVec Ideal S50000x512 .f32) (idx : IVec S150000x1 32) (hx : AllReal x) :
    AllReal (Host.gather gather_S50000x512_S150000x1_S150000x512_1_0_n_n_0_1_1512 x idx) := by
  intro i
  obtain ⟨k, c, rfl⟩ : ∃ k c, i = ix2 k c := ⟨i 0, i 1, eq_ix2 i⟩
  have h : Host.gather gather_S50000x512_S150000x1_S150000x512_1_0_n_n_0_1_1512 x idx (ix2 k c) = _ :=
    rowGather_apply (n := 50000) (e := 150000) (f := 512) (by norm_num)
      gather_S50000x512_S150000x1_S150000x512_1_0_n_n_0_1_1512_wf x idx k c
  rw [h]
  exact hx _

/-- An accumulating scatter of a flat real array of updates into a flat real array is real: each entry is the
    operand's plus a finite sum of updates and zeros. -/
theorem flatScatter_real (x : FVec Ideal S50000 .f32) (idx : IVec S150000x1 32) (upd : FVec Ideal S150000 .f32)
    (hx : AllReal x) (hu : AllReal upd) :
    AllReal (Host.scatterAdd (F := Ideal) scatter_S50000_S150000x1_S150000_n_0_0_1 x idx upd) := by
  intro i
  have h : Host.scatterAdd (F := Ideal) scatter_S50000_S150000x1_S150000_n_0_0_1 x idx upd i = _ :=
    flat_apply (n := 50000) (e := 150000) scatter_S50000_S150000x1_S150000_n_0_0_1_wf x idx upd i
  rw [h]
  exact (hx i).add (IsReal.sum _ _ fun k _ => IsReal.ite (hu _) IsReal.zero)

/-- An accumulating scatter of the rows of a real matrix of updates into a real matrix is real: each entry is the
    operand's plus a finite sum of updates and zeros. -/
theorem rowScatter_real (x : FVec Ideal S50000x512 .f32) (idx : IVec S150000x1 32) (upd : FVec Ideal S150000x512 .f32)
    (hx : AllReal x) (hu : AllReal upd) :
    AllReal (Host.scatterAdd (F := Ideal) scatter_S50000x512_S150000x1_S150000x512_1_0_0_1 x idx upd) := by
  intro i
  obtain ⟨r, c, rfl⟩ : ∃ r c, i = ix2 r c := ⟨i 0, i 1, eq_ix2 i⟩
  have h : Host.scatterAdd (F := Ideal) scatter_S50000x512_S150000x1_S150000x512_1_0_0_1 x idx upd (ix2 r c) = _ :=
    rows_apply (n := 50000) (e := 150000) (f := 512) scatter_S50000x512_S150000x1_S150000x512_1_0_0_1_wf x idx upd r c
  rw [h]
  exact (hx _).add (IsReal.sum _ _ fun k _ => IsReal.ite (hu _) IsReal.zero)

/-! ## The edge normalisation -/

/-- The in-degree of every node is a real number: zero plus a finite sum of ones and zeros. -/
theorem deg_real (col : (⟨S150000, .i32⟩ : BufTy).Contents (Elt Ideal)) : AllReal (RefSpec.deg (F := Ideal) col) :=
  flatScatter_real _ _ _ (bcast_real _ _ _ (const_real _ isReal_zero_word)) (bcast_real _ _ _ (const_real _ isReal_one_word))

/-- The inverse square root of the degree where it is positive, zero elsewhere, is a real number wherever the degree
    is: the larger of the degree and one is at least one, so positive. -/
theorem dis_real (d : (⟨S50000, .f32⟩ : BufTy).Contents (Elt Ideal)) (hd : AllReal d) : AllReal (RefSpec.dis (F := Ideal) d) := by
  intro j
  obtain ⟨y, hy⟩ := hd j
  show IsReal (Scalar.select _ (Ideal.rsqrt (max (d j) (Ideal.ofBits .f32 0x3F800000#32))) (Ideal.ofBits .f32 0x00000000#32))
  unfold Scalar.select
  refine IsReal.ite ?_ isReal_zero_word
  rw [hy, ofBits_one, max_one_real]
  exact rsqrt_real (lt_of_lt_of_le one_pos (le_max_right y 1))

/-- Every edge's normalisation is a real number: a product of two entries of the array above. -/
theorem edgeNorm_real (row col : (⟨S150000, .i32⟩ : BufTy).Contents (Elt Ideal)) : AllReal (RefSpec.edgeNorm (F := Ideal) row col) :=
  mulf_real _ _ (vecGather_real _ _ (dis_real _ (deg_real col))) (vecGather_real _ _ (dis_real _ (deg_real col)))

/-- EVERY ENTRY OF THE EDGE NORMALISATION IS A REAL NUMBER, whatever the index array. -/
theorem norm_real (e : (⟨Cert.ReferenceIdeal.S2x150000, .i32⟩ : BufTy).Contents (Elt Ideal)) :
    Cert.RealVec.AllReal (RefSpec.norm (F := Ideal) e) :=
  edgeNorm_real _ _

/-! ## The neighbourhood sum -/

/-- EVERY ENTRY OF THE NEIGHBOURHOOD SUM IS A REAL NUMBER when every entry of the features and of the normalisation
    is: zero plus a finite sum of products of a feature entry and a normalisation entry, and zeros. -/
theorem agg_real (x : (⟨S50000x512, .f32⟩ : BufTy).Contents (Elt Ideal)) (row col : (⟨S150000, .i32⟩ : BufTy).Contents (Elt Ideal))
    (nm : (⟨S150000, .f32⟩ : BufTy).Contents (Elt Ideal)) (hx : Cert.RealVec.AllReal x) (hn : Cert.RealVec.AllReal nm) :
    Cert.RealVec.AllReal (RefSpec.agg512 (F := Ideal) x row col nm) :=
  rowScatter_real _ _ _ (bcast_real _ _ _ (const_real _ isReal_zero_word))
    (mulf_real _ _ (rowGather_real _ _ hx) (bcast_real _ _ _ (bcast_real _ _ _ hn)))

end Cert.ReferenceIdeal.RefReal

end
-- ==== Proof.BnLeaky.lean ====
/-
  The batch-normalisation law on a column of real numbers, as an equation between the two spellings themselves.

  The scale-and-shift spelling — `x · (g · r) + (b − μ · (g · r))` with `μ` and the variance from the column's sum and
  sum of squares — and the deviation spelling — `((x − μ) · r) · g + b` with the variance the mean squared deviation —
  are the same real number, `r` the reciprocal root of the variance plus a positive guard.
-/
import proofs.«142385_j6322191859752_1_alg».proof.Proof.LibBatchNorm
import proofs.«142385_j6322191859752_1_alg».proof.Proof.RealVec
import proofs.«142385_j6322191859752_1_alg».proof.Proof.Spec

noncomputable section

namespace Cert.BnLeaky

open Idealize.ShloMosaic Cert.LibBatchNorm Cert.RealVec
open scoped BigOperators

/-- The two spellings of the normalised, scaled and shifted value agree on a column of real numbers. `Z` is the zero
    the right side's sums start from, `N` the number of rows, `E` the positive guard. -/
theorem bn_eq {M : ℕ} (hM : 0 < M) (h : Fin M → ℝ) (r0 : Fin M) (g b : ℝ) (N E Z : EReal)
    (hN : N = ((M : ℝ) : EReal)) (hE : ∃ e : ℝ, 0 < e ∧ E = (e : EReal)) (hZ : Z = 0) :
    (h r0 : EReal) * ((g : EReal) * Ideal.rsqrt ((Ideal.div (∑ r, (h r : EReal) * (h r : EReal)) N - Ideal.div (∑ r, (h r : EReal)) N * Ideal.div (∑ r, (h r : EReal)) N) + E))
        + ((b : EReal) - Ideal.div (∑ r, (h r : EReal)) N * ((g : EReal) * Ideal.rsqrt ((Ideal.div (∑ r, (h r : EReal) * (h r : EReal)) N - Ideal.div (∑ r, (h r : EReal)) N * Ideal.div (∑ r, (h r : EReal)) N) + E)))
      = (((h r0 : EReal) - Ideal.div (Z + (∑ r, (h r : EReal))) N)
          * Ideal.rsqrt (Ideal.div (Z + ∑ r, ((h r : EReal) - Ideal.div (Z + (∑ r, (h r : EReal))) N) * ((h r : EReal) - Ideal.div (Z + (∑ r, (h r : EReal))) N)) N + E))
        * (g : EReal) + (b : EReal) := by
  obtain ⟨e, he, rfl⟩ := hE
  subst hZ hN
  have hM0 : ((M : ℝ)) ≠ 0 := by exact_mod_cast hM.ne'
  have hMpos : (0 : ℝ) < (M : ℝ) := by exact_mod_cast hM
  set S1 : ℝ := ∑ r, h r with hS1
  set μ : ℝ := S1 * (1 / (M : ℝ)) with hμ
  have e1 : (∑ r, (h r : EReal)) = (S1 : EReal) := (coe_sum _ _).symm
  have e2 : (∑ r, (h r : EReal) * (h r : EReal)) = ((∑ r, h r * h r : ℝ) : EReal) := by
    rw [coe_sum]; exact Finset.sum_congr rfl fun r _ => (EReal.coe_mul _ _).symm
  have emu : Ideal.div (S1 : EReal) ((M : ℝ) : EReal) = (μ : EReal) := by
    rw [Ideal.div_coe hM0, ← EReal.coe_mul]
  have e3 : (∑ r, ((h r : EReal) - (μ : EReal)) * ((h r : EReal) - (μ : EReal)))
      = ((∑ r, (h r - μ) * (h r - μ) : ℝ) : EReal) := by
    rw [coe_sum]; exact Finset.sum_congr rfl fun r _ => by rw [← EReal.coe_sub, ← EReal.coe_mul]
  have hv := var_nonneg h μ (M : ℝ) hMpos
  have hpos : 0 < (∑ r, (h r - μ) * (h r - μ)) * (1 / (M : ℝ)) + e := by linarith
  simp only [zero_add]
  rw [e1, e2, emu, e3, Ideal.div_coe hM0, Ideal.div_coe hM0]
  simp only [← EReal.coe_mul, ← EReal.coe_sub, ← EReal.coe_add]
  rw [var_identity h (M : ℝ) rfl hM]
  rw [rsqrt_pos hpos]
  simp only [← EReal.coe_mul, ← EReal.coe_sub, ← EReal.coe_add]
  congr 1
  ring

/-- Their common value is a real number. -/
theorem bn_real {M : ℕ} (hM : 0 < M) (h : Fin M → ℝ) (r0 : Fin M) (g b : ℝ) (N E Z : EReal)
    (hN : N = ((M : ℝ) : EReal)) (hE : ∃ e : ℝ, 0 < e ∧ E = (e : EReal)) (hZ : Z = 0) :
    IsReal ((((h r0 : EReal) - Ideal.div (Z + (∑ r, (h r : EReal))) N)
          * Ideal.rsqrt (Ideal.div (Z + ∑ r, ((h r : EReal) - Ideal.div (Z + (∑ r, (h r : EReal))) N) * ((h r : EReal) - Ideal.div (Z + (∑ r, (h r : EReal))) N)) N + E))
        * (g : EReal) + (b : EReal)) := by
  obtain ⟨e, he, rfl⟩ := hE
  subst hZ hN
  have hM0 : ((M : ℝ)) ≠ 0 := by exact_mod_cast hM.ne'
  have hMpos : (0 : ℝ) < (M : ℝ) := by exact_mod_cast hM
  set S1 : ℝ := ∑ r, h r with hS1
  set μ : ℝ := S1 * (1 / (M : ℝ)) with hμ
  have e1 : (∑ r, (h r : EReal)) = (S1 : EReal) := (coe_sum _ _).symm
  have e2 : (∑ r, (h r : EReal) * (h r : EReal)) = ((∑ r, h r * h r : ℝ) : EReal) := by
    rw [coe_sum]; exact Finset.sum_congr rfl fun r _ => (EReal.coe_mul _ _).symm
  have emu : Ideal.div (S1 : EReal) ((M : ℝ) : EReal) = (μ : EReal) := by
    rw [Ideal.div_coe hM0, ← EReal.coe_mul]
  have e3 : (∑ r, ((h r : EReal) - (μ : EReal)) * ((h r : EReal) - (μ : EReal)))
      = ((∑ r, (h r - μ) * (h r - μ) : ℝ) : EReal) := by
    rw [coe_sum]; exact Finset.sum_congr rfl fun r _ => by rw [← EReal.coe_sub, ← EReal.coe_mul]
  have hv := var_nonneg h μ (M : ℝ) hMpos
  have hpos : 0 < (∑ r, (h r - μ) * (h r - μ)) * (1 / (M : ℝ)) + e := by linarith
  refine ⟨((h r0 - μ) * (Real.sqrt ((∑ r, (h r - μ) * (h r - μ)) * (1 / (M : ℝ)) + e))⁻¹) * g + b, ?_⟩
  simp only [zero_add]
  rw [e1, emu, e3, Ideal.div_coe hM0]
  simp only [← EReal.coe_mul, ← EReal.coe_sub, ← EReal.coe_add]
  rw [rsqrt_pos hpos]
  simp only [← EReal.coe_mul, ← EReal.coe_sub, ← EReal.coe_add]

/-! ## The same over extended reals that are real numbers -/

/-- The law for a column of extended reals every one of which is a real number, with real scale and shift. -/
theorem bn_eq_col {M : ℕ} (hM : 0 < M) (H : Fin M → EReal) (hH : ∀ ρ, IsReal (H ρ)) (r0 : Fin M) (γ β : EReal)
    (hγ : IsReal γ) (hβ : IsReal β) (N E Z : EReal)
    (hN : N = ((M : ℝ) : EReal)) (hE : ∃ e : ℝ, 0 < e ∧ E = (e : EReal)) (hZ : Z = 0) :
    H r0 * (γ * Ideal.rsqrt ((Ideal.div (∑ ρ, H ρ * H ρ) N - Ideal.div (∑ ρ, H ρ) N * Ideal.div (∑ ρ, H ρ) N) + E))
        + (β - Ideal.div (∑ ρ, H ρ) N * (γ * Ideal.rsqrt ((Ideal.div (∑ ρ, H ρ * H ρ) N - Ideal.div (∑ ρ, H ρ) N * Ideal.div (∑ ρ, H ρ) N) + E)))
      = ((H r0 - Ideal.div (Z + (∑ ρ, H ρ)) N)
          * Ideal.rsqrt (Ideal.div (Z + ∑ ρ, (H ρ - Ideal.div (Z + (∑ ρ, H ρ)) N) * (H ρ - Ideal.div (Z + (∑ ρ, H ρ)) N)) N + E))
        * γ + β := by
  obtain ⟨h, rfl⟩ : ∃ h : Fin M → ℝ, H = fun ρ => (h ρ : EReal) :=
    ⟨fun ρ => (hH ρ).choose, funext fun ρ => (hH ρ).choose_spec⟩
  obtain ⟨g, rfl⟩ := hγ
  obtain ⟨b, rfl⟩ := hβ
  exact bn_eq hM h r0 g b N E Z hN hE hZ

/-- Its value is a real number. -/
theorem bn_real_col {M : ℕ} (hM : 0 < M) (H : Fin M → EReal) (hH : ∀ ρ, IsReal (H ρ)) (r0 : Fin M) (γ β : EReal)
    (hγ : IsReal γ) (hβ : IsReal β) (N E Z : EReal)
    (hN : N = ((M : ℝ) : EReal)) (hE : ∃ e : ℝ, 0 < e ∧ E = (e : EReal)) (hZ : Z = 0) :
    IsReal (((H r0 - Ideal.div (Z + (∑ ρ, H ρ)) N)
          * Ideal.rsqrt (Ideal.div (Z + ∑ ρ, (H ρ - Ideal.div (Z + (∑ ρ, H ρ)) N) * (H ρ - Ideal.div (Z + (∑ ρ, H ρ)) N)) N + E))
        * γ + β) := by
  obtain ⟨h, rfl⟩ : ∃ h : Fin M → ℝ, H = fun ρ => (h ρ : EReal) :=
    ⟨fun ρ => (hH ρ).choose, funext fun ρ => (hH ρ).choose_spec⟩
  obtain ⟨g, rfl⟩ := hγ
  obtain ⟨b, rfl⟩ := hβ
  exact bn_real hM h r0 g b N E Z hN hE hZ

/-! ## The leaky rectifier of a real number -/

/-- The slope word `0x3C23D70A` is a real number. -/
theorem slope_real : IsReal (Ideal.ofBits .f32 0x3C23D70A#32) :=
  ⟨(10737418 : ℝ) * 2 ^ (-30 : ℤ), by simp [Ideal.ofBits, Ideal.ieee, -EReal.coe_mul]⟩

/-- The leaky rectifier of a real number is a real number: the number itself or the slope times it. -/
theorem leaky_real {y : EReal} (hy : IsReal y) : IsReal (Cert.Spec.leaky (F := Ideal) y) := by
  unfold Cert.Spec.leaky Scalar.select
  exact IsReal.ite hy (slope_real.mul hy)

end Cert.BnLeaky

end
-- ==== Proof.Bridge512.lean ====
/-
  One graph layer of width 512: the kernel's three stages composed — the linear part with its column sums and sums of
  squares, the scale and shift rows computed from them, the scale-shift-activate pass — are the reference's layer, on
  real inputs. The two differ only in how the normalisation is spelled; the batch-normalisation law joins them
  column by column.
-/
import proofs.«142385_j6322191859752_1_alg».proof.Proof.RefRead
import proofs.«142385_j6322191859752_1_alg».proof.Proof.RefReal
import proofs.«142385_j6322191859752_1_alg».proof.Proof.BnLeaky
import proofs.«142385_j6322191859752_1_alg».proof.Proof.Lin0
import proofs.«142385_j6322191859752_1_alg».proof.Proof.Fin1
import proofs.«142385_j6322191859752_1_alg».proof.Proof.Act1

noncomputable section

open scoped BigOperators

namespace Cert.Bridge512

open Cert.ReferenceIdeal Cert.ReferenceIdeal.RefRun Idealize.ShloMosaic Idealize.ShloMosaic.ValueIdx Cert.RealVec

/-- The kernel's layer as one function of the layer's inputs: the activation pass over the linear part, with the scale
    and shift rows from the linear part's column statistics; the neighbourhood sum is the reference's. -/
def KL (x : FVec Ideal S50000x512 .f32) (R C : IVec S150000 32) (Nm : FVec Ideal S150000 .f32)
    (w0 w1 : FVec Ideal S512x512 .f32) (b g be : FVec Ideal S512 .f32) : S50000x512.Idx → EReal :=
  Cert.KernelIdeal.Act1.G (F := Ideal) (Cert.KernelIdeal.Lin0.PRE x (RefSpec.agg512 (F := Ideal) x R C Nm) w0 w1 (fun i => shapeCast Cert.KernelIdeal.S1x512 b Cert.KernelIdeal.Gen.shapeCasts_S512_S1x512 i))
    (Cert.KernelIdeal.Fin1.scaleRow (Cert.KernelIdeal.Lin0.colStats (Cert.KernelIdeal.Lin0.PRE x (RefSpec.agg512 (F := Ideal) x R C Nm) w0 w1 (fun i => shapeCast Cert.KernelIdeal.S1x512 b Cert.KernelIdeal.Gen.shapeCasts_S512_S1x512 i))) g)
    (Cert.KernelIdeal.Fin1.shiftRow (Cert.KernelIdeal.Lin0.colStats (Cert.KernelIdeal.Lin0.PRE x (RefSpec.agg512 (F := Ideal) x R C Nm) w0 w1 (fun i => shapeCast Cert.KernelIdeal.S1x512 b Cert.KernelIdeal.Gen.shapeCasts_S512_S1x512 i))) g be)

/-- The kernel's layer at entry `(r, n)`, with `H` the column `n` of the linear part. -/
theorem KL_apply (x : FVec Ideal S50000x512 .f32) (R C : IVec S150000 32) (Nm : FVec Ideal S150000 .f32)
    (w0 w1 : FVec Ideal S512x512 .f32) (b g be : FVec Ideal S512 .f32) (r : Fin 50000) (n : Fin 512)
    (H : Fin 50000 → EReal) (hP : ∀ ρ : Fin 50000, (Cert.KernelIdeal.Lin0.PRE x (RefSpec.agg512 (F := Ideal) x R C Nm) w0 w1 (fun i => shapeCast Cert.KernelIdeal.S1x512 b Cert.KernelIdeal.Gen.shapeCasts_S512_S1x512 i)) (ix2 ρ n) = H ρ) :
    KL x R C Nm w0 w1 b g be (ix2 r n)
      = Cert.Spec.leaky (F := Ideal)
          (H r * (g (ix1 n) * Ideal.rsqrt ((Ideal.div (∑ ρ, H ρ * H ρ) (Ideal.ofBits .f32 0x47435000#32)
                - Ideal.div (∑ ρ, H ρ) (Ideal.ofBits .f32 0x47435000#32) * Ideal.div (∑ ρ, H ρ) (Ideal.ofBits .f32 0x47435000#32))
              + Ideal.ofBits .f32 0x3727C5AC#32))
            + (be (ix1 n) - Ideal.div (∑ ρ, H ρ) (Ideal.ofBits .f32 0x47435000#32)
                * (g (ix1 n) * Ideal.rsqrt ((Ideal.div (∑ ρ, H ρ * H ρ) (Ideal.ofBits .f32 0x47435000#32)
                    - Ideal.div (∑ ρ, H ρ) (Ideal.ofBits .f32 0x47435000#32) * Ideal.div (∑ ρ, H ρ) (Ideal.ofBits .f32 0x47435000#32))
                  + Ideal.ofBits .f32 0x3727C5AC#32)))) := by
  have hs0 : (Cert.KernelIdeal.Lin0.colStats (Cert.KernelIdeal.Lin0.PRE x (RefSpec.agg512 (F := Ideal) x R C Nm) w0 w1 (fun i => shapeCast Cert.KernelIdeal.S1x512 b Cert.KernelIdeal.Gen.shapeCasts_S512_S1x512 i))) (ix2 (0 : Fin 2) n) = ∑ ρ : Fin 50000, (Cert.KernelIdeal.Lin0.PRE x (RefSpec.agg512 (F := Ideal) x R C Nm) w0 w1 (fun i => shapeCast Cert.KernelIdeal.S1x512 b Cert.KernelIdeal.Gen.shapeCasts_S512_S1x512 i)) (ix2 ρ n) := if_pos rfl
  have hs1 : (Cert.KernelIdeal.Lin0.colStats (Cert.KernelIdeal.Lin0.PRE x (RefSpec.agg512 (F := Ideal) x R C Nm) w0 w1 (fun i => shapeCast Cert.KernelIdeal.S1x512 b Cert.KernelIdeal.Gen.shapeCasts_S512_S1x512 i))) (ix2 (1 : Fin 2) n) = ∑ ρ : Fin 50000, (Cert.KernelIdeal.Lin0.PRE x (RefSpec.agg512 (F := Ideal) x R C Nm) w0 w1 (fun i => shapeCast Cert.KernelIdeal.S1x512 b Cert.KernelIdeal.Gen.shapeCasts_S512_S1x512 i)) (ix2 ρ n) * (Cert.KernelIdeal.Lin0.PRE x (RefSpec.agg512 (F := Ideal) x R C Nm) w0 w1 (fun i => shapeCast Cert.KernelIdeal.S1x512 b Cert.KernelIdeal.Gen.shapeCasts_S512_S1x512 i)) (ix2 ρ n) :=
    if_neg Nat.one_ne_zero
  show Cert.Spec.leaky (F := Ideal) ((Cert.KernelIdeal.Lin0.PRE x (RefSpec.agg512 (F := Ideal) x R C Nm) w0 w1 (fun i => shapeCast Cert.KernelIdeal.S1x512 b Cert.KernelIdeal.Gen.shapeCasts_S512_S1x512 i)) (ix2 r n) * Cert.KernelIdeal.Fin1.scaleRow (Cert.KernelIdeal.Lin0.colStats (Cert.KernelIdeal.Lin0.PRE x (RefSpec.agg512 (F := Ideal) x R C Nm) w0 w1 (fun i => shapeCast Cert.KernelIdeal.S1x512 b Cert.KernelIdeal.Gen.shapeCasts_S512_S1x512 i))) g (ix2 (0 : Fin 1) n)
      + Cert.KernelIdeal.Fin1.shiftRow (Cert.KernelIdeal.Lin0.colStats (Cert.KernelIdeal.Lin0.PRE x (RefSpec.agg512 (F := Ideal) x R C Nm) w0 w1 (fun i => shapeCast Cert.KernelIdeal.S1x512 b Cert.KernelIdeal.Gen.shapeCasts_S512_S1x512 i))) g be (ix2 (0 : Fin 1) n)) = _
  rw [Cert.KernelIdeal.Fin1.scaleRow_apply, Cert.KernelIdeal.Fin1.shiftRow_apply, hs0, hs1]
  simp only [hP]
  rfl

/-- THE KERNEL'S LAYER IS THE REFERENCE'S on real inputs. -/
theorem KL_eq (x : FVec Ideal S50000x512 .f32) (R C : IVec S150000 32) (Nm : FVec Ideal S150000 .f32)
    (w0 w1 : FVec Ideal S512x512 .f32) (b g be : FVec Ideal S512 .f32)
    (hx : AllReal x) (hNm : AllReal Nm) (hw0 : AllReal w0) (hw1 : AllReal w1) (hb : AllReal b) (hg : AllReal g) (hbe : AllReal be) :
    KL x R C Nm w0 w1 b g be = RefSpec.layer512 (F := Ideal) x R C Nm w0 w1 b g be := by
  funext i
  obtain ⟨r, n, rfl⟩ : ∃ (r : Fin 50000) (n : Fin 512), i = ix2 r n := ⟨i 0, i 1, eq_ix2 i⟩
  have hA : AllReal (RefSpec.agg512 (F := Ideal) x R C Nm) := Cert.ReferenceIdeal.RefReal.agg_real x R C Nm hx hNm
  let H : Fin 50000 → EReal := fun ρ => (∑ k : Fin 512, x (ix2 ρ k) * w0 (ix2 k n) + ∑ k : Fin 512, (RefSpec.agg512 (F := Ideal) x R C Nm) (ix2 ρ k) * w1 (ix2 k n)) + b (ix1 n)
  have hH : ∀ ρ, IsReal (H ρ) := fun ρ => ((IsReal.sum _ _ fun k _ => (hx _).mul (hw0 _)).add (IsReal.sum _ _ fun k _ => (hA _).mul (hw1 _))).add (hb _)
  have hP : ∀ ρ : Fin 50000, (Cert.KernelIdeal.Lin0.PRE x (RefSpec.agg512 (F := Ideal) x R C Nm) w0 w1 (fun i => shapeCast Cert.KernelIdeal.S1x512 b Cert.KernelIdeal.Gen.shapeCasts_S512_S1x512 i)) (ix2 ρ n) = H ρ := fun ρ => congrArg (fun t => (∑ k : Fin 512, x (ix2 ρ k) * w0 (ix2 k n) + ∑ k : Fin 512, (RefSpec.agg512 (F := Ideal) x R C Nm) (ix2 ρ k) * w1 (ix2 k n)) + t)
      (Cert.KernelIdeal.Fin1.row_cast_apply b n)
  have hN : Ideal.ofBits .f32 0x47435000#32 = (((50000 : ℕ) : ℝ) : EReal) := by
    rw [Cert.ReferenceIdeal.RefRead.ofBits_rows]; norm_num
  rw [Cert.ReferenceIdeal.RefRead.layer512_apply, KL_apply x R C Nm w0 w1 b g be r n H hP]
  refine congrArg (Cert.Spec.leaky (F := Ideal)) ?_
  exact Cert.BnLeaky.bn_eq_col (M := 50000) (by norm_num) H hH r (g (ix1 n)) (be (ix1 n)) (hg _) (hbe _) _ _ _ hN
    Cert.LibBatchNorm.ofBits_eps Ideal.ofBits_zero_f32

/-- Every entry of the layer's output is a real number. -/
theorem KL_real (x : FVec Ideal S50000x512 .f32) (R C : IVec S150000 32) (Nm : FVec Ideal S150000 .f32)
    (w0 w1 : FVec Ideal S512x512 .f32) (b g be : FVec Ideal S512 .f32)
    (hx : AllReal x) (hNm : AllReal Nm) (hw0 : AllReal w0) (hw1 : AllReal w1) (hb : AllReal b) (hg : AllReal g) (hbe : AllReal be) :
    AllReal (KL x R C Nm w0 w1 b g be) := by
  intro i
  obtain ⟨r, n, rfl⟩ : ∃ (r : Fin 50000) (n : Fin 512), i = ix2 r n := ⟨i 0, i 1, eq_ix2 i⟩
  have hA : AllReal (RefSpec.agg512 (F := Ideal) x R C Nm) := Cert.ReferenceIdeal.RefReal.agg_real x R C Nm hx hNm
  let H : Fin 50000 → EReal := fun ρ => (∑ k : Fin 512, x (ix2 ρ k) * w0 (ix2 k n) + ∑ k : Fin 512, (RefSpec.agg512 (F := Ideal) x R C Nm) (ix2 ρ k) * w1 (ix2 k n)) + b (ix1 n)
  have hH : ∀ ρ, IsReal (H ρ) := fun ρ => ((IsReal.sum _ _ fun k _ => (hx _).mul (hw0 _)).add (IsReal.sum _ _ fun k _ => (hA _).mul (hw1 _))).add (hb _)
  have hP : ∀ ρ : Fin 50000, (Cert.KernelIdeal.Lin0.PRE x (RefSpec.agg512 (F := Ideal) x R C Nm) w0 w1 (fun i => shapeCast Cert.KernelIdeal.S1x512 b Cert.KernelIdeal.Gen.shapeCasts_S512_S1x512 i)) (ix2 ρ n) = H ρ := fun ρ => congrArg (fun t => (∑ k : Fin 512, x (ix2 ρ k) * w0 (ix2 k n) + ∑ k : Fin 512, (RefSpec.agg512 (F := Ideal) x R C Nm) (ix2 ρ k) * w1 (ix2 k n)) + t)
      (Cert.KernelIdeal.Fin1.row_cast_apply b n)
  have hN : Ideal.ofBits .f32 0x47435000#32 = (((50000 : ℕ) : ℝ) : EReal) := by
    rw [Cert.ReferenceIdeal.RefRead.ofBits_rows]; norm_num
  rw [congrFun (KL_eq x R C Nm w0 w1 b g be hx hNm hw0 hw1 hb hg hbe) (ix2 r n), Cert.ReferenceIdeal.RefRead.layer512_apply]
  exact Cert.BnLeaky.leaky_real (Cert.BnLeaky.bn_real_col (M := 50000) (by norm_num) H hH r (g (ix1 n)) (be (ix1 n)) (hg _) (hbe _) _ _ _ hN
    Cert.LibBatchNorm.ofBits_eps Ideal.ofBits_zero_f32)

end Cert.Bridge512

end
-- ==== Proof.Bridge256.lean ====
/-
  One graph layer of width 256: the kernel's three stages composed — the linear part with its column sums and sums of
  squares, the scale and shift rows computed from them, the scale-shift-activate pass — are the reference's layer, on
  real inputs. The two differ only in how the normalisation is spelled; the batch-normalisation law joins them
  column by column; the kernel's bias row is a row of zeros, which adds nothing.
-/
import proofs.«142385_j6322191859752_1_alg».proof.Proof.RefRead
import proofs.«142385_j6322191859752_1_alg».proof.Proof.RefReal
import proofs.«142385_j6322191859752_1_alg».proof.Proof.BnLeaky
import proofs.«142385_j6322191859752_1_alg».proof.Proof.Lin4
import proofs.«142385_j6322191859752_1_alg».proof.Proof.Fin5
import proofs.«142385_j6322191859752_1_alg».proof.Proof.Act5

noncomputable section

open scoped BigOperators

namespace Cert.Bridge256

open Cert.ReferenceIdeal Cert.ReferenceIdeal.RefRun Idealize.ShloMosaic Idealize.ShloMosaic.ValueIdx Cert.RealVec

/-- The kernel's layer as one function of the layer's inputs: the activation pass over the linear part, with the scale
    and shift rows from the linear part's column statistics; the neighbourhood sum is the reference's. -/
def KL (x : FVec Ideal S50000x512 .f32) (R C : IVec S150000 32) (Nm : FVec Ideal S150000 .f32)
    (w0 w1 : FVec Ideal S512x256 .f32) (g be : FVec Ideal S256 .f32) : S50000x256.Idx → EReal :=
  Cert.KernelIdeal.Act5.G (F := Ideal) (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i))
    (Cert.KernelIdeal.Fin5.scaleRow (Cert.KernelIdeal.Lin4.colStats (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i))) g)
    (Cert.KernelIdeal.Fin5.shiftRow (Cert.KernelIdeal.Lin4.colStats (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i))) g be)

/-- The kernel's layer at entry `(r, n)`, with `H` the column `n` of the linear part. -/
theorem KL_apply (x : FVec Ideal S50000x512 .f32) (R C : IVec S150000 32) (Nm : FVec Ideal S150000 .f32)
    (w0 w1 : FVec Ideal S512x256 .f32) (g be : FVec Ideal S256 .f32) (r : Fin 50000) (n : Fin 256)
    (H : Fin 50000 → EReal) (hP : ∀ ρ : Fin 50000, (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i)) (ix2 ρ n) = H ρ) :
    KL x R C Nm w0 w1 g be (ix2 r n)
      = Cert.Spec.leaky (F := Ideal)
          (H r * (g (ix1 n) * Ideal.rsqrt ((Ideal.div (∑ ρ, H ρ * H ρ) (Ideal.ofBits .f32 0x47435000#32)
                - Ideal.div (∑ ρ, H ρ) (Ideal.ofBits .f32 0x47435000#32) * Ideal.div (∑ ρ, H ρ) (Ideal.ofBits .f32 0x47435000#32))
              + Ideal.ofBits .f32 0x3727C5AC#32))
            + (be (ix1 n) - Ideal.div (∑ ρ, H ρ) (Ideal.ofBits .f32 0x47435000#32)
                * (g (ix1 n) * Ideal.rsqrt ((Ideal.div (∑ ρ, H ρ * H ρ) (Ideal.ofBits .f32 0x47435000#32)
                    - Ideal.div (∑ ρ, H ρ) (Ideal.ofBits .f32 0x47435000#32) * Ideal.div (∑ ρ, H ρ) (Ideal.ofBits .f32 0x47435000#32))
                  + Ideal.ofBits .f32 0x3727C5AC#32)))) := by
  have hs0 : (Cert.KernelIdeal.Lin4.colStats (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i))) (ix2 (0 : Fin 2) n) = ∑ ρ : Fin 50000, (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i)) (ix2 ρ n) := if_pos rfl
  have hs1 : (Cert.KernelIdeal.Lin4.colStats (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i))) (ix2 (1 : Fin 2) n) = ∑ ρ : Fin 50000, (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i)) (ix2 ρ n) * (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i)) (ix2 ρ n) :=
    if_neg Nat.one_ne_zero
  show Cert.Spec.leaky (F := Ideal) ((Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i)) (ix2 r n) * Cert.KernelIdeal.Fin5.scaleRow (Cert.KernelIdeal.Lin4.colStats (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i))) g (ix2 (0 : Fin 1) n)
      + Cert.KernelIdeal.Fin5.shiftRow (Cert.KernelIdeal.Lin4.colStats (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i))) g be (ix2 (0 : Fin 1) n)) = _
  rw [Cert.KernelIdeal.Fin5.scaleRow_apply, Cert.KernelIdeal.Fin5.shiftRow_apply, hs0, hs1]
  simp only [hP]
  rfl

/-- THE KERNEL'S LAYER IS THE REFERENCE'S on real inputs. -/
theorem KL_eq (x : FVec Ideal S50000x512 .f32) (R C : IVec S150000 32) (Nm : FVec Ideal S150000 .f32)
    (w0 w1 : FVec Ideal S512x256 .f32) (g be : FVec Ideal S256 .f32)
    (hx : AllReal x) (hNm : AllReal Nm) (hw0 : AllReal w0) (hw1 : AllReal w1) (hg : AllReal g) (hbe : AllReal be) :
    KL x R C Nm w0 w1 g be = RefSpec.layer256 (F := Ideal) x R C Nm w0 w1 g be := by
  funext i
  obtain ⟨r, n, rfl⟩ : ∃ (r : Fin 50000) (n : Fin 256), i = ix2 r n := ⟨i 0, i 1, eq_ix2 i⟩
  have hA : AllReal (RefSpec.agg512 (F := Ideal) x R C Nm) := Cert.ReferenceIdeal.RefReal.agg_real x R C Nm hx hNm
  let H : Fin 50000 → EReal := fun ρ => ∑ k : Fin 512, x (ix2 ρ k) * w0 (ix2 k n) + ∑ k : Fin 512, (RefSpec.agg512 (F := Ideal) x R C Nm) (ix2 ρ k) * w1 (ix2 k n)
  have hH : ∀ ρ, IsReal (H ρ) := fun ρ => (IsReal.sum _ _ fun k _ => (hx _).mul (hw0 _)).add (IsReal.sum _ _ fun k _ => (hA _).mul (hw1 _))
  have hP : ∀ ρ : Fin 50000, (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i)) (ix2 ρ n) = H ρ := fun ρ => by
    have e : (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i) (ix2 (0 : Fin 1) n) = (0 : EReal) :=
      (Cert.KernelIdeal.Fin5.row_cast_apply (broadcastInDim Cert.KernelIdeal.S256 ![] Cert.KernelIdeal.Gen.bcast_S_S256 (constant (F := Ideal) Cert.KernelIdeal.S_ .f32 0x00000000#32)) n).trans
        Ideal.ofBits_zero_f32
    exact (congrArg (fun t => (∑ k : Fin 512, x (ix2 ρ k) * w0 (ix2 k n) + ∑ k : Fin 512, (RefSpec.agg512 (F := Ideal) x R C Nm) (ix2 ρ k) * w1 (ix2 k n)) + t) e).trans
      (add_zero _)
  have hN : Ideal.ofBits .f32 0x47435000#32 = (((50000 : ℕ) : ℝ) : EReal) := by
    rw [Cert.ReferenceIdeal.RefRead.ofBits_rows]; norm_num
  rw [Cert.ReferenceIdeal.RefRead.layer256_apply, KL_apply x R C Nm w0 w1 g be r n H hP]
  refine congrArg (Cert.Spec.leaky (F := Ideal)) ?_
  exact Cert.BnLeaky.bn_eq_col (M := 50000) (by norm_num) H hH r (g (ix1 n)) (be (ix1 n)) (hg _) (hbe _) _ _ _ hN
    Cert.LibBatchNorm.ofBits_eps Ideal.ofBits_zero_f32

/-- Every entry of the layer's output is a real number. -/
theorem KL_real (x : FVec Ideal S50000x512 .f32) (R C : IVec S150000 32) (Nm : FVec Ideal S150000 .f32)
    (w0 w1 : FVec Ideal S512x256 .f32) (g be : FVec Ideal S256 .f32)
    (hx : AllReal x) (hNm : AllReal Nm) (hw0 : AllReal w0) (hw1 : AllReal w1) (hg : AllReal g) (hbe : AllReal be) :
    AllReal (KL x R C Nm w0 w1 g be) := by
  intro i
  obtain ⟨r, n, rfl⟩ : ∃ (r : Fin 50000) (n : Fin 256), i = ix2 r n := ⟨i 0, i 1, eq_ix2 i⟩
  have hA : AllReal (RefSpec.agg512 (F := Ideal) x R C Nm) := Cert.ReferenceIdeal.RefReal.agg_real x R C Nm hx hNm
  let H : Fin 50000 → EReal := fun ρ => ∑ k : Fin 512, x (ix2 ρ k) * w0 (ix2 k n) + ∑ k : Fin 512, (RefSpec.agg512 (F := Ideal) x R C Nm) (ix2 ρ k) * w1 (ix2 k n)
  have hH : ∀ ρ, IsReal (H ρ) := fun ρ => (IsReal.sum _ _ fun k _ => (hx _).mul (hw0 _)).add (IsReal.sum _ _ fun k _ => (hA _).mul (hw1 _))
  have hP : ∀ ρ : Fin 50000, (Cert.KernelIdeal.Lin4.PRE x (RefSpec.agg512 (F := Ideal) x R C Nm) w0 w1 (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i)) (ix2 ρ n) = H ρ := fun ρ => by
    have e : (fun i => shapeCast Cert.KernelIdeal.S1x256 (broadcastInDim Cert.KernelIdeal.S256 ![] Cert.KernelIdeal.Gen.bcast_S_S256 (constant (F := Ideal) Cert.KernelIdeal.S_ .f32 0x00000000#32)) Cert.KernelIdeal.Gen.shapeCasts_S256_S1x256 i) (ix2 (0 : Fin 1) n) = (0 : EReal) :=
      (Cert.KernelIdeal.Fin5.row_cast_apply (broadcastInDim Cert.KernelIdeal.S256 ![] Cert.KernelIdeal.Gen.bcast_S_S256 (constant (F := Ideal) Cert.KernelIdeal.S_ .f32 0x00000000#32)) n).trans
        Ideal.ofBits_zero_f32
    exact (congrArg (fun t => (∑ k : Fin 512, x (ix2 ρ k) * w0 (ix2 k n) + ∑ k : Fin 512, (RefSpec.agg512 (F := Ideal) x R C Nm) (ix2 ρ k) * w1 (ix2 k n)) + t) e).trans
      (add_zero _)
  have hN : Ideal.ofBits .f32 0x47435000#32 = (((50000 : ℕ) : ℝ) : EReal) := by
    rw [Cert.ReferenceIdeal.RefRead.ofBits_rows]; norm_num
  rw [congrFun (KL_eq x R C Nm w0 w1 g be hx hNm hw0 hw1 hg hbe) (ix2 r n), Cert.ReferenceIdeal.RefRead.layer256_apply]
  exact Cert.BnLeaky.leaky_real (Cert.BnLeaky.bn_real_col (M := 50000) (by norm_num) H hH r (g (ix1 n)) (be (ix1 n)) (hg _) (hbe _) _ _ _ hN
    Cert.LibBatchNorm.ofBits_eps Ideal.ofBits_zero_f32)

end Cert.Bridge256

end
-- ==== Proof.PreReal.lean ====
/-
  The precondition decoded: every float argument is an array of real numbers.

  The precondition is the conjunction, over the fifteen float arguments, of "every entry's absolute value is below
  plus infinity". An extended real whose absolute value (the larger of it and its negation) is below plus infinity is
  neither infinity, so it is a real number.
-/
import proofs.«142385_j6322191859752_1_alg».proof.Pre_finite_inputs
import proofs.«142385_j6322191859752_1_alg».proof.Proof.Gen.Pre_finite_inputs
import proofs.«142385_j6322191859752_1_alg».proof.Proof.RealVec
import Idealize.ShloMosaic.Lib.ReduceAll
import Idealize.ShloMosaic.Lib.ValueIdx

noncomputable section

namespace Cert.Pre_finite_inputs.PreReal

open Cert.Pre_finite_inputs Idealize.ShloMosaic Idealize.ShloMosaic.ValueIdx Cert.RealVec

/-- The scalar shape has one index. -/
instance : Subsingleton S_.Idx := ⟨fun a b => funext fun d => d.elim0⟩

/-- The word `0x7F800000` is plus infinity. -/
theorem ofBits_inf : Ideal.ofBits .f32 0x7F800000#32 = ⊤ := by
  simp [Ideal.ofBits, Ideal.ieee]

/-- An extended real whose absolute value is below plus infinity is a real number. -/
theorem isReal_of_abs_lt_top (x : EReal) (h : max x (-x) < ⊤) : IsReal x := by
  induction x using EReal.rec with
  | bot => simp at h
  | top => simp at h
  | coe r => exact ⟨r, rfl⟩

/-- One argument's conjunct: if "the absolute value is below plus infinity" holds at every entry (the comparison
    reduced by `and` over all axes is 1), every entry is a real number. -/
theorem conj_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) : AllReal x := by
  intro i
  have h := Host.reduce_andi_all _ _ hr hu ix0 e i
  have h2 : BitVec.ofBool (decide (max (x i) (-(x i)) < Ideal.ofBits .f32 0x7F800000#32)) = 1#1 := h
  rw [ofBits_inf] at h2
  refine isReal_of_abs_lt_top _ ?_
  by_contra hc
  rw [decide_eq_false hc] at h2
  exact absurd h2 (by decide)

/-- THE PRECONDITION DECODED: every float argument is an array of real numbers. -/
theorem all_real [Cert.Pre_finite_inputs.Facts] (a0 : FVec Ideal S50000x512 .f32) (a1 : IVec S2x150000 32) (a2 : FVec Ideal S512x512 .f32) (a3 : FVec Ideal S512x512 .f32) (a4 : FVec Ideal S512 .f32) (a5 : FVec Ideal S512 .f32) (a6 : FVec Ideal S512 .f32) (a7 : FVec Ideal S512x512 .f32) (a8 : FVec Ideal S512x512 .f32) (a9 : FVec Ideal S512 .f32) (a10 : FVec Ideal S512 .f32) (a11 : FVec Ideal S512 .f32) (a12 : FVec Ideal S512x256 .f32) (a13 : FVec Ideal S512x256 .f32) (a14 : FVec Ideal S256 .f32) (a15 : FVec Ideal S256 .f32)
    (h : Cert.Pre_finite_inputs.fn (F := Ideal) a0 a1 a2 a3 a4 a5 a6 a7 a8 a9 a10 a11 a12 a13 a14 a15 = (fun _ => 1#1)) :
    Cert.RealVec.AllReal a0 ∧ Cert.RealVec.AllReal a2 ∧ Cert.RealVec.AllReal a3 ∧ Cert.RealVec.AllReal a4 ∧ Cert.RealVec.AllReal a5 ∧ Cert.RealVec.AllReal a6 ∧ Cert.RealVec.AllReal a7 ∧ Cert.RealVec.AllReal a8 ∧ Cert.RealVec.AllReal a9 ∧ Cert.RealVec.AllReal a10 ∧ Cert.RealVec.AllReal a11 ∧ Cert.RealVec.AllReal a12 ∧ Cert.RealVec.AllReal a13 ∧ Cert.RealVec.AllReal a14 ∧ Cert.RealVec.AllReal a15 := by
  have e := congrFun h ix0
  dsimp only [fn, fn_part1, fn_part2, fn_part3, fn_part4, andi] at e
  simp only [IntOp.andi_eq_one] at e
  obtain ⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩ := e
  exact ⟨conj_real a0 _ _ _ h0,
    conj_real a2 _ _ _ h2,
    conj_real a3 _ _ _ h3,
    conj_real a4 _ _ _ h4,
    conj_real a5 _ _ _ h5,
    conj_real a6 _ _ _ h6,
    conj_real a7 _ _ _ h7,
    conj_real a8 _ _ _ h8,
    conj_real a9 _ _ _ h9,
    conj_real a10 _ _ _ h10,
    conj_real a11 _ _ _ h11,
    conj_real a12 _ _ _ h12,
    conj_real a13 _ _ _ h13,
    conj_real a14 _ _ _ h14,
    conj_real a15 _ _ _ h15⟩

end Cert.Pre_finite_inputs.PreReal

end
-- ==== Proof.Value.lean ====
/-
  Under the precondition the idealized kernel program's result is the reference's function of the arguments.

  The precondition makes every float argument real-valued; the edge normalisation is real-valued whatever the edge
  ids are. A layer of the kernel program — scale and shift from the sums and the sums of squares — and a layer of the
  reference — deviations from the mean over the root of the mean squared deviation — are one function on real-valued
  arrays (the batch-normalisation law), and its values are again real. So the three layers agree one after the other.
-/
import proofs.«142385_j6322191859752_1_alg».proof.Proof.Chain
import proofs.«142385_j6322191859752_1_alg».proof.Proof.Bridge512
import proofs.«142385_j6322191859752_1_alg».proof.Proof.Bridge256
import proofs.«142385_j6322191859752_1_alg».proof.Proof.PreReal
import proofs.«142385_j6322191859752_1_alg».proof.Proof.RefReal
import proofs.«142385_j6322191859752_1_alg».proof.Proof.Assemble

set_option maxRecDepth 16384

noncomputable section

namespace Cert.Value

open Cert.KernelIdeal Cert.KernelIdeal.Gen Cert.RealVec
open Idealize.ShloMosaic Idealize.ShloMosaic.TcCoe Idealize.SL.Sem

/-- The three layers of the chain are the bridge modules' layer functions (the same operations on the same shapes). -/
theorem KLa_eq : @Chain.KLa = @Cert.Bridge512.KL := rfl
theorem KLb_eq : @Chain.KLb = @Cert.Bridge512.KL := rfl
theorem KLc_eq : @Chain.KLc = @Cert.Bridge256.KL := rfl

set_option maxHeartbeats 4000000 in
theorem hval (m : (ℓ : Loc nD τ sig) → Buf (Elt Ideal) ℓ) (ρ : Dev nD → PrngReg) (c : Dev nD)
    (hpre : Cert.Pre_KernelIdeal (hPre_finite_inputs := Cert.Pre_finite_inputs.Gen.facts) m) :
    W14 m ρ c (Proc.devRef .tc main_v135) = Cert.Assemble.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  haveI : Cert.Pre_finite_inputs.Facts := Cert.Pre_finite_inputs.Gen.facts
  obtain ⟨h0, h2, h3, h4, h5, h6, h7, h8, h9, h10, h11, h12, h13, h14, h15⟩ :=
    Cert.Pre_finite_inputs.PreReal.all_real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (hpre c)
  have hNm := Cert.ReferenceIdeal.RefReal.norm_real (m ((c.tc : Thread nD τ).loc main_arg1))
  have ea := (Chain.out_a m ρ c).trans (congrFun (congrFun (congrFun (congrFun (congrFun (congrFun (congrFun (congrFun (congrFun KLa_eq _) _) _) _) _) _) _) _) _)
  have eb := (Chain.out_b m ρ c).trans (congrFun (congrFun (congrFun (congrFun (congrFun (congrFun (congrFun (congrFun (congrFun KLb_eq _) _) _) _) _) _) _) _) _)
  have ec := (Chain.out_c m ρ c).trans (congrFun (congrFun (congrFun (congrFun (congrFun (congrFun (congrFun (congrFun KLc_eq _) _) _) _) _) _) _) _)
  have ka := Cert.Bridge512.KL_eq _ (Cert.ReferenceIdeal.RefRun.RefSpec.rowIds (F := Ideal) (m ((c.tc : Thread nD τ).loc main_arg1))) (Cert.ReferenceIdeal.RefRun.RefSpec.colIds (F := Ideal) (m ((c.tc : Thread nD τ).loc main_arg1))) _ _ _ _ _ _ h0 hNm h2 h3 h4 h5 h6
  have ra := Cert.Bridge512.KL_real _ (Cert.ReferenceIdeal.RefRun.RefSpec.rowIds (F := Ideal) (m ((c.tc : Thread nD τ).loc main_arg1))) (Cert.ReferenceIdeal.RefRun.RefSpec.colIds (F := Ideal) (m ((c.tc : Thread nD τ).loc main_arg1))) _ _ _ _ _ _ h0 hNm h2 h3 h4 h5 h6
  rw [ka] at ra
  have ea' := ea.trans ka
  rw [ea'] at eb
  have kb := Cert.Bridge512.KL_eq _ (Cert.ReferenceIdeal.RefRun.RefSpec.rowIds (F := Ideal) (m ((c.tc : Thread nD τ).loc main_arg1))) (Cert.ReferenceIdeal.RefRun.RefSpec.colIds (F := Ideal) (m ((c.tc : Thread nD τ).loc main_arg1))) _ _ _ _ _ _ ra hNm h7 h8 h9 h10 h11
  have rb := Cert.Bridge512.KL_real _ (Cert.ReferenceIdeal.RefRun.RefSpec.rowIds (F := Ideal) (m ((c.tc : Thread nD τ).loc main_arg1))) (Cert.ReferenceIdeal.RefRun.RefSpec.colIds (F := Ideal) (m ((c.tc : Thread nD τ).loc main_arg1))) _ _ _ _ _ _ ra hNm h7 h8 h9 h10 h11
  rw [kb] at rb
  have eb' := eb.trans kb
  rw [eb'] at ec
  have kc := Cert.Bridge256.KL_eq _ (Cert.ReferenceIdeal.RefRun.RefSpec.rowIds (F := Ideal) (m ((c.tc : Thread nD τ).loc main_arg1))) (Cert.ReferenceIdeal.RefRun.RefSpec.colIds (F := Ideal) (m ((c.tc : Thread nD τ).loc main_arg1))) _ _ _ _ _ rb hNm h12 h13 h14 h15
  exact ec.trans kc

end Cert.Value

end
-- ==== Proof.lean ====
/-
  The certificate of a three-layer graph convolution with batch normalisation: the kernel program, its idealization
  and the reference, at [50000, 512] node features over 150000 edges.

  Each layer takes `x` to `leaky(BN(x·W0 + (Âx)·W1 + b))`, `Â` the symmetrically normalised adjacency. Both programs
  compute `Âx` on the host by the same gather, scale and scatter-add. The kernel program then runs two launches per
  layer: one computes the linear layer block by block and accumulates each column's sum and sum of squares over the 25
  row blocks; after a host stretch turns those into a scale and a shift per column, the other applies them and the
  leaky rectifier. The reference normalises by the mean and the mean squared deviation. On real numbers the two
  normalisations are one function (the variance is the mean of the squares less the squared mean), and the
  precondition — every float input finite — makes every number involved real.

  The three frame claims: the two kernel programs' by their generated frames, the reference's by its run as a line of
  host operations. The idealization rewrote nothing, so there is nothing to preserve. The algebraic claim: the kernel
  program's run leaves its result at the contents of the last segment boundary, which is the reference's function of
  the arguments.
-/
import proofs.«142385_j6322191859752_1_alg».proof.Proof.Assemble
import proofs.«142385_j6322191859752_1_alg».proof.Proof.Value

noncomputable section

namespace Cert.Proof

theorem claim : Cert.Claim := Cert.Assemble.claim_of Cert.Value.hval

end Cert.Proof

end
